-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S2048x1024 : Shape := ⟨2, ![2048, 1024]⟩
abbrev S1024x2048 : Shape := ⟨2, ![1024, 2048]⟩
abbrev S1024 : Shape := ⟨1, ![1024]⟩
abbrev S1x2048 : Shape := ⟨2, ![1, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_

variable [Facts]

def fn_part7 {F : FTy → Type} [FloatOps F] (main_arg25 : FVec F S1x2048 .f32) (main_arg26 : FVec F S1x2048 .f32) (main_v118 : IVec S_ 1) (main_v119 : FVec F S1x2048 .f32) : IVec S_ 1 :=
  let main_cst_46 : FVec F S_ .f32 := constant S_ .f32 0x7F800000#32
  let main_v120 : FVec F S1x2048 .f32 := broadcastInDim S1x2048 ![] bcast_S_S1x2048 main_cst_46
  let main_v121 : IVec S1x2048 1 := cmpf .olt main_v119 main_v120
  let main_c_47 : IVec S_ 1 := constantI S_ 1 1#1
  let main_v122 : IVec S_ 1 := (fun x v => Host.reduce IntOp.andi x v reducesTo_S1x2048_S_d0_1 h_S_) main_v121 main_c_47
  let main_v123 : IVec S_ 1 := andi main_v118 main_v122
  let main_v124 : FVec F S1x2048 .f32 := Host.absf main_arg25
  let main_cst_48 : FVec F S_ .f32 := constant S_ .f32 0x7F800000#32
  let main_v125 : FVec F S1x2048 .f32 := broadcastInDim S1x2048 ![] bcast_S_S1x2048 main_cst_48
  let main_v126 : IVec S1x2048 1 := cmpf .olt main_v124 main_v125
  let main_c_49 : IVec S_ 1 := constantI S_ 1 1#1
  let main_v127 : IVec S_ 1 := (fun x v => Host.reduce IntOp.andi x v reducesTo_S1x2048_S_d0_1 h_S_) main_v126 main_c_49
  let main_v128 : IVec S_ 1 := andi main_v123 main_v127
  let main_v129 : FVec F S1x2048 .f32 := Host.absf main_arg26
  let main_cst_50 : FVec F S_ .f32 := constant S_ .f32 0x7F800000#32
  let main_v130 : FVec F S1x2048 .f32 := broadcastInDim S1x2048 ![] bcast_S_S1x2048 main_cst_50
  let main_v131 : IVec S1x2048 1 := cmpf .olt main_v129 main_v130
  let main_c_51 : IVec S_ 1 := constantI S_ 1 1#1
  let main_v132 : IVec S_ 1 := (fun x v => Host.reduce IntOp.andi x v reducesTo_S1x2048_S_d0_1 h_S_) main_v131 main_c_51
  let main_v133 : IVec S_ 1 := andi main_v128 main_v132
  main_v133

def fn_part6 {F : FTy → Type} [FloatOps F] (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1x2048 .f32 := Host.absf main_arg21
  let main_cst_40 : FVec F S_ .f32 := constant S_ .f32 0x7F800000#32
  let main_v105 : FVec F S1x2048 .f32 := broadcastInDim S1x2048 ![] bcast_S_S1x2048 main_cst_40
  let main_v106 : IVec S1x2048 1 := cmpf .olt main_v104 main_v105
  let main_c_41 : IVec S_ 1 := constantI S_ 1 1#1
  let main_v107 : IVec S_ 1 := (fun x v => Host.reduce IntOp.andi x v reducesTo_S1x2048_S_d0_1 h_S_) main_v106 main_c_41
  let main_v108 : IVec S_ 1 := andi main_v103 main_v107
  let main_v109 : FVec F S1x2048 .f32 := Host.absf main_arg22
  let main_cst_42 : FVec F S_ .f32 := constant S_ .f32 0x7F800000#32
  let main_v110 : FVec F S1x2048 .f32 := broadcastInDim S1x2048 ![] bcast_S_S1x2048 main_cst_42
  let main_v111 : IVec S1x2048 1 := cmpf .olt main_v109 main_v110
  let main_c_43 : IVec S_ 1 := constantI S_ 1 1#1
  let main_v112 : IVec S_ 1 := (fun x v => Host.reduce IntOp.andi x v reducesTo_S1x2048_S_d0_1 h_S_) main_v111 main_c_43
  let main_v113 : IVec S_ 1 := andi main_v108 main_v112
  let main_v114 : FVec F S1x2048 .f32 := Host.absf main_arg23
  let main_cst_44 : FVec F S_ .f32 := constant S_ .f32 0x7F800000#32
  let main_v115 : FVec F S1x2048 .f32 := broadcastInDim S1x2048 ![] bcast_S_S1x2048 main_cst_44
  let main_v116 : IVec S1x2048 1 := cmpf .olt main_v114 main_v115
  let main_c_45 : IVec S_ 1 := constantI S_ 1 1#1
  let main_v117 : IVec S_ 1 := (fun x v => Host.reduce IntOp.andi x v reducesTo_S1x2048_S_d0_1 h_S_) main_v116 main_c_45
  let main_v118 : IVec S_ 1 := andi main_v113 main_v117
  let main_v119 : FVec F S1x2048 .f32 := Host.absf main_arg24
  fn_part7 (F := F) main_arg25 main_arg26 main_v118 main_v119

def fn_part5 {F : FTy → Type} [FloatOps F] (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S1024x2048 .f32 := Host.absf main_arg19
  let main_cst_36 : FVec F S_ .f32 := constant S_ .f32 0x7F800000#32
  let main_v95 : FVec F S1024x2048 .f32 := broadcastInDim S1024x2048 ![] bcast_S_S1024x2048 main_cst_36
  let main_v96 : IVec S1024x2048 1 := cmpf .olt main_v94 main_v95
  let main_c_37 : IVec S_ 1 := constantI S_ 1 1#1
  let main_v97 : IVec S_ 1 := (fun x v => Host.reduce IntOp.andi x v reducesTo_S1024x2048_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S2048 .f32) (main_arg15 : FVec F S2048x1024 .f32) (main_arg16 : FVec F S2048 .f32) (main_arg17 : FVec F S2048x1024 .f32) (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x1024 .f32 := Host.absf main_arg13
  let main_cst_24 : FVec F S_ .f32 := constant S_ .f32 0x7F800000#32
  let main_v65 : FVec F S2048x1024 .f32 := broadcastInDim S2048x1024 ![] bcast_S_S2048x1024 main_cst_24
  let main_v66 : IVec S2048x1024 1 := cmpf .olt main_v64 main_v65
  let main_c_25 : IVec S_ 1 := constantI S_ 1 1#1
  let main_v67 : IVec S_ 1 := (fun x v => Host.reduce IntOp.andi x v reducesTo_S2048x1024_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S4096x1024 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024x2048 .f32) (main_arg20 : FVec F S1024 .f32) (main_arg21 : FVec F S1x2048 .f32) (main_arg22 : FVec F S1x2048 .f32) (main_arg23 : FVec F S1x2048 .f32) (main_arg24 : FVec F S1x2048 .f32) (main_arg25 : FVec F S1x2048 .f32) (main_arg26 : FVec F S1x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S2048x1024 : Shape := ⟨2, ![2048, 1024]⟩
abbrev S1024x2048 : Shape := ⟨2, ![1024, 2048]⟩
abbrev S1024 : Shape := ⟨1, ![1024]⟩
abbrev S1x2048 : Shape := ⟨2, ![1, 2048]⟩
abbrev S1x2048x2048 : Shape := ⟨3, ![1, 2048, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S1x1024 : Shape := ⟨2, ![1, 1024]⟩
abbrev S4x4096x2048 : Shape := ⟨3, ![4, 4096, 2048]⟩
abbrev S256x1024 : Shape := ⟨2, ![256, 1024]⟩
abbrev S4x256x2048 : Shape := ⟨3, ![4, 256, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1x1x2048 : Shape := ⟨3, ![1, 1, 2048]⟩
abbrev S4x128x2048 : Shape := ⟨3, ![4, 128, 2048]⟩
abbrev S128x2048 : Shape := ⟨2, ![128, 2048]⟩
abbrev S128x1024 : Shape := ⟨2, ![128, 1024]⟩
abbrev S1x128x2048 : Shape := ⟨3, ![1, 128, 2048]⟩
abbrev S128 : Shape := ⟨1, ![128]⟩
abbrev S128x1 : Shape := ⟨2, ![128, 1]⟩

abbrev nBuf : Space → Nat
  | .hbm => 57
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x1024, .f32⟩
  | .hbm, ⟨12, _⟩ => ⟨S2048, .f32⟩
  | .hbm, ⟨13, _⟩ => ⟨S2048x1024, .f32⟩
  | .hbm, ⟨14, _⟩ => ⟨S2048, .f32⟩
  | .hbm, ⟨15, _⟩ => ⟨S2048x1024, .f32⟩
  | .hbm, ⟨16, _⟩ => ⟨S2048, .f32⟩
  | .hbm, ⟨17, _⟩ => ⟨S2048x1024, .f32⟩
  | .hbm, ⟨18, _⟩ => ⟨S2048, .f32⟩
  | .hbm, ⟨19, _⟩ => ⟨S1024x2048, .f32⟩
  | .hbm, ⟨20, _⟩ => ⟨S1024, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S2048x1024, .bf16⟩
  | .hbm, ⟨28, _⟩ => ⟨S2048x1024, .bf16⟩
  | .hbm, ⟨29, _⟩ => ⟨S2048x1024, .bf16⟩
  | .hbm, ⟨30, _⟩ => ⟨S2048x1024, .bf16⟩
  | .hbm, ⟨31, _⟩ => ⟨S2048x2048, .bf16⟩
  | .hbm, ⟨32, _⟩ => ⟨S2048x2048, .bf16⟩
  | .hbm, ⟨33, _⟩ => ⟨S2048x2048, .bf16⟩
  | .hbm, ⟨34, _⟩ => ⟨S2048x2048, .bf16⟩
  | .hbm, ⟨35, _⟩ => ⟨S1x2048x2048, .bf16⟩
  | .hbm, ⟨36, _⟩ => ⟨S1x2048x2048, .bf16⟩
  | .hbm, ⟨37, _⟩ => ⟨S1x2048x2048, .bf16⟩
  | .hbm, ⟨38, _⟩ => ⟨S1x2048x2048, .bf16⟩
  | .hbm, ⟨39, _⟩ => ⟨S4x2048x2048, .bf16⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S4x2048, .f32⟩
  | .hbm, ⟨45, _⟩ => ⟨S4x1x2048, .f32⟩
  | .hbm, ⟨46, _⟩ => ⟨S1024x2048, .bf16⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x1024, .f32⟩
  | .hbm, ⟨52, _⟩ => ⟨S4x4096x2048, .f32⟩
  | .hbm, ⟨53, _⟩ => ⟨S4x4096x2048, .f32⟩
  | .hbm, ⟨54, _⟩ => ⟨S4096x1024, .f32⟩
  | .hbm, ⟨55, _⟩ => ⟨S4096x2048, .f32⟩
  | .hbm, ⟨56, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S4x256x2048, .f32⟩
  | .local _ .vmem, ⟨13, _⟩ => ⟨S4x256x2048, .f32⟩
  | .local _ .vmem, ⟨14, _⟩ => ⟨S256x2048, .f32⟩
  | .local _ .vmem, ⟨15, _⟩ => ⟨S256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x2048x2048, .bf16⟩
  | .local _ .vmem, ⟨19, _⟩ => ⟨S1x2048x2048, .bf16⟩
  | .local _ .vmem, ⟨20, _⟩ => ⟨S1x1x2048, .f32⟩
  | .local _ .vmem, ⟨21, _⟩ => ⟨S1x1x2048, .f32⟩
  | .local _ .vmem, ⟨22, _⟩ => ⟨S1x2048, .f32⟩
  | .local _ .vmem, ⟨23, _⟩ => ⟨S1x2048, .f32⟩
  | .local _ .vmem, ⟨24, _⟩ => ⟨S1x256x2048, .f32⟩
  | .local _ .vmem, ⟨25, _⟩ => ⟨S1x256x2048, .f32⟩
  | .local _ .vmem, ⟨26, _⟩ => ⟨S4x128x2048, .f32⟩
  | .local _ .vmem, ⟨27, _⟩ => ⟨S4x128x2048, .f32⟩
  | .local _ .vmem, ⟨28, _⟩ => ⟨S128x2048, .f32⟩
  | .local _ .vmem, ⟨29, _⟩ => ⟨S128x2048, .f32⟩
  | .local _ .vmem, ⟨30, _⟩ => ⟨S1x2048, .f32⟩
  | .local _ .vmem, ⟨31, _⟩ => ⟨S1x2048, .f32⟩
  | .local _ .vmem, ⟨32, _⟩ => ⟨S1024x2048, .bf16⟩
  | .local _ .vmem, ⟨33, _⟩ => ⟨S1x1024, .f32⟩
  | .local _ .vmem, ⟨34, _⟩ => ⟨S128x1024, .f32⟩
  | .local _ .vmem, ⟨35, _⟩ => ⟨S128x1024, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev main_v27_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  shapeCasts_S4x2048_S4x1x2048 : S4x2048.ShapeCasts S4x1x2048
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S4x256x2048_S1x256x2048_1_0_0 : ∀ a, (![1, 0, 0] : Fin 3 → Nat) a + S1x256x2048.size a ≤ S4x256x2048.size a
  inb_S4x256x2048_S1x256x2048_2_0_0 : ∀ a, (![2, 0, 0] : Fin 3 → Nat) a + S1x256x2048.size a ≤ S4x256x2048.size a
  inb_S4x256x2048_S1x256x2048_3_0_0 : ∀ a, (![3, 0, 0] : Fin 3 → Nat) a + S1x256x2048.size a ≤ S4x256x2048.size a
  inb_S256x2048_S256x2048_0_0 : ∀ a, (![0, 0] : Fin 2 → Nat) a + S256x2048.size a ≤ S256x2048.size a
  h_S256x2048 : 0 < S256x2048.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x256x2048_S1x256x2048_0_0_0 : ∀ a, (![0, 0, 0] : Fin 3 → Nat) a + S1x256x2048.size a ≤ S1x256x2048.size a
  inb_S4x128x2048_S1x128x2048_0_0_0 : ∀ a, (![0, 0, 0] : Fin 3 → Nat) a + S1x128x2048.size a ≤ S4x128x2048.size a
  h_S1x128x2048 : 0 < S1x128x2048.numel
  shapeCasts_S1x128x2048_S128x2048 : S1x128x2048.ShapeCasts S128x2048
  inb_S4x128x2048_S1x128x2048_1_0_0 : ∀ a, (![1, 0, 0] : Fin 3 → Nat) a + S1x128x2048.size a ≤ S4x128x2048.size a
  inb_S4x128x2048_S1x128x2048_2_0_0 : ∀ a, (![2, 0, 0] : Fin 3 → Nat) a + S1x128x2048.size a ≤ S4x128x2048.size a
  inb_S4x128x2048_S1x128x2048_3_0_0 : ∀ a, (![3, 0, 0] : Fin 3 → Nat) a + S1x128x2048.size a ≤ S4x128x2048.size a
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x2048 : S128x1.Broadcasts S128x2048
  broadcasts_S1x2048_S128x2048 : S1x2048.Broadcasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S256x1024_S2048x1024_S256x2048_1_1_0_0_n_n_wf : DotDims.WF S256x1024 S2048x1024 S256x2048 [1] [1] [0] [0] [] []
  dot_S256x2048_S2048x2048_S256x2048_1_1_0_0_n_n_wf : DotDims.WF S256x2048 S2048x2048 S256x2048 [1] [1] [0] [0] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x256x2048.size a ≤ S4x4096x2048.size a
  hwx0_11 : ∀ i : grid0.Coords, EltTy.bits .f32 = 32 ∨ (Rect.block (s := S4x4096x2048) S4x256x2048.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S4x4096x2048.size a
  hwx1_1 : ∀ i : grid1.Coords, EltTy.bits .f32 = 32 ∨ (Rect.block (s := S4x4096x2048) S1x256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x2048.size a ≤ S4x2048x2048.size a
  hwx1_2 : ∀ i : grid1.Coords, EltTy.bits .bf16 = 32 ∨ (Rect.block (s := S4x2048x2048) S1x2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .f32 = 32 ∨ (Rect.block (s := S4x1x2048) S1x1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x2048.size a ≤ S4x4096x2048.size a
  hwx1_6 : ∀ i : grid1.Coords, EltTy.bits .f32 = 32 ∨ (Rect.block (s := S4x4096x2048) S1x256x2048.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x128x2048.size a ≤ S4x4096x2048.size a
  hwx2_0 : ∀ i : grid2.Coords, EltTy.bits .f32 = 32 ∨ (Rect.block (s := S4x4096x2048) S4x128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S4096x2048.size a
  hwx2_1 : ∀ i : grid2.Coords, EltTy.bits .f32 = 32 ∨ (Rect.block (s := S4096x2048) S128x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S1024x2048.size a
  hwx2_4 : ∀ i : grid2.Coords, EltTy.bits .bf16 = 32 ∨ (Rect.block (s := S1024x2048) S1024x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x1024.size a ≤ S4096x1024.size a
  hwx2_6 : ∀ i : grid2.Coords, EltTy.bits .f32 = 32 ∨ (Rect.block (s := S4096x1024) S128x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x2048.size a ≤ S4096x2048.size a
  hwx2_7 : ∀ i : grid2.Coords, EltTy.bits .f32 = 32 ∨ (Rect.block (s := S4096x2048) S128x2048.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x2048.size a ≤ S4096x2048.size a
  hwx2_8 : ∀ i : grid2.Coords, EltTy.bits .f32 = 32 ∨ (Rect.block (s := S4096x2048) S128x2048.size (cc2_transform_8 i) (hinb2_8 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg21) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg22) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S4x256x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg23) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S4x128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg25) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg26) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1024x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27_0) S128x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v27_1) S128x2048.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v27_2) S128x2048.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S2048x1024 : Shape := ⟨2, ![2048, 1024]⟩
abbrev S1024x2048 : Shape := ⟨2, ![1024, 2048]⟩
abbrev S1024 : Shape := ⟨1, ![1024]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 484
  | .vmem => 0
  | .smem => 0
  | _ => 0

abbrev hbmTy0_0 (i : Nat) : BufTy := match i % 128 with
  | 0 => ⟨S4096x1024, .f32⟩
  | 1 => ⟨S4096x2048, .f32⟩
  | 2 => ⟨S4096x2048, .f32⟩
  | 3 => ⟨S2048x2048, .f32⟩
  | 4 => ⟨S2048, .f32⟩
  | 5 => ⟨S2048x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x1024, .f32⟩
  | 12 => ⟨S2048, .f32⟩
  | 13 => ⟨S2048x1024, .f32⟩
  | 14 => ⟨S2048, .f32⟩
  | 15 => ⟨S2048x1024, .f32⟩
  | 16 => ⟨S2048, .f32⟩
  | 17 => ⟨S2048x1024, .f32⟩
  | 18 => ⟨S2048, .f32⟩
  | 19 => ⟨S1024x2048, .f32⟩
  | 20 => ⟨S1024, .f32⟩
  | 21 => ⟨S1x2048, .f32⟩
  | 22 => ⟨S1x2048, .f32⟩
  | 23 => ⟨S1x2048, .f32⟩
  | 24 => ⟨S1x2048, .f32⟩
  | 25 => ⟨S1x2048, .f32⟩
  | 26 => ⟨S1x2048, .f32⟩
  | 27 => ⟨S1024x2048, .f32⟩
  | 28 => ⟨S4096x2048, .f32⟩
  | 29 => ⟨S1x2048, .f32⟩
  | 30 => ⟨S4096x2048, .f32⟩
  | 31 => ⟨S4096x2048, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .i32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S4096x2048, .f32⟩
  | 46 => ⟨S4096x2048, .f32⟩
  | 47 => ⟨S4096x2048, .f32⟩
  | 48 => ⟨S_, .f32⟩
  | 49 => ⟨S_, .f32⟩
  | 50 => ⟨S_, .f32⟩
  | 51 => ⟨S_, .f32⟩
  | 52 => ⟨S4096, .f32⟩
  | 53 => ⟨S4096x1, .f32⟩
  | 54 => ⟨S4096x1, .f32⟩
  | 55 => ⟨S4096x1, .f32⟩
  | 56 => ⟨S_, .f32⟩
  | 57 => ⟨S_, .i1⟩
  | 58 => ⟨S_, .f32⟩
  | 59 => ⟨S_, .f32⟩
  | 60 => ⟨S4096x1, .f32⟩
  | 61 => ⟨S4096x1, .f32⟩
  | 62 => ⟨S4096x1, .f32⟩
  | 63 => ⟨S4096x2048, .f32⟩
  | 64 => ⟨S4096x2048, .f32⟩
  | 65 => ⟨S_, .f32⟩
  | 66 => ⟨S4096x1, .f32⟩
  | 67 => ⟨S4096x1, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S2048x2048, .f32⟩
  | 75 => ⟨S4096x2048, .f32⟩
  | 76 => ⟨S1x2048, .f32⟩
  | 77 => ⟨S4096x2048, .f32⟩
  | 78 => ⟨S4096x2048, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S_, .i32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S4096x2048, .f32⟩
  | 93 => ⟨S4096x2048, .f32⟩
  | 94 => ⟨S4096x2048, .f32⟩
  | 95 => ⟨S_, .f32⟩
  | 96 => ⟨S_, .f32⟩
  | 97 => ⟨S_, .f32⟩
  | 98 => ⟨S_, .f32⟩
  | 99 => ⟨S4096, .f32⟩
  | 100 => ⟨S4096x1, .f32⟩
  | 101 => ⟨S4096x1, .f32⟩
  | 102 => ⟨S4096x1, .f32⟩
  | 103 => ⟨S_, .f32⟩
  | 104 => ⟨S_, .i1⟩
  | 105 => ⟨S_, .f32⟩
  | 106 => ⟨S_, .f32⟩
  | 107 => ⟨S4096x1, .f32⟩
  | 108 => ⟨S4096x1, .f32⟩
  | 109 => ⟨S4096x1, .f32⟩
  | 110 => ⟨S4096x2048, .f32⟩
  | 111 => ⟨S4096x2048, .f32⟩
  | 112 => ⟨S_, .f32⟩
  | 113 => ⟨S4096x1, .f32⟩
  | 114 => ⟨S4096x1, .f32⟩
  | 115 => ⟨S4096x2048, .f32⟩
  | 116 => ⟨S4096x2048, .f32⟩
  | 117 => ⟨S4096x2048, .f32⟩
  | 118 => ⟨S4096x2048, .f32⟩
  | 119 => ⟨S4096x2048, .f32⟩
  | 120 => ⟨S4096x2048, .f32⟩
  | 121 => ⟨S4096x2048, .f32⟩
  | 122 => ⟨S4096x2048, .f32⟩
  | 123 => ⟨S4096x2048, .f32⟩
  | 124 => ⟨S_, .f32⟩
  | 125 => ⟨S4096x2048, .f32⟩
  | 126 => ⟨S4096x2048, .f32⟩
  | 127 => ⟨S_, .f32⟩
  | _ => ⟨S4096x1024, .f32⟩

abbrev hbmTy0_1 (i : Nat) : BufTy := match i % 128 with
  | 0 => ⟨S4096x2048, .f32⟩
  | 1 => ⟨S4096x2048, .f32⟩
  | 2 => ⟨S1024x2048, .f32⟩
  | 3 => ⟨S4096x2048, .f32⟩
  | 4 => ⟨S1x2048, .f32⟩
  | 5 => ⟨S4096x2048, .f32⟩
  | 6 => ⟨S4096x2048, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .i32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S4096x2048, .f32⟩
  | 21 => ⟨S4096x2048, .f32⟩
  | 22 => ⟨S4096x2048, .f32⟩
  | 23 => ⟨S_, .f32⟩
  | 24 => ⟨S_, .f32⟩
  | 25 => ⟨S_, .f32⟩
  | 26 => ⟨S_, .f32⟩
  | 27 => ⟨S4096, .f32⟩
  | 28 => ⟨S4096x1, .f32⟩
  | 29 => ⟨S4096x1, .f32⟩
  | 30 => ⟨S4096x1, .f32⟩
  | 31 => ⟨S_, .f32⟩
  | 32 => ⟨S_, .i1⟩
  | 33 => ⟨S_, .f32⟩
  | 34 => ⟨S_, .f32⟩
  | 35 => ⟨S4096x1, .f32⟩
  | 36 => ⟨S4096x1, .f32⟩
  | 37 => ⟨S4096x1, .f32⟩
  | 38 => ⟨S4096x2048, .f32⟩
  | 39 => ⟨S4096x2048, .f32⟩
  | 40 => ⟨S_, .f32⟩
  | 41 => ⟨S4096x1, .f32⟩
  | 42 => ⟨S4096x1, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S2048x2048, .f32⟩
  | 50 => ⟨S4096x2048, .f32⟩
  | 51 => ⟨S1x2048, .f32⟩
  | 52 => ⟨S4096x2048, .f32⟩
  | 53 => ⟨S4096x2048, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .i32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S4096x2048, .f32⟩
  | 68 => ⟨S4096x2048, .f32⟩
  | 69 => ⟨S4096x2048, .f32⟩
  | 70 => ⟨S_, .f32⟩
  | 71 => ⟨S_, .f32⟩
  | 72 => ⟨S_, .f32⟩
  | 73 => ⟨S_, .f32⟩
  | 74 => ⟨S4096, .f32⟩
  | 75 => ⟨S4096x1, .f32⟩
  | 76 => ⟨S4096x1, .f32⟩
  | 77 => ⟨S4096x1, .f32⟩
  | 78 => ⟨S_, .f32⟩
  | 79 => ⟨S_, .i1⟩
  | 80 => ⟨S_, .f32⟩
  | 81 => ⟨S_, .f32⟩
  | 82 => ⟨S4096x1, .f32⟩
  | 83 => ⟨S4096x1, .f32⟩
  | 84 => ⟨S4096x1, .f32⟩
  | 85 => ⟨S4096x2048, .f32⟩
  | 86 => ⟨S4096x2048, .f32⟩
  | 87 => ⟨S_, .f32⟩
  | 88 => ⟨S4096x1, .f32⟩
  | 89 => ⟨S4096x1, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | 98 => ⟨S4096x2048, .f32⟩
  | 99 => ⟨S_, .f32⟩
  | 100 => ⟨S4096x2048, .f32⟩
  | 101 => ⟨S4096x2048, .f32⟩
  | 102 => ⟨S_, .f32⟩
  | 103 => ⟨S4096x2048, .f32⟩
  | 104 => ⟨S4096x2048, .f32⟩
  | 105 => ⟨S1024x2048, .f32⟩
  | 106 => ⟨S4096x2048, .f32⟩
  | 107 => ⟨S1x2048, .f32⟩
  | 108 => ⟨S4096x2048, .f32⟩
  | 109 => ⟨S4096x2048, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .i32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S4096x2048, .f32⟩
  | 124 => ⟨S4096x2048, .f32⟩
  | 125 => ⟨S4096x2048, .f32⟩
  | 126 => ⟨S_, .f32⟩
  | 127 => ⟨S_, .f32⟩
  | _ => ⟨S4096x1024, .f32⟩

abbrev hbmTy0_2 (i : Nat) : BufTy := match i % 128 with
  | 0 => ⟨S_, .f32⟩
  | 1 => ⟨S_, .f32⟩
  | 2 => ⟨S4096, .f32⟩
  | 3 => ⟨S4096x1, .f32⟩
  | 4 => ⟨S4096x1, .f32⟩
  | 5 => ⟨S4096x1, .f32⟩
  | 6 => ⟨S_, .f32⟩
  | 7 => ⟨S_, .i1⟩
  | 8 => ⟨S_, .f32⟩
  | 9 => ⟨S_, .f32⟩
  | 10 => ⟨S4096x1, .f32⟩
  | 11 => ⟨S4096x1, .f32⟩
  | 12 => ⟨S4096x1, .f32⟩
  | 13 => ⟨S4096x2048, .f32⟩
  | 14 => ⟨S4096x2048, .f32⟩
  | 15 => ⟨S_, .f32⟩
  | 16 => ⟨S4096x1, .f32⟩
  | 17 => ⟨S4096x1, .f32⟩
  | 18 => ⟨S4096x2048, .f32⟩
  | 19 => ⟨S4096x2048, .f32⟩
  | 20 => ⟨S4096x2048, .f32⟩
  | 21 => ⟨S4096x2048, .f32⟩
  | 22 => ⟨S4096x2048, .f32⟩
  | 23 => ⟨S4096x2048, .f32⟩
  | 24 => ⟨S2048x2048, .f32⟩
  | 25 => ⟨S4096x2048, .f32⟩
  | 26 => ⟨S1x2048, .f32⟩
  | 27 => ⟨S4096x2048, .f32⟩
  | 28 => ⟨S4096x2048, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .i32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x2048, .f32⟩
  | 43 => ⟨S4096x2048, .f32⟩
  | 44 => ⟨S4096x2048, .f32⟩
  | 45 => ⟨S_, .f32⟩
  | 46 => ⟨S_, .f32⟩
  | 47 => ⟨S_, .f32⟩
  | 48 => ⟨S_, .f32⟩
  | 49 => ⟨S4096, .f32⟩
  | 50 => ⟨S4096x1, .f32⟩
  | 51 => ⟨S4096x1, .f32⟩
  | 52 => ⟨S4096x1, .f32⟩
  | 53 => ⟨S_, .f32⟩
  | 54 => ⟨S_, .i1⟩
  | 55 => ⟨S_, .f32⟩
  | 56 => ⟨S_, .f32⟩
  | 57 => ⟨S4096x1, .f32⟩
  | 58 => ⟨S4096x1, .f32⟩
  | 59 => ⟨S4096x1, .f32⟩
  | 60 => ⟨S4096x2048, .f32⟩
  | 61 => ⟨S4096x2048, .f32⟩
  | 62 => ⟨S_, .f32⟩
  | 63 => ⟨S4096x1, .f32⟩
  | 64 => ⟨S4096x1, .f32⟩
  | 65 => ⟨S4096x2048, .f32⟩
  | 66 => ⟨S4096x2048, .f32⟩
  | 67 => ⟨S4096x2048, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S4096x2048, .f32⟩
  | 75 => ⟨S4096x2048, .f32⟩
  | 76 => ⟨S1024x2048, .f32⟩
  | 77 => ⟨S4096x2048, .f32⟩
  | 78 => ⟨S1x2048, .f32⟩
  | 79 => ⟨S4096x2048, .f32⟩
  | 80 => ⟨S4096x2048, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .i32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S4096x2048, .f32⟩
  | 95 => ⟨S4096x2048, .f32⟩
  | 96 => ⟨S4096x2048, .f32⟩
  | 97 => ⟨S_, .f32⟩
  | 98 => ⟨S_, .f32⟩
  | 99 => ⟨S_, .f32⟩
  | 100 => ⟨S_, .f32⟩
  | 101 => ⟨S4096, .f32⟩
  | 102 => ⟨S4096x1, .f32⟩
  | 103 => ⟨S4096x1, .f32⟩
  | 104 => ⟨S4096x1, .f32⟩
  | 105 => ⟨S_, .f32⟩
  | 106 => ⟨S_, .i1⟩
  | 107 => ⟨S_, .f32⟩
  | 108 => ⟨S_, .f32⟩
  | 109 => ⟨S4096x1, .f32⟩
  | 110 => ⟨S4096x1, .f32⟩
  | 111 => ⟨S4096x1, .f32⟩
  | 112 => ⟨S4096x2048, .f32⟩
  | 113 => ⟨S4096x2048, .f32⟩
  | 114 => ⟨S_, .f32⟩
  | 115 => ⟨S4096x1, .f32⟩
  | 116 => ⟨S4096x1, .f32⟩
  | 117 => ⟨S4096x2048, .f32⟩
  | 118 => ⟨S4096x2048, .f32⟩
  | 119 => ⟨S4096x2048, .f32⟩
  | 120 => ⟨S4096x2048, .f32⟩
  | 121 => ⟨S4096x2048, .f32⟩
  | 122 => ⟨S4096x2048, .f32⟩
  | 123 => ⟨S2048x2048, .f32⟩
  | 124 => ⟨S4096x2048, .f32⟩
  | 125 => ⟨S1x2048, .f32⟩
  | 126 => ⟨S4096x2048, .f32⟩
  | 127 => ⟨S4096x2048, .f32⟩
  | _ => ⟨S4096x1024, .f32⟩

abbrev hbmTy0_3 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .i32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x2048, .f32⟩
  | 14 => ⟨S4096x2048, .f32⟩
  | 15 => ⟨S4096x2048, .f32⟩
  | 16 => ⟨S_, .f32⟩
  | 17 => ⟨S_, .f32⟩
  | 18 => ⟨S_, .f32⟩
  | 19 => ⟨S_, .f32⟩
  | 20 => ⟨S4096, .f32⟩
  | 21 => ⟨S4096x1, .f32⟩
  | 22 => ⟨S4096x1, .f32⟩
  | 23 => ⟨S4096x1, .f32⟩
  | 24 => ⟨S_, .f32⟩
  | 25 => ⟨S_, .i1⟩
  | 26 => ⟨S_, .f32⟩
  | 27 => ⟨S_, .f32⟩
  | 28 => ⟨S4096x1, .f32⟩
  | 29 => ⟨S4096x1, .f32⟩
  | 30 => ⟨S4096x1, .f32⟩
  | 31 => ⟨S4096x2048, .f32⟩
  | 32 => ⟨S4096x2048, .f32⟩
  | 33 => ⟨S_, .f32⟩
  | 34 => ⟨S4096x1, .f32⟩
  | 35 => ⟨S4096x1, .f32⟩
  | 36 => ⟨S4096x2048, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S4096x2048, .f32⟩
  | 44 => ⟨S4096x2048, .f32⟩
  | 45 => ⟨S_, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .i32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x2048, .f32⟩
  | 65 => ⟨S4096x2048, .f32⟩
  | 66 => ⟨S4096x2048, .f32⟩
  | 67 => ⟨S_, .f32⟩
  | 68 => ⟨S_, .f32⟩
  | 69 => ⟨S_, .f32⟩
  | 70 => ⟨S_, .f32⟩
  | 71 => ⟨S4096, .f32⟩
  | 72 => ⟨S4096x1, .f32⟩
  | 73 => ⟨S4096x1, .f32⟩
  | 74 => ⟨S4096x1, .f32⟩
  | 75 => ⟨S_, .f32⟩
  | 76 => ⟨S_, .i1⟩
  | 77 => ⟨S_, .f32⟩
  | 78 => ⟨S_, .f32⟩
  | 79 => ⟨S4096x1, .f32⟩
  | 80 => ⟨S4096x1, .f32⟩
  | 81 => ⟨S4096x1, .f32⟩
  | 82 => ⟨S4096x2048, .f32⟩
  | 83 => ⟨S4096x2048, .f32⟩
  | 84 => ⟨S_, .f32⟩
  | 85 => ⟨S4096x1, .f32⟩
  | 86 => ⟨S4096x1, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S2048x1024, .f32⟩
  | 96 => ⟨S4096x1024, .f32⟩
  | 97 => ⟨S1x1024, .f32⟩
  | 98 => ⟨S4096x1024, .f32⟩
  | 99 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_c : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_cst_0 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_cst_1 : Ref sig .tc := ⟨.hbm, 49, rfl⟩
abbrev main_call0_call0_v8 : Ref sig .tc := ⟨.hbm, 50, rfl⟩
abbrev main_call0_call0_cst_2 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_cst_3 : Ref sig .tc := ⟨.hbm, 56, rfl⟩
abbrev main_call0_call0_v13 : Ref sig .tc := ⟨.hbm, 57, rfl⟩
abbrev main_call0_call0_cst_4 : Ref sig .tc := ⟨.hbm, 58, rfl⟩
abbrev main_call0_call0_call0_v0 : Ref sig .tc := ⟨.hbm, 59, rfl⟩
abbrev main_call0_call0_call0_v1 : Ref sig .tc := ⟨.hbm, 60, rfl⟩
abbrev main_call0_v0 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_1 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_2 : Ref sig .tc := ⟨.hbm, 79, rfl⟩
abbrev main_v25 : Ref sig .tc := ⟨.hbm, 80, rfl⟩
abbrev main_v26 : Ref sig .tc := ⟨.hbm, 81, rfl⟩
abbrev main_cst_3 : Ref sig .tc := ⟨.hbm, 82, rfl⟩
abbrev main_v27 : Ref sig .tc := ⟨.hbm, 83, rfl⟩
abbrev main_v28 : Ref sig .tc := ⟨.hbm, 84, rfl⟩
abbrev main_c_4 : Ref sig .tc := ⟨.hbm, 85, rfl⟩
abbrev main_call1_call0_cst : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_call0_cst_0 : Ref sig .tc := ⟨.hbm, 89, rfl⟩
abbrev main_call1_call0_v2 : Ref sig .tc := ⟨.hbm, 90, rfl⟩
abbrev main_call1_call0_v3 : Ref sig .tc := ⟨.hbm, 91, rfl⟩
abbrev main_call1_call0_v4 : Ref sig .tc := ⟨.hbm, 92, rfl⟩
abbrev main_call1_call0_v5 : Ref sig .tc := ⟨.hbm, 93, rfl⟩
abbrev main_call1_call0_v6 : Ref sig .tc := ⟨.hbm, 94, rfl⟩
abbrev main_call1_call0_v7 : Ref sig .tc := ⟨.hbm, 95, rfl⟩
abbrev main_call1_call0_cst_1 : Ref sig .tc := ⟨.hbm, 96, rfl⟩
abbrev main_call1_call0_v8 : Ref sig .tc := ⟨.hbm, 97, rfl⟩
abbrev main_call1_call0_cst_2 : Ref sig .tc := ⟨.hbm, 98, rfl⟩
abbrev main_call1_call0_v9 : Ref sig .tc := ⟨.hbm, 99, rfl⟩
abbrev main_call1_call0_v10 : Ref sig .tc := ⟨.hbm, 100, rfl⟩
abbrev main_call1_call0_v11 : Ref sig .tc := ⟨.hbm, 101, rfl⟩
abbrev main_call1_call0_v12 : Ref sig .tc := ⟨.hbm, 102, rfl⟩
abbrev main_call1_call0_cst_3 : Ref sig .tc := ⟨.hbm, 103, rfl⟩
abbrev main_call1_call0_v13 : Ref sig .tc := ⟨.hbm, 104, rfl⟩
abbrev main_call1_call0_cst_4 : Ref sig .tc := ⟨.hbm, 105, rfl⟩
abbrev main_call1_call0_call0_v0 : Ref sig .tc := ⟨.hbm, 106, rfl⟩
abbrev main_call1_call0_call0_v1 : Ref sig .tc := ⟨.hbm, 107, rfl⟩
abbrev main_call1_v0 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_5 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_cst_6 : Ref sig .tc := ⟨.hbm, 124, rfl⟩
abbrev main_v43 : Ref sig .tc := ⟨.hbm, 125, rfl⟩
abbrev main_v44 : Ref sig .tc := ⟨.hbm, 126, rfl⟩
abbrev main_cst_7 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_cst_8 : Ref sig .tc := ⟨.hbm, 135, rfl⟩
abbrev main_v52 : Ref sig .tc := ⟨.hbm, 136, rfl⟩
abbrev main_v53 : Ref sig .tc := ⟨.hbm, 137, rfl⟩
abbrev main_cst_9 : Ref sig .tc := ⟨.hbm, 138, rfl⟩
abbrev main_v54 : Ref sig .tc := ⟨.hbm, 139, rfl⟩
abbrev main_v55 : Ref sig .tc := ⟨.hbm, 140, rfl⟩
abbrev main_c_10 : Ref sig .tc := ⟨.hbm, 141, rfl⟩
abbrev main_call2_call0_cst : Ref sig .tc := ⟨.hbm, 142, rfl⟩
abbrev main_call2_call0_v0 : Ref sig .tc := ⟨.hbm, 143, rfl⟩
abbrev main_call2_call0_v1 : Ref sig .tc := ⟨.hbm, 144, rfl⟩
abbrev main_call2_call0_cst_0 : Ref sig .tc := ⟨.hbm, 145, rfl⟩
abbrev main_call2_call0_v2 : Ref sig .tc := ⟨.hbm, 146, rfl⟩
abbrev main_call2_call0_v3 : Ref sig .tc := ⟨.hbm, 147, rfl⟩
abbrev main_call2_call0_v4 : Ref sig .tc := ⟨.hbm, 148, rfl⟩
abbrev main_call2_call0_v5 : Ref sig .tc := ⟨.hbm, 149, rfl⟩
abbrev main_call2_call0_v6 : Ref sig .tc := ⟨.hbm, 150, rfl⟩
abbrev main_call2_call0_v7 : Ref sig .tc := ⟨.hbm, 151, rfl⟩
abbrev main_call2_call0_cst_1 : Ref sig .tc := ⟨.hbm, 152, rfl⟩
abbrev main_call2_call0_v8 : Ref sig .tc := ⟨.hbm, 153, rfl⟩
abbrev main_call2_call0_cst_2 : Ref sig .tc := ⟨.hbm, 154, rfl⟩
abbrev main_call2_call0_v9 : Ref sig .tc := ⟨.hbm, 155, rfl⟩
abbrev main_call2_call0_v10 : Ref sig .tc := ⟨.hbm, 156, rfl⟩
abbrev main_call2_call0_v11 : Ref sig .tc := ⟨.hbm, 157, rfl⟩
abbrev main_call2_call0_v12 : Ref sig .tc := ⟨.hbm, 158, rfl⟩
abbrev main_call2_call0_cst_3 : Ref sig .tc := ⟨.hbm, 159, rfl⟩
abbrev main_call2_call0_v13 : Ref sig .tc := ⟨.hbm, 160, rfl⟩
abbrev main_call2_call0_cst_4 : Ref sig .tc := ⟨.hbm, 161, rfl⟩
abbrev main_call2_call0_call0_v0 : Ref sig .tc := ⟨.hbm, 162, rfl⟩
abbrev main_call2_call0_call0_v1 : Ref sig .tc := ⟨.hbm, 163, rfl⟩
abbrev main_call2_v0 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_cst_11 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_cst_12 : Ref sig .tc := ⟨.hbm, 182, rfl⟩
abbrev main_v72 : Ref sig .tc := ⟨.hbm, 183, rfl⟩
abbrev main_v73 : Ref sig .tc := ⟨.hbm, 184, rfl⟩
abbrev main_cst_13 : Ref sig .tc := ⟨.hbm, 185, rfl⟩
abbrev main_v74 : Ref sig .tc := ⟨.hbm, 186, rfl⟩
abbrev main_v75 : Ref sig .tc := ⟨.hbm, 187, rfl⟩
abbrev main_c_14 : Ref sig .tc := ⟨.hbm, 188, rfl⟩
abbrev main_call3_call0_cst : Ref sig .tc := ⟨.hbm, 189, rfl⟩
abbrev main_call3_call0_v0 : Ref sig .tc := ⟨.hbm, 190, rfl⟩
abbrev main_call3_call0_v1 : Ref sig .tc := ⟨.hbm, 191, rfl⟩
abbrev main_call3_call0_cst_0 : Ref sig .tc := ⟨.hbm, 192, rfl⟩
abbrev main_call3_call0_v2 : Ref sig .tc := ⟨.hbm, 193, rfl⟩
abbrev main_call3_call0_v3 : Ref sig .tc := ⟨.hbm, 194, rfl⟩
abbrev main_call3_call0_v4 : Ref sig .tc := ⟨.hbm, 195, rfl⟩
abbrev main_call3_call0_v5 : Ref sig .tc := ⟨.hbm, 196, rfl⟩
abbrev main_call3_call0_v6 : Ref sig .tc := ⟨.hbm, 197, rfl⟩
abbrev main_call3_call0_v7 : Ref sig .tc := ⟨.hbm, 198, rfl⟩
abbrev main_call3_call0_cst_1 : Ref sig .tc := ⟨.hbm, 199, rfl⟩
abbrev main_call3_call0_v8 : Ref sig .tc := ⟨.hbm, 200, rfl⟩
abbrev main_call3_call0_cst_2 : Ref sig .tc := ⟨.hbm, 201, rfl⟩
abbrev main_call3_call0_v9 : Ref sig .tc := ⟨.hbm, 202, rfl⟩
abbrev main_call3_call0_v10 : Ref sig .tc := ⟨.hbm, 203, rfl⟩
abbrev main_call3_call0_v11 : Ref sig .tc := ⟨.hbm, 204, rfl⟩
abbrev main_call3_call0_v12 : Ref sig .tc := ⟨.hbm, 205, rfl⟩
abbrev main_call3_call0_cst_3 : Ref sig .tc := ⟨.hbm, 206, rfl⟩
abbrev main_call3_call0_v13 : Ref sig .tc := ⟨.hbm, 207, rfl⟩
abbrev main_call3_call0_cst_4 : Ref sig .tc := ⟨.hbm, 208, rfl⟩
abbrev main_call3_call0_call0_v0 : Ref sig .tc := ⟨.hbm, 209, rfl⟩
abbrev main_call3_call0_call0_v1 : Ref sig .tc := ⟨.hbm, 210, rfl⟩
abbrev main_call3_v0 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_cst_15 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_cst_16 : Ref sig .tc := ⟨.hbm, 227, rfl⟩
abbrev main_v90 : Ref sig .tc := ⟨.hbm, 228, rfl⟩
abbrev main_v91 : Ref sig .tc := ⟨.hbm, 229, rfl⟩
abbrev main_cst_17 : Ref sig .tc := ⟨.hbm, 230, rfl⟩
abbrev main_v92 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_cst_18 : Ref sig .tc := ⟨.hbm, 238, rfl⟩
abbrev main_v99 : Ref sig .tc := ⟨.hbm, 239, rfl⟩
abbrev main_v100 : Ref sig .tc := ⟨.hbm, 240, rfl⟩
abbrev main_cst_19 : Ref sig .tc := ⟨.hbm, 241, rfl⟩
abbrev main_v101 : Ref sig .tc := ⟨.hbm, 242, rfl⟩
abbrev main_v102 : Ref sig .tc := ⟨.hbm, 243, rfl⟩
abbrev main_c_20 : Ref sig .tc := ⟨.hbm, 244, rfl⟩
abbrev main_call4_call0_cst : Ref sig .tc := ⟨.hbm, 245, rfl⟩
abbrev main_call4_call0_v0 : Ref sig .tc := ⟨.hbm, 246, rfl⟩
abbrev main_call4_call0_v1 : Ref sig .tc := ⟨.hbm, 247, rfl⟩
abbrev main_call4_call0_cst_0 : Ref sig .tc := ⟨.hbm, 248, rfl⟩
abbrev main_call4_call0_v2 : Ref sig .tc := ⟨.hbm, 249, rfl⟩
abbrev main_call4_call0_v3 : Ref sig .tc := ⟨.hbm, 250, rfl⟩
abbrev main_call4_call0_v4 : Ref sig .tc := ⟨.hbm, 251, rfl⟩
abbrev main_call4_call0_v5 : Ref sig .tc := ⟨.hbm, 252, rfl⟩
abbrev main_call4_call0_v6 : Ref sig .tc := ⟨.hbm, 253, rfl⟩
abbrev main_call4_call0_v7 : Ref sig .tc := ⟨.hbm, 254, rfl⟩
abbrev main_call4_call0_cst_1 : Ref sig .tc := ⟨.hbm, 255, rfl⟩
abbrev main_call4_call0_v8 : Ref sig .tc := ⟨.hbm, 256, rfl⟩
abbrev main_call4_call0_cst_2 : Ref sig .tc := ⟨.hbm, 257, rfl⟩
abbrev main_call4_call0_v9 : Ref sig .tc := ⟨.hbm, 258, rfl⟩
abbrev main_call4_call0_v10 : Ref sig .tc := ⟨.hbm, 259, rfl⟩
abbrev main_call4_call0_v11 : Ref sig .tc := ⟨.hbm, 260, rfl⟩
abbrev main_call4_call0_v12 : Ref sig .tc := ⟨.hbm, 261, rfl⟩
abbrev main_call4_call0_cst_3 : Ref sig .tc := ⟨.hbm, 262, rfl⟩
abbrev main_call4_call0_v13 : Ref sig .tc := ⟨.hbm, 263, rfl⟩
abbrev main_call4_call0_cst_4 : Ref sig .tc := ⟨.hbm, 264, rfl⟩
abbrev main_call4_call0_call0_v0 : Ref sig .tc := ⟨.hbm, 265, rfl⟩
abbrev main_call4_call0_call0_v1 : Ref sig .tc := ⟨.hbm, 266, rfl⟩
abbrev main_call4_v0 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_cst_21 : Ref sig .tc := ⟨.hbm, 271, rfl⟩
abbrev main_v106 : Ref sig .tc := ⟨.hbm, 272, rfl⟩
abbrev main_v107 : Ref sig .tc := ⟨.hbm, 273, rfl⟩
abbrev main_v108 : Ref sig .tc := ⟨.hbm, 274, rfl⟩
abbrev main_v109 : Ref sig .tc := ⟨.hbm, 275, rfl⟩
abbrev main_v110 : Ref sig .tc := ⟨.hbm, 276, rfl⟩
abbrev main_v111 : Ref sig .tc := ⟨.hbm, 277, rfl⟩
abbrev main_v112 : Ref sig .tc := ⟨.hbm, 278, rfl⟩
abbrev main_v113 : Ref sig .tc := ⟨.hbm, 279, rfl⟩
abbrev main_v114 : Ref sig .tc := ⟨.hbm, 280, rfl⟩
abbrev main_v115 : Ref sig .tc := ⟨.hbm, 281, rfl⟩
abbrev main_v116 : Ref sig .tc := ⟨.hbm, 282, rfl⟩
abbrev main_v117 : Ref sig .tc := ⟨.hbm, 283, rfl⟩
abbrev main_v118 : Ref sig .tc := ⟨.hbm, 284, rfl⟩
abbrev main_cst_22 : Ref sig .tc := ⟨.hbm, 285, rfl⟩
abbrev main_v119 : Ref sig .tc := ⟨.hbm, 286, rfl⟩
abbrev main_v120 : Ref sig .tc := ⟨.hbm, 287, rfl⟩
abbrev main_cst_23 : Ref sig .tc := ⟨.hbm, 288, rfl⟩
abbrev main_v121 : Ref sig .tc := ⟨.hbm, 289, rfl⟩
abbrev main_v122 : Ref sig .tc := ⟨.hbm, 290, rfl⟩
abbrev main_c_24 : Ref sig .tc := ⟨.hbm, 291, rfl⟩
abbrev main_call5_call0_cst : Ref sig .tc := ⟨.hbm, 292, rfl⟩
abbrev main_call5_call0_v0 : Ref sig .tc := ⟨.hbm, 293, rfl⟩
abbrev main_call5_call0_v1 : Ref sig .tc := ⟨.hbm, 294, rfl⟩
abbrev main_call5_call0_cst_0 : Ref sig .tc := ⟨.hbm, 295, rfl⟩
abbrev main_call5_call0_v2 : Ref sig .tc := ⟨.hbm, 296, rfl⟩
abbrev main_call5_call0_v3 : Ref sig .tc := ⟨.hbm, 297, rfl⟩
abbrev main_call5_call0_v4 : Ref sig .tc := ⟨.hbm, 298, rfl⟩
abbrev main_call5_call0_v5 : Ref sig .tc := ⟨.hbm, 299, rfl⟩
abbrev main_call5_call0_v6 : Ref sig .tc := ⟨.hbm, 300, rfl⟩
abbrev main_call5_call0_v7 : Ref sig .tc := ⟨.hbm, 301, rfl⟩
abbrev main_call5_call0_cst_1 : Ref sig .tc := ⟨.hbm, 302, rfl⟩
abbrev main_call5_call0_v8 : Ref sig .tc := ⟨.hbm, 303, rfl⟩
abbrev main_call5_call0_cst_2 : Ref sig .tc := ⟨.hbm, 304, rfl⟩
abbrev main_call5_call0_v9 : Ref sig .tc := ⟨.hbm, 305, rfl⟩
abbrev main_call5_call0_v10 : Ref sig .tc := ⟨.hbm, 306, rfl⟩
abbrev main_call5_call0_v11 : Ref sig .tc := ⟨.hbm, 307, rfl⟩
abbrev main_call5_call0_v12 : Ref sig .tc := ⟨.hbm, 308, rfl⟩
abbrev main_call5_call0_cst_3 : Ref sig .tc := ⟨.hbm, 309, rfl⟩
abbrev main_call5_call0_v13 : Ref sig .tc := ⟨.hbm, 310, rfl⟩
abbrev main_call5_call0_cst_4 : Ref sig .tc := ⟨.hbm, 311, rfl⟩
abbrev main_call5_call0_call0_v0 : Ref sig .tc := ⟨.hbm, 312, rfl⟩
abbrev main_call5_call0_call0_v1 : Ref sig .tc := ⟨.hbm, 313, rfl⟩
abbrev main_call5_v0 : Ref sig .tc := ⟨.hbm, 314, rfl⟩
abbrev main_v123 : Ref sig .tc := ⟨.hbm, 315, rfl⟩
abbrev main_v124 : Ref sig .tc := ⟨.hbm, 316, rfl⟩
abbrev main_v125 : Ref sig .tc := ⟨.hbm, 317, rfl⟩
abbrev main_cst_25 : Ref sig .tc := ⟨.hbm, 318, rfl⟩
abbrev main_v126 : Ref sig .tc := ⟨.hbm, 319, rfl⟩
abbrev main_v127 : Ref sig .tc := ⟨.hbm, 320, rfl⟩
abbrev main_v128 : Ref sig .tc := ⟨.hbm, 321, rfl⟩
abbrev main_v129 : Ref sig .tc := ⟨.hbm, 322, rfl⟩
abbrev main_v130 : Ref sig .tc := ⟨.hbm, 323, rfl⟩
abbrev main_v131 : Ref sig .tc := ⟨.hbm, 324, rfl⟩
abbrev main_v132 : Ref sig .tc := ⟨.hbm, 325, rfl⟩
abbrev main_v133 : Ref sig .tc := ⟨.hbm, 326, rfl⟩
abbrev main_v134 : Ref sig .tc := ⟨.hbm, 327, rfl⟩
abbrev main_v135 : Ref sig .tc := ⟨.hbm, 328, rfl⟩
abbrev main_v136 : Ref sig .tc := ⟨.hbm, 329, rfl⟩
abbrev main_v137 : Ref sig .tc := ⟨.hbm, 330, rfl⟩
abbrev main_v138 : Ref sig .tc := ⟨.hbm, 331, rfl⟩
abbrev main_v139 : Ref sig .tc := ⟨.hbm, 332, rfl⟩
abbrev main_v140 : Ref sig .tc := ⟨.hbm, 333, rfl⟩
abbrev main_v141 : Ref sig .tc := ⟨.hbm, 334, rfl⟩
abbrev main_v142 : Ref sig .tc := ⟨.hbm, 335, rfl⟩
abbrev main_v143 : Ref sig .tc := ⟨.hbm, 336, rfl⟩
abbrev main_cst_26 : Ref sig .tc := ⟨.hbm, 337, rfl⟩
abbrev main_v144 : Ref sig .tc := ⟨.hbm, 338, rfl⟩
abbrev main_v145 : Ref sig .tc := ⟨.hbm, 339, rfl⟩
abbrev main_cst_27 : Ref sig .tc := ⟨.hbm, 340, rfl⟩
abbrev main_v146 : Ref sig .tc := ⟨.hbm, 341, rfl⟩
abbrev main_v147 : Ref sig .tc := ⟨.hbm, 342, rfl⟩
abbrev main_c_28 : Ref sig .tc := ⟨.hbm, 343, rfl⟩
abbrev main_call6_call0_cst : Ref sig .tc := ⟨.hbm, 344, rfl⟩
abbrev main_call6_call0_v0 : Ref sig .tc := ⟨.hbm, 345, rfl⟩
abbrev main_call6_call0_v1 : Ref sig .tc := ⟨.hbm, 346, rfl⟩
abbrev main_call6_call0_cst_0 : Ref sig .tc := ⟨.hbm, 347, rfl⟩
abbrev main_call6_call0_v2 : Ref sig .tc := ⟨.hbm, 348, rfl⟩
abbrev main_call6_call0_v3 : Ref sig .tc := ⟨.hbm, 349, rfl⟩
abbrev main_call6_call0_v4 : Ref sig .tc := ⟨.hbm, 350, rfl⟩
abbrev main_call6_call0_v5 : Ref sig .tc := ⟨.hbm, 351, rfl⟩
abbrev main_call6_call0_v6 : Ref sig .tc := ⟨.hbm, 352, rfl⟩
abbrev main_call6_call0_v7 : Ref sig .tc := ⟨.hbm, 353, rfl⟩
abbrev main_call6_call0_cst_1 : Ref sig .tc := ⟨.hbm, 354, rfl⟩
abbrev main_call6_call0_v8 : Ref sig .tc := ⟨.hbm, 355, rfl⟩
abbrev main_call6_call0_cst_2 : Ref sig .tc := ⟨.hbm, 356, rfl⟩
abbrev main_call6_call0_v9 : Ref sig .tc := ⟨.hbm, 357, rfl⟩
abbrev main_call6_call0_v10 : Ref sig .tc := ⟨.hbm, 358, rfl⟩
abbrev main_call6_call0_v11 : Ref sig .tc := ⟨.hbm, 359, rfl⟩
abbrev main_call6_call0_v12 : Ref sig .tc := ⟨.hbm, 360, rfl⟩
abbrev main_call6_call0_cst_3 : Ref sig .tc := ⟨.hbm, 361, rfl⟩
abbrev main_call6_call0_v13 : Ref sig .tc := ⟨.hbm, 362, rfl⟩
abbrev main_call6_call0_cst_4 : Ref sig .tc := ⟨.hbm, 363, rfl⟩
abbrev main_call6_call0_call0_v0 : Ref sig .tc := ⟨.hbm, 364, rfl⟩
abbrev main_call6_call0_call0_v1 : Ref sig .tc := ⟨.hbm, 365, rfl⟩
abbrev main_call6_v0 : Ref sig .tc := ⟨.hbm, 366, rfl⟩
abbrev main_v148 : Ref sig .tc := ⟨.hbm, 367, rfl⟩
abbrev main_v149 : Ref sig .tc := ⟨.hbm, 368, rfl⟩
abbrev main_v150 : Ref sig .tc := ⟨.hbm, 369, rfl⟩
abbrev main_cst_29 : Ref sig .tc := ⟨.hbm, 370, rfl⟩
abbrev main_v151 : Ref sig .tc := ⟨.hbm, 371, rfl⟩
abbrev main_v152 : Ref sig .tc := ⟨.hbm, 372, rfl⟩
abbrev main_v153 : Ref sig .tc := ⟨.hbm, 373, rfl⟩
abbrev main_v154 : Ref sig .tc := ⟨.hbm, 374, rfl⟩
abbrev main_v155 : Ref sig .tc := ⟨.hbm, 375, rfl⟩
abbrev main_v156 : Ref sig .tc := ⟨.hbm, 376, rfl⟩
abbrev main_v157 : Ref sig .tc := ⟨.hbm, 377, rfl⟩
abbrev main_v158 : Ref sig .tc := ⟨.hbm, 378, rfl⟩
abbrev main_v159 : Ref sig .tc := ⟨.hbm, 379, rfl⟩
abbrev main_v160 : Ref sig .tc := ⟨.hbm, 380, rfl⟩
abbrev main_v161 : Ref sig .tc := ⟨.hbm, 381, rfl⟩
abbrev main_v162 : Ref sig .tc := ⟨.hbm, 382, rfl⟩
abbrev main_v163 : Ref sig .tc := ⟨.hbm, 383, rfl⟩
abbrev main_cst_30 : Ref sig .tc := ⟨.hbm, 384, rfl⟩
abbrev main_v164 : Ref sig .tc := ⟨.hbm, 385, rfl⟩
abbrev main_v165 : Ref sig .tc := ⟨.hbm, 386, rfl⟩
abbrev main_cst_31 : Ref sig .tc := ⟨.hbm, 387, rfl⟩
abbrev main_v166 : Ref sig .tc := ⟨.hbm, 388, rfl⟩
abbrev main_v167 : Ref sig .tc := ⟨.hbm, 389, rfl⟩
abbrev main_c_32 : Ref sig .tc := ⟨.hbm, 390, rfl⟩
abbrev main_call7_call0_cst : Ref sig .tc := ⟨.hbm, 391, rfl⟩
abbrev main_call7_call0_v0 : Ref sig .tc := ⟨.hbm, 392, rfl⟩
abbrev main_call7_call0_v1 : Ref sig .tc := ⟨.hbm, 393, rfl⟩
abbrev main_call7_call0_cst_0 : Ref sig .tc := ⟨.hbm, 394, rfl⟩
abbrev main_call7_call0_v2 : Ref sig .tc := ⟨.hbm, 395, rfl⟩
abbrev main_call7_call0_v3 : Ref sig .tc := ⟨.hbm, 396, rfl⟩
abbrev main_call7_call0_v4 : Ref sig .tc := ⟨.hbm, 397, rfl⟩
abbrev main_call7_call0_v5 : Ref sig .tc := ⟨.hbm, 398, rfl⟩
abbrev main_call7_call0_v6 : Ref sig .tc := ⟨.hbm, 399, rfl⟩
abbrev main_call7_call0_v7 : Ref sig .tc := ⟨.hbm, 400, rfl⟩
abbrev main_call7_call0_cst_1 : Ref sig .tc := ⟨.hbm, 401, rfl⟩
abbrev main_call7_call0_v8 : Ref sig .tc := ⟨.hbm, 402, rfl⟩
abbrev main_call7_call0_cst_2 : Ref sig .tc := ⟨.hbm, 403, rfl⟩
abbrev main_call7_call0_v9 : Ref sig .tc := ⟨.hbm, 404, rfl⟩
abbrev main_call7_call0_v10 : Ref sig .tc := ⟨.hbm, 405, rfl⟩
abbrev main_call7_call0_v11 : Ref sig .tc := ⟨.hbm, 406, rfl⟩
abbrev main_call7_call0_v12 : Ref sig .tc := ⟨.hbm, 407, rfl⟩
abbrev main_call7_call0_cst_3 : Ref sig .tc := ⟨.hbm, 408, rfl⟩
abbrev main_call7_call0_v13 : Ref sig .tc := ⟨.hbm, 409, rfl⟩
abbrev main_call7_call0_cst_4 : Ref sig .tc := ⟨.hbm, 410, rfl⟩
abbrev main_call7_call0_call0_v0 : Ref sig .tc := ⟨.hbm, 411, rfl⟩
abbrev main_call7_call0_call0_v1 : Ref sig .tc := ⟨.hbm, 412, rfl⟩
abbrev main_call7_v0 : Ref sig .tc := ⟨.hbm, 413, rfl⟩
abbrev main_v168 : Ref sig .tc := ⟨.hbm, 414, rfl⟩
abbrev main_v169 : Ref sig .tc := ⟨.hbm, 415, rfl⟩
abbrev main_v170 : Ref sig .tc := ⟨.hbm, 416, rfl⟩
abbrev main_cst_33 : Ref sig .tc := ⟨.hbm, 417, rfl⟩
abbrev main_v171 : Ref sig .tc := ⟨.hbm, 418, rfl⟩
abbrev main_v172 : Ref sig .tc := ⟨.hbm, 419, rfl⟩
abbrev main_v173 : Ref sig .tc := ⟨.hbm, 420, rfl⟩
abbrev main_v174 : Ref sig .tc := ⟨.hbm, 421, rfl⟩
abbrev main_v175 : Ref sig .tc := ⟨.hbm, 422, rfl⟩
abbrev main_v176 : Ref sig .tc := ⟨.hbm, 423, rfl⟩
abbrev main_v177 : Ref sig .tc := ⟨.hbm, 424, rfl⟩
abbrev main_v178 : Ref sig .tc := ⟨.hbm, 425, rfl⟩
abbrev main_v179 : Ref sig .tc := ⟨.hbm, 426, rfl⟩
abbrev main_v180 : Ref sig .tc := ⟨.hbm, 427, rfl⟩
abbrev main_v181 : Ref sig .tc := ⟨.hbm, 428, rfl⟩
abbrev main_cst_34 : Ref sig .tc := ⟨.hbm, 429, rfl⟩
abbrev main_v182 : Ref sig .tc := ⟨.hbm, 430, rfl⟩
abbrev main_v183 : Ref sig .tc := ⟨.hbm, 431, rfl⟩
abbrev main_cst_35 : Ref sig .tc := ⟨.hbm, 432, rfl⟩
abbrev main_v184 : Ref sig .tc := ⟨.hbm, 433, rfl⟩
abbrev main_v185 : Ref sig .tc := ⟨.hbm, 434, rfl⟩
abbrev main_cst_36 : Ref sig .tc := ⟨.hbm, 435, rfl⟩
abbrev main_v186 : Ref sig .tc := ⟨.hbm, 436, rfl⟩
abbrev main_v187 : Ref sig .tc := ⟨.hbm, 437, rfl⟩
abbrev main_cst_37 : Ref sig .tc := ⟨.hbm, 438, rfl⟩
abbrev main_v188 : Ref sig .tc := ⟨.hbm, 439, rfl⟩
abbrev main_v189 : Ref sig .tc := ⟨.hbm, 440, rfl⟩
abbrev main_c_38 : Ref sig .tc := ⟨.hbm, 441, rfl⟩
abbrev main_call8_call0_cst : Ref sig .tc := ⟨.hbm, 442, rfl⟩
abbrev main_call8_call0_v0 : Ref sig .tc := ⟨.hbm, 443, rfl⟩
abbrev main_call8_call0_v1 : Ref sig .tc := ⟨.hbm, 444, rfl⟩
abbrev main_call8_call0_cst_0 : Ref sig .tc := ⟨.hbm, 445, rfl⟩
abbrev main_call8_call0_v2 : Ref sig .tc := ⟨.hbm, 446, rfl⟩
abbrev main_call8_call0_v3 : Ref sig .tc := ⟨.hbm, 447, rfl⟩
abbrev main_call8_call0_v4 : Ref sig .tc := ⟨.hbm, 448, rfl⟩
abbrev main_call8_call0_v5 : Ref sig .tc := ⟨.hbm, 449, rfl⟩
abbrev main_call8_call0_v6 : Ref sig .tc := ⟨.hbm, 450, rfl⟩
abbrev main_call8_call0_v7 : Ref sig .tc := ⟨.hbm, 451, rfl⟩
abbrev main_call8_call0_cst_1 : Ref sig .tc := ⟨.hbm, 452, rfl⟩
abbrev main_call8_call0_v8 : Ref sig .tc := ⟨.hbm, 453, rfl⟩
abbrev main_call8_call0_cst_2 : Ref sig .tc := ⟨.hbm, 454, rfl⟩
abbrev main_call8_call0_v9 : Ref sig .tc := ⟨.hbm, 455, rfl⟩
abbrev main_call8_call0_v10 : Ref sig .tc := ⟨.hbm, 456, rfl⟩
abbrev main_call8_call0_v11 : Ref sig .tc := ⟨.hbm, 457, rfl⟩
abbrev main_call8_call0_v12 : Ref sig .tc := ⟨.hbm, 458, rfl⟩
abbrev main_call8_call0_cst_3 : Ref sig .tc := ⟨.hbm, 459, rfl⟩
abbrev main_call8_call0_v13 : Ref sig .tc := ⟨.hbm, 460, rfl⟩
abbrev main_call8_call0_cst_4 : Ref sig .tc := ⟨.hbm, 461, rfl⟩
abbrev main_call8_call0_call0_v0 : Ref sig .tc := ⟨.hbm, 462, rfl⟩
abbrev main_call8_call0_call0_v1 : Ref sig .tc := ⟨.hbm, 463, rfl⟩
abbrev main_call8_v0 : Ref sig .tc := ⟨.hbm, 464, rfl⟩
abbrev main_v190 : Ref sig .tc := ⟨.hbm, 465, rfl⟩
abbrev main_v191 : Ref sig .tc := ⟨.hbm, 466, rfl⟩
abbrev main_v192 : Ref sig .tc := ⟨.hbm, 467, rfl⟩
abbrev main_cst_39 : Ref sig .tc := ⟨.hbm, 468, rfl⟩
abbrev main_v193 : Ref sig .tc := ⟨.hbm, 469, rfl⟩
abbrev main_v194 : Ref sig .tc := ⟨.hbm, 470, rfl⟩
abbrev main_v195 : Ref sig .tc := ⟨.hbm, 471, rfl⟩
abbrev main_v196 : Ref sig .tc := ⟨.hbm, 472, rfl⟩
abbrev main_v197 : Ref sig .tc := ⟨.hbm, 473, rfl⟩
abbrev main_v198 : Ref sig .tc := ⟨.hbm, 474, rfl⟩
abbrev main_v199 : Ref sig .tc := ⟨.hbm, 475, rfl⟩
abbrev main_v200 : Ref sig .tc := ⟨.hbm, 476, rfl⟩
abbrev main_v201 : Ref sig .tc := ⟨.hbm, 477, rfl⟩
abbrev main_v202 : Ref sig .tc := ⟨.hbm, 478, rfl⟩
abbrev main_v203 : Ref sig .tc := ⟨.hbm, 479, rfl⟩
abbrev main_v204 : Ref sig .tc := ⟨.hbm, 480, rfl⟩
abbrev main_v205 : Ref sig .tc := ⟨.hbm, 481, rfl⟩
abbrev main_v206 : Ref sig .tc := ⟨.hbm, 482, rfl⟩
abbrev main_v207 : Ref sig .tc := ⟨.hbm, 483, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  transposes_S2048x2048_S2048x2048_1_0 : S2048x2048.Transposes [1, 0] S2048x2048
  bcast_S_S4096x2048 : S_.BroadcastsInDim S4096x2048 (![] : Fin 0 → Fin S4096x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.KB.Region0.lean ====
import proofs.«112321_j35768487641178_2_alg».proof.Proof.Gen.Kernel.Launch
import proofs.«112321_j35768487641178_2_alg».proof.Proof.Gen.Kernel.Skeleton
import proofs.«112321_j35768487641178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel (the input-side linear maps, layer-normed): one grid point handles 256 batch rows of all four gates -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0X : Rect S256x1024 := Rect.unit (s := S256x1024) ![0, 0] S256x1024.size inb_S256x1024_S256x1024_0_0
abbrev r0W : Rect S2048x1024 := Rect.unit (s := S2048x1024) ![0, 0] S2048x1024.size inb_S2048x1024_S2048x1024_0_0
abbrev r0A : Rect S1x2048 := Rect.unit (s := S1x2048) ![0, 0] S1x2048.size inb_S1x2048_S1x2048_0_0
abbrev r0g0 : Rect S4x256x2048 := Rect.unit (s := S4x256x2048) ![0, 0, 0] S1x256x2048.size inb_S4x256x2048_S1x256x2048_0_0_0
abbrev r0g1 : Rect S4x256x2048 := Rect.unit (s := S4x256x2048) ![1, 0, 0] S1x256x2048.size inb_S4x256x2048_S1x256x2048_1_0_0
abbrev r0g2 : Rect S4x256x2048 := Rect.unit (s := S4x256x2048) ![2, 0, 0] S1x256x2048.size inb_S4x256x2048_S1x256x2048_2_0_0
abbrev r0g3 : Rect S4x256x2048 := Rect.unit (s := S4x256x2048) ![3, 0, 0] S1x256x2048.size inb_S4x256x2048_S1x256x2048_3_0_0

/-- What the body leaves in the output block: slab g (g = 0..3) is the layer norm of x·W_gᵀ + b_g with the shared scale and shift. -/
def out0_11 (x0 : Vec F S256x1024 .f32) (x1 x2 x3 x4 : Vec F S2048x1024 .bf16) (x5 x6 x7 x8 x9 x10 : Vec F S1x2048 .f32) : Vec F S4x256x2048 .f32 :=
  View.canon [⟨r0g3, k0_pay1 (k0_pay8 (k0_pay2 (View.ld x0 r0X)) (View.ld x4 r0W) (View.ld x8 r0A)) (View.ld x9 r0A) (View.ld x10 r0A) (k0_pay9 (k0_pay2 (View.ld x0 r0X)) (View.ld x4 r0W) (View.ld x8 r0A))⟩,
    ⟨r0g2, k0_pay7 (k0_pay6 (k0_pay2 (View.ld x0 r0X)) (View.ld x3 r0W) (View.ld x7 r0A)) (View.ld x9 r0A) (View.ld x10 r0A)⟩,
    ⟨r0g1, k0_pay5 (k0_pay2 (View.ld x0 r0X)) (k0_pay4 (View.ld x2 r0W)) (constant S256x2048 .f32 0x00000000#32) (View.ld x6 r0A) (View.ld x9 r0A) (View.ld x10 r0A)⟩,
    ⟨r0g0, k0_pay3 (View.ld x0 r0X) (View.ld x1 r0W) (View.ld x5 r0A) (View.ld x9 r0A) (View.ld x10 r0A)⟩]

theorem cover0_11 (p3 p2 p1 p0 : Vec F S1x256x2048 .f32) (y : S4x256x2048.Idx) :
    ∃ pc ∈ ([⟨r0g3, p3⟩, ⟨r0g2, p2⟩, ⟨r0g1, p1⟩, ⟨r0g0, p0⟩] : List (View.Piece (Elt F) S4x256x2048 .f32)), y ∈ pc.1.set :=
  View.cover_of_tiled [⟨r0g3, p3⟩, ⟨r0g2, p2⟩, ⟨r0g1, p1⟩, ⟨r0g0, p0⟩] S1x256x2048.size (by rfl) y

set_option maxHeartbeats 4000000 in
/-- The kernel body on whole staging buffers, the inputs' at given contents and the outputs' at anything, runs to the
    continuation holding the inputs' as they were and each output's at the body's result of the inputs. -/
theorem sound_kernel0 (c : Dev nD) (E : Set ℕ) (i : grid0.Coords)
    (arg1 : Memref sig .tc .vmem S256x1024 .f32) (harg1 : arg1.IsWhole)
    (arg2 : Memref sig .tc .vmem S2048x1024 .bf16) (harg2 : arg2.IsWhole)
    (arg3 : Memref sig .tc .vmem S2048x1024 .bf16) (harg3 : arg3.IsWhole)
    (arg4 : Memref sig .tc .vmem S2048x1024 .bf16) (harg4 : arg4.IsWhole)
    (arg5 : Memref sig .tc .vmem S2048x1024 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S1x2048 .f32) (harg9 : arg9.IsWhole)
    (arg10 : Memref sig .tc .vmem S1x2048 .f32) (harg10 : arg10.IsWhole)
    (arg11 : Memref sig .tc .vmem S1x2048 .f32) (harg11 : arg11.IsWhole)
    (arg12 : Memref sig .tc .vmem S4x256x2048 .f32) (harg12 : arg12.IsWhole)
    (x0 : Vec F S256x1024 .f32) (x1 : Vec F S2048x1024 .bf16) (x2 : Vec F S2048x1024 .bf16) (x3 : Vec F S2048x1024 .bf16) (x4 : Vec F S2048x1024 .bf16) (x5 : Vec F S1x2048 .f32) (x6 : Vec F S1x2048 .f32) (x7 : Vec F S1x2048 .f32) (x8 : Vec F S1x2048 .f32) (x9 : Vec F S1x2048 .f32) (x10 : Vec F S1x2048 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E (cc0__xside_kernel i arg1 harg1 arg2 harg2 arg3 harg3 arg4 harg4 arg5 harg5 arg6 harg6 arg7 harg7 arg8 harg8 arg9 harg9 arg10 harg10 arg11 harg11 arg12 harg12) K := by
  simp only [cc0__xside_kernel_eq_skeleton]; unfold cc0__xside_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _ _ _ _)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- The proof data of this pipeline on core `c`: the arrays as the region finds them; after the body at a point each input's
    buffer still holds its block and each output's holds the body's result of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the inputs' staging buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«112321_j35768487641178_2_alg».proof.Proof.Gen.Kernel.Launch
import proofs.«112321_j35768487641178_2_alg».proof.Proof.Gen.Kernel.Skeleton
import proofs.«112321_j35768487641178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel (the recurrent-side gates): one grid point handles 256 batch rows of one gate -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rH : Rect S256x2048 := Rect.unit (s := S256x2048) ![0, 0] S256x2048.size inb_S256x2048_S256x2048_0_0
abbrev rG : Rect S1x256x2048 := Rect.unit (s := S1x256x2048) ![0, 0, 0] S1x256x2048.size inb_S1x256x2048_S1x256x2048_0_0_0
abbrev rW : Rect S1x2048x2048 := Rect.unit (s := S1x2048x2048) ![0, 0, 0] S1x2048x2048.size inb_S1x2048x2048_S1x2048x2048_0_0_0
abbrev rB : Rect S1x1x2048 := Rect.unit (s := S1x1x2048) ![0, 0, 0] S1x1x2048.size inb_S1x1x2048_S1x1x2048_0_0_0
abbrev rA : Rect S1x2048 := Rect.unit (s := S1x2048) ![0, 0] S1x2048.size inb_S1x2048_S1x2048_0_0

/-- The pre-activation of the gate: layer norm of h·Wᵀ + b, plus the input-side term. -/
def pre1 (x0 : Vec F S256x2048 .f32) (x1 : Vec F S1x256x2048 .f32) (x2 : Vec F S1x2048x2048 .bf16) (x3 : Vec F S1x1x2048 .f32)
    (x4 x5 : Vec F S1x2048 .f32) : FVec F S256x2048 .f32 :=
  k1_pay2 (View.ld x0 rH) (View.ld x2 rW) (View.ld x3 rB) (View.ld x4 rA) (View.ld x5 rA) (View.ld x1 rG)

/-- What the body leaves in the output block: the activated gate, tanh for gate 2 and the logistic function otherwise. -/
def out1_6 (i : grid1.Coords) (x0 : Vec F S256x2048 .f32) (x1 : Vec F S1x256x2048 .f32) (x2 : Vec F S1x2048x2048 .bf16) (x3 : Vec F S1x1x2048 .f32)
    (x4 x5 : Vec F S1x2048 .f32) : Vec F S1x256x2048 .f32 :=
  View.canon [⟨rG, k1_pay1 (pre1 x0 x1 x2 x3 x4 x5) (Scalar.cmpi .eq (BitVec.ofNat 32 (i 1).val) 2#32)
    (k1_pay3 (View.ld x0 rH) (View.ld x2 rW) (View.ld x3 rB) (View.ld x4 rA) (View.ld x5 rA) (View.ld x1 rG))⟩]

theorem cover1_6 (p0 : Vec F S1x256x2048 .f32) (y : S1x256x2048.Idx) :
    ∃ pc ∈ ([⟨rG, p0⟩] : List (View.Piece (Elt F) S1x256x2048 .f32)), y ∈ pc.1.set :=
  View.cover_of_tiled [⟨rG, p0⟩] S1x256x2048.size (by rfl) y

set_option maxHeartbeats 2000000 in
theorem sound_kernel1 (c : Dev nD) (E : Set ℕ) (i : grid1.Coords)
    (arg2 : Memref sig .tc .vmem S256x2048 .f32) (harg2 : arg2.IsWhole) (arg3 : Memref sig .tc .vmem S1x256x2048 .f32) (harg3 : arg3.IsWhole)
    (arg4 : Memref sig .tc .vmem S1x2048x2048 .bf16) (harg4 : arg4.IsWhole) (arg5 : Memref sig .tc .vmem S1x1x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x256x2048 .f32) (harg8 : arg8.IsWhole)
    (x0 : Vec F S256x2048 .f32) (x1 : Vec F S1x256x2048 .f32) (x2 : Vec F S1x2048x2048 .bf16) (x3 : Vec F S1x1x2048 .f32)
    (x4 x5 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E (cc1__hside_kernel i arg2 harg2 arg3 harg3 arg4 harg4 arg5 harg5 arg6 harg6 arg7 harg7 arg8 harg8) K := by
  simp only [cc1__hside_kernel_eq_skeleton]; unfold cc1__hside_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core `c`: the arrays as the region finds them; after the body at a point each input's
    buffer still holds its block and each output's holds the body's result of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' staging buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«112321_j35768487641178_2_alg».proof.Proof.Gen.Kernel.Launch
import proofs.«112321_j35768487641178_2_alg».proof.Proof.Gen.Kernel.Skeleton
import proofs.«112321_j35768487641178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third kernel (cell update, hidden state, decoder): one grid point handles 128 batch rows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2g0 : Rect S4x128x2048 := Rect.unit (s := S4x128x2048) ![0, 0, 0] S1x128x2048.size inb_S4x128x2048_S1x128x2048_0_0_0
abbrev r2g1 : Rect S4x128x2048 := Rect.unit (s := S4x128x2048) ![1, 0, 0] S1x128x2048.size inb_S4x128x2048_S1x128x2048_1_0_0
abbrev r2g2 : Rect S4x128x2048 := Rect.unit (s := S4x128x2048) ![2, 0, 0] S1x128x2048.size inb_S4x128x2048_S1x128x2048_2_0_0
abbrev r2g3 : Rect S4x128x2048 := Rect.unit (s := S4x128x2048) ![3, 0, 0] S1x128x2048.size inb_S4x128x2048_S1x128x2048_3_0_0
abbrev r2C : Rect S128x2048 := Rect.unit (s := S128x2048) ![0, 0] S128x2048.size inb_S128x2048_S128x2048_0_0
abbrev r2A : Rect S1x2048 := Rect.unit (s := S1x2048) ![0, 0] S1x2048.size inb_S1x2048_S1x2048_0_0
abbrev r2W : Rect S1024x2048 := Rect.unit (s := S1024x2048) ![0, 0] S1024x2048.size inb_S1024x2048_S1024x2048_0_0
abbrev r2B : Rect S1x1024 := Rect.unit (s := S1x1024) ![0, 0] S1x1024.size inb_S1x1024_S1x1024_0_0
abbrev r2O : Rect S128x1024 := Rect.unit (s := S128x1024) ![0, 0] S128x1024.size inb_S128x1024_S128x1024_0_0

/-- The new cell state block: forget gate times old cell plus input gate times candidate. -/
def out2_8 (x0 : Vec F S4x128x2048 .f32) (x1 : Vec F S128x2048 .f32) : Vec F S128x2048 .f32 :=
  View.canon [⟨r2C, k2_pay4 (View.ld x0 r2g0) (View.ld x0 r2g1) (View.ld x0 r2g2) (View.ld x1 r2C)⟩]
/-- The new hidden state block: output gate times tanh of the layer-normed cell state. -/
def out2_7 (x0 : Vec F S4x128x2048 .f32) (x1 : Vec F S128x2048 .f32) (x2 x3 : Vec F S1x2048 .f32) : Vec F S128x2048 .f32 :=
  View.canon [⟨r2C, k2_pay1 (k2_pay3 (View.ld x0 r2g3)) (View.ld x3 r2A) (k2_pay5 (View.ld x0 r2g0) (View.ld x0 r2g1) (View.ld x0 r2g2) (View.ld x1 r2C) (View.ld x2 r2A))⟩]
/-- The decoder block: hidden state times the decoder weight transposed, plus bias. -/
def out2_6 (x0 : Vec F S4x128x2048 .f32) (x1 : Vec F S128x2048 .f32) (x2 x3 : Vec F S1x2048 .f32) (x4 : Vec F S1024x2048 .bf16) (x5 : Vec F S1x1024 .f32) : Vec F S128x1024 .f32 :=
  View.canon [⟨r2O, k2_pay2 (k2_pay3 (View.ld x0 r2g3)) (View.ld x3 r2A) (k2_pay5 (View.ld x0 r2g0) (View.ld x0 r2g1) (View.ld x0 r2g2) (View.ld x1 r2C) (View.ld x2 r2A)) (View.ld x4 r2W) (View.ld x5 r2B)⟩]

theorem cover2_C (p0 : Vec F S128x2048 .f32) (y : S128x2048.Idx) :
    ∃ pc ∈ ([⟨r2C, p0⟩] : List (View.Piece (Elt F) S128x2048 .f32)), y ∈ pc.1.set :=
  View.cover_of_tiled [⟨r2C, p0⟩] S128x2048.size (by rfl) y
theorem cover2_O (p0 : Vec F S128x1024 .f32) (y : S128x1024.Idx) :
    ∃ pc ∈ ([⟨r2O, p0⟩] : List (View.Piece (Elt F) S128x1024 .f32)), y ∈ pc.1.set :=
  View.cover_of_tiled [⟨r2O, p0⟩] S128x1024.size (by rfl) y

set_option maxHeartbeats 4000000 in
/-- The kernel body on whole staging buffers, the inputs' at given contents and the outputs' at anything, runs to the
    continuation holding the inputs' as they were and each output's at the body's result of the inputs. -/
theorem sound_kernel2 (c : Dev nD) (E : Set ℕ) (i : grid2.Coords)
    (arg1 : Memref sig .tc .vmem S4x128x2048 .f32) (harg1 : arg1.IsWhole)
    (arg2 : Memref sig .tc .vmem S128x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1024x2048 .bf16) (harg5 : arg5.IsWhole)
    (arg6 : Memref sig .tc .vmem S1x1024 .f32) (harg6 : arg6.IsWhole)
    (arg7 : Memref sig .tc .vmem S128x1024 .f32) (harg7 : arg7.IsWhole)
    (arg8 : Memref sig .tc .vmem S128x2048 .f32) (harg8 : arg8.IsWhole)
    (arg9 : Memref sig .tc .vmem S128x2048 .f32) (harg9 : arg9.IsWhole)
    (x0 : Vec F S4x128x2048 .f32) (x1 : Vec F S128x2048 .f32) (x2 : Vec F S1x2048 .f32) (x3 : Vec F S1x2048 .f32) (x4 : Vec F S1024x2048 .bf16) (x5 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out2_6 x0 x1 x2 x3 x4 x5)
            ∗ owns (c : Thread nD τ) arg8 fullShare (out2_7 x0 x1 x2 x3)
            ∗ owns (c : Thread nD τ) arg9 fullShare (out2_8 x0 x1)) -∗ K ⟨⟩))
      ⊢ wp frame (wpE (defs₀ (F := F)) Variants.none c none) E (cc2__rec_kernel i arg1 harg1 arg2 harg2 arg3 harg3 arg4 harg4 arg5 harg5 arg6 harg6 arg7 harg7 arg8 harg8 arg9 harg9) K := by
  simp only [cc2__rec_kernel_eq_skeleton]; unfold cc2__rec_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_O _)
  isplitl [H7]
  · iexists _; isplitr
    swap; · iexact H7
    ipureintro
    exact View.read_writes_eq_canon _ _ _ (cover2_C _)
  iexists _; isplitr
  swap; · iexact H8
  ipureintro
  exact View.read_writes_eq_canon _ _ _ (cover2_C _)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of this pipeline on core `c`: the arrays as the region finds them; after the body at a point each input's
    buffer still holds its block and each output's holds the body's result of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t)
    | ⟨8, _⟩ => out2_8 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) := by dsimp only [dat2]
theorem after2_8 (c : Dev nD) (t : Fin cfg2.N) : (dat2 V c).after 8 t = out2_8 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 2000000 in
/-- The body at any point: the inputs' staging buffers hold their blocks, so the kernel's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
import proofs.«112321_j35768487641178_2_alg».proof.Proof.Gen.Kernel.Launch
import proofs.«112321_j35768487641178_2_alg».proof.Proof.Gen.Kernel.Regions
import proofs.«112321_j35768487641178_2_alg».proof.Proof.KB.Region0
import proofs.«112321_j35768487641178_2_alg».proof.Proof.KB.Region1
import proofs.«112321_j35768487641178_2_alg».proof.Proof.KB.Region2
import proofs.«112321_j35768487641178_2_alg».proof.Proof.Gen.Kernel.Skeleton
import proofs.«112321_j35768487641178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the host stretch, then the three kernel regions, from the launch to the return

## The buffer contents at each boundary -/

/-- Core `c`'s buffers at launch. -/
abbrev B0 : Dev nD → Valuation τ sig (Elt F) := fun c b => (s₀ m ρ).mem ((c : Dev nD), b)
/-- After the host operations (casts of the weights to bf16, the stacking of the recurrent weights and biases, the reshapes). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At kernel region 0's exit: its arrays at what the pipeline leaves (inputs as entered, each output's blocks written back),
    every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)

abbrev E2 : (c : Dev nD) → (b : Ref sig .tc) → Buf (Elt F) ((c : Thread nD τ).loc b) := X2 m ρ
/-- At kernel region 1's exit: its arrays at what the pipeline leaves (inputs as entered, each output's blocks written back),
    every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- The same read at the TensorCore's references. -/
abbrev X3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = X3 m ρ c (Pipeline.arrRef spec1 w) :=
  (B3_arr m ρ c w).symm
theorem hrest1 (c : Dev nD) : ∀ b, b ∉ Finset.univ.image (Pipeline.arrRef spec1) → X3 m ρ c b = E2 m ρ c b :=
  fun b hb => B3_of_ne m ρ c b fun w e => hb (Finset.mem_image.mpr ⟨w, Finset.mem_univ _, e⟩)

abbrev E3 : (c : Dev nD) → (b : Ref sig .tc) → Buf (Elt F) ((c : Thread nD τ).loc b) := X3 m ρ
/-- At kernel region 2's exit: its arrays at what the pipeline leaves (inputs as entered, each output's blocks written back),
    every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
/-- The same read at the TensorCore's references. -/
abbrev X4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = X4 m ρ c (Pipeline.arrRef spec2 w) :=
  (B4_arr m ρ c w).symm
theorem hrest2 (c : Dev nD) : ∀ b, b ∉ Finset.univ.image (Pipeline.arrRef spec2) → X4 m ρ c b = E3 m ρ c b :=
  fun b hb => B4_of_ne m ρ c b fun w e => hb (Finset.mem_image.mpr ⟨w, Finset.mem_univ _, e⟩)

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := (B3_arr m ρ c 0).trans (((dat1 (E2 m ρ) c).arrAt_in 0 rfl _).trans (A_eq1 (E2 m ρ) c 0))
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := (B4_arr m ρ c 1).trans (((dat2 (E3 m ρ) c).arrAt_in 1 rfl _).trans (A_eq2 (E3 m ρ) c 1))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl
theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B4_main_arg10 (c : Dev nD) : B4 m ρ c (Proc.devRef .tc main_arg10) = m ((c : Thread nD τ).loc main_arg10) :=
  calc B4 m ρ c (Proc.devRef .tc main_arg10)
    _ = B3 m ρ c (Proc.devRef .tc main_arg10) := B4_of_ne m ρ c main_arg10 (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl
theorem B4_main_arg11 (c : Dev nD) : B4 m ρ c (Proc.devRef .tc main_arg11) = m ((c : Thread nD τ).loc main_arg11) :=
  calc B4 m ρ c (Proc.devRef .tc main_arg11)
    _ = B3 m ρ c (Proc.devRef .tc main_arg11) := B4_of_ne m ρ c main_arg11 (by decide)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl
theorem B4_main_arg12 (c : Dev nD) : B4 m ρ c (Proc.devRef .tc main_arg12) = m ((c : Thread nD τ).loc main_arg12) :=
  calc B4 m ρ c (Proc.devRef .tc main_arg12)
    _ = B3 m ρ c (Proc.devRef .tc main_arg12) := B4_of_ne m ρ c main_arg12 (by decide)
    _ = B2 m ρ c (Proc.devRef .tc main_arg12) := B3_of_ne m ρ c main_arg12 (by decide)
    _ = B1 m ρ c (Proc.devRef .tc main_arg12) := B2_of_ne m ρ c main_arg12 (by decide)
    _ = B0 m ρ c (Proc.devRef .tc main_arg12) := StableHlo.after_of_writes_sub hostOps0 _ hostOps0_writes (by decide)
    _ = m ((c : Thread nD τ).loc main_arg12) := rfl
theorem B4_main_arg13 (c : Dev nD) : B4 m ρ c (Proc.devRef .tc main_arg13) = m ((c : Thread nD τ).loc main_arg13) :=
  calc B4 m ρ c (Proc.devRef .tc main_arg13)
    _ = B3 m ρ c (Proc.devRef .tc main_arg13) := B4_of_ne m ρ c main_arg13 (by decide)
    _ = B2 m ρ c (Proc.devRef .tc main_arg13) := B3_of_ne m ρ c main_arg13 (by decide)
    _ = B1 m ρ c (Proc.devRef .tc main_arg13) := B2_of_ne m ρ c main_arg13 (by decide)
    _ = B0 m ρ c (Proc.devRef .tc main_arg13) := StableHlo.after_of_writes_sub hostOps0 _ hostOps0_writes (by decide)
    _ = m ((c : Thread nD τ).loc main_arg13) := rfl
theorem B4_main_arg14 (c : Dev nD) : B4 m ρ c (Proc.devRef .tc main_arg14) = m ((c : Thread nD τ).loc main_arg14) :=
  calc B4 m ρ c (Proc.devRef .tc main_arg14)
    _ = B3 m ρ c (Proc.devRef .tc main_arg14) := B4_of_ne m ρ c main_arg14 (by decide)
    _ = B2 m ρ c (Proc.devRef .tc main_arg14) := B3_of_ne m ρ c main_arg14 (by decide)
    _ = B1 m ρ c (Proc.devRef .tc main_arg14) := B2_of_ne m ρ c main_arg14 (by decide)
    _ = B0 m ρ c (Proc.devRef .tc main_arg14) := StableHlo.after_of_writes_sub hostOps0 _ hostOps0_writes (by decide)
    _ = m ((c : Thread nD τ).loc main_arg14) := rfl
theorem B4_main_arg15 (c : Dev nD) : B4 m ρ c (Proc.devRef .tc main_arg15) = m ((c : Thread nD τ).loc main_arg15) :=
  calc B4 m ρ c (Proc.devRef .tc main_arg15)
    _ = B3 m ρ c (Proc.devRef .tc main_arg15) := B4_of_ne m ρ c main_arg15 (by decide)
    _ = B2 m ρ c (Proc.devRef .tc main_arg15) := B3_of_ne m ρ c main_arg15 (by decide)
    _ = B1 m ρ c (Proc.devRef .tc main_arg15) := B2_of_ne m ρ c main_arg15 (by decide)
    _ = B0 m ρ c (Proc.devRef .tc main_arg15) := StableHlo.after_of_writes_sub hostOps0 _ hostOps0_writes (by decide)
    _ = m ((c : Thread nD τ).loc main_arg15) := rfl
theorem B4_main_arg16 (c : Dev nD) : B4 m ρ c (Proc.devRef .tc main_arg16) = m ((c : Thread nD τ).loc main_arg16) :=
  calc B4 m ρ c (Proc.devRef .tc main_arg16)
    _ = B3 m ρ c (Proc.devRef .tc main_arg16) := B4_of_ne m ρ c main_arg16 (by decide)
    _ = B2 m ρ c (Proc.devRef .tc main_arg16) := B3_of_ne m ρ c main_arg16 (by decide)
    _ = B1 m ρ c (Proc.devRef .tc main_arg16) := B2_of_ne m ρ c main_arg16 (by decide)
    _ = B0 m ρ c (Proc.devRef .tc main_arg16) := StableHlo.after_of_writes_sub hostOps0 _ hostOps0_writes (by decide)
    _ = m ((c : Thread nD τ).loc main_arg16) := rfl
theorem B4_main_arg17 (c : Dev nD) : B4 m ρ c (Proc.devRef .tc main_arg17) = m ((c : Thread nD τ).loc main_arg17) :=
  calc B4 m ρ c (Proc.devRef .tc main_arg17)
    _ = B3 m ρ c (Proc.devRef .tc main_arg17) := B4_of_ne m ρ c main_arg17 (by decide)
    _ = B2 m ρ c (Proc.devRef .tc main_arg17) := B3_of_ne m ρ c main_arg17 (by decide)
    _ = B1 m ρ c (Proc.devRef .tc main_arg17) := B2_of_ne m ρ c main_arg17 (by decide)
    _ = B0 m ρ c (Proc.devRef .tc main_arg17) := StableHlo.after_of_writes_sub hostOps0 _ hostOps0_writes (by decide)
    _ = m ((c : Thread nD τ).loc main_arg17) := rfl
theorem B4_main_arg18 (c : Dev nD) : B4 m ρ c (Proc.devRef .tc main_arg18) = m ((c : Thread nD τ).loc main_arg18) :=
  calc B4 m ρ c (Proc.devRef .tc main_arg18)
    _ = B3 m ρ c (Proc.devRef .tc main_arg18) := B4_of_ne m ρ c main_arg18 (by decide)
    _ = B2 m ρ c (Proc.devRef .tc main_arg18) := B3_of_ne m ρ c main_arg18 (by decide)
    _ = B1 m ρ c (Proc.devRef .tc main_arg18) := B2_of_ne m ρ c main_arg18 (by decide)
    _ = B0 m ρ c (Proc.devRef .tc main_arg18) := StableHlo.after_of_writes_sub hostOps0 _ hostOps0_writes (by decide)
    _ = m ((c : Thread nD τ).loc main_arg18) := rfl
theorem B4_main_arg19 (c : Dev nD) : B4 m ρ c (Proc.devRef .tc main_arg19) = m ((c : Thread nD τ).loc main_arg19) :=
  calc B4 m ρ c (Proc.devRef .tc main_arg19)
    _ = B3 m ρ c (Proc.devRef .tc main_arg19) := B4_of_ne m ρ c main_arg19 (by decide)
    _ = B2 m ρ c (Proc.devRef .tc main_arg19) := B3_of_ne m ρ c main_arg19 (by decide)
    _ = B1 m ρ c (Proc.devRef .tc main_arg19) := B2_of_ne m ρ c main_arg19 (by decide)
    _ = B0 m ρ c (Proc.devRef .tc main_arg19) := StableHlo.after_of_writes_sub hostOps0 _ hostOps0_writes (by decide)
    _ = m ((c : Thread nD τ).loc main_arg19) := rfl
theorem B4_main_arg20 (c : Dev nD) : B4 m ρ c (Proc.devRef .tc main_arg20) = m ((c : Thread nD τ).loc main_arg20) :=
  calc B4 m ρ c (Proc.devRef .tc main_arg20)
    _ = B3 m ρ c (Proc.devRef .tc main_arg20) := B4_of_ne m ρ c main_arg20 (by decide)
    _ = B2 m ρ c (Proc.devRef .tc main_arg20) := B3_of_ne m ρ c main_arg20 (by decide)
    _ = B1 m ρ c (Proc.devRef .tc main_arg20) := B2_of_ne m ρ c main_arg20 (by decide)
    _ = B0 m ρ c (Proc.devRef .tc main_arg20) := StableHlo.after_of_writes_sub hostOps0 _ hostOps0_writes (by decide)
    _ = m ((c : Thread nD τ).loc main_arg20) := rfl
theorem B4_main_arg21 (c : Dev nD) : B4 m ρ c (Proc.devRef .tc main_arg21) = m ((c : Thread nD τ).loc main_arg21) :=
  calc B4 m ρ c (Proc.devRef .tc main_arg21)
    _ = B3 m ρ c (Proc.devRef .tc main_arg21) := B4_of_ne m ρ c main_arg21 (by decide)
    _ = B2 m ρ c (Proc.devRef .tc main_arg21) := B3_of_ne m ρ c main_arg21 (by decide)
    _ = B1 m ρ c (Proc.devRef .tc main_arg21) := (B2_arr m ρ c 9).trans (((dat0 (E1 m ρ) c).arrAt_in 9 rfl _).trans (A_eq0 (E1 m ρ) c 9))
    _ = B0 m ρ c (Proc.devRef .tc main_arg21) := StableHlo.after_of_writes_sub hostOps0 _ hostOps0_writes (by decide)
    _ = m ((c : Thread nD τ).loc main_arg21) := rfl
theorem B4_main_arg22 (c : Dev nD) : B4 m ρ c (Proc.devRef .tc main_arg22) = m ((c : Thread nD τ).loc main_arg22) :=
  calc B4 m ρ c (Proc.devRef .tc main_arg22)
    _ = B3 m ρ c (Proc.devRef .tc main_arg22) := B4_of_ne m ρ c main_arg22 (by decide)
    _ = B2 m ρ c (Proc.devRef .tc main_arg22) := B3_of_ne m ρ c main_arg22 (by decide)
    _ = B1 m ρ c (Proc.devRef .tc main_arg22) := (B2_arr m ρ c 10).trans (((dat0 (E1 m ρ) c).arrAt_in 10 rfl _).trans (A_eq0 (E1 m ρ) c 10))
    _ = B0 m ρ c (Proc.devRef .tc main_arg22) := StableHlo.after_of_writes_sub hostOps0 _ hostOps0_writes (by decide)
    _ = m ((c : Thread nD τ).loc main_arg22) := rfl
theorem B4_main_arg23 (c : Dev nD) : B4 m ρ c (Proc.devRef .tc main_arg23) = m ((c : Thread nD τ).loc main_arg23) :=
  calc B4 m ρ c (Proc.devRef .tc main_arg23)
    _ = B3 m ρ c (Proc.devRef .tc main_arg23) := B4_of_ne m ρ c main_arg23 (by decide)
    _ = B2 m ρ c (Proc.devRef .tc main_arg23) := (B3_arr m ρ c 4).trans (((dat1 (E2 m ρ) c).arrAt_in 4 rfl _).trans (A_eq1 (E2 m ρ) c 4))
    _ = B1 m ρ c (Proc.devRef .tc main_arg23) := B2_of_ne m ρ c main_arg23 (by decide)
    _ = B0 m ρ c (Proc.devRef .tc main_arg23) := StableHlo.after_of_writes_sub hostOps0 _ hostOps0_writes (by decide)
    _ = m ((c : Thread nD τ).loc main_arg23) := rfl
theorem B4_main_arg24 (c : Dev nD) : B4 m ρ c (Proc.devRef .tc main_arg24) = m ((c : Thread nD τ).loc main_arg24) :=
  calc B4 m ρ c (Proc.devRef .tc main_arg24)
    _ = B3 m ρ c (Proc.devRef .tc main_arg24) := B4_of_ne m ρ c main_arg24 (by decide)
    _ = B2 m ρ c (Proc.devRef .tc main_arg24) := (B3_arr m ρ c 5).trans (((dat1 (E2 m ρ) c).arrAt_in 5 rfl _).trans (A_eq1 (E2 m ρ) c 5))
    _ = B1 m ρ c (Proc.devRef .tc main_arg24) := B2_of_ne m ρ c main_arg24 (by decide)
    _ = B0 m ρ c (Proc.devRef .tc main_arg24) := StableHlo.after_of_writes_sub hostOps0 _ hostOps0_writes (by decide)
    _ = m ((c : Thread nD τ).loc main_arg24) := rfl
theorem B4_main_arg25 (c : Dev nD) : B4 m ρ c (Proc.devRef .tc main_arg25) = m ((c : Thread nD τ).loc main_arg25) :=
  calc B4 m ρ c (Proc.devRef .tc main_arg25)
    _ = B3 m ρ c (Proc.devRef .tc main_arg25) := (B4_arr m ρ c 2).trans (((dat2 (E3 m ρ) c).arrAt_in 2 rfl _).trans (A_eq2 (E3 m ρ) c 2))
    _ = B2 m ρ c (Proc.devRef .tc main_arg25) := B3_of_ne m ρ c main_arg25 (by decide)
    _ = B1 m ρ c (Proc.devRef .tc main_arg25) := B2_of_ne m ρ c main_arg25 (by decide)
    _ = B0 m ρ c (Proc.devRef .tc main_arg25) := StableHlo.after_of_writes_sub hostOps0 _ hostOps0_writes (by decide)
    _ = m ((c : Thread nD τ).loc main_arg25) := rfl
theorem B4_main_arg26 (c : Dev nD) : B4 m ρ c (Proc.devRef .tc main_arg26) = m ((c : Thread nD τ).loc main_arg26) :=
  calc B4 m ρ c (Proc.devRef .tc main_arg26)
    _ = B3 m ρ c (Proc.devRef .tc main_arg26) := (B4_arr m ρ c 3).trans (((dat2 (E3 m ρ) c).arrAt_in 3 rfl _).trans (A_eq2 (E3 m ρ) c 3))
    _ = B2 m ρ c (Proc.devRef .tc main_arg26) := B3_of_ne m ρ c main_arg26 (by decide)
    _ = B1 m ρ c (Proc.devRef .tc main_arg26) := B2_of_ne m ρ c main_arg26 (by decide)
    _ = B0 m ρ c (Proc.devRef .tc main_arg26) := StableHlo.after_of_writes_sub hostOps0 _ hostOps0_writes (by decide)
    _ = m ((c : Thread nD τ).loc main_arg26) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev noVar : Variants := Variants.none
abbrev noL : GSem nD τ sig → Finset Unit := fun _ => ∅
abbrev noLv : GSem nD τ sig → Unit → ℕ := fun _ _ => 0
/-- What rides beside the buffers through every item: the core's random-number register at some state and its dues, at nothing. -/
abbrev rest (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The regions as items -/

set_option backward.isDefEq.respectTransparency.types false in
/-- Kernel region 0 over the thread state: entered from every unscoped buffer at the boundary before it, left at the one after.
    Its arrays are split out of the unscoped buffers and put back at the exit contents; the random-number register goes into the
    pipeline's invariant and comes out; nothing is owed; the kernel has no semaphore of its own. -/
def reg0 : Pipeline.RegionSeg (pcfgs (F := F)) adm (pdats m ρ) () defs₀ noVar noL noLv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noL noLv 0 fun _ _ => rfl
  pre c := iprop(StableHlo.held (c : Thread nD τ) (Pipeline.ucRefs τ sig) (B1 m ρ c) ∗ rest c)
  post c := iprop(StableHlo.held (c : Thread nD τ) (Pipeline.ucRefs τ sig) (B2 m ρ c) ∗ rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary before it, left at the one after.
    Its arrays are split out of the unscoped buffers and put back at the exit contents; the random-number register goes into the
    pipeline's invariant and comes out; nothing is owed; the kernel has no semaphore of its own. -/
def reg1 : Pipeline.RegionSeg (pcfgs (F := F)) adm (pdats m ρ) () defs₀ noVar noL noLv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noL noLv 1 fun _ _ => rfl
  pre c := iprop(StableHlo.held (c : Thread nD τ) (Pipeline.ucRefs τ sig) (B2 m ρ c) ∗ rest c)
  post c := iprop(StableHlo.held (c : Thread nD τ) (Pipeline.ucRefs τ sig) (B3 m ρ c) ∗ rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (X3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the boundary before it, left at the one after.
    Its arrays are split out of the unscoped buffers and put back at the exit contents; the random-number register goes into the
    pipeline's invariant and comes out; nothing is owed; the kernel has no semaphore of its own. -/
def reg2 : Pipeline.RegionSeg (pcfgs (F := F)) adm (pdats m ρ) () defs₀ noVar noL noLv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noL noLv 2 fun _ _ => rfl
  pre c := iprop(StableHlo.held (c : Thread nD τ) (Pipeline.ucRefs τ sig) (B3 m ρ c) ∗ rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (X4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm (pdats m ρ) () defs₀ noVar noL noLv) :=
  [ .host (hostItem hostOps0 hostOps0_sub hostOps0_fresh (B0 m ρ)),
    .region (reg0 m ρ),
    .region (reg1 m ρ),
    .region (reg2 m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVar noL noLv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rest c)) (Tₙ := Tend m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c),
     (h c _ (mem_uc main_arg7 (by decide))).trans (B4_main_arg7 m ρ c),
     (h c _ (mem_uc main_arg8 (by decide))).trans (B4_main_arg8 m ρ c),
     (h c _ (mem_uc main_arg9 (by decide))).trans (B4_main_arg9 m ρ c),
     (h c _ (mem_uc main_arg10 (by decide))).trans (B4_main_arg10 m ρ c),
     (h c _ (mem_uc main_arg11 (by decide))).trans (B4_main_arg11 m ρ c),
     (h c _ (mem_uc main_arg12 (by decide))).trans (B4_main_arg12 m ρ c),
     (h c _ (mem_uc main_arg13 (by decide))).trans (B4_main_arg13 m ρ c),
     (h c _ (mem_uc main_arg14 (by decide))).trans (B4_main_arg14 m ρ c),
     (h c _ (mem_uc main_arg15 (by decide))).trans (B4_main_arg15 m ρ c),
     (h c _ (mem_uc main_arg16 (by decide))).trans (B4_main_arg16 m ρ c),
     (h c _ (mem_uc main_arg17 (by decide))).trans (B4_main_arg17 m ρ c),
     (h c _ (mem_uc main_arg18 (by decide))).trans (B4_main_arg18 m ρ c),
     (h c _ (mem_uc main_arg19 (by decide))).trans (B4_main_arg19 m ρ c),
     (h c _ (mem_uc main_arg20 (by decide))).trans (B4_main_arg20 m ρ c),
     (h c _ (mem_uc main_arg21 (by decide))).trans (B4_main_arg21 m ρ c),
     (h c _ (mem_uc main_arg22 (by decide))).trans (B4_main_arg22 m ρ c),
     (h c _ (mem_uc main_arg23 (by decide))).trans (B4_main_arg23 m ρ c),
     (h c _ (mem_uc main_arg24 (by decide))).trans (B4_main_arg24 m ρ c),
     (h c _ (mem_uc main_arg25 (by decide))).trans (B4_main_arg25 m ρ c),
     (h c _ (mem_uc main_arg26 (by decide))).trans (B4_main_arg26 m ρ c)⟩) (run_all m ρ)

end Cert.Kernel.Hand

end
-- ==== Proof.KI.Region0.lean ====
import proofs.«112321_j35768487641178_2_alg».proof.Proof.Gen.KernelIdeal.Launch
import proofs.«112321_j35768487641178_2_alg».proof.Proof.Gen.KernelIdeal.Skeleton
import proofs.«112321_j35768487641178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel (the input-side linear maps, layer-normed): one grid point handles 256 batch rows of all four gates -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0X : Rect S256x1024 := Rect.unit (s := S256x1024) ![0, 0] S256x1024.size inb_S256x1024_S256x1024_0_0
abbrev r0W : Rect S2048x1024 := Rect.unit (s := S2048x1024) ![0, 0] S2048x1024.size inb_S2048x1024_S2048x1024_0_0
abbrev r0A : Rect S1x2048 := Rect.unit (s := S1x2048) ![0, 0] S1x2048.size inb_S1x2048_S1x2048_0_0
abbrev r0g0 : Rect S4x256x2048 := Rect.unit (s := S4x256x2048) ![0, 0, 0] S1x256x2048.size inb_S4x256x2048_S1x256x2048_0_0_0
abbrev r0g1 : Rect S4x256x2048 := Rect.unit (s := S4x256x2048) ![1, 0, 0] S1x256x2048.size inb_S4x256x2048_S1x256x2048_1_0_0
abbrev r0g2 : Rect S4x256x2048 := Rect.unit (s := S4x256x2048) ![2, 0, 0] S1x256x2048.size inb_S4x256x2048_S1x256x2048_2_0_0
abbrev r0g3 : Rect S4x256x2048 := Rect.unit (s := S4x256x2048) ![3, 0, 0] S1x256x2048.size inb_S4x256x2048_S1x256x2048_3_0_0

/-- What the body leaves in the output block: slab g (g = 0..3) is the layer norm of x·W_gᵀ + b_g with the shared scale and shift. -/
def out0_11 (x0 : Vec F S256x1024 .f32) (x1 x2 x3 x4 : Vec F S2048x1024 .bf16) (x5 x6 x7 x8 x9 x10 : Vec F S1x2048 .f32) : Vec F S4x256x2048 .f32 :=
  View.canon [⟨r0g3, k0_pay1 (k0_pay8 (k0_pay2 (View.ld x0 r0X)) (View.ld x4 r0W) (View.ld x8 r0A)) (View.ld x9 r0A) (View.ld x10 r0A) (k0_pay9 (k0_pay2 (View.ld x0 r0X)) (View.ld x4 r0W) (View.ld x8 r0A))⟩,
    ⟨r0g2, k0_pay7 (k0_pay6 (k0_pay2 (View.ld x0 r0X)) (View.ld x3 r0W) (View.ld x7 r0A)) (View.ld x9 r0A) (View.ld x10 r0A)⟩,
    ⟨r0g1, k0_pay5 (k0_pay2 (View.ld x0 r0X)) (k0_pay4 (View.ld x2 r0W)) (constant S256x2048 .f32 0x00000000#32) (View.ld x6 r0A) (View.ld x9 r0A) (View.ld x10 r0A)⟩,
    ⟨r0g0, k0_pay3 (View.ld x0 r0X) (View.ld x1 r0W) (View.ld x5 r0A) (View.ld x9 r0A) (View.ld x10 r0A)⟩]

theorem cover0_11 (p3 p2 p1 p0 : Vec F S1x256x2048 .f32) (y : S4x256x2048.Idx) :
    ∃ pc ∈ ([⟨r0g3, p3⟩, ⟨r0g2, p2⟩, ⟨r0g1, p1⟩, ⟨r0g0, p0⟩] : List (View.Piece (Elt F) S4x256x2048 .f32)), y ∈ pc.1.set :=
  View.cover_of_tiled [⟨r0g3, p3⟩, ⟨r0g2, p2⟩, ⟨r0g1, p1⟩, ⟨r0g0, p0⟩] S1x256x2048.size (by rfl) y

set_option maxHeartbeats 4000000 in
/-- The kernel body on whole staging buffers, the inputs' at given contents and the outputs' at anything, runs to the
    continuation holding the inputs' as they were and each output's at the body's result of the inputs. -/
theorem sound_kernel0 (c : Dev nD) (E : Set ℕ) (i : grid0.Coords)
    (arg1 : Memref sig .tc .vmem S256x1024 .f32) (harg1 : arg1.IsWhole)
    (arg2 : Memref sig .tc .vmem S2048x1024 .bf16) (harg2 : arg2.IsWhole)
    (arg3 : Memref sig .tc .vmem S2048x1024 .bf16) (harg3 : arg3.IsWhole)
    (arg4 : Memref sig .tc .vmem S2048x1024 .bf16) (harg4 : arg4.IsWhole)
    (arg5 : Memref sig .tc .vmem S2048x1024 .bf16) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S1x2048 .f32) (harg9 : arg9.IsWhole)
    (arg10 : Memref sig .tc .vmem S1x2048 .f32) (harg10 : arg10.IsWhole)
    (arg11 : Memref sig .tc .vmem S1x2048 .f32) (harg11 : arg11.IsWhole)
    (arg12 : Memref sig .tc .vmem S4x256x2048 .f32) (harg12 : arg12.IsWhole)
    (x0 : Vec F S256x1024 .f32) (x1 : Vec F S2048x1024 .bf16) (x2 : Vec F S2048x1024 .bf16) (x3 : Vec F S2048x1024 .bf16) (x4 : Vec F S2048x1024 .bf16) (x5 : Vec F S1x2048 .f32) (x6 : Vec F S1x2048 .f32) (x7 : Vec F S1x2048 .f32) (x8 : Vec F S1x2048 .f32) (x9 : Vec F S1x2048 .f32) (x10 : Vec F S1x2048 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E (cc0__xside_kernel i arg1 harg1 arg2 harg2 arg3 harg3 arg4 harg4 arg5 harg5 arg6 harg6 arg7 harg7 arg8 harg8 arg9 harg9 arg10 harg10 arg11 harg11 arg12 harg12) K := by
  simp only [cc0__xside_kernel_eq_skeleton]; unfold cc0__xside_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _ _ _ _)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- The proof data of this pipeline on core `c`: the arrays as the region finds them; after the body at a point each input's
    buffer still holds its block and each output's holds the body's result of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the inputs' staging buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«112321_j35768487641178_2_alg».proof.Proof.Gen.KernelIdeal.Launch
import proofs.«112321_j35768487641178_2_alg».proof.Proof.Gen.KernelIdeal.Skeleton
import proofs.«112321_j35768487641178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel (the recurrent-side gates): one grid point handles 256 batch rows of one gate -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rH : Rect S256x2048 := Rect.unit (s := S256x2048) ![0, 0] S256x2048.size inb_S256x2048_S256x2048_0_0
abbrev rG : Rect S1x256x2048 := Rect.unit (s := S1x256x2048) ![0, 0, 0] S1x256x2048.size inb_S1x256x2048_S1x256x2048_0_0_0
abbrev rW : Rect S1x2048x2048 := Rect.unit (s := S1x2048x2048) ![0, 0, 0] S1x2048x2048.size inb_S1x2048x2048_S1x2048x2048_0_0_0
abbrev rB : Rect S1x1x2048 := Rect.unit (s := S1x1x2048) ![0, 0, 0] S1x1x2048.size inb_S1x1x2048_S1x1x2048_0_0_0
abbrev rA : Rect S1x2048 := Rect.unit (s := S1x2048) ![0, 0] S1x2048.size inb_S1x2048_S1x2048_0_0

/-- The pre-activation of the gate: layer norm of h·Wᵀ + b, plus the input-side term. -/
def pre1 (x0 : Vec F S256x2048 .f32) (x1 : Vec F S1x256x2048 .f32) (x2 : Vec F S1x2048x2048 .bf16) (x3 : Vec F S1x1x2048 .f32)
    (x4 x5 : Vec F S1x2048 .f32) : FVec F S256x2048 .f32 :=
  k1_pay2 (View.ld x0 rH) (View.ld x2 rW) (View.ld x3 rB) (View.ld x4 rA) (View.ld x5 rA) (View.ld x1 rG)

/-- What the body leaves in the output block: the activated gate, tanh for gate 2 and the logistic function otherwise. -/
def out1_6 (i : grid1.Coords) (x0 : Vec F S256x2048 .f32) (x1 : Vec F S1x256x2048 .f32) (x2 : Vec F S1x2048x2048 .bf16) (x3 : Vec F S1x1x2048 .f32)
    (x4 x5 : Vec F S1x2048 .f32) : Vec F S1x256x2048 .f32 :=
  View.canon [⟨rG, k1_pay1 (pre1 x0 x1 x2 x3 x4 x5) (Scalar.cmpi .eq (BitVec.ofNat 32 (i 1).val) 2#32)
    (k1_pay3 (View.ld x0 rH) (View.ld x2 rW) (View.ld x3 rB) (View.ld x4 rA) (View.ld x5 rA) (View.ld x1 rG))⟩]

theorem cover1_6 (p0 : Vec F S1x256x2048 .f32) (y : S1x256x2048.Idx) :
    ∃ pc ∈ ([⟨rG, p0⟩] : List (View.Piece (Elt F) S1x256x2048 .f32)), y ∈ pc.1.set :=
  View.cover_of_tiled [⟨rG, p0⟩] S1x256x2048.size (by rfl) y

set_option maxHeartbeats 2000000 in
theorem sound_kernel1 (c : Dev nD) (E : Set ℕ) (i : grid1.Coords)
    (arg2 : Memref sig .tc .vmem S256x2048 .f32) (harg2 : arg2.IsWhole) (arg3 : Memref sig .tc .vmem S1x256x2048 .f32) (harg3 : arg3.IsWhole)
    (arg4 : Memref sig .tc .vmem S1x2048x2048 .bf16) (harg4 : arg4.IsWhole) (arg5 : Memref sig .tc .vmem S1x1x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x256x2048 .f32) (harg8 : arg8.IsWhole)
    (x0 : Vec F S256x2048 .f32) (x1 : Vec F S1x256x2048 .f32) (x2 : Vec F S1x2048x2048 .bf16) (x3 : Vec F S1x1x2048 .f32)
    (x4 x5 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 i x0 x1 x2 x3 x4 x5)) -∗ K ⟨⟩))
      ⊢ wp frame (wpE (defs₀ (F := F)) Variants.none c none) E (cc1__hside_kernel i arg2 harg2 arg3 harg3 arg4 harg4 arg5 harg5 arg6 harg6 arg7 harg7 arg8 harg8) K := by
  simp only [cc1__hside_kernel_eq_skeleton]; unfold cc1__hside_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core `c`: the arrays as the region finds them; after the body at a point each input's
    buffer still holds its block and each output's holds the body's result of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' staging buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«112321_j35768487641178_2_alg».proof.Proof.Gen.KernelIdeal.Launch
import proofs.«112321_j35768487641178_2_alg».proof.Proof.Gen.KernelIdeal.Skeleton
import proofs.«112321_j35768487641178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third kernel (cell update, hidden state, decoder): one grid point handles 128 batch rows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2g0 : Rect S4x128x2048 := Rect.unit (s := S4x128x2048) ![0, 0, 0] S1x128x2048.size inb_S4x128x2048_S1x128x2048_0_0_0
abbrev r2g1 : Rect S4x128x2048 := Rect.unit (s := S4x128x2048) ![1, 0, 0] S1x128x2048.size inb_S4x128x2048_S1x128x2048_1_0_0
abbrev r2g2 : Rect S4x128x2048 := Rect.unit (s := S4x128x2048) ![2, 0, 0] S1x128x2048.size inb_S4x128x2048_S1x128x2048_2_0_0
abbrev r2g3 : Rect S4x128x2048 := Rect.unit (s := S4x128x2048) ![3, 0, 0] S1x128x2048.size inb_S4x128x2048_S1x128x2048_3_0_0
abbrev r2C : Rect S128x2048 := Rect.unit (s := S128x2048) ![0, 0] S128x2048.size inb_S128x2048_S128x2048_0_0
abbrev r2A : Rect S1x2048 := Rect.unit (s := S1x2048) ![0, 0] S1x2048.size inb_S1x2048_S1x2048_0_0
abbrev r2W : Rect S1024x2048 := Rect.unit (s := S1024x2048) ![0, 0] S1024x2048.size inb_S1024x2048_S1024x2048_0_0
abbrev r2B : Rect S1x1024 := Rect.unit (s := S1x1024) ![0, 0] S1x1024.size inb_S1x1024_S1x1024_0_0
abbrev r2O : Rect S128x1024 := Rect.unit (s := S128x1024) ![0, 0] S128x1024.size inb_S128x1024_S128x1024_0_0

/-- The new cell state block: forget gate times old cell plus input gate times candidate. -/
def out2_8 (x0 : Vec F S4x128x2048 .f32) (x1 : Vec F S128x2048 .f32) : Vec F S128x2048 .f32 :=
  View.canon [⟨r2C, k2_pay4 (View.ld x0 r2g0) (View.ld x0 r2g1) (View.ld x0 r2g2) (View.ld x1 r2C)⟩]
/-- The new hidden state block: output gate times tanh of the layer-normed cell state. -/
def out2_7 (x0 : Vec F S4x128x2048 .f32) (x1 : Vec F S128x2048 .f32) (x2 x3 : Vec F S1x2048 .f32) : Vec F S128x2048 .f32 :=
  View.canon [⟨r2C, k2_pay1 (k2_pay3 (View.ld x0 r2g3)) (View.ld x3 r2A) (k2_pay5 (View.ld x0 r2g0) (View.ld x0 r2g1) (View.ld x0 r2g2) (View.ld x1 r2C) (View.ld x2 r2A))⟩]
/-- The decoder block: hidden state times the decoder weight transposed, plus bias. -/
def out2_6 (x0 : Vec F S4x128x2048 .f32) (x1 : Vec F S128x2048 .f32) (x2 x3 : Vec F S1x2048 .f32) (x4 : Vec F S1024x2048 .bf16) (x5 : Vec F S1x1024 .f32) : Vec F S128x1024 .f32 :=
  View.canon [⟨r2O, k2_pay2 (k2_pay3 (View.ld x0 r2g3)) (View.ld x3 r2A) (k2_pay5 (View.ld x0 r2g0) (View.ld x0 r2g1) (View.ld x0 r2g2) (View.ld x1 r2C) (View.ld x2 r2A)) (View.ld x4 r2W) (View.ld x5 r2B)⟩]

theorem cover2_C (p0 : Vec F S128x2048 .f32) (y : S128x2048.Idx) :
    ∃ pc ∈ ([⟨r2C, p0⟩] : List (View.Piece (Elt F) S128x2048 .f32)), y ∈ pc.1.set :=
  View.cover_of_tiled [⟨r2C, p0⟩] S128x2048.size (by rfl) y
theorem cover2_O (p0 : Vec F S128x1024 .f32) (y : S128x1024.Idx) :
    ∃ pc ∈ ([⟨r2O, p0⟩] : List (View.Piece (Elt F) S128x1024 .f32)), y ∈ pc.1.set :=
  View.cover_of_tiled [⟨r2O, p0⟩] S128x1024.size (by rfl) y

set_option maxHeartbeats 4000000 in
/-- The kernel body on whole staging buffers, the inputs' at given contents and the outputs' at anything, runs to the
    continuation holding the inputs' as they were and each output's at the body's result of the inputs. -/
theorem sound_kernel2 (c : Dev nD) (E : Set ℕ) (i : grid2.Coords)
    (arg1 : Memref sig .tc .vmem S4x128x2048 .f32) (harg1 : arg1.IsWhole)
    (arg2 : Memref sig .tc .vmem S128x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1024x2048 .bf16) (harg5 : arg5.IsWhole)
    (arg6 : Memref sig .tc .vmem S1x1024 .f32) (harg6 : arg6.IsWhole)
    (arg7 : Memref sig .tc .vmem S128x1024 .f32) (harg7 : arg7.IsWhole)
    (arg8 : Memref sig .tc .vmem S128x2048 .f32) (harg8 : arg8.IsWhole)
    (arg9 : Memref sig .tc .vmem S128x2048 .f32) (harg9 : arg9.IsWhole)
    (x0 : Vec F S4x128x2048 .f32) (x1 : Vec F S128x2048 .f32) (x2 : Vec F S1x2048 .f32) (x3 : Vec F S1x2048 .f32) (x4 : Vec F S1024x2048 .bf16) (x5 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out2_6 x0 x1 x2 x3 x4 x5)
            ∗ owns (c : Thread nD τ) arg8 fullShare (out2_7 x0 x1 x2 x3)
            ∗ owns (c : Thread nD τ) arg9 fullShare (out2_8 x0 x1)) -∗ K ⟨⟩))
      ⊢ wp frame (wpE (defs₀ (F := F)) Variants.none c none) E (cc2__rec_kernel i arg1 harg1 arg2 harg2 arg3 harg3 arg4 harg4 arg5 harg5 arg6 harg6 arg7 harg7 arg8 harg8 arg9 harg9) K := by
  simp only [cc2__rec_kernel_eq_skeleton]; unfold cc2__rec_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_O _)
  isplitl [H7]
  · iexists _; isplitr
    swap; · iexact H7
    ipureintro
    exact View.read_writes_eq_canon _ _ _ (cover2_C _)
  iexists _; isplitr
  swap; · iexact H8
  ipureintro
  exact View.read_writes_eq_canon _ _ _ (cover2_C _)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of this pipeline on core `c`: the arrays as the region finds them; after the body at a point each input's
    buffer still holds its block and each output's holds the body's result of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t)
    | ⟨8, _⟩ => out2_8 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) := by dsimp only [dat2]
theorem after2_8 (c : Dev nD) (t : Fin cfg2.N) : (dat2 V c).after 8 t = out2_8 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 2000000 in
/-- The body at any point: the inputs' staging buffers hold their blocks, so the kernel's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«112321_j35768487641178_2_alg».proof.Proof.Gen.KernelIdeal.Launch
import proofs.«112321_j35768487641178_2_alg».proof.Proof.Gen.KernelIdeal.Regions
import proofs.«112321_j35768487641178_2_alg».proof.Proof.KI.Region0
import proofs.«112321_j35768487641178_2_alg».proof.Proof.KI.Region1
import proofs.«112321_j35768487641178_2_alg».proof.Proof.KI.Region2
import proofs.«112321_j35768487641178_2_alg».proof.Proof.Gen.KernelIdeal.Skeleton
import proofs.«112321_j35768487641178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the host stretch, then the three kernel regions, from the launch to the return

## The buffer contents at each boundary -/

/-- Core `c`'s buffers at launch. -/
abbrev B0 : Dev nD → Valuation τ sig (Elt F) := fun c b => (s₀ m ρ).mem ((c : Dev nD), b)
/-- After the host operations (casts of the weights to bf16, the stacking of the recurrent weights and biases, the reshapes). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At kernel region 0's exit: its arrays at what the pipeline leaves (inputs as entered, each output's blocks written back),
    every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)

abbrev E2 : (c : Dev nD) → (b : Ref sig .tc) → Buf (Elt F) ((c : Thread nD τ).loc b) := X2 m ρ
/-- At kernel region 1's exit: its arrays at what the pipeline leaves (inputs as entered, each output's blocks written back),
    every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
/-- The same read at the TensorCore's references. -/
abbrev X3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = X3 m ρ c (Pipeline.arrRef spec1 w) :=
  (B3_arr m ρ c w).symm
theorem hrest1 (c : Dev nD) : ∀ b, b ∉ Finset.univ.image (Pipeline.arrRef spec1) → X3 m ρ c b = E2 m ρ c b :=
  fun b hb => B3_of_ne m ρ c b fun w e => hb (Finset.mem_image.mpr ⟨w, Finset.mem_univ _, e⟩)

abbrev E3 : (c : Dev nD) → (b : Ref sig .tc) → Buf (Elt F) ((c : Thread nD τ).loc b) := X3 m ρ
/-- At kernel region 2's exit: its arrays at what the pipeline leaves (inputs as entered, each output's blocks written back),
    every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
/-- The same read at the TensorCore's references. -/
abbrev X4 : (c : Dev nD) → (b : Ref sig .tc) → Buf (Elt F) ((c : Thread nD τ).loc b) := fun c b => B4 m ρ c b
theorem hF2 (c : Dev nD) (w : Fin cfg2.W) : (dat2 (E3 m ρ) c).arrAt w cfg2.N = X4 m ρ c (Pipeline.arrRef spec2 w) :=
  (B4_arr m ρ c w).symm
theorem hrest2 (c : Dev nD) : ∀ b, b ∉ Finset.univ.image (Pipeline.arrRef spec2) → X4 m ρ c b = E3 m ρ c b :=
  fun b hb => B4_of_ne m ρ c b fun w e => hb (Finset.mem_image.mpr ⟨w, Finset.mem_univ _, e⟩)

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := (B3_arr m ρ c 0).trans (((dat1 (E2 m ρ) c).arrAt_in 0 rfl _).trans (A_eq1 (E2 m ρ) c 0))
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := (B4_arr m ρ c 1).trans (((dat2 (E3 m ρ) c).arrAt_in 1 rfl _).trans (A_eq2 (E3 m ρ) c 1))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl
theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B4_main_arg10 (c : Dev nD) : B4 m ρ c (Proc.devRef .tc main_arg10) = m ((c : Thread nD τ).loc main_arg10) :=
  calc B4 m ρ c (Proc.devRef .tc main_arg10)
    _ = B3 m ρ c (Proc.devRef .tc main_arg10) := B4_of_ne m ρ c main_arg10 (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl
theorem B4_main_arg11 (c : Dev nD) : B4 m ρ c (Proc.devRef .tc main_arg11) = m ((c : Thread nD τ).loc main_arg11) :=
  calc B4 m ρ c (Proc.devRef .tc main_arg11)
    _ = B3 m ρ c (Proc.devRef .tc main_arg11) := B4_of_ne m ρ c main_arg11 (by decide)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl
theorem B4_main_arg12 (c : Dev nD) : B4 m ρ c (Proc.devRef .tc main_arg12) = m ((c : Thread nD τ).loc main_arg12) :=
  calc B4 m ρ c (Proc.devRef .tc main_arg12)
    _ = B3 m ρ c (Proc.devRef .tc main_arg12) := B4_of_ne m ρ c main_arg12 (by decide)
    _ = B2 m ρ c (Proc.devRef .tc main_arg12) := B3_of_ne m ρ c main_arg12 (by decide)
    _ = B1 m ρ c (Proc.devRef .tc main_arg12) := B2_of_ne m ρ c main_arg12 (by decide)
    _ = B0 m ρ c (Proc.devRef .tc main_arg12) := StableHlo.after_of_writes_sub hostOps0 _ hostOps0_writes (by decide)
    _ = m ((c : Thread nD τ).loc main_arg12) := rfl
theorem B4_main_arg13 (c : Dev nD) : B4 m ρ c (Proc.devRef .tc main_arg13) = m ((c : Thread nD τ).loc main_arg13) :=
  calc B4 m ρ c (Proc.devRef .tc main_arg13)
    _ = B3 m ρ c (Proc.devRef .tc main_arg13) := B4_of_ne m ρ c main_arg13 (by decide)
    _ = B2 m ρ c (Proc.devRef .tc main_arg13) := B3_of_ne m ρ c main_arg13 (by decide)
    _ = B1 m ρ c (Proc.devRef .tc main_arg13) := B2_of_ne m ρ c main_arg13 (by decide)
    _ = B0 m ρ c (Proc.devRef .tc main_arg13) := StableHlo.after_of_writes_sub hostOps0 _ hostOps0_writes (by decide)
    _ = m ((c : Thread nD τ).loc main_arg13) := rfl
theorem B4_main_arg14 (c : Dev nD) : B4 m ρ c (Proc.devRef .tc main_arg14) = m ((c : Thread nD τ).loc main_arg14) :=
  calc B4 m ρ c (Proc.devRef .tc main_arg14)
    _ = B3 m ρ c (Proc.devRef .tc main_arg14) := B4_of_ne m ρ c main_arg14 (by decide)
    _ = B2 m ρ c (Proc.devRef .tc main_arg14) := B3_of_ne m ρ c main_arg14 (by decide)
    _ = B1 m ρ c (Proc.devRef .tc main_arg14) := B2_of_ne m ρ c main_arg14 (by decide)
    _ = B0 m ρ c (Proc.devRef .tc main_arg14) := StableHlo.after_of_writes_sub hostOps0 _ hostOps0_writes (by decide)
    _ = m ((c : Thread nD τ).loc main_arg14) := rfl
theorem B4_main_arg15 (c : Dev nD) : B4 m ρ c (Proc.devRef .tc main_arg15) = m ((c : Thread nD τ).loc main_arg15) :=
  calc B4 m ρ c (Proc.devRef .tc main_arg15)
    _ = B3 m ρ c (Proc.devRef .tc main_arg15) := B4_of_ne m ρ c main_arg15 (by decide)
    _ = B2 m ρ c (Proc.devRef .tc main_arg15) := B3_of_ne m ρ c main_arg15 (by decide)
    _ = B1 m ρ c (Proc.devRef .tc main_arg15) := B2_of_ne m ρ c main_arg15 (by decide)
    _ = B0 m ρ c (Proc.devRef .tc main_arg15) := StableHlo.after_of_writes_sub hostOps0 _ hostOps0_writes (by decide)
    _ = m ((c : Thread nD τ).loc main_arg15) := rfl
theorem B4_main_arg16 (c : Dev nD) : B4 m ρ c (Proc.devRef .tc main_arg16) = m ((c : Thread nD τ).loc main_arg16) :=
  calc B4 m ρ c (Proc.devRef .tc main_arg16)
    _ = B3 m ρ c (Proc.devRef .tc main_arg16) := B4_of_ne m ρ c main_arg16 (by decide)
    _ = B2 m ρ c (Proc.devRef .tc main_arg16) := B3_of_ne m ρ c main_arg16 (by decide)
    _ = B1 m ρ c (Proc.devRef .tc main_arg16) := B2_of_ne m ρ c main_arg16 (by decide)
    _ = B0 m ρ c (Proc.devRef .tc main_arg16) := StableHlo.after_of_writes_sub hostOps0 _ hostOps0_writes (by decide)
    _ = m ((c : Thread nD τ).loc main_arg16) := rfl
theorem B4_main_arg17 (c : Dev nD) : B4 m ρ c (Proc.devRef .tc main_arg17) = m ((c : Thread nD τ).loc main_arg17) :=
  calc B4 m ρ c (Proc.devRef .tc main_arg17)
    _ = B3 m ρ c (Proc.devRef .tc main_arg17) := B4_of_ne m ρ c main_arg17 (by decide)
    _ = B2 m ρ c (Proc.devRef .tc main_arg17) := B3_of_ne m ρ c main_arg17 (by decide)
    _ = B1 m ρ c (Proc.devRef .tc main_arg17) := B2_of_ne m ρ c main_arg17 (by decide)
    _ = B0 m ρ c (Proc.devRef .tc main_arg17) := StableHlo.after_of_writes_sub hostOps0 _ hostOps0_writes (by decide)
    _ = m ((c : Thread nD τ).loc main_arg17) := rfl
theorem B4_main_arg18 (c : Dev nD) : B4 m ρ c (Proc.devRef .tc main_arg18) = m ((c : Thread nD τ).loc main_arg18) :=
  calc B4 m ρ c (Proc.devRef .tc main_arg18)
    _ = B3 m ρ c (Proc.devRef .tc main_arg18) := B4_of_ne m ρ c main_arg18 (by decide)
    _ = B2 m ρ c (Proc.devRef .tc main_arg18) := B3_of_ne m ρ c main_arg18 (by decide)
    _ = B1 m ρ c (Proc.devRef .tc main_arg18) := B2_of_ne m ρ c main_arg18 (by decide)
    _ = B0 m ρ c (Proc.devRef .tc main_arg18) := StableHlo.after_of_writes_sub hostOps0 _ hostOps0_writes (by decide)
    _ = m ((c : Thread nD τ).loc main_arg18) := rfl
theorem B4_main_arg19 (c : Dev nD) : B4 m ρ c (Proc.devRef .tc main_arg19) = m ((c : Thread nD τ).loc main_arg19) :=
  calc B4 m ρ c (Proc.devRef .tc main_arg19)
    _ = B3 m ρ c (Proc.devRef .tc main_arg19) := B4_of_ne m ρ c main_arg19 (by decide)
    _ = B2 m ρ c (Proc.devRef .tc main_arg19) := B3_of_ne m ρ c main_arg19 (by decide)
    _ = B1 m ρ c (Proc.devRef .tc main_arg19) := B2_of_ne m ρ c main_arg19 (by decide)
    _ = B0 m ρ c (Proc.devRef .tc main_arg19) := StableHlo.after_of_writes_sub hostOps0 _ hostOps0_writes (by decide)
    _ = m ((c : Thread nD τ).loc main_arg19) := rfl
theorem B4_main_arg20 (c : Dev nD) : B4 m ρ c (Proc.devRef .tc main_arg20) = m ((c : Thread nD τ).loc main_arg20) :=
  calc B4 m ρ c (Proc.devRef .tc main_arg20)
    _ = B3 m ρ c (Proc.devRef .tc main_arg20) := B4_of_ne m ρ c main_arg20 (by decide)
    _ = B2 m ρ c (Proc.devRef .tc main_arg20) := B3_of_ne m ρ c main_arg20 (by decide)
    _ = B1 m ρ c (Proc.devRef .tc main_arg20) := B2_of_ne m ρ c main_arg20 (by decide)
    _ = B0 m ρ c (Proc.devRef .tc main_arg20) := StableHlo.after_of_writes_sub hostOps0 _ hostOps0_writes (by decide)
    _ = m ((c : Thread nD τ).loc main_arg20) := rfl
theorem B4_main_arg21 (c : Dev nD) : B4 m ρ c (Proc.devRef .tc main_arg21) = m ((c : Thread nD τ).loc main_arg21) :=
  calc B4 m ρ c (Proc.devRef .tc main_arg21)
    _ = B3 m ρ c (Proc.devRef .tc main_arg21) := B4_of_ne m ρ c main_arg21 (by decide)
    _ = B2 m ρ c (Proc.devRef .tc main_arg21) := B3_of_ne m ρ c main_arg21 (by decide)
    _ = B1 m ρ c (Proc.devRef .tc main_arg21) := (B2_arr m ρ c 9).trans (((dat0 (E1 m ρ) c).arrAt_in 9 rfl _).trans (A_eq0 (E1 m ρ) c 9))
    _ = B0 m ρ c (Proc.devRef .tc main_arg21) := StableHlo.after_of_writes_sub hostOps0 _ hostOps0_writes (by decide)
    _ = m ((c : Thread nD τ).loc main_arg21) := rfl
theorem B4_main_arg22 (c : Dev nD) : B4 m ρ c (Proc.devRef .tc main_arg22) = m ((c : Thread nD τ).loc main_arg22) :=
  calc B4 m ρ c (Proc.devRef .tc main_arg22)
    _ = B3 m ρ c (Proc.devRef .tc main_arg22) := B4_of_ne m ρ c main_arg22 (by decide)
    _ = B2 m ρ c (Proc.devRef .tc main_arg22) := B3_of_ne m ρ c main_arg22 (by decide)
    _ = B1 m ρ c (Proc.devRef .tc main_arg22) := (B2_arr m ρ c 10).trans (((dat0 (E1 m ρ) c).arrAt_in 10 rfl _).trans (A_eq0 (E1 m ρ) c 10))
    _ = B0 m ρ c (Proc.devRef .tc main_arg22) := StableHlo.after_of_writes_sub hostOps0 _ hostOps0_writes (by decide)
    _ = m ((c : Thread nD τ).loc main_arg22) := rfl
theorem B4_main_arg23 (c : Dev nD) : B4 m ρ c (Proc.devRef .tc main_arg23) = m ((c : Thread nD τ).loc main_arg23) :=
  calc B4 m ρ c (Proc.devRef .tc main_arg23)
    _ = B3 m ρ c (Proc.devRef .tc main_arg23) := B4_of_ne m ρ c main_arg23 (by decide)
    _ = B2 m ρ c (Proc.devRef .tc main_arg23) := (B3_arr m ρ c 4).trans (((dat1 (E2 m ρ) c).arrAt_in 4 rfl _).trans (A_eq1 (E2 m ρ) c 4))
    _ = B1 m ρ c (Proc.devRef .tc main_arg23) := B2_of_ne m ρ c main_arg23 (by decide)
    _ = B0 m ρ c (Proc.devRef .tc main_arg23) := StableHlo.after_of_writes_sub hostOps0 _ hostOps0_writes (by decide)
    _ = m ((c : Thread nD τ).loc main_arg23) := rfl
theorem B4_main_arg24 (c : Dev nD) : B4 m ρ c (Proc.devRef .tc main_arg24) = m ((c : Thread nD τ).loc main_arg24) :=
  calc B4 m ρ c (Proc.devRef .tc main_arg24)
    _ = B3 m ρ c (Proc.devRef .tc main_arg24) := B4_of_ne m ρ c main_arg24 (by decide)
    _ = B2 m ρ c (Proc.devRef .tc main_arg24) := (B3_arr m ρ c 5).trans (((dat1 (E2 m ρ) c).arrAt_in 5 rfl _).trans (A_eq1 (E2 m ρ) c 5))
    _ = B1 m ρ c (Proc.devRef .tc main_arg24) := B2_of_ne m ρ c main_arg24 (by decide)
    _ = B0 m ρ c (Proc.devRef .tc main_arg24) := StableHlo.after_of_writes_sub hostOps0 _ hostOps0_writes (by decide)
    _ = m ((c : Thread nD τ).loc main_arg24) := rfl
theorem B4_main_arg25 (c : Dev nD) : B4 m ρ c (Proc.devRef .tc main_arg25) = m ((c : Thread nD τ).loc main_arg25) :=
  calc B4 m ρ c (Proc.devRef .tc main_arg25)
    _ = B3 m ρ c (Proc.devRef .tc main_arg25) := (B4_arr m ρ c 2).trans (((dat2 (E3 m ρ) c).arrAt_in 2 rfl _).trans (A_eq2 (E3 m ρ) c 2))
    _ = B2 m ρ c (Proc.devRef .tc main_arg25) := B3_of_ne m ρ c main_arg25 (by decide)
    _ = B1 m ρ c (Proc.devRef .tc main_arg25) := B2_of_ne m ρ c main_arg25 (by decide)
    _ = B0 m ρ c (Proc.devRef .tc main_arg25) := StableHlo.after_of_writes_sub hostOps0 _ hostOps0_writes (by decide)
    _ = m ((c : Thread nD τ).loc main_arg25) := rfl
theorem B4_main_arg26 (c : Dev nD) : B4 m ρ c (Proc.devRef .tc main_arg26) = m ((c : Thread nD τ).loc main_arg26) :=
  calc B4 m ρ c (Proc.devRef .tc main_arg26)
    _ = B3 m ρ c (Proc.devRef .tc main_arg26) := (B4_arr m ρ c 3).trans (((dat2 (E3 m ρ) c).arrAt_in 3 rfl _).trans (A_eq2 (E3 m ρ) c 3))
    _ = B2 m ρ c (Proc.devRef .tc main_arg26) := B3_of_ne m ρ c main_arg26 (by decide)
    _ = B1 m ρ c (Proc.devRef .tc main_arg26) := B2_of_ne m ρ c main_arg26 (by decide)
    _ = B0 m ρ c (Proc.devRef .tc main_arg26) := StableHlo.after_of_writes_sub hostOps0 _ hostOps0_writes (by decide)
    _ = m ((c : Thread nD τ).loc main_arg26) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
abbrev noVar : Variants := Variants.none
abbrev noL : GSem nD τ sig → Finset Unit := fun _ => ∅
abbrev noLv : GSem nD τ sig → Unit → ℕ := fun _ _ => 0
/-- What rides beside the buffers through every item: the core's random-number register at some state and its dues, at nothing. -/
abbrev rest (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The regions as items -/

set_option backward.isDefEq.respectTransparency.types false in
/-- Kernel region 0 over the thread state: entered from every unscoped buffer at the boundary before it, left at the one after.
    Its arrays are split out of the unscoped buffers and put back at the exit contents; the random-number register goes into the
    pipeline's invariant and comes out; nothing is owed; the kernel has no semaphore of its own. -/
def reg0 : Pipeline.RegionSeg (pcfgs (F := F)) adm (pdats m ρ) () defs₀ noVar noL noLv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noL noLv 0 fun _ _ => rfl
  pre c := iprop(StableHlo.held (c : Thread nD τ) (Pipeline.ucRefs τ sig) (B1 m ρ c) ∗ rest c)
  post c := iprop(StableHlo.held (c : Thread nD τ) (Pipeline.ucRefs τ sig) (B2 m ρ c) ∗ rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary before it, left at the one after.
    Its arrays are split out of the unscoped buffers and put back at the exit contents; the random-number register goes into the
    pipeline's invariant and comes out; nothing is owed; the kernel has no semaphore of its own. -/
def reg1 : Pipeline.RegionSeg (pcfgs (F := F)) adm (pdats m ρ) () defs₀ noVar noL noLv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noL noLv 1 fun _ _ => rfl
  pre c := iprop(StableHlo.held (c : Thread nD τ) (Pipeline.ucRefs τ sig) (B2 m ρ c) ∗ rest c)
  post c := iprop(StableHlo.held (c : Thread nD τ) (Pipeline.ucRefs τ sig) (B3 m ρ c) ∗ rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (X3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the boundary before it, left at the one after.
    Its arrays are split out of the unscoped buffers and put back at the exit contents; the random-number register goes into the
    pipeline's invariant and comes out; nothing is owed; the kernel has no semaphore of its own. -/
def reg2 : Pipeline.RegionSeg (pcfgs (F := F)) adm (pdats m ρ) () defs₀ noVar noL noLv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noL noLv 2 fun _ _ => rfl
  pre c := iprop(StableHlo.held (c : Thread nD τ) (Pipeline.ucRefs τ sig) (B3 m ρ c) ∗ rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (X4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm (pdats m ρ) () defs₀ noVar noL noLv) :=
  [ .host (hostItem hostOps0 hostOps0_sub hostOps0_fresh (B0 m ρ)),
    .region (reg0 m ρ),
    .region (reg1 m ρ),
    .region (reg2 m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ noVar noL noLv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rest c)) (Tₙ := Tend m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c),
     (h c _ (mem_uc main_arg7 (by decide))).trans (B4_main_arg7 m ρ c),
     (h c _ (mem_uc main_arg8 (by decide))).trans (B4_main_arg8 m ρ c),
     (h c _ (mem_uc main_arg9 (by decide))).trans (B4_main_arg9 m ρ c),
     (h c _ (mem_uc main_arg10 (by decide))).trans (B4_main_arg10 m ρ c),
     (h c _ (mem_uc main_arg11 (by decide))).trans (B4_main_arg11 m ρ c),
     (h c _ (mem_uc main_arg12 (by decide))).trans (B4_main_arg12 m ρ c),
     (h c _ (mem_uc main_arg13 (by decide))).trans (B4_main_arg13 m ρ c),
     (h c _ (mem_uc main_arg14 (by decide))).trans (B4_main_arg14 m ρ c),
     (h c _ (mem_uc main_arg15 (by decide))).trans (B4_main_arg15 m ρ c),
     (h c _ (mem_uc main_arg16 (by decide))).trans (B4_main_arg16 m ρ c),
     (h c _ (mem_uc main_arg17 (by decide))).trans (B4_main_arg17 m ρ c),
     (h c _ (mem_uc main_arg18 (by decide))).trans (B4_main_arg18 m ρ c),
     (h c _ (mem_uc main_arg19 (by decide))).trans (B4_main_arg19 m ρ c),
     (h c _ (mem_uc main_arg20 (by decide))).trans (B4_main_arg20 m ρ c),
     (h c _ (mem_uc main_arg21 (by decide))).trans (B4_main_arg21 m ρ c),
     (h c _ (mem_uc main_arg22 (by decide))).trans (B4_main_arg22 m ρ c),
     (h c _ (mem_uc main_arg23 (by decide))).trans (B4_main_arg23 m ρ c),
     (h c _ (mem_uc main_arg24 (by decide))).trans (B4_main_arg24 m ρ c),
     (h c _ (mem_uc main_arg25 (by decide))).trans (B4_main_arg25 m ρ c),
     (h c _ (mem_uc main_arg26 (by decide))).trans (B4_main_arg26 m ρ c)⟩) (run_all m ρ)

end Cert.KernelIdeal.Hand

end
-- ==== Proof.Ref.Part0.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-- Operations 1 of the reference, in order (the forget gate's two layer-normed linear maps and its logistic function, and the start of the input gate); each call of the standard-deviation function is
    written out at its call site over that call's buffers: the row mean, the centred squares, their row sum over n − ddof,
    the guard on n − ddof > 0, the square root. -/
abbrev ops0 : List (HloOp τ sig (Elt F)) :=
  [ StableHlo.unary main_arg11 main_v0 ((transpose S1024x2048 [1, 0] · transposes_S2048x1024_S1024x2048_1_0) : (⟨S2048x1024, .f32⟩ : BufTy).Contents (Elt F) → (⟨S1024x2048, .f32⟩ : BufTy).Contents (Elt F)),
    StableHlo.binary main_arg0 main_v0 main_v1 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    StableHlo.unary main_arg12 main_v2 (broadcastInDim S1x2048 ![1] bcast_S2048_S1x2048_1 : (⟨S2048, .f32⟩ : BufTy).Contents (Elt F) → (⟨S1x2048, .f32⟩ : BufTy).Contents (Elt F)),
    StableHlo.unary main_v2 main_v3 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v1 main_v3 main_v4 (addf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x00000000#32),
    StableHlo.binary main_v4 main_cst main_v5 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v5 main_v6 (broadcastInDim S4096x1 ![0] bcast_S4096_S4096x1_0 : (⟨S4096, .f32⟩ : BufTy).Contents (Elt F) → (⟨S4096x1, .f32⟩ : BufTy).Contents (Elt F)),
    StableHlo.nullary main_cst_0 (constant S_ .f32 0x45000000#32),
    StableHlo.unary main_cst_0 main_v7 (broadcastInDim S4096x1 ![] bcast_S_S4096x1 : (⟨S_, .f32⟩ : BufTy).Contents (Elt F) → (⟨S4096x1, .f32⟩ : BufTy).Contents (Elt F)),
    StableHlo.binary main_v6 main_v7 main_v8 (Host.divf : (⟨S4096x1, .f32⟩ : BufTy).Contents (Elt F) → (⟨S4096x1, .f32⟩ : BufTy).Contents (Elt F) → (⟨S4096x1, .f32⟩ : BufTy).Contents (Elt F)),
    StableHlo.nullary main_c (constantI S_ 32 1#32),
    StableHlo.TRef.nullary main_call0.call0.cst (constant S_ .f32 0x00000000#32),
    StableHlo.TRef.binary (.of main_v4) main_call0.call0.cst main_call0.call0.v0 (fun x v => Host.reduceAdd x v reducesTo_S4096x2048_S4096_d1 h_S_),
    StableHlo.TRef.unary main_call0.call0.v0 main_call0.call0.v1 (broadcastInDim S4096x1 ![0] bcast_S4096_S4096x1_0),
    StableHlo.TRef.nullary main_call0.call0.cst_0 (constant S_ .f32 0x45000000#32),
    StableHlo.TRef.unary main_call0.call0.cst_0 main_call0.call0.v2 (broadcastInDim S4096x1 ![] bcast_S_S4096x1),
    StableHlo.TRef.binary main_call0.call0.v1 main_call0.call0.v2 main_call0.call0.v3 Host.divf,
    StableHlo.TRef.unary main_call0.call0.v3 main_call0.call0.v4 (broadcastInDim S4096x2048 ![0, 1] bcast_S4096x1_S4096x2048_0_1),
    StableHlo.TRef.binary (.of main_v4) main_call0.call0.v4 main_call0.call0.v5 subf,
    StableHlo.TRef.binary main_call0.call0.v5 main_call0.call0.v5 main_call0.call0.v6 mulf,
    StableHlo.TRef.unary (.of main_c) main_call0.call0.v7 (sitofp .f32),
    StableHlo.TRef.nullary main_call0.call0.cst_1 (constant S_ .f32 0x45000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S4096x2048_S4096_d1 h_S_),
    StableHlo.TRef.unary main_call0.call0.v9 main_call0.call0.v10 (broadcastInDim S4096x1 ![0] bcast_S4096_S4096x1_0),
    StableHlo.TRef.unary main_call0.call0.v8 main_call0.call0.v11 (broadcastInDim S4096x1 ![] bcast_S_S4096x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S4096x1 ![] bcast_S_S4096x1),
    StableHlo.TRef.ternary main_call0.call0.v13 main_call0.call0.v12 main_call0.call0.call0.v1 main_call0.call0.call0.v2 (fun p a b => select (broadcastInDim S4096x1 ![] bcast_S_S4096x1 p) a b),
    StableHlo.TRef.unary main_call0.call0.call0.v2 main_call0.v1 Host.sqrt,
    StableHlo.unary main_v8 main_v10 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v4 main_v10 main_v11 (subf : (⟨S4096x2048, .f32⟩ : BufTy).Contents (Elt F) → (⟨S4096x2048, .f32⟩ : BufTy).Contents (Elt F) → (⟨S4096x2048, .f32⟩ : BufTy).Contents (Elt F)),
    StableHlo.nullary main_cst_1 (constant S_ .f32 0x3727C5AC#32),
    StableHlo.unary main_cst_1 main_v12 (broadcastInDim S4096x1 ![] bcast_S_S4096x1 : (⟨S_, .f32⟩ : BufTy).Contents (Elt F) → (⟨S4096x1, .f32⟩ : BufTy).Contents (Elt F)),
    StableHlo.binary main_v9 main_v12 main_v13 (addf : (⟨S4096x1, .f32⟩ : BufTy).Contents (Elt F) → (⟨S4096x1, .f32⟩ : BufTy).Contents (Elt F) → (⟨S4096x1, .f32⟩ : BufTy).Contents (Elt F)),
    StableHlo.unary main_v13 main_v14 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v11 main_v14 main_v15 (Host.divf : (⟨S4096x2048, .f32⟩ : BufTy).Contents (Elt F) → (⟨S4096x2048, .f32⟩ : BufTy).Contents (Elt F) → (⟨S4096x2048, .f32⟩ : BufTy).Contents (Elt F)),
    StableHlo.unary main_arg21 main_v16 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v15 main_v16 main_v17 (mulf : (⟨S4096x2048, .f32⟩ : BufTy).Contents (Elt F) → (⟨S4096x2048, .f32⟩ : BufTy).Contents (Elt F) → (⟨S4096x2048, .f32⟩ : BufTy).Contents (Elt F)),
    StableHlo.unary main_arg22 main_v18 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v17 main_v18 main_v19 (addf : (⟨S4096x2048, .f32⟩ : BufTy).Contents (Elt F) → (⟨S4096x2048, .f32⟩ : BufTy).Contents (Elt F) → (⟨S4096x2048, .f32⟩ : BufTy).Contents (Elt F)),
    StableHlo.unary main_arg3 main_v20 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg1 main_v20 main_v21 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg4 main_v22 (broadcastInDim S1x2048 ![1] bcast_S2048_S1x2048_1 : (⟨S2048, .f32⟩ : BufTy).Contents (Elt F) → (⟨S1x2048, .f32⟩ : BufTy).Contents (Elt F)),
    StableHlo.unary main_v22 main_v23 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v21 main_v23 main_v24 (addf : (⟨S4096x2048, .f32⟩ : BufTy).Contents (Elt F) → (⟨S4096x2048, .f32⟩ : BufTy).Contents (Elt F) → (⟨S4096x2048, .f32⟩ : BufTy).Contents (Elt F)),
    StableHlo.nullary main_cst_2 (constant S_ .f32 0x00000000#32),
    StableHlo.binary main_v24 main_cst_2 main_v25 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v25 main_v26 (broadcastInDim S4096x1 ![0] bcast_S4096_S4096x1_0 : (⟨S4096, .f32⟩ : BufTy).Contents (Elt F) → (⟨S4096x1, .f32⟩ : BufTy).Contents (Elt F)),
    StableHlo.nullary main_cst_3 (constant S_ .f32 0x45000000#32),
    StableHlo.unary main_cst_3 main_v27 (broadcastInDim S4096x1 ![] bcast_S_S4096x1 : (⟨S_, .f32⟩ : BufTy).Contents (Elt F) → (⟨S4096x1, .f32⟩ : BufTy).Contents (Elt F)),
    StableHlo.binary main_v26 main_v27 main_v28 (Host.divf : (⟨S4096x1, .f32⟩ : BufTy).Contents (Elt F) → (⟨S4096x1, .f32⟩ : BufTy).Contents (Elt F) → (⟨S4096x1, .f32⟩ : BufTy).Contents (Elt F)),
    StableHlo.nullary main_c_4 (constantI S_ 32 1#32),
    StableHlo.TRef.nullary main_call1.call0.cst (constant S_ .f32 0x00000000#32),
    StableHlo.TRef.binary (.of main_v24) main_call1.call0.cst main_call1.call0.v0 (fun x v => Host.reduceAdd x v reducesTo_S4096x2048_S4096_d1 h_S_),
    StableHlo.TRef.unary main_call1.call0.v0 main_call1.call0.v1 (broadcastInDim S4096x1 ![0] bcast_S4096_S4096x1_0),
    StableHlo.TRef.nullary main_call1.call0.cst_0 (constant S_ .f32 0x45000000#32),
    StableHlo.TRef.unary main_call1.call0.cst_0 main_call1.call0.v2 (broadcastInDim S4096x1 ![] bcast_S_S4096x1),
    StableHlo.TRef.binary main_call1.call0.v1 main_call1.call0.v2 main_call1.call0.v3 Host.divf,
    StableHlo.TRef.unary main_call1.call0.v3 main_call1.call0.v4 (broadcastInDim S4096x2048 ![0, 1] bcast_S4096x1_S4096x2048_0_1),
    StableHlo.TRef.binary (.of main_v24) main_call1.call0.v4 main_call1.call0.v5 subf,
    StableHlo.TRef.binary main_call1.call0.v5 main_call1.call0.v5 main_call1.call0.v6 mulf,
    StableHlo.TRef.unary (.of main_c_4) main_call1.call0.v7 (sitofp .f32),
    StableHlo.TRef.nullary main_call1.call0.cst_1 (constant S_ .f32 0x45000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S4096x2048_S4096_d1 h_S_),
    StableHlo.TRef.unary main_call1.call0.v9 main_call1.call0.v10 (broadcastInDim S4096x1 ![0] bcast_S4096_S4096x1_0),
    StableHlo.TRef.unary main_call1.call0.v8 main_call1.call0.v11 (broadcastInDim S4096x1 ![] bcast_S_S4096x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S4096x1 ![] bcast_S_S4096x1),
    StableHlo.TRef.ternary main_call1.call0.v13 main_call1.call0.v12 main_call1.call0.call0.v1 main_call1.call0.call0.v2 (fun p a b => select (broadcastInDim S4096x1 ![] bcast_S_S4096x1 p) a b),
    StableHlo.TRef.unary main_call1.call0.call0.v2 main_call1.v1 Host.sqrt,
    StableHlo.unary main_v28 main_v30 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v24 main_v30 main_v31 (subf : (⟨S4096x2048, .f32⟩ : BufTy).Contents (Elt F) → (⟨S4096x2048, .f32⟩ : BufTy).Contents (Elt F) → (⟨S4096x2048, .f32⟩ : BufTy).Contents (Elt F)),
    StableHlo.nullary main_cst_5 (constant S_ .f32 0x3727C5AC#32),
    StableHlo.unary main_cst_5 main_v32 (broadcastInDim S4096x1 ![] bcast_S_S4096x1 : (⟨S_, .f32⟩ : BufTy).Contents (Elt F) → (⟨S4096x1, .f32⟩ : BufTy).Contents (Elt F)),
    StableHlo.binary main_v29 main_v32 main_v33 (addf : (⟨S4096x1, .f32⟩ : BufTy).Contents (Elt F) → (⟨S4096x1, .f32⟩ : BufTy).Contents (Elt F) → (⟨S4096x1, .f32⟩ : BufTy).Contents (Elt F)),
    StableHlo.unary main_v33 main_v34 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v31 main_v34 main_v35 (Host.divf : (⟨S4096x2048, .f32⟩ : BufTy).Contents (Elt F) → (⟨S4096x2048, .f32⟩ : BufTy).Contents (Elt F) → (⟨S4096x2048, .f32⟩ : BufTy).Contents (Elt F)),
    StableHlo.unary main_arg23 main_v36 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v35 main_v36 main_v37 (mulf : (⟨S4096x2048, .f32⟩ : BufTy).Contents (Elt F) → (⟨S4096x2048, .f32⟩ : BufTy).Contents (Elt F) → (⟨S4096x2048, .f32⟩ : BufTy).Contents (Elt F)),
    StableHlo.unary main_arg24 main_v38 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v37 main_v38 main_v39 (addf : (⟨S4096x2048, .f32⟩ : BufTy).Contents (Elt F) → (⟨S4096x2048, .f32⟩ : BufTy).Contents (Elt F) → (⟨S4096x2048, .f32⟩ : BufTy).Contents (Elt F)),
    StableHlo.binary main_v19 main_v39 main_v40 (addf : (⟨S4096x2048, .f32⟩ : BufTy).Contents (Elt F) → (⟨S4096x2048, .f32⟩ : BufTy).Contents (Elt F) → (⟨S4096x2048, .f32⟩ : BufTy).Contents (Elt F)),
    StableHlo.unary main_v40 main_v41 (Host.negf : (⟨S4096x2048, .f32⟩ : BufTy).Contents (Elt F) → (⟨S4096x2048, .f32⟩ : BufTy).Contents (Elt F)),
    StableHlo.unary main_v41 main_v42 (Host.exp : (⟨S4096x2048, .f32⟩ : BufTy).Contents (Elt F) → (⟨S4096x2048, .f32⟩ : BufTy).Contents (Elt F)),
    StableHlo.nullary main_cst_6 (constant S_ .f32 0x3F800000#32),
    StableHlo.unary main_cst_6 main_v43 (broadcastInDim S4096x2048 ![] bcast_S_S4096x2048 : (⟨S_, .f32⟩ : BufTy).Contents (Elt F) → (⟨S4096x2048, .f32⟩ : BufTy).Contents (Elt F)),
    StableHlo.binary main_v43 main_v42 main_v44 (addf : (⟨S4096x2048, .f32⟩ : BufTy).Contents (Elt F) → (⟨S4096x2048, .f32⟩ : BufTy).Contents (Elt F) → (⟨S4096x2048, .f32⟩ : BufTy).Contents (Elt F)),
    StableHlo.nullary main_cst_7 (constant S_ .f32 0x3F800000#32),
    StableHlo.unary main_cst_7 main_v45 (broadcastInDim S4096x2048 ![] bcast_S_S4096x2048 : (⟨S_, .f32⟩ : BufTy).Contents (Elt F) → (⟨S4096x2048, .f32⟩ : BufTy).Contents (Elt F)),
    StableHlo.binary main_v45 main_v44 main_v46 (Host.divf : (⟨S4096x2048, .f32⟩ : BufTy).Contents (Elt F) → (⟨S4096x2048, .f32⟩ : BufTy).Contents (Elt F) → (⟨S4096x2048, .f32⟩ : BufTy).Contents (Elt F)),
    StableHlo.unary main_arg13 main_v47 ((transpose S1024x2048 [1, 0] · transposes_S2048x1024_S1024x2048_1_0) : (⟨S2048x1024, .f32⟩ : BufTy).Contents (Elt F) → (⟨S1024x2048, .f32⟩ : BufTy).Contents (Elt F)),
    StableHlo.binary main_arg0 main_v47 main_v48 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    StableHlo.unary main_arg14 main_v49 (broadcastInDim S1x2048 ![1] bcast_S2048_S1x2048_1 : (⟨S2048, .f32⟩ : BufTy).Contents (Elt F) → (⟨S1x2048, .f32⟩ : BufTy).Contents (Elt F)) ]

set_option maxRecDepth 4096 in
set_option maxHeartbeats 4000000 in
/-- This stretch of @main is that straight line: the called functions unfolded at their calls, sequencing reassociated. -/
theorem part0_eq (d : Dev nD) : main_part0 (F := F) d = StableHlo.seq ops0 := by
  simp only [main_part0, fn_std.body, fn_var.body, fn_where.body, StableHlo.seq, bind_assoc, pure_bind]
  try rfl

/-- Each operation touches TensorCore buffers only. -/
theorem ops0_sub : (ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub ..⟩

/-- No operation allocates a buffer. -/
theorem ops0_fresh : (ops0 : List (HloOp τ sig (Elt F))).Forall fun op => op.fresh = ∅ := by
  simp only [List.Forall]; repeat' constructor

/-- The buffers this stretch writes, in order. -/
abbrev W0 : List (Ref sig .tc) := [main_v0, main_v1, main_v2, main_v3, main_v4, main_cst, main_v5, main_v6, main_cst_0, main_v7, main_v8, main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v0, main_v9, main_v10, main_v11, main_cst_1, main_v12, main_v13, main_v14, main_v15, main_v16, main_v17, main_v18, main_v19, main_v20, main_v21, main_v22, main_v23, main_v24, main_cst_2, main_v25, main_v26, main_cst_3, main_v27, main_v28, main_c_4, main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_v11, main_call1_call0_v12, main_call1_call0_cst_3, main_call1_call0_v13, main_call1_call0_cst_4, main_call1_call0_call0_v0, main_call1_call0_call0_v1, main_call1_v0, main_v29, main_v30, main_v31, main_cst_5, main_v32, main_v33, main_v34, main_v35, main_v36, main_v37, main_v38, main_v39, main_v40, main_v41, main_v42, main_cst_6, main_v43, main_v44, main_cst_7, main_v45, main_v46, main_v47, main_v48, main_v49]

set_option maxHeartbeats 4000000 in
theorem ops0_writes : (ops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, Finset.singleton_subset_iff, List.mem_toFinset]; exact List.mem_map_of_mem (by decide))

end Cert.ReferenceIdeal.Hand

end
-- ==== Proof.Ref.Part1.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-- Operations … of the reference, in order (the input gate, and the start of the candidate); each call of the standard-deviation function is
    written out at its call site over that call's buffers: the row mean, the centred squares, their row sum over n − ddof,
    the guard on n − ddof > 0, the square root. -/
abbrev ops1 : List (HloOp τ sig (Elt F)) :=
  [ StableHlo.unary main_v49 main_v50 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v48 main_v50 main_v51 (addf : (⟨S4096x2048, .f32⟩ : BufTy).Contents (Elt F) → (⟨S4096x2048, .f32⟩ : BufTy).Contents (Elt F) → (⟨S4096x2048, .f32⟩ : BufTy).Contents (Elt F)),
    StableHlo.nullary main_cst_8 (constant S_ .f32 0x00000000#32),
    StableHlo.binary main_v51 main_cst_8 main_v52 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v52 main_v53 (broadcastInDim S4096x1 ![0] bcast_S4096_S4096x1_0 : (⟨S4096, .f32⟩ : BufTy).Contents (Elt F) → (⟨S4096x1, .f32⟩ : BufTy).Contents (Elt F)),
    StableHlo.nullary main_cst_9 (constant S_ .f32 0x45000000#32),
    StableHlo.unary main_cst_9 main_v54 (broadcastInDim S4096x1 ![] bcast_S_S4096x1 : (⟨S_, .f32⟩ : BufTy).Contents (Elt F) → (⟨S4096x1, .f32⟩ : BufTy).Contents (Elt F)),
    StableHlo.binary main_v53 main_v54 main_v55 (Host.divf : (⟨S4096x1, .f32⟩ : BufTy).Contents (Elt F) → (⟨S4096x1, .f32⟩ : BufTy).Contents (Elt F) → (⟨S4096x1, .f32⟩ : BufTy).Contents (Elt F)),
    StableHlo.nullary main_c_10 (constantI S_ 32 1#32),
    StableHlo.TRef.nullary main_call2.call0.cst (constant S_ .f32 0x00000000#32),
    StableHlo.TRef.binary (.of main_v51) main_call2.call0.cst main_call2.call0.v0 (fun x v => Host.reduceAdd x v reducesTo_S4096x2048_S4096_d1 h_S_),
    StableHlo.TRef.unary main_call2.call0.v0 main_call2.call0.v1 (broadcastInDim S4096x1 ![0] bcast_S4096_S4096x1_0),
    StableHlo.TRef.nullary main_call2.call0.cst_0 (constant S_ .f32 0x45000000#32),
    StableHlo.TRef.unary main_call2.call0.cst_0 main_call2.call0.v2 (broadcastInDim S4096x1 ![] bcast_S_S4096x1),
    StableHlo.TRef.binary main_call2.call0.v1 main_call2.call0.v2 main_call2.call0.v3 Host.divf,
    StableHlo.TRef.unary main_call2.call0.v3 main_call2.call0.v4 (broadcastInDim S4096x2048 ![0, 1] bcast_S4096x1_S4096x2048_0_1),
    StableHlo.TRef.binary (.of main_v51) main_call2.call0.v4 main_call2.call0.v5 subf,
    StableHlo.TRef.binary main_call2.call0.v5 main_call2.call0.v5 main_call2.call0.v6 mulf,
    StableHlo.TRef.unary (.of main_c_10) main_call2.call0.v7 (sitofp .f32),
    StableHlo.TRef.nullary main_call2.call0.cst_1 (constant S_ .f32 0x45000000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S4096x2048_S4096_d1 h_S_),
    StableHlo.TRef.unary main_call2.call0.v9 main_call2.call0.v10 (broadcastInDim S4096x1 ![0] bcast_S4096_S4096x1_0),
    StableHlo.TRef.unary main_call2.call0.v8 main_call2.call0.v11 (broadcastInDim S4096x1 ![] bcast_S_S4096x1),
    StableHlo.TRef.binary main_call2.call0.v10 main_call2.call0.v11 main_call2.call0.v12 Host.divf,
    StableHlo.TRef.nullary main_call2.call0.cst_3 (constant S_ .f32 0x00000000#32),
    StableHlo.TRef.binary main_call2.call0.v8 main_call2.call0.cst_3 main_call2.call0.v13 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S4096x1 ![] bcast_S_S4096x1),
    StableHlo.TRef.ternary main_call2.call0.v13 main_call2.call0.v12 main_call2.call0.call0.v1 main_call2.call0.call0.v2 (fun p a b => select (broadcastInDim S4096x1 ![] bcast_S_S4096x1 p) a b),
    StableHlo.TRef.unary main_call2.call0.call0.v2 main_call2.v1 Host.sqrt,
    StableHlo.unary main_v55 main_v57 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v51 main_v57 main_v58 (subf : (⟨S4096x2048, .f32⟩ : BufTy).Contents (Elt F) → (⟨S4096x2048, .f32⟩ : BufTy).Contents (Elt F) → (⟨S4096x2048, .f32⟩ : BufTy).Contents (Elt F)),
    StableHlo.nullary main_cst_11 (constant S_ .f32 0x3727C5AC#32),
    StableHlo.unary main_cst_11 main_v59 (broadcastInDim S4096x1 ![] bcast_S_S4096x1 : (⟨S_, .f32⟩ : BufTy).Contents (Elt F) → (⟨S4096x1, .f32⟩ : BufTy).Contents (Elt F)),
    StableHlo.binary main_v56 main_v59 main_v60 (addf : (⟨S4096x1, .f32⟩ : BufTy).Contents (Elt F) → (⟨S4096x1, .f32⟩ : BufTy).Contents (Elt F) → (⟨S4096x1, .f32⟩ : BufTy).Contents (Elt F)),
    StableHlo.unary main_v60 main_v61 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v58 main_v61 main_v62 (Host.divf : (⟨S4096x2048, .f32⟩ : BufTy).Contents (Elt F) → (⟨S4096x2048, .f32⟩ : BufTy).Contents (Elt F) → (⟨S4096x2048, .f32⟩ : BufTy).Contents (Elt F)),
    StableHlo.unary main_arg21 main_v63 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v62 main_v63 main_v64 (mulf : (⟨S4096x2048, .f32⟩ : BufTy).Contents (Elt F) → (⟨S4096x2048, .f32⟩ : BufTy).Contents (Elt F) → (⟨S4096x2048, .f32⟩ : BufTy).Contents (Elt F)),
    StableHlo.unary main_arg22 main_v65 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v64 main_v65 main_v66 (addf : (⟨S4096x2048, .f32⟩ : BufTy).Contents (Elt F) → (⟨S4096x2048, .f32⟩ : BufTy).Contents (Elt F) → (⟨S4096x2048, .f32⟩ : BufTy).Contents (Elt F)),
    StableHlo.unary main_arg5 main_v67 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg1 main_v67 main_v68 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg6 main_v69 (broadcastInDim S1x2048 ![1] bcast_S2048_S1x2048_1 : (⟨S2048, .f32⟩ : BufTy).Contents (Elt F) → (⟨S1x2048, .f32⟩ : BufTy).Contents (Elt F)),
    StableHlo.unary main_v69 main_v70 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v68 main_v70 main_v71 (addf : (⟨S4096x2048, .f32⟩ : BufTy).Contents (Elt F) → (⟨S4096x2048, .f32⟩ : BufTy).Contents (Elt F) → (⟨S4096x2048, .f32⟩ : BufTy).Contents (Elt F)),
    StableHlo.nullary main_cst_12 (constant S_ .f32 0x00000000#32),
    StableHlo.binary main_v71 main_cst_12 main_v72 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v72 main_v73 (broadcastInDim S4096x1 ![0] bcast_S4096_S4096x1_0 : (⟨S4096, .f32⟩ : BufTy).Contents (Elt F) → (⟨S4096x1, .f32⟩ : BufTy).Contents (Elt F)),
    StableHlo.nullary main_cst_13 (constant S_ .f32 0x45000000#32),
    StableHlo.unary main_cst_13 main_v74 (broadcastInDim S4096x1 ![] bcast_S_S4096x1 : (⟨S_, .f32⟩ : BufTy).Contents (Elt F) → (⟨S4096x1, .f32⟩ : BufTy).Contents (Elt F)),
    StableHlo.binary main_v73 main_v74 main_v75 (Host.divf : (⟨S4096x1, .f32⟩ : BufTy).Contents (Elt F) → (⟨S4096x1, .f32⟩ : BufTy).Contents (Elt F) → (⟨S4096x1, .f32⟩ : BufTy).Contents (Elt F)),
    StableHlo.nullary main_c_14 (constantI S_ 32 1#32),
    StableHlo.TRef.nullary main_call3.call0.cst (constant S_ .f32 0x00000000#32),
    StableHlo.TRef.binary (.of main_v71) main_call3.call0.cst main_call3.call0.v0 (fun x v => Host.reduceAdd x v reducesTo_S4096x2048_S4096_d1 h_S_),
    StableHlo.TRef.unary main_call3.call0.v0 main_call3.call0.v1 (broadcastInDim S4096x1 ![0] bcast_S4096_S4096x1_0),
    StableHlo.TRef.nullary main_call3.call0.cst_0 (constant S_ .f32 0x45000000#32),
    StableHlo.TRef.unary main_call3.call0.cst_0 main_call3.call0.v2 (broadcastInDim S4096x1 ![] bcast_S_S4096x1),
    StableHlo.TRef.binary main_call3.call0.v1 main_call3.call0.v2 main_call3.call0.v3 Host.divf,
    StableHlo.TRef.unary main_call3.call0.v3 main_call3.call0.v4 (broadcastInDim S4096x2048 ![0, 1] bcast_S4096x1_S4096x2048_0_1),
    StableHlo.TRef.binary (.of main_v71) main_call3.call0.v4 main_call3.call0.v5 subf,
    StableHlo.TRef.binary main_call3.call0.v5 main_call3.call0.v5 main_call3.call0.v6 mulf,
    StableHlo.TRef.unary (.of main_c_14) main_call3.call0.v7 (sitofp .f32),
    StableHlo.TRef.nullary main_call3.call0.cst_1 (constant S_ .f32 0x45000000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S4096x2048_S4096_d1 h_S_),
    StableHlo.TRef.unary main_call3.call0.v9 main_call3.call0.v10 (broadcastInDim S4096x1 ![0] bcast_S4096_S4096x1_0),
    StableHlo.TRef.unary main_call3.call0.v8 main_call3.call0.v11 (broadcastInDim S4096x1 ![] bcast_S_S4096x1),
    StableHlo.TRef.binary main_call3.call0.v10 main_call3.call0.v11 main_call3.call0.v12 Host.divf,
    StableHlo.TRef.nullary main_call3.call0.cst_3 (constant S_ .f32 0x00000000#32),
    StableHlo.TRef.binary main_call3.call0.v8 main_call3.call0.cst_3 main_call3.call0.v13 (cmpf .ogt),
    StableHlo.TRef.nullary main_call3.call0.cst_4 (constant S_ .f32 0x7FC00000#32),
    StableHlo.TRef.unary main_call3.call0.cst_4 main_call3.call0.call0.v0 id,
    StableHlo.TRef.unary main_call3.call0.call0.v0 main_call3.call0.call0.v1 (broadcastInDim S4096x1 ![] bcast_S_S4096x1),
    StableHlo.TRef.ternary main_call3.call0.v13 main_call3.call0.v12 main_call3.call0.call0.v1 main_call3.call0.call0.v2 (fun p a b => select (broadcastInDim S4096x1 ![] bcast_S_S4096x1 p) a b),
    StableHlo.TRef.unary main_call3.call0.call0.v2 main_call3.v1 Host.sqrt,
    StableHlo.unary main_v75 main_v77 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v71 main_v77 main_v78 (subf : (⟨S4096x2048, .f32⟩ : BufTy).Contents (Elt F) → (⟨S4096x2048, .f32⟩ : BufTy).Contents (Elt F) → (⟨S4096x2048, .f32⟩ : BufTy).Contents (Elt F)),
    StableHlo.nullary main_cst_15 (constant S_ .f32 0x3727C5AC#32),
    StableHlo.unary main_cst_15 main_v79 (broadcastInDim S4096x1 ![] bcast_S_S4096x1 : (⟨S_, .f32⟩ : BufTy).Contents (Elt F) → (⟨S4096x1, .f32⟩ : BufTy).Contents (Elt F)),
    StableHlo.binary main_v76 main_v79 main_v80 (addf : (⟨S4096x1, .f32⟩ : BufTy).Contents (Elt F) → (⟨S4096x1, .f32⟩ : BufTy).Contents (Elt F) → (⟨S4096x1, .f32⟩ : BufTy).Contents (Elt F)),
    StableHlo.unary main_v80 main_v81 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v78 main_v81 main_v82 (Host.divf : (⟨S4096x2048, .f32⟩ : BufTy).Contents (Elt F) → (⟨S4096x2048, .f32⟩ : BufTy).Contents (Elt F) → (⟨S4096x2048, .f32⟩ : BufTy).Contents (Elt F)),
    StableHlo.unary main_arg23 main_v83 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v82 main_v83 main_v84 (mulf : (⟨S4096x2048, .f32⟩ : BufTy).Contents (Elt F) → (⟨S4096x2048, .f32⟩ : BufTy).Contents (Elt F) → (⟨S4096x2048, .f32⟩ : BufTy).Contents (Elt F)),
    StableHlo.unary main_arg24 main_v85 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v84 main_v85 main_v86 (addf : (⟨S4096x2048, .f32⟩ : BufTy).Contents (Elt F) → (⟨S4096x2048, .f32⟩ : BufTy).Contents (Elt F) → (⟨S4096x2048, .f32⟩ : BufTy).Contents (Elt F)),
    StableHlo.binary main_v66 main_v86 main_v87 (addf : (⟨S4096x2048, .f32⟩ : BufTy).Contents (Elt F) → (⟨S4096x2048, .f32⟩ : BufTy).Contents (Elt F) → (⟨S4096x2048, .f32⟩ : BufTy).Contents (Elt F)),
    StableHlo.unary main_v87 main_v88 (Host.negf : (⟨S4096x2048, .f32⟩ : BufTy).Contents (Elt F) → (⟨S4096x2048, .f32⟩ : BufTy).Contents (Elt F)),
    StableHlo.unary main_v88 main_v89 (Host.exp : (⟨S4096x2048, .f32⟩ : BufTy).Contents (Elt F) → (⟨S4096x2048, .f32⟩ : BufTy).Contents (Elt F)),
    StableHlo.nullary main_cst_16 (constant S_ .f32 0x3F800000#32),
    StableHlo.unary main_cst_16 main_v90 (broadcastInDim S4096x2048 ![] bcast_S_S4096x2048 : (⟨S_, .f32⟩ : BufTy).Contents (Elt F) → (⟨S4096x2048, .f32⟩ : BufTy).Contents (Elt F)),
    StableHlo.binary main_v90 main_v89 main_v91 (addf : (⟨S4096x2048, .f32⟩ : BufTy).Contents (Elt F) → (⟨S4096x2048, .f32⟩ : BufTy).Contents (Elt F) → (⟨S4096x2048, .f32⟩ : BufTy).Contents (Elt F)),
    StableHlo.nullary main_cst_17 (constant S_ .f32 0x3F800000#32),
    StableHlo.unary main_cst_17 main_v92 (broadcastInDim S4096x2048 ![] bcast_S_S4096x2048 : (⟨S_, .f32⟩ : BufTy).Contents (Elt F) → (⟨S4096x2048, .f32⟩ : BufTy).Contents (Elt F)),
    StableHlo.binary main_v92 main_v91 main_v93 (Host.divf : (⟨S4096x2048, .f32⟩ : BufTy).Contents (Elt F) → (⟨S4096x2048, .f32⟩ : BufTy).Contents (Elt F) → (⟨S4096x2048, .f32⟩ : BufTy).Contents (Elt F)),
    StableHlo.unary main_arg15 main_v94 ((transpose S1024x2048 [1, 0] · transposes_S2048x1024_S1024x2048_1_0) : (⟨S2048x1024, .f32⟩ : BufTy).Contents (Elt F) → (⟨S1024x2048, .f32⟩ : BufTy).Contents (Elt F)),
    StableHlo.binary main_arg0 main_v94 main_v95 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    StableHlo.unary main_arg16 main_v96 (broadcastInDim S1x2048 ![1] bcast_S2048_S1x2048_1 : (⟨S2048, .f32⟩ : BufTy).Contents (Elt F) → (⟨S1x2048, .f32⟩ : BufTy).Contents (Elt F)),
    StableHlo.unary main_v96 main_v97 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v95 main_v97 main_v98 (addf : (⟨S4096x2048, .f32⟩ : BufTy).Contents (Elt F) → (⟨S4096x2048, .f32⟩ : BufTy).Contents (Elt F) → (⟨S4096x2048, .f32⟩ : BufTy).Contents (Elt F)),
    StableHlo.nullary main_cst_18 (constant S_ .f32 0x00000000#32) ]

set_option maxRecDepth 4096 in
set_option maxHeartbeats 4000000 in
/-- This stretch of @main is that straight line: the called functions unfolded at their calls, sequencing reassociated. -/
theorem part1_eq (d : Dev nD) : main_part1 (F := F) d = StableHlo.seq ops1 := by
  simp only [main_part1, fn_std.body, fn_var.body, fn_where.body, StableHlo.seq, bind_assoc, pure_bind]
  try rfl

/-- Each operation touches TensorCore buffers only. -/
theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub ..⟩

/-- No operation allocates a buffer. -/
theorem ops1_fresh : (ops1 : List (HloOp τ sig (Elt F))).Forall fun op => op.fresh = ∅ := by
  simp only [List.Forall]; repeat' constructor

/-- The buffers this stretch writes, in order. -/
abbrev W1 : List (Ref sig .tc) := [main_v50, main_v51, main_cst_8, main_v52, main_v53, main_cst_9, main_v54, main_v55, main_c_10, main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_v11, main_call2_call0_v12, main_call2_call0_cst_3, main_call2_call0_v13, main_call2_call0_cst_4, main_call2_call0_call0_v0, main_call2_call0_call0_v1, main_call2_v0, main_v56, main_v57, main_v58, main_cst_11, main_v59, main_v60, main_v61, main_v62, main_v63, main_v64, main_v65, main_v66, main_v67, main_v68, main_v69, main_v70, main_v71, main_cst_12, main_v72, main_v73, main_cst_13, main_v74, main_v75, main_c_14, main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_v12, main_call3_call0_cst_3, main_call3_call0_v13, main_call3_call0_cst_4, main_call3_call0_call0_v0, main_call3_call0_call0_v1, main_call3_v0, main_v76, main_v77, main_v78, main_cst_15, main_v79, main_v80, main_v81, main_v82, main_v83, main_v84, main_v85, main_v86, main_v87, main_v88, main_v89, main_cst_16, main_v90, main_v91, main_cst_17, main_v92, main_v93, main_v94, main_v95, main_v96, main_v97, main_v98, main_cst_18]

set_option maxHeartbeats 4000000 in
theorem ops1_writes : (ops1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, Finset.singleton_subset_iff, List.mem_toFinset]; exact List.mem_map_of_mem (by decide))

end Cert.ReferenceIdeal.Hand

end
-- ==== Proof.Ref.Part2.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-- Operations … of the reference, in order (the candidate (tanh), the new cell state, and the start of the output gate); each call of the standard-deviation function is
    written out at its call site over that call's buffers: the row mean, the centred squares, their row sum over n − ddof,
    the guard on n − ddof > 0, the square root. -/
abbrev ops2 : List (HloOp τ sig (Elt F)) :=
  [ StableHlo.binary main_v98 main_cst_18 main_v99 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v99 main_v100 (broadcastInDim S4096x1 ![0] bcast_S4096_S4096x1_0 : (⟨S4096, .f32⟩ : BufTy).Contents (Elt F) → (⟨S4096x1, .f32⟩ : BufTy).Contents (Elt F)),
    StableHlo.nullary main_cst_19 (constant S_ .f32 0x45000000#32),
    StableHlo.unary main_cst_19 main_v101 (broadcastInDim S4096x1 ![] bcast_S_S4096x1 : (⟨S_, .f32⟩ : BufTy).Contents (Elt F) → (⟨S4096x1, .f32⟩ : BufTy).Contents (Elt F)),
    StableHlo.binary main_v100 main_v101 main_v102 (Host.divf : (⟨S4096x1, .f32⟩ : BufTy).Contents (Elt F) → (⟨S4096x1, .f32⟩ : BufTy).Contents (Elt F) → (⟨S4096x1, .f32⟩ : BufTy).Contents (Elt F)),
    StableHlo.nullary main_c_20 (constantI S_ 32 1#32),
    StableHlo.TRef.nullary main_call4.call0.cst (constant S_ .f32 0x00000000#32),
    StableHlo.TRef.binary (.of main_v98) main_call4.call0.cst main_call4.call0.v0 (fun x v => Host.reduceAdd x v reducesTo_S4096x2048_S4096_d1 h_S_),
    StableHlo.TRef.unary main_call4.call0.v0 main_call4.call0.v1 (broadcastInDim S4096x1 ![0] bcast_S4096_S4096x1_0),
    StableHlo.TRef.nullary main_call4.call0.cst_0 (constant S_ .f32 0x45000000#32),
    StableHlo.TRef.unary main_call4.call0.cst_0 main_call4.call0.v2 (broadcastInDim S4096x1 ![] bcast_S_S4096x1),
    StableHlo.TRef.binary main_call4.call0.v1 main_call4.call0.v2 main_call4.call0.v3 Host.divf,
    StableHlo.TRef.unary main_call4.call0.v3 main_call4.call0.v4 (broadcastInDim S4096x2048 ![0, 1] bcast_S4096x1_S4096x2048_0_1),
    StableHlo.TRef.binary (.of main_v98) main_call4.call0.v4 main_call4.call0.v5 subf,
    StableHlo.TRef.binary main_call4.call0.v5 main_call4.call0.v5 main_call4.call0.v6 mulf,
    StableHlo.TRef.unary (.of main_c_20) main_call4.call0.v7 (sitofp .f32),
    StableHlo.TRef.nullary main_call4.call0.cst_1 (constant S_ .f32 0x45000000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S4096x2048_S4096_d1 h_S_),
    StableHlo.TRef.unary main_call4.call0.v9 main_call4.call0.v10 (broadcastInDim S4096x1 ![0] bcast_S4096_S4096x1_0),
    StableHlo.TRef.unary main_call4.call0.v8 main_call4.call0.v11 (broadcastInDim S4096x1 ![] bcast_S_S4096x1),
    StableHlo.TRef.binary main_call4.call0.v10 main_call4.call0.v11 main_call4.call0.v12 Host.divf,
    StableHlo.TRef.nullary main_call4.call0.cst_3 (constant S_ .f32 0x00000000#32),
    StableHlo.TRef.binary main_call4.call0.v8 main_call4.call0.cst_3 main_call4.call0.v13 (cmpf .ogt),
    StableHlo.TRef.nullary main_call4.call0.cst_4 (constant S_ .f32 0x7FC00000#32),
    StableHlo.TRef.unary main_call4.call0.cst_4 main_call4.call0.call0.v0 id,
    StableHlo.TRef.unary main_call4.call0.call0.v0 main_call4.call0.call0.v1 (broadcastInDim S4096x1 ![] bcast_S_S4096x1),
    StableHlo.TRef.ternary main_call4.call0.v13 main_call4.call0.v12 main_call4.call0.call0.v1 main_call4.call0.call0.v2 (fun p a b => select (broadcastInDim S4096x1 ![] bcast_S_S4096x1 p) a b),
    StableHlo.TRef.unary main_call4.call0.call0.v2 main_call4.v1 Host.sqrt,
    StableHlo.unary main_v102 main_v104 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v98 main_v104 main_v105 (subf : (⟨S4096x2048, .f32⟩ : BufTy).Contents (Elt F) → (⟨S4096x2048, .f32⟩ : BufTy).Contents (Elt F) → (⟨S4096x2048, .f32⟩ : BufTy).Contents (Elt F)),
    StableHlo.nullary main_cst_21 (constant S_ .f32 0x3727C5AC#32),
    StableHlo.unary main_cst_21 main_v106 (broadcastInDim S4096x1 ![] bcast_S_S4096x1 : (⟨S_, .f32⟩ : BufTy).Contents (Elt F) → (⟨S4096x1, .f32⟩ : BufTy).Contents (Elt F)),
    StableHlo.binary main_v103 main_v106 main_v107 (addf : (⟨S4096x1, .f32⟩ : BufTy).Contents (Elt F) → (⟨S4096x1, .f32⟩ : BufTy).Contents (Elt F) → (⟨S4096x1, .f32⟩ : BufTy).Contents (Elt F)),
    StableHlo.unary main_v107 main_v108 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v105 main_v108 main_v109 (Host.divf : (⟨S4096x2048, .f32⟩ : BufTy).Contents (Elt F) → (⟨S4096x2048, .f32⟩ : BufTy).Contents (Elt F) → (⟨S4096x2048, .f32⟩ : BufTy).Contents (Elt F)),
    StableHlo.unary main_arg21 main_v110 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v109 main_v110 main_v111 (mulf : (⟨S4096x2048, .f32⟩ : BufTy).Contents (Elt F) → (⟨S4096x2048, .f32⟩ : BufTy).Contents (Elt F) → (⟨S4096x2048, .f32⟩ : BufTy).Contents (Elt F)),
    StableHlo.unary main_arg22 main_v112 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v111 main_v112 main_v113 (addf : (⟨S4096x2048, .f32⟩ : BufTy).Contents (Elt F) → (⟨S4096x2048, .f32⟩ : BufTy).Contents (Elt F) → (⟨S4096x2048, .f32⟩ : BufTy).Contents (Elt F)),
    StableHlo.unary main_arg7 main_v114 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg1 main_v114 main_v115 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg8 main_v116 (broadcastInDim S1x2048 ![1] bcast_S2048_S1x2048_1 : (⟨S2048, .f32⟩ : BufTy).Contents (Elt F) → (⟨S1x2048, .f32⟩ : BufTy).Contents (Elt F)),
    StableHlo.unary main_v116 main_v117 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v115 main_v117 main_v118 (addf : (⟨S4096x2048, .f32⟩ : BufTy).Contents (Elt F) → (⟨S4096x2048, .f32⟩ : BufTy).Contents (Elt F) → (⟨S4096x2048, .f32⟩ : BufTy).Contents (Elt F)),
    StableHlo.nullary main_cst_22 (constant S_ .f32 0x00000000#32),
    StableHlo.binary main_v118 main_cst_22 main_v119 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v119 main_v120 (broadcastInDim S4096x1 ![0] bcast_S4096_S4096x1_0 : (⟨S4096, .f32⟩ : BufTy).Contents (Elt F) → (⟨S4096x1, .f32⟩ : BufTy).Contents (Elt F)),
    StableHlo.nullary main_cst_23 (constant S_ .f32 0x45000000#32),
    StableHlo.unary main_cst_23 main_v121 (broadcastInDim S4096x1 ![] bcast_S_S4096x1 : (⟨S_, .f32⟩ : BufTy).Contents (Elt F) → (⟨S4096x1, .f32⟩ : BufTy).Contents (Elt F)),
    StableHlo.binary main_v120 main_v121 main_v122 (Host.divf : (⟨S4096x1, .f32⟩ : BufTy).Contents (Elt F) → (⟨S4096x1, .f32⟩ : BufTy).Contents (Elt F) → (⟨S4096x1, .f32⟩ : BufTy).Contents (Elt F)),
    StableHlo.nullary main_c_24 (constantI S_ 32 1#32),
    StableHlo.TRef.nullary main_call5.call0.cst (constant S_ .f32 0x00000000#32),
    StableHlo.TRef.binary (.of main_v118) main_call5.call0.cst main_call5.call0.v0 (fun x v => Host.reduceAdd x v reducesTo_S4096x2048_S4096_d1 h_S_),
    StableHlo.TRef.unary main_call5.call0.v0 main_call5.call0.v1 (broadcastInDim S4096x1 ![0] bcast_S4096_S4096x1_0),
    StableHlo.TRef.nullary main_call5.call0.cst_0 (constant S_ .f32 0x45000000#32),
    StableHlo.TRef.unary main_call5.call0.cst_0 main_call5.call0.v2 (broadcastInDim S4096x1 ![] bcast_S_S4096x1),
    StableHlo.TRef.binary main_call5.call0.v1 main_call5.call0.v2 main_call5.call0.v3 Host.divf,
    StableHlo.TRef.unary main_call5.call0.v3 main_call5.call0.v4 (broadcastInDim S4096x2048 ![0, 1] bcast_S4096x1_S4096x2048_0_1),
    StableHlo.TRef.binary (.of main_v118) main_call5.call0.v4 main_call5.call0.v5 subf,
    StableHlo.TRef.binary main_call5.call0.v5 main_call5.call0.v5 main_call5.call0.v6 mulf,
    StableHlo.TRef.unary (.of main_c_24) main_call5.call0.v7 (sitofp .f32),
    StableHlo.TRef.nullary main_call5.call0.cst_1 (constant S_ .f32 0x45000000#32),
    StableHlo.TRef.binary main_call5.call0.cst_1 main_call5.call0.v7 main_call5.call0.v8 subf,
    StableHlo.TRef.nullary main_call5.call0.cst_2 (constant S_ .f32 0x00000000#32),
    StableHlo.TRef.binary main_call5.call0.v6 main_call5.call0.cst_2 main_call5.call0.v9 (fun x v => Host.reduceAdd x v reducesTo_S4096x2048_S4096_d1 h_S_),
    StableHlo.TRef.unary main_call5.call0.v9 main_call5.call0.v10 (broadcastInDim S4096x1 ![0] bcast_S4096_S4096x1_0),
    StableHlo.TRef.unary main_call5.call0.v8 main_call5.call0.v11 (broadcastInDim S4096x1 ![] bcast_S_S4096x1),
    StableHlo.TRef.binary main_call5.call0.v10 main_call5.call0.v11 main_call5.call0.v12 Host.divf,
    StableHlo.TRef.nullary main_call5.call0.cst_3 (constant S_ .f32 0x00000000#32),
    StableHlo.TRef.binary main_call5.call0.v8 main_call5.call0.cst_3 main_call5.call0.v13 (cmpf .ogt),
    StableHlo.TRef.nullary main_call5.call0.cst_4 (constant S_ .f32 0x7FC00000#32),
    StableHlo.TRef.unary main_call5.call0.cst_4 main_call5.call0.call0.v0 id,
    StableHlo.TRef.unary main_call5.call0.call0.v0 main_call5.call0.call0.v1 (broadcastInDim S4096x1 ![] bcast_S_S4096x1),
    StableHlo.TRef.ternary main_call5.call0.v13 main_call5.call0.v12 main_call5.call0.call0.v1 main_call5.call0.call0.v2 (fun p a b => select (broadcastInDim S4096x1 ![] bcast_S_S4096x1 p) a b),
    StableHlo.TRef.unary main_call5.call0.call0.v2 main_call5.v1 Host.sqrt,
    StableHlo.unary main_v122 main_v124 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v118 main_v124 main_v125 (subf : (⟨S4096x2048, .f32⟩ : BufTy).Contents (Elt F) → (⟨S4096x2048, .f32⟩ : BufTy).Contents (Elt F) → (⟨S4096x2048, .f32⟩ : BufTy).Contents (Elt F)),
    StableHlo.nullary main_cst_25 (constant S_ .f32 0x3727C5AC#32),
    StableHlo.unary main_cst_25 main_v126 (broadcastInDim S4096x1 ![] bcast_S_S4096x1 : (⟨S_, .f32⟩ : BufTy).Contents (Elt F) → (⟨S4096x1, .f32⟩ : BufTy).Contents (Elt F)),
    StableHlo.binary main_v123 main_v126 main_v127 (addf : (⟨S4096x1, .f32⟩ : BufTy).Contents (Elt F) → (⟨S4096x1, .f32⟩ : BufTy).Contents (Elt F) → (⟨S4096x1, .f32⟩ : BufTy).Contents (Elt F)),
    StableHlo.unary main_v127 main_v128 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v125 main_v128 main_v129 (Host.divf : (⟨S4096x2048, .f32⟩ : BufTy).Contents (Elt F) → (⟨S4096x2048, .f32⟩ : BufTy).Contents (Elt F) → (⟨S4096x2048, .f32⟩ : BufTy).Contents (Elt F)),
    StableHlo.unary main_arg23 main_v130 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v129 main_v130 main_v131 (mulf : (⟨S4096x2048, .f32⟩ : BufTy).Contents (Elt F) → (⟨S4096x2048, .f32⟩ : BufTy).Contents (Elt F) → (⟨S4096x2048, .f32⟩ : BufTy).Contents (Elt F)),
    StableHlo.unary main_arg24 main_v132 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v131 main_v132 main_v133 (addf : (⟨S4096x2048, .f32⟩ : BufTy).Contents (Elt F) → (⟨S4096x2048, .f32⟩ : BufTy).Contents (Elt F) → (⟨S4096x2048, .f32⟩ : BufTy).Contents (Elt F)),
    StableHlo.binary main_v113 main_v133 main_v134 (addf : (⟨S4096x2048, .f32⟩ : BufTy).Contents (Elt F) → (⟨S4096x2048, .f32⟩ : BufTy).Contents (Elt F) → (⟨S4096x2048, .f32⟩ : BufTy).Contents (Elt F)),
    StableHlo.unary main_v134 main_v135 (Host.tanh : (⟨S4096x2048, .f32⟩ : BufTy).Contents (Elt F) → (⟨S4096x2048, .f32⟩ : BufTy).Contents (Elt F)),
    StableHlo.binary main_v46 main_arg2 main_v136 (mulf : (⟨S4096x2048, .f32⟩ : BufTy).Contents (Elt F) → (⟨S4096x2048, .f32⟩ : BufTy).Contents (Elt F) → (⟨S4096x2048, .f32⟩ : BufTy).Contents (Elt F)),
    StableHlo.binary main_v93 main_v135 main_v137 (mulf : (⟨S4096x2048, .f32⟩ : BufTy).Contents (Elt F) → (⟨S4096x2048, .f32⟩ : BufTy).Contents (Elt F) → (⟨S4096x2048, .f32⟩ : BufTy).Contents (Elt F)),
    StableHlo.binary main_v136 main_v137 main_v138 (addf : (⟨S4096x2048, .f32⟩ : BufTy).Contents (Elt F) → (⟨S4096x2048, .f32⟩ : BufTy).Contents (Elt F) → (⟨S4096x2048, .f32⟩ : BufTy).Contents (Elt F)),
    StableHlo.unary main_arg17 main_v139 ((transpose S1024x2048 [1, 0] · transposes_S2048x1024_S1024x2048_1_0) : (⟨S2048x1024, .f32⟩ : BufTy).Contents (Elt F) → (⟨S1024x2048, .f32⟩ : BufTy).Contents (Elt F)),
    StableHlo.binary main_arg0 main_v139 main_v140 ((fun l r => Host.dotGeneral dot_S4096x1024_S1024x2048_S4096x2048_1_0_0_1_n_n none l r) : (⟨S4096x1024, .f32⟩ : BufTy).Contents (Elt F) → (⟨S1024x2048, .f32⟩ : BufTy).Contents (Elt F) → (⟨S4096x2048, .f32⟩ : BufTy).Contents (Elt F)),
    StableHlo.unary main_arg18 main_v141 (broadcastInDim S1x2048 ![1] bcast_S2048_S1x2048_1 : (⟨S2048, .f32⟩ : BufTy).Contents (Elt F) → (⟨S1x2048, .f32⟩ : BufTy).Contents (Elt F)),
    StableHlo.unary main_v141 main_v142 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v140 main_v142 main_v143 (addf : (⟨S4096x2048, .f32⟩ : BufTy).Contents (Elt F) → (⟨S4096x2048, .f32⟩ : BufTy).Contents (Elt F) → (⟨S4096x2048, .f32⟩ : BufTy).Contents (Elt F)),
    StableHlo.nullary main_cst_26 (constant S_ .f32 0x00000000#32),
    StableHlo.binary main_v143 main_cst_26 main_v144 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v144 main_v145 (broadcastInDim S4096x1 ![0] bcast_S4096_S4096x1_0 : (⟨S4096, .f32⟩ : BufTy).Contents (Elt F) → (⟨S4096x1, .f32⟩ : BufTy).Contents (Elt F)),
    StableHlo.nullary main_cst_27 (constant S_ .f32 0x45000000#32),
    StableHlo.unary main_cst_27 main_v146 (broadcastInDim S4096x1 ![] bcast_S_S4096x1 : (⟨S_, .f32⟩ : BufTy).Contents (Elt F) → (⟨S4096x1, .f32⟩ : BufTy).Contents (Elt F)),
    StableHlo.binary main_v145 main_v146 main_v147 (Host.divf : (⟨S4096x1, .f32⟩ : BufTy).Contents (Elt F) → (⟨S4096x1, .f32⟩ : BufTy).Contents (Elt F) → (⟨S4096x1, .f32⟩ : BufTy).Contents (Elt F)),
    StableHlo.nullary main_c_28 (constantI S_ 32 1#32),
    StableHlo.TRef.nullary main_call6.call0.cst (constant S_ .f32 0x00000000#32),
    StableHlo.TRef.binary (.of main_v143) main_call6.call0.cst main_call6.call0.v0 (fun x v => Host.reduceAdd x v reducesTo_S4096x2048_S4096_d1 h_S_),
    StableHlo.TRef.unary main_call6.call0.v0 main_call6.call0.v1 (broadcastInDim S4096x1 ![0] bcast_S4096_S4096x1_0),
    StableHlo.TRef.nullary main_call6.call0.cst_0 (constant S_ .f32 0x45000000#32),
    StableHlo.TRef.unary main_call6.call0.cst_0 main_call6.call0.v2 (broadcastInDim S4096x1 ![] bcast_S_S4096x1),
    StableHlo.TRef.binary main_call6.call0.v1 main_call6.call0.v2 main_call6.call0.v3 Host.divf,
    StableHlo.TRef.unary main_call6.call0.v3 main_call6.call0.v4 (broadcastInDim S4096x2048 ![0, 1] bcast_S4096x1_S4096x2048_0_1),
    StableHlo.TRef.binary (.of main_v143) main_call6.call0.v4 main_call6.call0.v5 subf,
    StableHlo.TRef.binary main_call6.call0.v5 main_call6.call0.v5 main_call6.call0.v6 mulf,
    StableHlo.TRef.unary (.of main_c_28) main_call6.call0.v7 (sitofp .f32),
    StableHlo.TRef.nullary main_call6.call0.cst_1 (constant S_ .f32 0x45000000#32),
    StableHlo.TRef.binary main_call6.call0.cst_1 main_call6.call0.v7 main_call6.call0.v8 subf,
    StableHlo.TRef.nullary main_call6.call0.cst_2 (constant S_ .f32 0x00000000#32),
    StableHlo.TRef.binary main_call6.call0.v6 main_call6.call0.cst_2 main_call6.call0.v9 (fun x v => Host.reduceAdd x v reducesTo_S4096x2048_S4096_d1 h_S_),
    StableHlo.TRef.unary main_call6.call0.v9 main_call6.call0.v10 (broadcastInDim S4096x1 ![0] bcast_S4096_S4096x1_0),
    StableHlo.TRef.unary main_call6.call0.v8 main_call6.call0.v11 (broadcastInDim S4096x1 ![] bcast_S_S4096x1),
    StableHlo.TRef.binary main_call6.call0.v10 main_call6.call0.v11 main_call6.call0.v12 Host.divf,
    StableHlo.TRef.nullary main_call6.call0.cst_3 (constant S_ .f32 0x00000000#32),
    StableHlo.TRef.binary main_call6.call0.v8 main_call6.call0.cst_3 main_call6.call0.v13 (cmpf .ogt),
    StableHlo.TRef.nullary main_call6.call0.cst_4 (constant S_ .f32 0x7FC00000#32),
    StableHlo.TRef.unary main_call6.call0.cst_4 main_call6.call0.call0.v0 id,
    StableHlo.TRef.unary main_call6.call0.call0.v0 main_call6.call0.call0.v1 (broadcastInDim S4096x1 ![] bcast_S_S4096x1),
    StableHlo.TRef.ternary main_call6.call0.v13 main_call6.call0.v12 main_call6.call0.call0.v1 main_call6.call0.call0.v2 (fun p a b => select (broadcastInDim S4096x1 ![] bcast_S_S4096x1 p) a b),
    StableHlo.TRef.unary main_call6.call0.call0.v2 main_call6.v1 Host.sqrt ]

set_option maxRecDepth 4096 in
set_option maxHeartbeats 4000000 in
/-- This stretch of @main is that straight line: the called functions unfolded at their calls, sequencing reassociated. -/
theorem part2_eq (d : Dev nD) : main_part2 (F := F) d = StableHlo.seq ops2 := by
  simp only [main_part2, fn_std.body, fn_var.body, fn_where.body, StableHlo.seq, bind_assoc, pure_bind]
  try rfl

/-- Each operation touches TensorCore buffers only. -/
theorem ops2_sub : (ops2 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩

/-- No operation allocates a buffer. -/
theorem ops2_fresh : (ops2 : List (HloOp τ sig (Elt F))).Forall fun op => op.fresh = ∅ := by
  simp only [List.Forall]; repeat' constructor

/-- The buffers this stretch writes, in order. -/
abbrev W2 : List (Ref sig .tc) := [main_v99, main_v100, main_cst_19, main_v101, main_v102, main_c_20, main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_v11, main_call4_call0_v12, main_call4_call0_cst_3, main_call4_call0_v13, main_call4_call0_cst_4, main_call4_call0_call0_v0, main_call4_call0_call0_v1, main_call4_v0, main_v103, main_v104, main_v105, main_cst_21, main_v106, main_v107, main_v108, main_v109, main_v110, main_v111, main_v112, main_v113, main_v114, main_v115, main_v116, main_v117, main_v118, main_cst_22, main_v119, main_v120, main_cst_23, main_v121, main_v122, main_c_24, main_call5_call0_cst, main_call5_call0_v0, main_call5_call0_v1, main_call5_call0_cst_0, main_call5_call0_v2, main_call5_call0_v3, main_call5_call0_v4, main_call5_call0_v5, main_call5_call0_v6, main_call5_call0_v7, main_call5_call0_cst_1, main_call5_call0_v8, main_call5_call0_cst_2, main_call5_call0_v9, main_call5_call0_v10, main_call5_call0_v11, main_call5_call0_v12, main_call5_call0_cst_3, main_call5_call0_v13, main_call5_call0_cst_4, main_call5_call0_call0_v0, main_call5_call0_call0_v1, main_call5_v0, main_v123, main_v124, main_v125, main_cst_25, main_v126, main_v127, main_v128, main_v129, main_v130, main_v131, main_v132, main_v133, main_v134, main_v135, main_v136, main_v137, main_v138, main_v139, main_v140, main_v141, main_v142, main_v143, main_cst_26, main_v144, main_v145, main_cst_27, main_v146, main_v147, main_c_28, main_call6_call0_cst, main_call6_call0_v0, main_call6_call0_v1, main_call6_call0_cst_0, main_call6_call0_v2, main_call6_call0_v3, main_call6_call0_v4, main_call6_call0_v5, main_call6_call0_v6, main_call6_call0_v7, main_call6_call0_cst_1, main_call6_call0_v8, main_call6_call0_cst_2, main_call6_call0_v9, main_call6_call0_v10, main_call6_call0_v11, main_call6_call0_v12, main_call6_call0_cst_3, main_call6_call0_v13, main_call6_call0_cst_4, main_call6_call0_call0_v0, main_call6_call0_call0_v1, main_call6_v0, main_v148]

set_option maxHeartbeats 4000000 in
theorem ops2_writes : (ops2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, Finset.singleton_subset_iff, List.mem_toFinset]; exact List.mem_map_of_mem (by decide))

end Cert.ReferenceIdeal.Hand

end
-- ==== Proof.Ref.Part3.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-- Operations … of the reference, in order (the output gate, and the layer norm of the new cell state); each call of the standard-deviation function is
    written out at its call site over that call's buffers: the row mean, the centred squares, their row sum over n − ddof,
    the guard on n − ddof > 0, the square root. -/
abbrev ops3 : List (HloOp τ sig (Elt F)) :=
  [ StableHlo.unary main_v147 main_v149 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v143 main_v149 main_v150 (subf : (⟨S4096x2048, .f32⟩ : BufTy).Contents (Elt F) → (⟨S4096x2048, .f32⟩ : BufTy).Contents (Elt F) → (⟨S4096x2048, .f32⟩ : BufTy).Contents (Elt F)),
    StableHlo.nullary main_cst_29 (constant S_ .f32 0x3727C5AC#32),
    StableHlo.unary main_cst_29 main_v151 (broadcastInDim S4096x1 ![] bcast_S_S4096x1 : (⟨S_, .f32⟩ : BufTy).Contents (Elt F) → (⟨S4096x1, .f32⟩ : BufTy).Contents (Elt F)),
    StableHlo.binary main_v148 main_v151 main_v152 (addf : (⟨S4096x1, .f32⟩ : BufTy).Contents (Elt F) → (⟨S4096x1, .f32⟩ : BufTy).Contents (Elt F) → (⟨S4096x1, .f32⟩ : BufTy).Contents (Elt F)),
    StableHlo.unary main_v152 main_v153 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v150 main_v153 main_v154 (Host.divf : (⟨S4096x2048, .f32⟩ : BufTy).Contents (Elt F) → (⟨S4096x2048, .f32⟩ : BufTy).Contents (Elt F) → (⟨S4096x2048, .f32⟩ : BufTy).Contents (Elt F)),
    StableHlo.unary main_arg21 main_v155 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v154 main_v155 main_v156 (mulf : (⟨S4096x2048, .f32⟩ : BufTy).Contents (Elt F) → (⟨S4096x2048, .f32⟩ : BufTy).Contents (Elt F) → (⟨S4096x2048, .f32⟩ : BufTy).Contents (Elt F)),
    StableHlo.unary main_arg22 main_v157 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v156 main_v157 main_v158 (addf : (⟨S4096x2048, .f32⟩ : BufTy).Contents (Elt F) → (⟨S4096x2048, .f32⟩ : BufTy).Contents (Elt F) → (⟨S4096x2048, .f32⟩ : BufTy).Contents (Elt F)),
    StableHlo.unary main_arg9 main_v159 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg1 main_v159 main_v160 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg10 main_v161 (broadcastInDim S1x2048 ![1] bcast_S2048_S1x2048_1 : (⟨S2048, .f32⟩ : BufTy).Contents (Elt F) → (⟨S1x2048, .f32⟩ : BufTy).Contents (Elt F)),
    StableHlo.unary main_v161 main_v162 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v160 main_v162 main_v163 (addf : (⟨S4096x2048, .f32⟩ : BufTy).Contents (Elt F) → (⟨S4096x2048, .f32⟩ : BufTy).Contents (Elt F) → (⟨S4096x2048, .f32⟩ : BufTy).Contents (Elt F)),
    StableHlo.nullary main_cst_30 (constant S_ .f32 0x00000000#32),
    StableHlo.binary main_v163 main_cst_30 main_v164 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v164 main_v165 (broadcastInDim S4096x1 ![0] bcast_S4096_S4096x1_0 : (⟨S4096, .f32⟩ : BufTy).Contents (Elt F) → (⟨S4096x1, .f32⟩ : BufTy).Contents (Elt F)),
    StableHlo.nullary main_cst_31 (constant S_ .f32 0x45000000#32),
    StableHlo.unary main_cst_31 main_v166 (broadcastInDim S4096x1 ![] bcast_S_S4096x1 : (⟨S_, .f32⟩ : BufTy).Contents (Elt F) → (⟨S4096x1, .f32⟩ : BufTy).Contents (Elt F)),
    StableHlo.binary main_v165 main_v166 main_v167 (Host.divf : (⟨S4096x1, .f32⟩ : BufTy).Contents (Elt F) → (⟨S4096x1, .f32⟩ : BufTy).Contents (Elt F) → (⟨S4096x1, .f32⟩ : BufTy).Contents (Elt F)),
    StableHlo.nullary main_c_32 (constantI S_ 32 1#32),
    StableHlo.TRef.nullary main_call7.call0.cst (constant S_ .f32 0x00000000#32),
    StableHlo.TRef.binary (.of main_v163) main_call7.call0.cst main_call7.call0.v0 (fun x v => Host.reduceAdd x v reducesTo_S4096x2048_S4096_d1 h_S_),
    StableHlo.TRef.unary main_call7.call0.v0 main_call7.call0.v1 (broadcastInDim S4096x1 ![0] bcast_S4096_S4096x1_0),
    StableHlo.TRef.nullary main_call7.call0.cst_0 (constant S_ .f32 0x45000000#32),
    StableHlo.TRef.unary main_call7.call0.cst_0 main_call7.call0.v2 (broadcastInDim S4096x1 ![] bcast_S_S4096x1),
    StableHlo.TRef.binary main_call7.call0.v1 main_call7.call0.v2 main_call7.call0.v3 Host.divf,
    StableHlo.TRef.unary main_call7.call0.v3 main_call7.call0.v4 (broadcastInDim S4096x2048 ![0, 1] bcast_S4096x1_S4096x2048_0_1),
    StableHlo.TRef.binary (.of main_v163) main_call7.call0.v4 main_call7.call0.v5 subf,
    StableHlo.TRef.binary main_call7.call0.v5 main_call7.call0.v5 main_call7.call0.v6 mulf,
    StableHlo.TRef.unary (.of main_c_32) main_call7.call0.v7 (sitofp .f32),
    StableHlo.TRef.nullary main_call7.call0.cst_1 (constant S_ .f32 0x45000000#32),
    StableHlo.TRef.binary main_call7.call0.cst_1 main_call7.call0.v7 main_call7.call0.v8 subf,
    StableHlo.TRef.nullary main_call7.call0.cst_2 (constant S_ .f32 0x00000000#32),
    StableHlo.TRef.binary main_call7.call0.v6 main_call7.call0.cst_2 main_call7.call0.v9 (fun x v => Host.reduceAdd x v reducesTo_S4096x2048_S4096_d1 h_S_),
    StableHlo.TRef.unary main_call7.call0.v9 main_call7.call0.v10 (broadcastInDim S4096x1 ![0] bcast_S4096_S4096x1_0),
    StableHlo.TRef.unary main_call7.call0.v8 main_call7.call0.v11 (broadcastInDim S4096x1 ![] bcast_S_S4096x1),
    StableHlo.TRef.binary main_call7.call0.v10 main_call7.call0.v11 main_call7.call0.v12 Host.divf,
    StableHlo.TRef.nullary main_call7.call0.cst_3 (constant S_ .f32 0x00000000#32),
    StableHlo.TRef.binary main_call7.call0.v8 main_call7.call0.cst_3 main_call7.call0.v13 (cmpf .ogt),
    StableHlo.TRef.nullary main_call7.call0.cst_4 (constant S_ .f32 0x7FC00000#32),
    StableHlo.TRef.unary main_call7.call0.cst_4 main_call7.call0.call0.v0 id,
    StableHlo.TRef.unary main_call7.call0.call0.v0 main_call7.call0.call0.v1 (broadcastInDim S4096x1 ![] bcast_S_S4096x1),
    StableHlo.TRef.ternary main_call7.call0.v13 main_call7.call0.v12 main_call7.call0.call0.v1 main_call7.call0.call0.v2 (fun p a b => select (broadcastInDim S4096x1 ![] bcast_S_S4096x1 p) a b),
    StableHlo.TRef.unary main_call7.call0.call0.v2 main_call7.v1 Host.sqrt,
    StableHlo.unary main_v167 main_v169 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v163 main_v169 main_v170 (subf : (⟨S4096x2048, .f32⟩ : BufTy).Contents (Elt F) → (⟨S4096x2048, .f32⟩ : BufTy).Contents (Elt F) → (⟨S4096x2048, .f32⟩ : BufTy).Contents (Elt F)),
    StableHlo.nullary main_cst_33 (constant S_ .f32 0x3727C5AC#32),
    StableHlo.unary main_cst_33 main_v171 (broadcastInDim S4096x1 ![] bcast_S_S4096x1 : (⟨S_, .f32⟩ : BufTy).Contents (Elt F) → (⟨S4096x1, .f32⟩ : BufTy).Contents (Elt F)),
    StableHlo.binary main_v168 main_v171 main_v172 (addf : (⟨S4096x1, .f32⟩ : BufTy).Contents (Elt F) → (⟨S4096x1, .f32⟩ : BufTy).Contents (Elt F) → (⟨S4096x1, .f32⟩ : BufTy).Contents (Elt F)),
    StableHlo.unary main_v172 main_v173 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v170 main_v173 main_v174 (Host.divf : (⟨S4096x2048, .f32⟩ : BufTy).Contents (Elt F) → (⟨S4096x2048, .f32⟩ : BufTy).Contents (Elt F) → (⟨S4096x2048, .f32⟩ : BufTy).Contents (Elt F)),
    StableHlo.unary main_arg23 main_v175 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v174 main_v175 main_v176 (mulf : (⟨S4096x2048, .f32⟩ : BufTy).Contents (Elt F) → (⟨S4096x2048, .f32⟩ : BufTy).Contents (Elt F) → (⟨S4096x2048, .f32⟩ : BufTy).Contents (Elt F)),
    StableHlo.unary main_arg24 main_v177 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v176 main_v177 main_v178 (addf : (⟨S4096x2048, .f32⟩ : BufTy).Contents (Elt F) → (⟨S4096x2048, .f32⟩ : BufTy).Contents (Elt F) → (⟨S4096x2048, .f32⟩ : BufTy).Contents (Elt F)),
    StableHlo.binary main_v158 main_v178 main_v179 (addf : (⟨S4096x2048, .f32⟩ : BufTy).Contents (Elt F) → (⟨S4096x2048, .f32⟩ : BufTy).Contents (Elt F) → (⟨S4096x2048, .f32⟩ : BufTy).Contents (Elt F)),
    StableHlo.unary main_v179 main_v180 (Host.negf : (⟨S4096x2048, .f32⟩ : BufTy).Contents (Elt F) → (⟨S4096x2048, .f32⟩ : BufTy).Contents (Elt F)),
    StableHlo.unary main_v180 main_v181 (Host.exp : (⟨S4096x2048, .f32⟩ : BufTy).Contents (Elt F) → (⟨S4096x2048, .f32⟩ : BufTy).Contents (Elt F)),
    StableHlo.nullary main_cst_34 (constant S_ .f32 0x3F800000#32),
    StableHlo.unary main_cst_34 main_v182 (broadcastInDim S4096x2048 ![] bcast_S_S4096x2048 : (⟨S_, .f32⟩ : BufTy).Contents (Elt F) → (⟨S4096x2048, .f32⟩ : BufTy).Contents (Elt F)),
    StableHlo.binary main_v182 main_v181 main_v183 (addf : (⟨S4096x2048, .f32⟩ : BufTy).Contents (Elt F) → (⟨S4096x2048, .f32⟩ : BufTy).Contents (Elt F) → (⟨S4096x2048, .f32⟩ : BufTy).Contents (Elt F)),
    StableHlo.nullary main_cst_35 (constant S_ .f32 0x3F800000#32),
    StableHlo.unary main_cst_35 main_v184 (broadcastInDim S4096x2048 ![] bcast_S_S4096x2048 : (⟨S_, .f32⟩ : BufTy).Contents (Elt F) → (⟨S4096x2048, .f32⟩ : BufTy).Contents (Elt F)),
    StableHlo.binary main_v184 main_v183 main_v185 (Host.divf : (⟨S4096x2048, .f32⟩ : BufTy).Contents (Elt F) → (⟨S4096x2048, .f32⟩ : BufTy).Contents (Elt F) → (⟨S4096x2048, .f32⟩ : BufTy).Contents (Elt F)),
    StableHlo.nullary main_cst_36 (constant S_ .f32 0x00000000#32),
    StableHlo.binary main_v138 main_cst_36 main_v186 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v186 main_v187 (broadcastInDim S4096x1 ![0] bcast_S4096_S4096x1_0 : (⟨S4096, .f32⟩ : BufTy).Contents (Elt F) → (⟨S4096x1, .f32⟩ : BufTy).Contents (Elt F)),
    StableHlo.nullary main_cst_37 (constant S_ .f32 0x45000000#32),
    StableHlo.unary main_cst_37 main_v188 (broadcastInDim S4096x1 ![] bcast_S_S4096x1 : (⟨S_, .f32⟩ : BufTy).Contents (Elt F) → (⟨S4096x1, .f32⟩ : BufTy).Contents (Elt F)),
    StableHlo.binary main_v187 main_v188 main_v189 (Host.divf : (⟨S4096x1, .f32⟩ : BufTy).Contents (Elt F) → (⟨S4096x1, .f32⟩ : BufTy).Contents (Elt F) → (⟨S4096x1, .f32⟩ : BufTy).Contents (Elt F)),
    StableHlo.nullary main_c_38 (constantI S_ 32 1#32),
    StableHlo.TRef.nullary main_call8.call0.cst (constant S_ .f32 0x00000000#32),
    StableHlo.TRef.binary (.of main_v138) main_call8.call0.cst main_call8.call0.v0 (fun x v => Host.reduceAdd x v reducesTo_S4096x2048_S4096_d1 h_S_),
    StableHlo.TRef.unary main_call8.call0.v0 main_call8.call0.v1 (broadcastInDim S4096x1 ![0] bcast_S4096_S4096x1_0),
    StableHlo.TRef.nullary main_call8.call0.cst_0 (constant S_ .f32 0x45000000#32),
    StableHlo.TRef.unary main_call8.call0.cst_0 main_call8.call0.v2 (broadcastInDim S4096x1 ![] bcast_S_S4096x1),
    StableHlo.TRef.binary main_call8.call0.v1 main_call8.call0.v2 main_call8.call0.v3 Host.divf,
    StableHlo.TRef.unary main_call8.call0.v3 main_call8.call0.v4 (broadcastInDim S4096x2048 ![0, 1] bcast_S4096x1_S4096x2048_0_1),
    StableHlo.TRef.binary (.of main_v138) main_call8.call0.v4 main_call8.call0.v5 subf,
    StableHlo.TRef.binary main_call8.call0.v5 main_call8.call0.v5 main_call8.call0.v6 mulf,
    StableHlo.TRef.unary (.of main_c_38) main_call8.call0.v7 (sitofp .f32),
    StableHlo.TRef.nullary main_call8.call0.cst_1 (constant S_ .f32 0x45000000#32),
    StableHlo.TRef.binary main_call8.call0.cst_1 main_call8.call0.v7 main_call8.call0.v8 subf,
    StableHlo.TRef.nullary main_call8.call0.cst_2 (constant S_ .f32 0x00000000#32),
    StableHlo.TRef.binary main_call8.call0.v6 main_call8.call0.cst_2 main_call8.call0.v9 (fun x v => Host.reduceAdd x v reducesTo_S4096x2048_S4096_d1 h_S_),
    StableHlo.TRef.unary main_call8.call0.v9 main_call8.call0.v10 (broadcastInDim S4096x1 ![0] bcast_S4096_S4096x1_0),
    StableHlo.TRef.unary main_call8.call0.v8 main_call8.call0.v11 (broadcastInDim S4096x1 ![] bcast_S_S4096x1),
    StableHlo.TRef.binary main_call8.call0.v10 main_call8.call0.v11 main_call8.call0.v12 Host.divf,
    StableHlo.TRef.nullary main_call8.call0.cst_3 (constant S_ .f32 0x00000000#32),
    StableHlo.TRef.binary main_call8.call0.v8 main_call8.call0.cst_3 main_call8.call0.v13 (cmpf .ogt),
    StableHlo.TRef.nullary main_call8.call0.cst_4 (constant S_ .f32 0x7FC00000#32),
    StableHlo.TRef.unary main_call8.call0.cst_4 main_call8.call0.call0.v0 id,
    StableHlo.TRef.unary main_call8.call0.call0.v0 main_call8.call0.call0.v1 (broadcastInDim S4096x1 ![] bcast_S_S4096x1),
    StableHlo.TRef.ternary main_call8.call0.v13 main_call8.call0.v12 main_call8.call0.call0.v1 main_call8.call0.call0.v2 (fun p a b => select (broadcastInDim S4096x1 ![] bcast_S_S4096x1 p) a b),
    StableHlo.TRef.unary main_call8.call0.call0.v2 main_call8.v1 Host.sqrt,
    StableHlo.unary main_v189 main_v191 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v138 main_v191 main_v192 (subf : (⟨S4096x2048, .f32⟩ : BufTy).Contents (Elt F) → (⟨S4096x2048, .f32⟩ : BufTy).Contents (Elt F) → (⟨S4096x2048, .f32⟩ : BufTy).Contents (Elt F)),
    StableHlo.nullary main_cst_39 (constant S_ .f32 0x3727C5AC#32),
    StableHlo.unary main_cst_39 main_v193 (broadcastInDim S4096x1 ![] bcast_S_S4096x1 : (⟨S_, .f32⟩ : BufTy).Contents (Elt F) → (⟨S4096x1, .f32⟩ : BufTy).Contents (Elt F)),
    StableHlo.binary main_v190 main_v193 main_v194 (addf : (⟨S4096x1, .f32⟩ : BufTy).Contents (Elt F) → (⟨S4096x1, .f32⟩ : BufTy).Contents (Elt F) → (⟨S4096x1, .f32⟩ : BufTy).Contents (Elt F)),
    StableHlo.unary main_v194 main_v195 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v192 main_v195 main_v196 (Host.divf : (⟨S4096x2048, .f32⟩ : BufTy).Contents (Elt F) → (⟨S4096x2048, .f32⟩ : BufTy).Contents (Elt F) → (⟨S4096x2048, .f32⟩ : BufTy).Contents (Elt F)),
    StableHlo.unary main_arg25 main_v197 (broadcastInDim S4096x2048 ![0, 1] bcast_S1x2048_S4096x2048_0_1 : (⟨S1x2048, .f32⟩ : BufTy).Contents (Elt F) → (⟨S4096x2048, .f32⟩ : BufTy).Contents (Elt F)) ]

set_option maxRecDepth 4096 in
set_option maxHeartbeats 4000000 in
/-- This stretch of @main is that straight line: the called functions unfolded at their calls, sequencing reassociated. -/
theorem part3_eq (d : Dev nD) : main_part3 (F := F) d = StableHlo.seq ops3 := by
  simp only [main_part3, fn_std.body, fn_var.body, fn_where.body, StableHlo.seq, bind_assoc, pure_bind]
  try rfl

/-- Each operation touches TensorCore buffers only. -/
theorem ops3_sub : (ops3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub ..⟩

/-- No operation allocates a buffer. -/
theorem ops3_fresh : (ops3 : List (HloOp τ sig (Elt F))).Forall fun op => op.fresh = ∅ := by
  simp only [List.Forall]; repeat' constructor

/-- The buffers this stretch writes, in order. -/
abbrev W3 : List (Ref sig .tc) := [main_v149, main_v150, main_cst_29, main_v151, main_v152, main_v153, main_v154, main_v155, main_v156, main_v157, main_v158, main_v159, main_v160, main_v161, main_v162, main_v163, main_cst_30, main_v164, main_v165, main_cst_31, main_v166, main_v167, main_c_32, main_call7_call0_cst, main_call7_call0_v0, main_call7_call0_v1, main_call7_call0_cst_0, main_call7_call0_v2, main_call7_call0_v3, main_call7_call0_v4, main_call7_call0_v5, main_call7_call0_v6, main_call7_call0_v7, main_call7_call0_cst_1, main_call7_call0_v8, main_call7_call0_cst_2, main_call7_call0_v9, main_call7_call0_v10, main_call7_call0_v11, main_call7_call0_v12, main_call7_call0_cst_3, main_call7_call0_v13, main_call7_call0_cst_4, main_call7_call0_call0_v0, main_call7_call0_call0_v1, main_call7_v0, main_v168, main_v169, main_v170, main_cst_33, main_v171, main_v172, main_v173, main_v174, main_v175, main_v176, main_v177, main_v178, main_v179, main_v180, main_v181, main_cst_34, main_v182, main_v183, main_cst_35, main_v184, main_v185, main_cst_36, main_v186, main_v187, main_cst_37, main_v188, main_v189, main_c_38, main_call8_call0_cst, main_call8_call0_v0, main_call8_call0_v1, main_call8_call0_cst_0, main_call8_call0_v2, main_call8_call0_v3, main_call8_call0_v4, main_call8_call0_v5, main_call8_call0_v6, main_call8_call0_v7, main_call8_call0_cst_1, main_call8_call0_v8, main_call8_call0_cst_2, main_call8_call0_v9, main_call8_call0_v10, main_call8_call0_v11, main_call8_call0_v12, main_call8_call0_cst_3, main_call8_call0_v13, main_call8_call0_cst_4, main_call8_call0_call0_v0, main_call8_call0_call0_v1, main_call8_v0, main_v190, main_v191, main_v192, main_cst_39, main_v193, main_v194, main_v195, main_v196, main_v197]

set_option maxHeartbeats 4000000 in
theorem ops3_writes : (ops3 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, Finset.singleton_subset_iff, List.mem_toFinset]; exact List.mem_map_of_mem (by decide))

end Cert.ReferenceIdeal.Hand

end
-- ==== Proof.Ref.Part4.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-- Operations … of the reference, in order (the new hidden state and the decoder); each call of the standard-deviation function is
    written out at its call site over that call's buffers: the row mean, the centred squares, their row sum over n − ddof,
    the guard on n − ddof > 0, the square root. -/
abbrev ops4 : List (HloOp τ sig (Elt F)) :=
  [ StableHlo.binary main_v196 main_v197 main_v198 (mulf : (⟨S4096x2048, .f32⟩ : BufTy).Contents (Elt F) → (⟨S4096x2048, .f32⟩ : BufTy).Contents (Elt F) → (⟨S4096x2048, .f32⟩ : BufTy).Contents (Elt F)),
    StableHlo.unary main_arg26 main_v199 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v198 main_v199 main_v200 (addf : (⟨S4096x2048, .f32⟩ : BufTy).Contents (Elt F) → (⟨S4096x2048, .f32⟩ : BufTy).Contents (Elt F) → (⟨S4096x2048, .f32⟩ : BufTy).Contents (Elt F)),
    StableHlo.unary main_v200 main_v201 (Host.tanh : (⟨S4096x2048, .f32⟩ : BufTy).Contents (Elt F) → (⟨S4096x2048, .f32⟩ : BufTy).Contents (Elt F)),
    StableHlo.binary main_v185 main_v201 main_v202 (mulf : (⟨S4096x2048, .f32⟩ : BufTy).Contents (Elt F) → (⟨S4096x2048, .f32⟩ : BufTy).Contents (Elt F) → (⟨S4096x2048, .f32⟩ : BufTy).Contents (Elt F)),
    StableHlo.unary main_arg19 main_v203 ((transpose S2048x1024 [1, 0] · transposes_S1024x2048_S2048x1024_1_0) : (⟨S1024x2048, .f32⟩ : BufTy).Contents (Elt F) → (⟨S2048x1024, .f32⟩ : BufTy).Contents (Elt F)),
    StableHlo.binary main_v202 main_v203 main_v204 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    StableHlo.unary main_arg20 main_v205 (broadcastInDim S1x1024 ![1] bcast_S1024_S1x1024_1 : (⟨S1024, .f32⟩ : BufTy).Contents (Elt F) → (⟨S1x1024, .f32⟩ : BufTy).Contents (Elt F)),
    StableHlo.unary main_v205 main_v206 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v204 main_v206 main_v207 (addf : (⟨S4096x1024, .f32⟩ : BufTy).Contents (Elt F) → (⟨S4096x1024, .f32⟩ : BufTy).Contents (Elt F) → (⟨S4096x1024, .f32⟩ : BufTy).Contents (Elt F)) ]

set_option maxRecDepth 4096 in
set_option maxHeartbeats 4000000 in
/-- This stretch of @main is that straight line: the called functions unfolded at their calls, sequencing reassociated. -/
theorem part4_eq (d : Dev nD) : main_part4 (F := F) d = StableHlo.seq ops4 := by
  simp only [main_part4, fn_std.body, fn_var.body, fn_where.body, StableHlo.seq, bind_assoc, pure_bind]
  try rfl

/-- Each operation touches TensorCore buffers only. -/
theorem ops4_sub : (ops4 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- No operation allocates a buffer. -/
theorem ops4_fresh : (ops4 : List (HloOp τ sig (Elt F))).Forall fun op => op.fresh = ∅ := by
  simp only [List.Forall]; repeat' constructor

/-- The buffers this stretch writes, in order. -/
abbrev W4 : List (Ref sig .tc) := [main_v198, main_v199, main_v200, main_v201, main_v202, main_v203, main_v204, main_v205, main_v206, main_v207]

set_option maxHeartbeats 4000000 in
theorem ops4_writes : (ops4 : List (HloOp τ sig (Elt F))).Forall fun op => op.writes ⊆ (W4.map (Proc.devRef (τ := τ) .tc)).toFinset := by
  simp only [List.Forall]
  refine ⟨?_, ?_, ?_, ?_, ?_, ?_, ?_, ?_, ?_, ?_⟩
  all_goals (simp only [StableHlo.nullary_writes, StableHlo.unary_writes, StableHlo.binary_writes, StableHlo.ternary_writes, Finset.singleton_subset_iff, List.mem_toFinset]; exact List.mem_map_of_mem (by decide))

end Cert.ReferenceIdeal.Hand

end
-- ==== Proof.Ref.Run.lean ====
import proofs.«112321_j35768487641178_2_alg».proof.ReferenceIdeal
import proofs.«112321_j35768487641178_2_alg».proof.Proof.Gen.ReferenceIdeal
import Idealize.ShloMosaic.Lib.StableHlo
import Idealize.ShloMosaic.Lib.StableHlo.Run
import proofs.«112321_j35768487641178_2_alg».proof.Proof.Ref.Part0
import proofs.«112321_j35768487641178_2_alg».proof.Proof.Ref.Part1
import proofs.«112321_j35768487641178_2_alg».proof.Proof.Ref.Part2
import proofs.«112321_j35768487641178_2_alg».proof.Proof.Ref.Part3
import proofs.«112321_j35768487641178_2_alg».proof.Proof.Ref.Part4

noncomputable section

namespace Cert.ReferenceIdeal.Hand

open Idealize.ShloMosaic Idealize.ShloMosaic.TcCoe Idealize.SL.Sem
open Cert.ReferenceIdeal

variable {F : FTy → Type} [FloatOps F]
variable [Facts]
open Facts₀ Facts

/-! # The reference's run: @main is one straight line of host operations -/

abbrev ops : List (HloOp τ sig (Elt F)) := ops0 ++ (ops1 ++ (ops2 ++ (ops3 ++ ops4)))

theorem main_eq (d : Dev nD) : main (F := F) d = StableHlo.seq ops := by
  unfold ops
  rw [StableHlo.seq_append, StableHlo.seq_append, StableHlo.seq_append, StableHlo.seq_append,
    ← part0_eq d, ← part1_eq d, ← part2_eq d, ← part3_eq d, ← part4_eq d]
  rfl

theorem forall_append {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem ops_sub : (ops : List (HloOp τ sig (Elt F))).Forall fun op => op.bufs ⊆ StableHlo.tcRefs τ sig :=
  forall_append ops0_sub (forall_append ops1_sub (forall_append ops2_sub (forall_append ops3_sub ops4_sub)))
theorem ops_fresh : (ops : List (HloOp τ sig (Elt F))).Forall fun op => op.fresh = ∅ :=
  forall_append ops0_fresh (forall_append ops1_fresh (forall_append ops2_fresh (forall_append ops3_fresh ops4_fresh)))

/-- Every buffer the line writes. -/
abbrev Wall : List (Ref sig .tc) := W0 ++ (W1 ++ (W2 ++ (W3 ++ W4)))

theorem writes_mono {W W' : List (Ref sig .tc)} (hsub : ∀ r ∈ W, r ∈ W') {l : List (HloOp τ sig (Elt F))}
    (h : l.Forall fun op => op.writes ⊆ (W.map (Proc.devRef (τ := τ) .tc)).toFinset) :
    l.Forall fun op => op.writes ⊆ (W'.map (Proc.devRef (τ := τ) .tc)).toFinset :=
  List.forall_iff_forall_mem.mpr fun op hop b hb => by
    obtain ⟨y, hy, he⟩ := List.mem_map.mp (List.mem_toFinset.mp ((List.forall_iff_forall_mem.mp h) op hop hb))
    exact List.mem_toFinset.mpr (List.mem_map.mpr ⟨y, hsub y hy, he⟩)

theorem ops_writes : (ops : List (HloOp τ sig (Elt F))).Forall fun op => op.writes ⊆ (Wall.map (Proc.devRef (τ := τ) .tc)).toFinset :=
  forall_append (writes_mono (fun r h => List.mem_append_left _ h) ops0_writes)
    (forall_append (writes_mono (fun r h => List.mem_append_right _ (List.mem_append_left _ h)) ops1_writes)
      (forall_append (writes_mono (fun r h => List.mem_append_right _ (List.mem_append_right _ (List.mem_append_left _ h))) ops2_writes)
        (forall_append (writes_mono (fun r h => List.mem_append_right _ (List.mem_append_right _ (List.mem_append_right _ (List.mem_append_left _ h)))) ops3_writes)
          (writes_mono (fun r h => List.mem_append_right _ (List.mem_append_right _ (List.mem_append_right _ (List.mem_append_right _ h)))) ops4_writes))))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference terminates, and every final state has each
    TensorCore buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => List.forall_iff_forall_mem.mp ops_fresh)

/-- An argument is written by no operation. -/
theorem arg_kept (V : Valuation τ sig (Elt F)) (r : Ref sig .tc) (h : r ∉ (Wall : List (Ref sig .tc))) :
    StableHlo.after ops V (Proc.devRef .tc r) = V (Proc.devRef .tc r) :=
  StableHlo.after_of_writes_sub ops V ops_writes h

/-- The frame: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c main_arg0).trans ((arg_kept _ main_arg0 (by decide)).trans rfl),
     (h c main_arg1).trans ((arg_kept _ main_arg1 (by decide)).trans rfl),
     (h c main_arg2).trans ((arg_kept _ main_arg2 (by decide)).trans rfl),
     (h c main_arg3).trans ((arg_kept _ main_arg3 (by decide)).trans rfl),
     (h c main_arg4).trans ((arg_kept _ main_arg4 (by decide)).trans rfl),
     (h c main_arg5).trans ((arg_kept _ main_arg5 (by decide)).trans rfl),
     (h c main_arg6).trans ((arg_kept _ main_arg6 (by decide)).trans rfl),
     (h c main_arg7).trans ((arg_kept _ main_arg7 (by decide)).trans rfl),
     (h c main_arg8).trans ((arg_kept _ main_arg8 (by decide)).trans rfl),
     (h c main_arg9).trans ((arg_kept _ main_arg9 (by decide)).trans rfl),
     (h c main_arg10).trans ((arg_kept _ main_arg10 (by decide)).trans rfl),
     (h c main_arg11).trans ((arg_kept _ main_arg11 (by decide)).trans rfl),
     (h c main_arg12).trans ((arg_kept _ main_arg12 (by decide)).trans rfl),
     (h c main_arg13).trans ((arg_kept _ main_arg13 (by decide)).trans rfl),
     (h c main_arg14).trans ((arg_kept _ main_arg14 (by decide)).trans rfl),
     (h c main_arg15).trans ((arg_kept _ main_arg15 (by decide)).trans rfl),
     (h c main_arg16).trans ((arg_kept _ main_arg16 (by decide)).trans rfl),
     (h c main_arg17).trans ((arg_kept _ main_arg17 (by decide)).trans rfl),
     (h c main_arg18).trans ((arg_kept _ main_arg18 (by decide)).trans rfl),
     (h c main_arg19).trans ((arg_kept _ main_arg19 (by decide)).trans rfl),
     (h c main_arg20).trans ((arg_kept _ main_arg20 (by decide)).trans rfl),
     (h c main_arg21).trans ((arg_kept _ main_arg21 (by decide)).trans rfl),
     (h c main_arg22).trans ((arg_kept _ main_arg22 (by decide)).trans rfl),
     (h c main_arg23).trans ((arg_kept _ main_arg23 (by decide)).trans rfl),
     (h c main_arg24).trans ((arg_kept _ main_arg24 (by decide)).trans rfl),
     (h c main_arg25).trans ((arg_kept _ main_arg25 (by decide)).trans rfl),
     (h c main_arg26).trans ((arg_kept _ main_arg26 (by decide)).trans rfl)⟩) (run_main m ρ)

end Cert.ReferenceIdeal.Hand

end
-- ==== Proof.LibRowNorm.lean ====
/-
  Row normalisation on the extended reals, as a kernel writes it with vector operations and as a host program writes it
  with whole-array operations, read at an index: both are
    (z q − μ) / (sqrt (Σ_k (z k − μ)² / n₁) + ε) · a q + b q,   μ = (Σ_k z k) / n,
  for a row z of any length, with the three constants n, n₁, ε given as float words.
-/
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace RowNorm

open Idealize.ShloMosaic Idealize.ShloMosaic.ValueIdx

variable {a b : ℕ}

/-! ## Column forms of the layout operations -/

/-- A vector `[a]` viewed as a column `[a, 1]` reads, at `(p, 0)`, the vector at `p`. -/
theorem shapeCast_a_a1_apply {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated along the rows to `[a, b]` reads, at `(p, c)`, the column at `p`. -/
theorem broadcastTo_a1_ab_apply {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The normalised row -/

/-- The mean of a row, the sum over the divisor's word. -/
def mean (cn : EReal) (z : Fin b → EReal) : EReal := Ideal.div (∑ k, z k) cn

/-- The normalised row at `q`. -/
def norm (cn cn1 ceps : EReal) (z sc sh : Fin b → EReal) (q : Fin b) : EReal :=
  Ideal.div (z q - mean cn z) (Ideal.sqrt (Ideal.div (∑ k, (z k - mean cn z) * (z k - mean cn z)) cn1) + ceps) * sc q + sh q

/-! ## As a kernel writes it -/

/-- A lane sum over the columns of an `[a, b]` block, at row `p`. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

/-- The vector-operation chain: row sums, the column of means, the centred block, the row sums of squares, the column of
    deviations plus ε, the quotient, the scale and the shift. -/
def chainV (wn wn1 weps : BitVec 32) (z : FVec Ideal ⟨2, ![a, b]⟩ .f32) (sc sh : (⟨2, ![1, b]⟩ : Shape).Idx → Ideal .f32)
    (hred : (⟨2, ![a, b]⟩ : Shape).Reduces [1] ⟨1, ![a]⟩) (hφ : FKind.Formats .f32)
    (hacc : (0x00000000#32 : BitVec 32) = FKind.add.neutral .f32 hφ)
    (hcol : (⟨1, ![a]⟩ : Shape).ShapeCasts ⟨2, ![a, 1]⟩) (hbc : (⟨2, ![a, 1]⟩ : Shape).Broadcasts ⟨2, ![a, b]⟩)
    (hbr : (⟨2, ![1, b]⟩ : Shape).Broadcasts ⟨2, ![a, b]⟩) : FVec Ideal ⟨2, ![a, b]⟩ .f32 :=
  have v12 : FVec Ideal ⟨2, ![a, 1]⟩ .f32 := shapeCast ⟨2, ![a, 1]⟩ (multiReduction .add [1] ⟨1, ![a]⟩ z 0x00000000#32 hred hφ hacc) hcol
  have v14 : FVec Ideal ⟨2, ![a, 1]⟩ .f32 := divf v12 (broadcast ⟨2, ![a, 1]⟩ (Scalar.ofBits .f32 wn))
  have v16 : FVec Ideal ⟨2, ![a, b]⟩ .f32 := subf z (broadcastTo ⟨2, ![a, b]⟩ v14 hbc)
  have v19 : FVec Ideal ⟨2, ![a, 1]⟩ .f32 := shapeCast ⟨2, ![a, 1]⟩ (multiReduction .add [1] ⟨1, ![a]⟩ (mulf v16 v16) 0x00000000#32 hred hφ hacc) hcol
  have v21 : FVec Ideal ⟨2, ![a, 1]⟩ .f32 := divf v19 (broadcast ⟨2, ![a, 1]⟩ (Scalar.ofBits .f32 wn1))
  have v24 : FVec Ideal ⟨2, ![a, 1]⟩ .f32 := addf (sqrt v21) (broadcast ⟨2, ![a, 1]⟩ (Scalar.ofBits .f32 weps))
  addf (mulf (divf v16 (broadcastTo ⟨2, ![a, b]⟩ v24 hbc)) (broadcastTo ⟨2, ![a, b]⟩ sc hbr)) (broadcastTo ⟨2, ![a, b]⟩ sh hbr)

theorem chainV_apply (wn wn1 weps : BitVec 32) (z : FVec Ideal ⟨2, ![a, b]⟩ .f32) (sc sh : (⟨2, ![1, b]⟩ : Shape).Idx → Ideal .f32)
    (hred : (⟨2, ![a, b]⟩ : Shape).Reduces [1] ⟨1, ![a]⟩) (hφ : FKind.Formats .f32)
    (hacc : (0x00000000#32 : BitVec 32) = FKind.add.neutral .f32 hφ)
    (hcol : (⟨1, ![a]⟩ : Shape).ShapeCasts ⟨2, ![a, 1]⟩) (hbc : (⟨2, ![a, 1]⟩ : Shape).Broadcasts ⟨2, ![a, b]⟩)
    (hbr : (⟨2, ![1, b]⟩ : Shape).Broadcasts ⟨2, ![a, b]⟩) (p : Fin a) (q : Fin b) :
    chainV wn wn1 weps z sc sh hred hφ hacc hcol hbc hbr (ix2 p q)
      = norm (Ideal.ofBits .f32 wn) (Ideal.ofBits .f32 wn1) (Ideal.ofBits .f32 weps) (fun k => z (ix2 p k)) (fun k => sc (ix2 (0 : Fin 1) k)) (fun k => sh (ix2 (0 : Fin 1) k)) q := by
  have hmean : ∀ p' : Fin a, (divf (shapeCast ⟨2, ![a, 1]⟩ (multiReduction .add [1] ⟨1, ![a]⟩ z 0x00000000#32 hred hφ hacc) hcol)
      (broadcast ⟨2, ![a, 1]⟩ (Scalar.ofBits .f32 wn)) : FVec Ideal ⟨2, ![a, 1]⟩ .f32) (ix2 p' (0 : Fin 1)) = mean (Ideal.ofBits .f32 wn) (fun k => z (ix2 p' k)) := by
    intro p'
    rw [divf_apply, shapeCast_a_a1_apply, rowSum_apply]
    rfl
  unfold chainV norm
  simp only [addf_apply, mulf_apply, divf_apply, subf_apply, broadcastTo_1b_ab_apply, broadcastTo_a1_ab_apply]
  have hsqrt : ∀ (v : FVec Ideal ⟨2, ![a, 1]⟩ .f32) (i : (⟨2, ![a, 1]⟩ : Shape).Idx), sqrt v i = Ideal.sqrt (v i) := fun _ _ => rfl
  rw [hsqrt, divf_apply, shapeCast_a_a1_apply, shapeCast_a_a1_apply, rowSum_apply, rowSum_apply]
  simp only [broadcast_apply, mulf_apply, subf_apply, broadcastTo_a1_ab_apply, hmean]
  rfl

/-! ## As a host program writes it -/

/-- A host row sum from zero over the columns of an `[a, b]` array, at row `p`. -/
theorem hostRowSum_apply (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) := by
  rw [hostReduceAdd_apply, Ideal.hostReduceAdd_single h' h]
  show Ideal.ofBits .f32 0x00000000#32 + _ = _
  rw [Ideal.ofBits_zero_f32, zero_add]
  refine Finset.sum_congr rfl fun k _ => congrArg x ?_
  funext ax
  match ax with
  | ⟨0, _⟩ => rfl
  | ⟨1, _⟩ => rfl

/-- A vector `[a]` made a column `[a, 1]` by a broadcast reads, at `(p, 0)`, the vector at `p`. -/
theorem bcast_col_apply {α : Type} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v _ (ix1 p) (fun c => ?_)
  match c with
  | ⟨0, _⟩ =>
    show p.val = if a = 1 then 0 else p.val
    split
    · have := p.isLt; omega
    · rfl

/-- A column `[a, 1]` repeated along the rows by a broadcast reads, at `(p, c)`, the column at `p`. -/
theorem bcast_cols_apply {α : Type} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v _ (ix2 p (0 : Fin 1)) (fun d => ?_)
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A row `[1, b]` repeated down the rows by a broadcast reads, at `(p, c)`, the row at `c`. -/
theorem bcast_rows_apply {α : Type} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v _ (ix2 (0 : Fin 1) c) (fun d => ?_)
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- The host chain: the row mean; the standard deviation with `ddof` degrees of freedom removed (its own row mean, the
    centred squares, their row sum over n − ddof, kept only where n − ddof is positive, the square root); the centred array over the
    deviation plus ε; the scale and the shift. -/
def chainH (wn weps wnan : BitVec 32) (wd : BitVec 32) (z : FVec Ideal ⟨2, ![a, b]⟩ .f32) (sc sh : FVec Ideal ⟨2, ![1, b]⟩ .f32)
    (hr : (⟨2, ![a, b]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, b]⟩ (![0, 1] : Fin 2 → Fin 2))
    (hbr : (⟨2, ![1, b]⟩ : Shape).BroadcastsInDim ⟨2, ![a, b]⟩ (![0, 1] : Fin 2 → Fin 2)) : FVec Ideal ⟨2, ![a, b]⟩ .f32 :=
  have zero : FVec Ideal ⟨0, ![]⟩ .f32 := constant ⟨0, ![]⟩ .f32 0x00000000#32
  have mu : FVec Ideal ⟨2, ![a, 1]⟩ .f32 := Host.divf (broadcastInDim ⟨2, ![a, 1]⟩ ![0] hb0 (Host.reduceAdd z zero hr hS))
    (broadcastInDim ⟨2, ![a, 1]⟩ ![] hbs (constant ⟨0, ![]⟩ .f32 wn))
  have cen : FVec Ideal ⟨2, ![a, b]⟩ .f32 := subf z (broadcastInDim ⟨2, ![a, b]⟩ ![0, 1] hb01 mu)
  have nd : FVec Ideal ⟨0, ![]⟩ .f32 := subf (constant ⟨0, ![]⟩ .f32 wn) (sitofp .f32 (constantI ⟨0, ![]⟩ 32 wd))
  have var : FVec Ideal ⟨2, ![a, 1]⟩ .f32 := Host.divf (broadcastInDim ⟨2, ![a, 1]⟩ ![0] hb0 (Host.reduceAdd (mulf cen cen) zero hr hS))
    (broadcastInDim ⟨2, ![a, 1]⟩ ![] hbs nd)
  have sel : FVec Ideal ⟨2, ![a, 1]⟩ .f32 := select (broadcastInDim ⟨2, ![a, 1]⟩ ![] hbs (cmpf .ogt nd zero)) var
    (broadcastInDim ⟨2, ![a, 1]⟩ ![] hbs (id (constant ⟨0, ![]⟩ .f32 wnan)))
  have den : FVec Ideal ⟨2, ![a, 1]⟩ .f32 := addf (Host.sqrt sel) (broadcastInDim ⟨2, ![a, 1]⟩ ![] hbs (constant ⟨0, ![]⟩ .f32 weps))
  addf (mulf (Host.divf cen (broadcastInDim ⟨2, ![a, b]⟩ ![0, 1] hb01 den)) (broadcastInDim ⟨2, ![a, b]⟩ ![0, 1] hbr sc))
    (broadcastInDim ⟨2, ![a, b]⟩ ![0, 1] hbr sh)

theorem chainH_apply (wn weps wnan : BitVec 32) (wd : BitVec 32) (z : FVec Ideal ⟨2, ![a, b]⟩ .f32) (sc sh : FVec Ideal ⟨2, ![1, b]⟩ .f32)
    (hr : (⟨2, ![a, b]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, b]⟩ (![0, 1] : Fin 2 → Fin 2))
    (hbr : (⟨2, ![1, b]⟩ : Shape).BroadcastsInDim ⟨2, ![a, b]⟩ (![0, 1] : Fin 2 → Fin 2))
    (hred : (⟨2, ![a, b]⟩ : Shape).Reduces [1] ⟨1, ![a]⟩)
    (hpos : Ideal.cmp .ogt (Ideal.ofBits .f32 wn - ((wd.toInt : ℝ) : EReal)) (Ideal.ofBits .f32 0x00000000#32) = 1#1)
    (p : Fin a) (q : Fin b) :
    chainH wn weps wnan wd z sc sh hr hS hb0 hbs hb01 hbr (ix2 p q)
      = norm (Ideal.ofBits .f32 wn) (Ideal.ofBits .f32 wn - ((wd.toInt : ℝ) : EReal)) (Ideal.ofBits .f32 weps)
          (fun k => z (ix2 p k)) (fun k => sc (ix2 (0 : Fin 1) k)) (fun k => sh (ix2 (0 : Fin 1) k)) q := by
  have hmu : ∀ p' : Fin a, (Host.divf (broadcastInDim ⟨2, ![a, 1]⟩ ![0] hb0 (Host.reduceAdd z (constant ⟨0, ![]⟩ .f32 0x00000000#32) hr hS))
      (broadcastInDim ⟨2, ![a, 1]⟩ ![] hbs (constant ⟨0, ![]⟩ .f32 wn)) : FVec Ideal ⟨2, ![a, 1]⟩ .f32) (ix2 p' (0 : Fin 1))
        = mean (Ideal.ofBits .f32 wn) (fun k => z (ix2 p' k)) := by
    intro p'
    rw [hostDivf_apply, bcast_col_apply, hostRowSum_apply z hr hred hS, broadcastInDim_scalar_apply]
    rfl
  have hsq : ∀ (v : FVec Ideal ⟨2, ![a, 1]⟩ .f32) (i : (⟨2, ![a, 1]⟩ : Shape).Idx), Host.sqrt v i = Ideal.sqrt (v i) := fun _ _ => rfl
  have hg : cmpf CmpFPredicate.ogt (subf (constant (F := Ideal) ⟨0, ![]⟩ .f32 wn) (sitofp .f32 (constantI ⟨0, ![]⟩ 32 wd)))
      (constant ⟨0, ![]⟩ .f32 0x00000000#32) ix0 = 1#1 := hpos
  unfold chainH norm
  generalize hM : (Host.divf (broadcastInDim ⟨2, ![a, 1]⟩ ![0] hb0 (Host.reduceAdd z (constant ⟨0, ![]⟩ .f32 0x00000000#32) hr hS))
      (broadcastInDim ⟨2, ![a, 1]⟩ ![] hbs (constant ⟨0, ![]⟩ .f32 wn)) : FVec Ideal ⟨2, ![a, 1]⟩ .f32) = M at hmu
  have hc : ∀ x : Fin b, broadcastInDim ⟨2, ![a, b]⟩ ![0, 1] hb01 M (ix2 p x) = mean (Ideal.ofBits .f32 wn) (fun k => z (ix2 p k)) :=
    fun x => (bcast_cols_apply M hb01 p x).trans (hmu p)
  simp only [addf_apply, mulf_apply, hostDivf_apply, subf_apply, hc]
  rw [bcast_cols_apply, bcast_rows_apply, bcast_rows_apply]
  rw [addf_apply, hsq, select_apply]
  rw [broadcastInDim_scalar_apply, broadcastInDim_scalar_apply, broadcastInDim_scalar_apply]
  rw [hg, select_one, hostDivf_apply, bcast_col_apply, hostRowSum_apply _ hr hred hS, broadcastInDim_scalar_apply]
  simp only [mulf_apply, subf_apply, hc]
  rfl

end RowNorm

end
-- ==== Proof.Spec.lean ====
/-
  The layer-normalised LSTM cell, entry by entry, as one family of functions of the argument arrays.

  With  LN(z; a, b)(q) = (z q − μ) / (sqrt (Σ_k (z k − μ)² / 2047) + ε) · a q + b q,  μ = (Σ_k z k) / 2048,  over rows of 2048 entries:
    pre_g(R, q) = LN(x_R · W_gxᵀ + b_gx; ax, bx)(q) + LN(h_R · W_ghᵀ + b_gh; ah, bh)(q)      for the gates g = f, i, c, o
    c'(R, q)    = σ(pre_f) · c(R, q) + σ(pre_i) · tanh(pre_c)
    h'(R, q)    = σ(pre_o) · tanh(LN(c'_R; ac, bc)(q))
    out(R, o)   = h'_R · W_decᵀ (o) + b_dec(o)
  where σ is the logistic function. The three constants are the float words the programs spell.
-/
import proofs.«112321_j35768487641178_2_alg».proof.Proof.LibRowNorm

noncomputable section

open scoped BigOperators

namespace Spec

open Idealize.ShloMosaic Idealize.ShloMosaic.ValueIdx RowNorm

abbrev c2048 : EReal := Ideal.ofBits .f32 0x45000000#32
abbrev c2047 : EReal := Ideal.ofBits .f32 0x44FFE000#32
abbrev ceps : EReal := Ideal.ofBits .f32 0x3727C5AC#32

abbrev Mat (n k : ℕ) := (⟨2, ![n, k]⟩ : Shape).Idx → EReal
abbrev Vect (n : ℕ) := (⟨1, ![n]⟩ : Shape).Idx → EReal

/-- Row `R` of `X` against the rows of `W`, plus the bias: the linear map x · Wᵀ + b at `(R, j)`. -/
def lin {n K B : ℕ} (X : Mat n K) (W : Mat B K) (bias : Vect B) (R : Fin n) (j : Fin B) : EReal :=
  (∑ k : Fin K, X (ix2 R k) * W (ix2 j k)) + bias (ix1 j)

/-- The layer norm of a row, with scale and shift rows of shape [1, 2048]. -/
def ln (z : Fin 2048 → EReal) (a s : Mat 1 2048) (q : Fin 2048) : EReal :=
  norm c2048 c2047 ceps z (fun j => a (ix2 (0 : Fin 1) j)) (fun j => s (ix2 (0 : Fin 1) j)) q

/-- A gate's pre-activation. -/
def pre {n : ℕ} (x : Mat n 1024) (h : Mat n 2048) (Wx : Mat 2048 1024) (bx' : Vect 2048) (Wh : Mat 2048 2048) (bh' : Vect 2048)
    (ax bx ah bh : Mat 1 2048) (R : Fin n) (q : Fin 2048) : EReal :=
  ln (lin x Wx bx' R) ax bx q + ln (lin h Wh bh' R) ah bh q

/-- The cell's parameters. -/
structure Params where
  Wfh : Mat 2048 2048
  bfh : Vect 2048
  Wih : Mat 2048 2048
  bih : Vect 2048
  Wch : Mat 2048 2048
  bch : Vect 2048
  Woh : Mat 2048 2048
  boh : Vect 2048
  Wfx : Mat 2048 1024
  bfx : Vect 2048
  Wix : Mat 2048 1024
  bix : Vect 2048
  Wcx : Mat 2048 1024
  bcx : Vect 2048
  Wox : Mat 2048 1024
  box : Vect 2048
  Wdec : Mat 1024 2048
  bdec : Vect 1024
  ax : Mat 1 2048
  bx : Mat 1 2048
  ah : Mat 1 2048
  bh : Mat 1 2048
  ac : Mat 1 2048
  bc : Mat 1 2048

variable {n : ℕ} (P : Params) (x : Mat n 1024) (h c : Mat n 2048)

def preF (R : Fin n) (q : Fin 2048) : EReal := pre x h P.Wfx P.bfx P.Wfh P.bfh P.ax P.bx P.ah P.bh R q
def preI (R : Fin n) (q : Fin 2048) : EReal := pre x h P.Wix P.bix P.Wih P.bih P.ax P.bx P.ah P.bh R q
def preC (R : Fin n) (q : Fin 2048) : EReal := pre x h P.Wcx P.bcx P.Wch P.bch P.ax P.bx P.ah P.bh R q
def preO (R : Fin n) (q : Fin 2048) : EReal := pre x h P.Wox P.box P.Woh P.boh P.ax P.bx P.ah P.bh R q

/-- The new cell state. -/
def cx (R : Fin n) (q : Fin 2048) : EReal :=
  Ideal.logistic (preF P x h R q) * c (ix2 R q) + Ideal.logistic (preI P x h R q) * Ideal.tanh (preC P x h R q)

/-- The new hidden state. -/
def hx (R : Fin n) (q : Fin 2048) : EReal :=
  Ideal.logistic (preO P x h R q) * Ideal.tanh (ln (fun j => cx P x h c R j) P.ac P.bc q)

/-- The decoder's output. -/
def out (R : Fin n) (o : Fin 1024) : EReal :=
  (∑ j : Fin 2048, hx P x h c R j * P.Wdec (ix2 o j)) + P.bdec (ix1 o)

end Spec

end
-- ==== Proof.LibChebAlgebra.lean ====
/-
  UNTRUSTED. General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  UNTRUSTED. Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«112321_j35768487641178_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.Ref.ValueA.lean ====
import proofs.«112321_j35768487641178_2_alg».proof.ReferenceIdeal
import proofs.«112321_j35768487641178_2_alg».proof.Proof.Spec
import proofs.«112321_j35768487641178_2_alg».proof.Proof.LibRowNorm
import proofs.«112321_j35768487641178_2_alg».proof.Proof.LibHostForms

noncomputable section

open scoped BigOperators

namespace Cert.ReferenceIdeal.Hand

open Idealize.ShloMosaic Idealize.ShloMosaic.TcCoe Idealize.SL.Sem Idealize.ShloMosaic.ValueIdx
open Cert.ReferenceIdeal

variable [Facts]
open Facts₀ Facts

/-! # The reference's host operations as named whole-array functions, each read at an index

  The reference computes every gate from two linear maps, each layer-normalised; the cell state and the hidden state from
  the gates; the output from the hidden state by one more linear map. Each of these is named here as the host writes it,
  on whole arrays, and read at an index as the shared specification's function. -/

abbrev A42 := FVec Ideal S4096x2048 .f32
abbrev Col := FVec Ideal S4096x1 .f32
abbrev Row := FVec Ideal S1x2048 .f32

/-- A row repeated down the array. -/
def rowsH (a : Row) : A42 := broadcastInDim S4096x2048 ![0, 1] bcast_S1x2048_S4096x2048_0_1 a

/-- A bias vector made a row. -/
def rowB (b : FVec Ideal S2048 .f32) : Row := broadcastInDim S1x2048 ![1] bcast_S2048_S1x2048_1 b

/-- The input against a transposed weight: a plain product. -/
def dotX (x : FVec Ideal S4096x1024 .f32) (W : FVec Ideal S2048x1024 .f32) : A42 :=
  Host.dotGeneral (F := Ideal) dot_S4096x1024_S1024x2048_S4096x2048_1_0_0_1_n_n none x
    (transpose S1024x2048 [1, 0] W transposes_S2048x1024_S1024x2048_1_0)

/-- `x · Wᵀ + b` over the 1024 input features, as the host writes it: the weight transposed, a plain product, the bias
    made a row and repeated down the rows. -/
def linX (x : FVec Ideal S4096x1024 .f32) (W : FVec Ideal S2048x1024 .f32) (b : FVec Ideal S2048 .f32) : A42 :=
  addf (Host.dotGeneral (F := Ideal) dot_S4096x1024_S1024x2048_S4096x2048_1_0_0_1_n_n none x
      (transpose S1024x2048 [1, 0] W transposes_S2048x1024_S1024x2048_1_0))
    (broadcastInDim S4096x2048 ![0, 1] bcast_S1x2048_S4096x2048_0_1 (broadcastInDim S1x2048 ![1] bcast_S2048_S1x2048_1 b))

/-- `h · Wᵀ + b` over the 2048 hidden features. -/
def linH (h : A42) (W : FVec Ideal S2048x2048 .f32) (b : FVec Ideal S2048 .f32) : A42 :=
  addf (Host.dotGeneral (F := Ideal) dot_S4096x2048_S2048x2048_S4096x2048_1_0_0_1_n_n none h
      (transpose S2048x2048 [1, 0] W transposes_S2048x2048_S2048x2048_1_0))
    (broadcastInDim S4096x2048 ![0, 1] bcast_S1x2048_S4096x2048_0_1 (broadcastInDim S1x2048 ![1] bcast_S2048_S1x2048_1 b))

/-- The decoder `h · Wᵀ + b` onto the 1024 outputs. -/
def linD (h : A42) (W : FVec Ideal S1024x2048 .f32) (b : FVec Ideal S1024 .f32) : FVec Ideal S4096x1024 .f32 :=
  addf (Host.dotGeneral (F := Ideal) dot_S4096x2048_S2048x1024_S4096x1024_1_0_0_1_n_n none h
      (transpose S2048x1024 [1, 0] W transposes_S1024x2048_S2048x1024_1_0))
    (broadcastInDim S4096x1024 ![0, 1] bcast_S1x1024_S4096x1024_0_1 (broadcastInDim S1x1024 ![1] bcast_S1024_S1x1024_1 b))

/-- The input's linear map is its product plus its bias row repeated. -/
theorem linX_eq (x : FVec Ideal S4096x1024 .f32) (W : FVec Ideal S2048x1024 .f32) (b : FVec Ideal S2048 .f32) :
    addf (dotX x W) (rowsH (rowB b)) = linX x W b := rfl

/-- The scalar zero a row sum starts from. -/
def zeroS : FVec Ideal S_ .f32 := constant S_ .f32 0x00000000#32

/-- The column of row means. -/
def muH (z : A42) : Col :=
  Host.divf (F := Ideal) (broadcastInDim S4096x1 ![0] bcast_S4096_S4096x1_0 (Host.reduceAdd (F := Ideal) z zeroS reducesTo_S4096x2048_S4096_d1 h_S_))
    (broadcastInDim S4096x1 ![] bcast_S_S4096x1 (constant (F := Ideal) S_ .f32 0x45000000#32))

/-- The rows less their means. -/
def cenH (z : A42) : A42 := subf z (broadcastInDim S4096x2048 ![0, 1] bcast_S4096x1_S4096x2048_0_1 (muH z))

/-- The row length less the one degree of freedom removed. -/
def ndH : FVec Ideal S_ .f32 := subf (constant (F := Ideal) S_ .f32 0x45000000#32) (sitofp .f32 (constantI S_ 32 1#32))

/-- The column of row standard deviations: the centred squares' row sums over n − 1, kept where n − 1 is positive, their
    square roots. -/
def sdH (z : A42) : Col :=
  Host.sqrt (F := Ideal) (select (broadcastInDim S4096x1 ![] bcast_S_S4096x1 (cmpf .ogt ndH zeroS))
    (Host.divf (F := Ideal) (broadcastInDim S4096x1 ![0] bcast_S4096_S4096x1_0
        (Host.reduceAdd (F := Ideal) (mulf (cenH z) (cenH z)) zeroS reducesTo_S4096x2048_S4096_d1 h_S_))
      (broadcastInDim S4096x1 ![] bcast_S_S4096x1 ndH))
    (broadcastInDim S4096x1 ![] bcast_S_S4096x1 (id (constant (F := Ideal) S_ .f32 0x7FC00000#32))))

/-- The centred rows over their deviation plus ε. -/
def nrmH (z : A42) : A42 :=
  Host.divf (F := Ideal) (cenH z) (broadcastInDim S4096x2048 ![0, 1] bcast_S4096x1_S4096x2048_0_1
    (addf (sdH z) (broadcastInDim S4096x1 ![] bcast_S_S4096x1 (constant (F := Ideal) S_ .f32 0x3727C5AC#32))))

/-- The layer norm: the normalised rows scaled and shifted by rows repeated down the array. -/
def lnH (z : A42) (a s : Row) : A42 :=
  addf (mulf (nrmH z) (broadcastInDim S4096x2048 ![0, 1] bcast_S1x2048_S4096x2048_0_1 a))
    (broadcastInDim S4096x2048 ![0, 1] bcast_S1x2048_S4096x2048_0_1 s)

/-- The logistic function as the host spells it: 1 / (1 + exp (−p)). -/
def sigH (p : A42) : A42 :=
  Host.divf (F := Ideal) (broadcastInDim S4096x2048 ![] bcast_S_S4096x2048 (constant (F := Ideal) S_ .f32 0x3F800000#32))
    (addf (broadcastInDim S4096x2048 ![] bcast_S_S4096x2048 (constant (F := Ideal) S_ .f32 0x3F800000#32)) (Host.exp (F := Ideal) (Host.negf (F := Ideal) p)))

/-! ## Read at an index -/

theorem linX_apply (x : FVec Ideal S4096x1024 .f32) (W : FVec Ideal S2048x1024 .f32) (b : FVec Ideal S2048 .f32)
    (R : Fin 4096) (j : Fin 2048) : linX x W b (ix2 R j) = Spec.lin x W b R j := by
  unfold linX Spec.lin
  rw [addf_apply, HostForms.dotGeneral_mm_apply _ rfl rfl rfl rfl rfl rfl, HostForms.bcast_rows_apply, HostForms.bcast_row_apply]
  refine congrArg (· + b (ix1 j)) (Finset.sum_congr rfl fun k _ => ?_)
  rw [transpose_ix2_apply]

theorem linH_apply (h : A42) (W : FVec Ideal S2048x2048 .f32) (b : FVec Ideal S2048 .f32)
    (R : Fin 4096) (j : Fin 2048) : linH h W b (ix2 R j) = Spec.lin h W b R j := by
  unfold linH Spec.lin
  rw [addf_apply, HostForms.dotGeneral_mm_apply _ rfl rfl rfl rfl rfl rfl, HostForms.bcast_rows_apply, HostForms.bcast_row_apply]
  refine congrArg (· + b (ix1 j)) (Finset.sum_congr rfl fun k _ => ?_)
  rw [transpose_ix2_apply]

theorem linD_apply (h : A42) (W : FVec Ideal S1024x2048 .f32) (b : FVec Ideal S1024 .f32)
    (R : Fin 4096) (j : Fin 1024) : linD h W b (ix2 R j) = Spec.lin h W b R j := by
  unfold linD Spec.lin
  rw [addf_apply, HostForms.dotGeneral_mm_apply _ rfl rfl rfl rfl rfl rfl, HostForms.bcast_rows_apply, HostForms.bcast_row_apply]
  refine congrArg (· + b (ix1 j)) (Finset.sum_congr rfl fun k _ => ?_)
  rw [transpose_ix2_apply]

/-- The float word `0x45000000` is 2048. -/
theorem ofBits_2048 : Ideal.ofBits .f32 0x45000000#32 = ((2048 : ℝ) : EReal) := by
  simp [Ideal.ofBits, Ideal.ieee, -EReal.coe_mul]; norm_num

/-- The float word `0x44FFE000` is 2047. -/
theorem ofBits_2047 : Ideal.ofBits .f32 0x44FFE000#32 = ((2047 : ℝ) : EReal) := by
  simp [Ideal.ofBits, Ideal.ieee, -EReal.coe_mul]; norm_num

/-- The row length less one degree of freedom is the specification's divisor. -/
theorem nd_eq : Ideal.ofBits .f32 0x45000000#32 - (((1#32 : BitVec 32).toInt : ℝ) : EReal) = Spec.c2047 := by
  show _ = Ideal.ofBits .f32 0x44FFE000#32
  rw [ofBits_2048, ofBits_2047, show ((1#32 : BitVec 32).toInt) = 1 by decide, ← EReal.coe_sub]
  norm_num

/-- The layer norm is the normalised rows scaled and shifted. -/
theorem lnH_eq (z : A42) (a s : Row) : addf (mulf (nrmH z) (rowsH a)) (rowsH s) = lnH z a s := rfl

/-- The layer norm is the host chain of the row-normalisation library. -/
theorem lnH_eq_chain (z : A42) (a s : Row) :
    lnH z a s = RowNorm.chainH 0x45000000#32 0x3727C5AC#32 0x7FC00000#32 1#32 z a s reducesTo_S4096x2048_S4096_d1 h_S_
      bcast_S4096_S4096x1_0 bcast_S_S4096x1 bcast_S4096x1_S4096x2048_0_1 bcast_S1x2048_S4096x2048_0_1 := rfl

theorem lnH_apply (z : A42) (a s : Row) (R : Fin 4096) (q : Fin 2048) :
    lnH z a s (ix2 R q) = Spec.ln (fun k => z (ix2 R k)) a s q := by
  rw [lnH_eq_chain, RowNorm.chainH_apply (hred := by decide) (hpos := ?_), nd_eq]
  · rfl
  · rw [nd_eq]
    show Ideal.cmp .ogt (Ideal.ofBits .f32 0x44FFE000#32) (Ideal.ofBits .f32 0x00000000#32) = 1#1
    rw [ofBits_2047, Ideal.ofBits_zero_f32]
    have h : (0 : EReal) < ((2047 : ℝ) : EReal) := by exact_mod_cast (by norm_num : (0 : ℝ) < 2047)
    unfold Ideal.cmp
    rw [decide_eq_true h]
    rfl

theorem sigH_apply (p : A42) (i : S4096x2048.Idx) : sigH p i = Ideal.logistic (p i) := by
  unfold sigH
  rw [hostDivf_apply, addf_apply, broadcastInDim_scalar_apply]
  show Ideal.div (Ideal.ofBits .f32 0x3F800000#32) (Ideal.ofBits .f32 0x3F800000#32 + Ideal.exp (- p i)) = _
  rw [Ideal.ofBits_one_f32]
  rfl

end Cert.ReferenceIdeal.Hand

end
-- ==== Proof.Ref.ValueC0.lean ====
import proofs.«112321_j35768487641178_2_alg».proof.Proof.Ref.Part0
import proofs.«112321_j35768487641178_2_alg».proof.Proof.Ref.ValueA

noncomputable section

namespace Cert.ReferenceIdeal.Hand

open Idealize.ShloMosaic Idealize.ShloMosaic.TcCoe Idealize.SL.Sem Idealize.ShloMosaic.ValueIdx
open Cert.ReferenceIdeal

variable [Facts]
open Facts₀ Facts

/-! # The first stretch of the reference, buffer by buffer: the forget gate, and the input gate's first product -/

/-- A buffer this stretch does not write keeps its contents. -/
theorem keep0 (V : Valuation τ sig (Elt Ideal)) (r : Ref sig .tc) (h : r ∉ (W0 : List (Ref sig .tc))) :
    StableHlo.after ops0 V (Proc.devRef .tc r) = V (Proc.devRef .tc r) :=
  StableHlo.after_of_writes_sub ops0 V ops0_writes h

set_option maxHeartbeats 4000000 in
/-- The forget gate: the logistic function of the two layer-normed linear maps' sum. -/
theorem c0_v46 (V : Valuation τ sig (Elt Ideal)) :
    StableHlo.after ops0 V (Proc.devRef .tc main_v46)
      = sigH (addf (lnH (linX (V main_arg0) (V main_arg11) (V main_arg12)) (V main_arg21) (V main_arg22))
          (lnH (linH (V main_arg1) (V main_arg3) (V main_arg4)) (V main_arg23) (V main_arg24))) := by
  after_results_simp
  rfl

set_option maxHeartbeats 4000000 in
/-- The input gate's product of the input with its transposed weight. -/
theorem c0_v48 (V : Valuation τ sig (Elt Ideal)) :
    StableHlo.after ops0 V (Proc.devRef .tc main_v48)
      = dotX (V main_arg0) (V main_arg13) := by
  after_results_simp
  rfl

set_option maxHeartbeats 4000000 in
/-- The input gate's bias made a row. -/
theorem c0_v49 (V : Valuation τ sig (Elt Ideal)) :
    StableHlo.after ops0 V (Proc.devRef .tc main_v49) = rowB (V main_arg14) := by
  after_results_simp
  rfl

end Cert.ReferenceIdeal.Hand

end
-- ==== Proof.Ref.ValueC1.lean ====
import proofs.«112321_j35768487641178_2_alg».proof.Proof.Ref.Part1
import proofs.«112321_j35768487641178_2_alg».proof.Proof.Ref.ValueA

noncomputable section

namespace Cert.ReferenceIdeal.Hand

open Idealize.ShloMosaic Idealize.ShloMosaic.TcCoe Idealize.SL.Sem Idealize.ShloMosaic.ValueIdx
open Cert.ReferenceIdeal

variable [Facts]
open Facts₀ Facts

/-! # The second stretch of the reference, buffer by buffer: the input gate, and the candidate's first linear map -/

/-- A buffer this stretch does not write keeps its contents. -/
theorem keep1 (V : Valuation τ sig (Elt Ideal)) (r : Ref sig .tc) (h : r ∉ (W1 : List (Ref sig .tc))) :
    StableHlo.after ops1 V (Proc.devRef .tc r) = V (Proc.devRef .tc r) :=
  StableHlo.after_of_writes_sub ops1 V ops1_writes h

set_option maxHeartbeats 4000000 in
/-- The input gate, over the product and the bias row the stretch before left. -/
theorem c1_v93 (V : Valuation τ sig (Elt Ideal)) :
    StableHlo.after ops1 V (Proc.devRef .tc main_v93)
      = sigH (addf (lnH (addf (V main_v48 : A42) (rowsH (V main_v49))) (V main_arg21) (V main_arg22))
          (lnH (linH (V main_arg1) (V main_arg5) (V main_arg6)) (V main_arg23) (V main_arg24))) := by
  after_results_simp
  rfl

set_option maxHeartbeats 4000000 in
/-- The candidate's linear map of the input. -/
theorem c1_v98 (V : Valuation τ sig (Elt Ideal)) :
    StableHlo.after ops1 V (Proc.devRef .tc main_v98) = linX (V main_arg0) (V main_arg15) (V main_arg16) := by
  after_results_simp
  rfl

set_option maxHeartbeats 4000000 in
/-- The zero the next row sum starts from. -/
theorem c1_cst18 (V : Valuation τ sig (Elt Ideal)) :
    StableHlo.after ops1 V (Proc.devRef .tc main_cst_18) = zeroS := by
  after_results_simp
  rfl

end Cert.ReferenceIdeal.Hand

end
-- ==== Proof.Ref.ValueC2.lean ====
import proofs.«112321_j35768487641178_2_alg».proof.Proof.Ref.Part2
import proofs.«112321_j35768487641178_2_alg».proof.Proof.Ref.ValueA

noncomputable section

namespace Cert.ReferenceIdeal.Hand

open Idealize.ShloMosaic Idealize.ShloMosaic.TcCoe Idealize.SL.Sem Idealize.ShloMosaic.ValueIdx
open Cert.ReferenceIdeal

variable [Facts]
open Facts₀ Facts

/-! # The third stretch of the reference, buffer by buffer: the candidate, the new cell state, and the output gate's
  first linear map with its row mean and deviation -/

/-- A buffer this stretch does not write keeps its contents. -/
theorem keep2 (V : Valuation τ sig (Elt Ideal)) (r : Ref sig .tc) (h : r ∉ (W2 : List (Ref sig .tc))) :
    StableHlo.after ops2 V (Proc.devRef .tc r) = V (Proc.devRef .tc r) :=
  StableHlo.after_of_writes_sub ops2 V ops2_writes h

set_option maxHeartbeats 4000000 in
/-- The new cell state, over the two gates and the candidate's linear map the stretches before left. -/
theorem c2_v138 (V : Valuation τ sig (Elt Ideal)) (h18 : V main_cst_18 = zeroS) :
    StableHlo.after ops2 V (Proc.devRef .tc main_v138)
      = addf (mulf (V main_v46 : A42) (V main_arg2 : A42))
          (mulf (V main_v93 : A42) (Host.tanh (F := Ideal) (addf (lnH (V main_v98) (V main_arg21) (V main_arg22))
            (lnH (linH (V main_arg1) (V main_arg7) (V main_arg8)) (V main_arg23) (V main_arg24))))) := by
  after_results_simp
  rw [h18]
  rfl

set_option maxHeartbeats 4000000 in
/-- The output gate's linear map of the input. -/
theorem c2_v143 (V : Valuation τ sig (Elt Ideal)) :
    StableHlo.after ops2 V (Proc.devRef .tc main_v143) = linX (V main_arg0) (V main_arg17) (V main_arg18) := by
  after_results_simp
  rfl

set_option maxHeartbeats 4000000 in
/-- Its column of row means. -/
theorem c2_v147 (V : Valuation τ sig (Elt Ideal)) :
    StableHlo.after ops2 V (Proc.devRef .tc main_v147) = muH (linX (V main_arg0) (V main_arg17) (V main_arg18)) := by
  after_results_simp
  rfl

set_option maxHeartbeats 4000000 in
/-- Its column of row deviations. -/
theorem c2_v148 (V : Valuation τ sig (Elt Ideal)) :
    StableHlo.after ops2 V (Proc.devRef .tc main_v148) = sdH (linX (V main_arg0) (V main_arg17) (V main_arg18)) := by
  after_results_simp
  rfl

end Cert.ReferenceIdeal.Hand

end
-- ==== Proof.Ref.ValueC3.lean ====
import proofs.«112321_j35768487641178_2_alg».proof.Proof.Ref.Part3
import proofs.«112321_j35768487641178_2_alg».proof.Proof.Ref.ValueA

noncomputable section

namespace Cert.ReferenceIdeal.Hand

open Idealize.ShloMosaic Idealize.ShloMosaic.TcCoe Idealize.SL.Sem Idealize.ShloMosaic.ValueIdx
open Cert.ReferenceIdeal

variable [Facts]
open Facts₀ Facts

/-! # The fourth stretch of the reference, buffer by buffer: the output gate, and the new cell state's normalised rows -/

/-- A buffer this stretch does not write keeps its contents. -/
theorem keep3 (V : Valuation τ sig (Elt Ideal)) (r : Ref sig .tc) (h : r ∉ (W3 : List (Ref sig .tc))) :
    StableHlo.after ops3 V (Proc.devRef .tc r) = V (Proc.devRef .tc r) :=
  StableHlo.after_of_writes_sub ops3 V ops3_writes h

set_option maxHeartbeats 4000000 in
/-- The output gate, over the linear map, row means and row deviations the stretch before left. -/
theorem c3_v185 (V : Valuation τ sig (Elt Ideal)) (h147 : V main_v147 = muH (V main_v143)) (h148 : V main_v148 = sdH (V main_v143)) :
    StableHlo.after ops3 V (Proc.devRef .tc main_v185)
      = sigH (addf (lnH (V main_v143) (V main_arg21) (V main_arg22))
          (lnH (linH (V main_arg1) (V main_arg9) (V main_arg10)) (V main_arg23) (V main_arg24))) := by
  after_results_simp
  rw [h147, h148]
  rfl

set_option maxHeartbeats 4000000 in
/-- The new cell state's normalised rows. -/
theorem c3_v196 (V : Valuation τ sig (Elt Ideal)) :
    StableHlo.after ops3 V (Proc.devRef .tc main_v196) = nrmH (V main_v138) := by
  after_results_simp
  rfl

set_option maxHeartbeats 4000000 in
/-- The cell norm's scale row repeated down the array. -/
theorem c3_v197 (V : Valuation τ sig (Elt Ideal)) :
    StableHlo.after ops3 V (Proc.devRef .tc main_v197)
      = rowsH (V main_arg25) := by
  after_results_simp
  rfl

end Cert.ReferenceIdeal.Hand

end
-- ==== Proof.Ref.ValueC4.lean ====
import proofs.«112321_j35768487641178_2_alg».proof.Proof.Ref.Part4
import proofs.«112321_j35768487641178_2_alg».proof.Proof.Ref.ValueA

noncomputable section

namespace Cert.ReferenceIdeal.Hand

open Idealize.ShloMosaic Idealize.ShloMosaic.TcCoe Idealize.SL.Sem Idealize.ShloMosaic.ValueIdx
open Cert.ReferenceIdeal

variable [Facts]
open Facts₀ Facts

/-! # The last stretch of the reference, buffer by buffer: the new hidden state and the decoder's output -/

/-- A buffer this stretch does not write keeps its contents. -/
theorem keep4 (V : Valuation τ sig (Elt Ideal)) (r : Ref sig .tc) (h : r ∉ (W4 : List (Ref sig .tc))) :
    StableHlo.after ops4 V (Proc.devRef .tc r) = V (Proc.devRef .tc r) :=
  StableHlo.after_of_writes_sub ops4 V ops4_writes h

set_option maxHeartbeats 4000000 in
/-- The new hidden state, over the output gate, the normalised rows and the scale the stretch before left. -/
theorem c4_v202 (V : Valuation τ sig (Elt Ideal)) :
    StableHlo.after ops4 V (Proc.devRef .tc main_v202)
      = mulf (V main_v185 : A42) (Host.tanh (F := Ideal) (addf (mulf (V main_v196 : A42) (V main_v197 : A42)) (rowsH (V main_arg26)))) := by
  after_results_simp
  rfl

set_option maxHeartbeats 4000000 in
/-- The decoder's output: the linear map of the new hidden state. -/
theorem c4_v207 (V : Valuation τ sig (Elt Ideal)) :
    StableHlo.after ops4 V (Proc.devRef .tc main_v207)
      = linD (mulf (V main_v185 : A42) (Host.tanh (F := Ideal) (addf (mulf (V main_v196 : A42) (V main_v197 : A42)) (rowsH (V main_arg26)))))
          (V main_arg19) (V main_arg20) := by
  after_results_simp
  rfl

end Cert.ReferenceIdeal.Hand

end
-- ==== Proof.Ref.Value.lean ====
import proofs.«112321_j35768487641178_2_alg».proof.Proof.Ref.Run
import proofs.«112321_j35768487641178_2_alg».proof.Proof.Spec
import proofs.«112321_j35768487641178_2_alg».proof.Proof.LibRowNorm
import proofs.«112321_j35768487641178_2_alg».proof.Proof.LibHostForms
import proofs.«112321_j35768487641178_2_alg».proof.Proof.Ref.ValueA
import proofs.«112321_j35768487641178_2_alg».proof.Proof.Ref.ValueC0
import proofs.«112321_j35768487641178_2_alg».proof.Proof.Ref.ValueC1
import proofs.«112321_j35768487641178_2_alg».proof.Proof.Ref.ValueC2
import proofs.«112321_j35768487641178_2_alg».proof.Proof.Ref.ValueC3
import proofs.«112321_j35768487641178_2_alg».proof.Proof.Ref.ValueC4

noncomputable section

open scoped BigOperators

namespace Cert.ReferenceIdeal.Hand

open Idealize.ShloMosaic Idealize.ShloMosaic.TcCoe Idealize.SL.Sem Idealize.ShloMosaic.ValueIdx
open Cert.ReferenceIdeal

variable [Facts]
open Facts₀ Facts

/-! # The reference's three results, read at an index, as the shared specification's functions

  The line of operations is five stretches run one after the other. Each stretch's buffers are known as whole-array
  functions of the contents it starts from; an argument is written by no stretch; so the three result buffers are
  whole-array functions of the arguments, and those read at an index as the specification's cell. -/

/-- The cell's parameters, as the argument arrays of a valuation. -/
def paramsOf (V : Valuation τ sig (Elt Ideal)) : Spec.Params :=
  { Wfh := V main_arg3, bfh := V main_arg4, Wih := V main_arg5, bih := V main_arg6, Wch := V main_arg7, bch := V main_arg8,
    Woh := V main_arg9, boh := V main_arg10, Wfx := V main_arg11, bfx := V main_arg12, Wix := V main_arg13, bix := V main_arg14,
    Wcx := V main_arg15, bcx := V main_arg16, Wox := V main_arg17, box := V main_arg18, Wdec := V main_arg19, bdec := V main_arg20,
    ax := V main_arg21, bx := V main_arg22, ah := V main_arg23, bh := V main_arg24, ac := V main_arg25, bc := V main_arg26 }

/-! ## The stretches in sequence -/

/-- Two lines run one after the other from the same contents are their concatenation run as one. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The contents after the first stretch, …, after the fourth. -/
def V1 (V : Valuation τ sig (Elt Ideal)) : Valuation τ sig (Elt Ideal) := StableHlo.after ops0 V
def V2 (V : Valuation τ sig (Elt Ideal)) : Valuation τ sig (Elt Ideal) := StableHlo.after ops1 (V1 V)
def V3 (V : Valuation τ sig (Elt Ideal)) : Valuation τ sig (Elt Ideal) := StableHlo.after ops2 (V2 V)
def V4 (V : Valuation τ sig (Elt Ideal)) : Valuation τ sig (Elt Ideal) := StableHlo.after ops3 (V3 V)

/-- The whole line is the last stretch run from the contents after the fourth. -/
theorem after_ops (V : Valuation τ sig (Elt Ideal)) : StableHlo.after ops V = StableHlo.after ops4 (V4 V) :=
  (after_append ops0 _ V).trans ((after_append ops1 _ _).trans ((after_append ops2 _ _).trans (after_append ops3 ops4 _)))

/-- A buffer no stretch writes is written by none of them. -/
theorem notMem (r : Ref sig .tc) (h : r ∉ (Wall : List (Ref sig .tc))) :
    r ∉ (W0 : List (Ref sig .tc)) ∧ r ∉ (W1 : List (Ref sig .tc)) ∧ r ∉ (W2 : List (Ref sig .tc)) ∧ r ∉ (W3 : List (Ref sig .tc)) :=
  ⟨fun m => h (List.mem_append_left _ m),
   fun m => h (List.mem_append_right _ (List.mem_append_left _ m)),
   fun m => h (List.mem_append_right _ (List.mem_append_right _ (List.mem_append_left _ m))),
   fun m => h (List.mem_append_right _ (List.mem_append_right _ (List.mem_append_right _ (List.mem_append_left _ m))))⟩

/-- An argument is as launched after every stretch. -/
theorem arg1 (V : Valuation τ sig (Elt Ideal)) (r : Ref sig .tc) (h : r ∉ (Wall : List (Ref sig .tc))) :
    V1 V (no_index (Proc.devRef .tc r)) = V (Proc.devRef .tc r) := keep0 V r (notMem r h).1
theorem arg2 (V : Valuation τ sig (Elt Ideal)) (r : Ref sig .tc) (h : r ∉ (Wall : List (Ref sig .tc))) :
    V2 V (no_index (Proc.devRef .tc r)) = V (Proc.devRef .tc r) := (keep1 (V1 V) r (notMem r h).2.1).trans (arg1 V r h)
theorem arg3 (V : Valuation τ sig (Elt Ideal)) (r : Ref sig .tc) (h : r ∉ (Wall : List (Ref sig .tc))) :
    V3 V (no_index (Proc.devRef .tc r)) = V (Proc.devRef .tc r) := (keep2 (V2 V) r (notMem r h).2.2.1).trans (arg2 V r h)
theorem arg4 (V : Valuation τ sig (Elt Ideal)) (r : Ref sig .tc) (h : r ∉ (Wall : List (Ref sig .tc))) :
    V4 V (no_index (Proc.devRef .tc r)) = V (Proc.devRef .tc r) := (keep3 (V3 V) r (notMem r h).2.2.2).trans (arg3 V r h)

/-! ## The gates, the states and the output as whole arrays of the arguments -/

/-- A gate's pre-activation: the two layer-normed linear maps' sum. -/
def preH (x : FVec Ideal S4096x1024 .f32) (h : A42) (Wx : FVec Ideal S2048x1024 .f32) (bx' : FVec Ideal S2048 .f32)
    (Wh : FVec Ideal S2048x2048 .f32) (bh' : FVec Ideal S2048 .f32) (ax bx ah bh : Row) : A42 :=
  addf (lnH (linX x Wx bx') ax bx) (lnH (linH h Wh bh') ah bh)

def preFH (V : Valuation τ sig (Elt Ideal)) : A42 :=
  preH (V main_arg0) (V main_arg1) (V main_arg11) (V main_arg12) (V main_arg3) (V main_arg4) (V main_arg21) (V main_arg22) (V main_arg23) (V main_arg24)
def preIH (V : Valuation τ sig (Elt Ideal)) : A42 :=
  preH (V main_arg0) (V main_arg1) (V main_arg13) (V main_arg14) (V main_arg5) (V main_arg6) (V main_arg21) (V main_arg22) (V main_arg23) (V main_arg24)
def preCH (V : Valuation τ sig (Elt Ideal)) : A42 :=
  preH (V main_arg0) (V main_arg1) (V main_arg15) (V main_arg16) (V main_arg7) (V main_arg8) (V main_arg21) (V main_arg22) (V main_arg23) (V main_arg24)
def preOH (V : Valuation τ sig (Elt Ideal)) : A42 :=
  preH (V main_arg0) (V main_arg1) (V main_arg17) (V main_arg18) (V main_arg9) (V main_arg10) (V main_arg21) (V main_arg22) (V main_arg23) (V main_arg24)

/-- The new cell state. -/
def cxH (V : Valuation τ sig (Elt Ideal)) : A42 :=
  addf (mulf (sigH (preFH V)) (V main_arg2 : A42)) (mulf (sigH (preIH V)) (Host.tanh (F := Ideal) (preCH V)))

/-- The new hidden state. -/
def hxH (V : Valuation τ sig (Elt Ideal)) : A42 :=
  mulf (sigH (preOH V)) (Host.tanh (F := Ideal) (lnH (cxH V) (V main_arg25) (V main_arg26)))

/-- The decoder's output. -/
def outH (V : Valuation τ sig (Elt Ideal)) : FVec Ideal S4096x1024 .f32 := linD (hxH V) (V main_arg19) (V main_arg20)

/-! ## Stretch by stretch -/

theorem s1_v46 (V : Valuation τ sig (Elt Ideal)) : V1 V (Proc.devRef .tc main_v46) = sigH (preFH V) := c0_v46 V
theorem s2_v46 (V : Valuation τ sig (Elt Ideal)) : V2 V (Proc.devRef .tc main_v46) = sigH (preFH V) :=
  (keep1 (V1 V) main_v46 (by decide)).trans (s1_v46 V)
theorem s1_v48 (V : Valuation τ sig (Elt Ideal)) : V1 V (Proc.devRef .tc main_v48) = dotX (V main_arg0) (V main_arg13) := c0_v48 V
theorem s1_v49 (V : Valuation τ sig (Elt Ideal)) : V1 V (Proc.devRef .tc main_v49) = rowB (V main_arg14) := c0_v49 V

theorem s2_v93 (V : Valuation τ sig (Elt Ideal)) : V2 V (Proc.devRef .tc main_v93) = sigH (preIH V) := by
  show StableHlo.after ops1 (V1 V) _ = _
  rw [c1_v93, s1_v48, s1_v49, linX_eq]
  simp (disch := decide) only [arg1]
  rfl

theorem s2_v98 (V : Valuation τ sig (Elt Ideal)) :
    V2 V (Proc.devRef .tc main_v98) = linX (V main_arg0) (V main_arg15) (V main_arg16) := by
  show StableHlo.after ops1 (V1 V) _ = _
  rw [c1_v98]
  simp (disch := decide) only [arg1]

theorem s2_cst18 (V : Valuation τ sig (Elt Ideal)) : V2 V (Proc.devRef .tc main_cst_18) = zeroS := c1_cst18 (V1 V)

theorem s3_v138 (V : Valuation τ sig (Elt Ideal)) : V3 V (Proc.devRef .tc main_v138) = cxH V := by
  show StableHlo.after ops2 (V2 V) _ = _
  rw [c2_v138 (V2 V) (s2_cst18 V), s2_v46, s2_v93, s2_v98]
  simp (disch := decide) only [arg2]
  rfl

theorem s4_v138 (V : Valuation τ sig (Elt Ideal)) : V4 V (Proc.devRef .tc main_v138) = cxH V :=
  (keep3 (V3 V) main_v138 (by decide)).trans (s3_v138 V)

theorem s3_v143 (V : Valuation τ sig (Elt Ideal)) :
    V3 V (Proc.devRef .tc main_v143) = linX (V main_arg0) (V main_arg17) (V main_arg18) := by
  show StableHlo.after ops2 (V2 V) _ = _
  rw [c2_v143]
  simp (disch := decide) only [arg2]

theorem s3_v147 (V : Valuation τ sig (Elt Ideal)) :
    V3 V (Proc.devRef .tc main_v147) = muH (V3 V (Proc.devRef .tc main_v143)) := by
  rw [s3_v143]
  show StableHlo.after ops2 (V2 V) _ = _
  rw [c2_v147]
  simp (disch := decide) only [arg2]

theorem s3_v148 (V : Valuation τ sig (Elt Ideal)) :
    V3 V (Proc.devRef .tc main_v148) = sdH (V3 V (Proc.devRef .tc main_v143)) := by
  rw [s3_v143]
  show StableHlo.after ops2 (V2 V) _ = _
  rw [c2_v148]
  simp (disch := decide) only [arg2]

theorem s4_v185 (V : Valuation τ sig (Elt Ideal)) : V4 V (Proc.devRef .tc main_v185) = sigH (preOH V) := by
  show StableHlo.after ops3 (V3 V) _ = _
  rw [c3_v185 (V3 V) (s3_v147 V) (s3_v148 V), s3_v143]
  simp (disch := decide) only [arg3]
  rfl

theorem s4_v196 (V : Valuation τ sig (Elt Ideal)) : V4 V (Proc.devRef .tc main_v196) = nrmH (cxH V) := by
  show StableHlo.after ops3 (V3 V) _ = _
  rw [c3_v196, s3_v138]

theorem s4_v197 (V : Valuation τ sig (Elt Ideal)) : V4 V (Proc.devRef .tc main_v197) = rowsH (V main_arg25) := by
  show StableHlo.after ops3 (V3 V) _ = _
  rw [c3_v197]
  simp (disch := decide) only [arg3]

/-! ## The three result buffers after the whole line -/

theorem fin_v138 (V : Valuation τ sig (Elt Ideal)) : StableHlo.after ops V (Proc.devRef .tc main_v138) = cxH V := by
  rw [after_ops, keep4 (V4 V) main_v138 (by decide)]
  exact s4_v138 V

theorem fin_v202 (V : Valuation τ sig (Elt Ideal)) : StableHlo.after ops V (Proc.devRef .tc main_v202) = hxH V := by
  rw [after_ops, c4_v202, s4_v185, s4_v196, s4_v197]
  simp (disch := decide) only [arg4]
  rfl

theorem fin_v207 (V : Valuation τ sig (Elt Ideal)) : StableHlo.after ops V (Proc.devRef .tc main_v207) = outH V := by
  rw [after_ops, c4_v207, s4_v185, s4_v196, s4_v197]
  simp (disch := decide) only [arg4]
  rfl

/-! ## Read at an index -/

theorem hostTanh_apply (p : A42) (i : S4096x2048.Idx) : Host.tanh (F := Ideal) p i = Ideal.tanh (p i) := rfl

theorem preH_apply (x : FVec Ideal S4096x1024 .f32) (h : A42) (Wx : FVec Ideal S2048x1024 .f32) (bx' : FVec Ideal S2048 .f32)
    (Wh : FVec Ideal S2048x2048 .f32) (bh' : FVec Ideal S2048 .f32) (ax bx ah bh : Row) (R : Fin 4096) (q : Fin 2048) :
    preH x h Wx bx' Wh bh' ax bx ah bh (ix2 R q) = Spec.pre x h Wx bx' Wh bh' ax bx ah bh R q := by
  unfold preH Spec.pre
  rw [addf_apply, lnH_apply, lnH_apply]
  have e1 : (fun k => linX x Wx bx' (ix2 R k)) = Spec.lin x Wx bx' R := funext fun k => linX_apply x Wx bx' R k
  have e2 : (fun k => linH h Wh bh' (ix2 R k)) = Spec.lin h Wh bh' R := funext fun k => linH_apply h Wh bh' R k
  rw [e1, e2]

theorem cxH_apply (V : Valuation τ sig (Elt Ideal)) (R : Fin 4096) (q : Fin 2048) :
    cxH V (ix2 R q) = Spec.cx (paramsOf V) (V main_arg0) (V main_arg1) (V main_arg2) R q := by
  unfold cxH Spec.cx Spec.preF Spec.preI Spec.preC preFH preIH preCH
  rw [addf_apply, mulf_apply, mulf_apply, sigH_apply, sigH_apply, hostTanh_apply, preH_apply, preH_apply, preH_apply]
  rfl

theorem hxH_apply (V : Valuation τ sig (Elt Ideal)) (R : Fin 4096) (q : Fin 2048) :
    hxH V (ix2 R q) = Spec.hx (paramsOf V) (V main_arg0) (V main_arg1) (V main_arg2) R q := by
  unfold hxH Spec.hx Spec.preO preOH
  rw [mulf_apply, sigH_apply, hostTanh_apply, lnH_apply, preH_apply]
  have e : (fun k => cxH V (ix2 R k)) = fun j => Spec.cx (paramsOf V) (V main_arg0) (V main_arg1) (V main_arg2) R j :=
    funext fun k => cxH_apply V R k
  rw [e]
  rfl

theorem outH_apply (V : Valuation τ sig (Elt Ideal)) (R : Fin 4096) (o : Fin 1024) :
    outH V (ix2 R o) = Spec.out (paramsOf V) (V main_arg0) (V main_arg1) (V main_arg2) R o := by
  unfold outH Spec.out
  rw [linD_apply]
  unfold Spec.lin
  have e : ∀ j : Fin 2048, hxH V (ix2 R j) = Spec.hx (paramsOf V) (V main_arg0) (V main_arg1) (V main_arg2) R j :=
    fun j => hxH_apply V R j
  simp only [e]
  rfl

/-! ## The statements -/

/-- The new cell state's buffer after the reference's line, at `(R, q)`. -/
theorem ref_cx (V : Valuation τ sig (Elt Ideal)) (R : Fin 4096) (q : Fin 2048) :
    StableHlo.after ops V (Proc.devRef .tc main_v138) (ix2 R q)
      = Spec.cx (paramsOf V) (V main_arg0) (V main_arg1) (V main_arg2) R q :=
  (congrFun (fin_v138 V) (ix2 R q)).trans (cxH_apply V R q)

/-- The new hidden state's buffer after the reference's line, at `(R, q)`. -/
theorem ref_hx (V : Valuation τ sig (Elt Ideal)) (R : Fin 4096) (q : Fin 2048) :
    StableHlo.after ops V (Proc.devRef .tc main_v202) (ix2 R q)
      = Spec.hx (paramsOf V) (V main_arg0) (V main_arg1) (V main_arg2) R q :=
  (congrFun (fin_v202 V) (ix2 R q)).trans (hxH_apply V R q)

/-- The output's buffer after the reference's line, at `(R, o)`. -/
theorem ref_out (V : Valuation τ sig (Elt Ideal)) (R : Fin 4096) (o : Fin 1024) :
    StableHlo.after ops V (Proc.devRef .tc main_v207) (ix2 R o)
      = Spec.out (paramsOf V) (V main_arg0) (V main_arg1) (V main_arg2) R o :=
  (congrFun (fin_v207 V) (ix2 R o)).trans (outH_apply V R o)

end Cert.ReferenceIdeal.Hand

end
-- ==== Proof.LibStack4.lean ====
/-
  Four arrays stacked along a new leading axis (each piece has extent 1 there), read at an index: entry (g, …) of the stack is
  the g-th piece at (0, …). Rank 3 (a stack of matrices) and rank 2 (a stack of rows).
-/
import Idealize.ShloMosaic.Lib.ValueIdx
import Idealize.ShloMosaic.Lib.Pipeline.Value

noncomputable section

namespace Stack4

open Idealize.ShloMosaic Idealize.ShloMosaic.ValueIdx

/-- One of four. -/
def pick4 {α : Type} (g : Fin 4) (a b c d : α) : α :=
  match g with
  | ⟨0, _⟩ => a
  | ⟨1, _⟩ => b
  | ⟨2, _⟩ => c
  | ⟨3, _⟩ => d

variable {α : Type} {A B : ℕ}

theorem concat4_rank3 (u0 u1 u2 u3 : (⟨3, ![1, A, B]⟩ : Shape).Idx → α)
    (h : Shape.Concatenates (([⟨⟨3, ![1, A, B]⟩, u0⟩, ⟨⟨3, ![1, A, B]⟩, u1⟩, ⟨⟨3, ![1, A, B]⟩, u2⟩, ⟨⟨3, ![1, A, B]⟩, u3⟩] :
      List ((s : Shape) × (s.Idx → α))).map (·.1)) ⟨3, ![4, A, B]⟩ (0 : Fin 3))
    (g : Fin 4) (x : Fin A) (y : Fin B) :
    concatenate ⟨3, ![4, A, B]⟩ (0 : Fin 3) [⟨⟨3, ![1, A, B]⟩, u0⟩, ⟨⟨3, ![1, A, B]⟩, u1⟩, ⟨⟨3, ![1, A, B]⟩, u2⟩, ⟨⟨3, ![1, A, B]⟩, u3⟩] h (ix3 g x y)
      = pick4 g u0 u1 u2 u3 (ix3 (0 : Fin 1) x y) := by
  have hi : ∀ b : Fin 3, b.cast (rfl : (3 : ℕ) = 3) ≠ (0 : Fin 3) → ((ix3 (0 : Fin 1) x y : (⟨3, ![1, A, B]⟩ : Shape).Idx) b).val = ((ix3 g x y : (⟨3, ![4, A, B]⟩ : Shape).Idx) (b.cast rfl)).val := by
    intro b hb
    match b with
    | ⟨0, _⟩ => exact absurd rfl hb
    | ⟨1, _⟩ => rfl
    | ⟨2, _⟩ => rfl
  match g with
  | ⟨0, hg⟩ =>
    exact concatenate_apply_piece (0 : Fin 3) ([⟨⟨3, ![1, A, B]⟩, u0⟩, ⟨⟨3, ![1, A, B]⟩, u1⟩, ⟨⟨3, ![1, A, B]⟩, u2⟩, ⟨⟨3, ![1, A, B]⟩, u3⟩] : List ((s : Shape) × (s.Idx → α)))
      h (ix3 ⟨0, hg⟩ x y) 0 (by simp) ⟨3, ![1, A, B]⟩ u0 rfl rfl 0 (by first | rfl | simp) (ix3 (0 : Fin 1) x y) hi rfl
  | ⟨1, hg⟩ =>
    exact concatenate_apply_piece (0 : Fin 3) ([⟨⟨3, ![1, A, B]⟩, u0⟩, ⟨⟨3, ![1, A, B]⟩, u1⟩, ⟨⟨3, ![1, A, B]⟩, u2⟩, ⟨⟨3, ![1, A, B]⟩, u3⟩] : List ((s : Shape) × (s.Idx → α)))
      h (ix3 ⟨1, hg⟩ x y) 1 (by simp) ⟨3, ![1, A, B]⟩ u1 rfl rfl 1 (by first | rfl | simp) (ix3 (0 : Fin 1) x y) hi rfl
  | ⟨2, hg⟩ =>
    exact concatenate_apply_piece (0 : Fin 3) ([⟨⟨3, ![1, A, B]⟩, u0⟩, ⟨⟨3, ![1, A, B]⟩, u1⟩, ⟨⟨3, ![1, A, B]⟩, u2⟩, ⟨⟨3, ![1, A, B]⟩, u3⟩] : List ((s : Shape) × (s.Idx → α)))
      h (ix3 ⟨2, hg⟩ x y) 2 (by simp) ⟨3, ![1, A, B]⟩ u2 rfl rfl 2 (by first | rfl | simp) (ix3 (0 : Fin 1) x y) hi rfl
  | ⟨3, hg⟩ =>
    exact concatenate_apply_piece (0 : Fin 3) ([⟨⟨3, ![1, A, B]⟩, u0⟩, ⟨⟨3, ![1, A, B]⟩, u1⟩, ⟨⟨3, ![1, A, B]⟩, u2⟩, ⟨⟨3, ![1, A, B]⟩, u3⟩] : List ((s : Shape) × (s.Idx → α)))
      h (ix3 ⟨3, hg⟩ x y) 3 (by simp) ⟨3, ![1, A, B]⟩ u3 rfl rfl 3 (by first | rfl | simp) (ix3 (0 : Fin 1) x y) hi rfl

theorem concat4_rank2 (u0 u1 u2 u3 : (⟨2, ![1, B]⟩ : Shape).Idx → α)
    (h : Shape.Concatenates (([⟨⟨2, ![1, B]⟩, u0⟩, ⟨⟨2, ![1, B]⟩, u1⟩, ⟨⟨2, ![1, B]⟩, u2⟩, ⟨⟨2, ![1, B]⟩, u3⟩] :
      List ((s : Shape) × (s.Idx → α))).map (·.1)) ⟨2, ![4, B]⟩ (0 : Fin 2))
    (g : Fin 4) (y : Fin B) :
    concatenate ⟨2, ![4, B]⟩ (0 : Fin 2) [⟨⟨2, ![1, B]⟩, u0⟩, ⟨⟨2, ![1, B]⟩, u1⟩, ⟨⟨2, ![1, B]⟩, u2⟩, ⟨⟨2, ![1, B]⟩, u3⟩] h (ix2 g y)
      = pick4 g u0 u1 u2 u3 (ix2 (0 : Fin 1) y) := by
  have hi : ∀ b : Fin 2, b.cast (rfl : (2 : ℕ) = 2) ≠ (0 : Fin 2) → ((ix2 (0 : Fin 1) y : (⟨2, ![1, B]⟩ : Shape).Idx) b).val = ((ix2 g y : (⟨2, ![4, B]⟩ : Shape).Idx) (b.cast rfl)).val := by
    intro b hb
    match b with
    | ⟨0, _⟩ => exact absurd rfl hb
    | ⟨1, _⟩ => rfl
  match g with
  | ⟨0, hg⟩ =>
    exact concatenate_apply_piece (0 : Fin 2) ([⟨⟨2, ![1, B]⟩, u0⟩, ⟨⟨2, ![1, B]⟩, u1⟩, ⟨⟨2, ![1, B]⟩, u2⟩, ⟨⟨2, ![1, B]⟩, u3⟩] : List ((s : Shape) × (s.Idx → α)))
      h (ix2 ⟨0, hg⟩ y) 0 (by simp) ⟨2, ![1, B]⟩ u0 rfl rfl 0 (by first | rfl | simp) (ix2 (0 : Fin 1) y) hi rfl
  | ⟨1, hg⟩ =>
    exact concatenate_apply_piece (0 : Fin 2) ([⟨⟨2, ![1, B]⟩, u0⟩, ⟨⟨2, ![1, B]⟩, u1⟩, ⟨⟨2, ![1, B]⟩, u2⟩, ⟨⟨2, ![1, B]⟩, u3⟩] : List ((s : Shape) × (s.Idx → α)))
      h (ix2 ⟨1, hg⟩ y) 1 (by simp) ⟨2, ![1, B]⟩ u1 rfl rfl 1 (by first | rfl | simp) (ix2 (0 : Fin 1) y) hi rfl
  | ⟨2, hg⟩ =>
    exact concatenate_apply_piece (0 : Fin 2) ([⟨⟨2, ![1, B]⟩, u0⟩, ⟨⟨2, ![1, B]⟩, u1⟩, ⟨⟨2, ![1, B]⟩, u2⟩, ⟨⟨2, ![1, B]⟩, u3⟩] : List ((s : Shape) × (s.Idx → α)))
      h (ix2 ⟨2, hg⟩ y) 2 (by simp) ⟨2, ![1, B]⟩ u2 rfl rfl 2 (by first | rfl | simp) (ix2 (0 : Fin 1) y) hi rfl
  | ⟨3, hg⟩ =>
    exact concatenate_apply_piece (0 : Fin 2) ([⟨⟨2, ![1, B]⟩, u0⟩, ⟨⟨2, ![1, B]⟩, u1⟩, ⟨⟨2, ![1, B]⟩, u2⟩, ⟨⟨2, ![1, B]⟩, u3⟩] : List ((s : Shape) × (s.Idx → α)))
      h (ix2 ⟨3, hg⟩ y) 3 (by simp) ⟨2, ![1, B]⟩ u3 rfl rfl 3 (by first | rfl | simp) (ix2 (0 : Fin 1) y) hi rfl

end Stack4

end
-- ==== Proof.KI.HostReads.lean ====
import proofs.«112321_j35768487641178_2_alg».proof.Proof.KI.Run
import proofs.«112321_j35768487641178_2_alg».proof.Proof.LibStack4
import proofs.«112321_j35768487641178_2_alg».proof.Proof.LibHostForms
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Stack4

variable (m : (ℓ : Loc nD τ sig) → Buf (Elt Ideal) ℓ) (ρ : Dev nD → PrngReg)

/-! # What the host operations before the kernels leave: the weights unchanged at the exact values (the change of float
    format is the identity), the recurrent weights and biases stacked gate by gate, the biases as rows -/

theorem E1_main_v0 (c : Dev nD) : (E1 m ρ c main_v0 : S2048x1024.Idx → EReal) = m ((c : Thread nD τ).loc main_arg11) := by
  show StableHlo.after hostOps0 (B0 m ρ c) (Proc.devRef .tc main_v0) = _
  after_results; rfl
theorem E1_main_v1 (c : Dev nD) : (E1 m ρ c main_v1 : S2048x1024.Idx → EReal) = m ((c : Thread nD τ).loc main_arg13) := by
  show StableHlo.after hostOps0 (B0 m ρ c) (Proc.devRef .tc main_v1) = _
  after_results; rfl
theorem E1_main_v2 (c : Dev nD) : (E1 m ρ c main_v2 : S2048x1024.Idx → EReal) = m ((c : Thread nD τ).loc main_arg15) := by
  show StableHlo.after hostOps0 (B0 m ρ c) (Proc.devRef .tc main_v2) = _
  after_results; rfl
theorem E1_main_v3 (c : Dev nD) : (E1 m ρ c main_v3 : S2048x1024.Idx → EReal) = m ((c : Thread nD τ).loc main_arg17) := by
  show StableHlo.after hostOps0 (B0 m ρ c) (Proc.devRef .tc main_v3) = _
  after_results; rfl
theorem E1_main_v19 (c : Dev nD) : (E1 m ρ c main_v19 : S1024x2048.Idx → EReal) = m ((c : Thread nD τ).loc main_arg19) := by
  show StableHlo.after hostOps0 (B0 m ρ c) (Proc.devRef .tc main_v19) = _
  after_results; rfl

theorem E1_main_v20 (c : Dev nD) (u : Fin 1) (j : Fin 2048) : (E1 m ρ c main_v20 : S1x2048.Idx → EReal) (ix2 u j) = m ((c : Thread nD τ).loc main_arg12) (ix1 j) := by
  have e : (E1 m ρ c main_v20 : S1x2048.Idx → EReal) = shapeCast S1x2048 (m ((c : Thread nD τ).loc main_arg12) : S2048.Idx → EReal) shapeCasts_S2048_S1x2048 := by
    show StableHlo.after hostOps0 (B0 m ρ c) (Proc.devRef .tc main_v20) = _
    after_results; rfl
  rw [e, shapeCast_a_1a_apply]
theorem E1_main_v21 (c : Dev nD) (u : Fin 1) (j : Fin 2048) : (E1 m ρ c main_v21 : S1x2048.Idx → EReal) (ix2 u j) = m ((c : Thread nD τ).loc main_arg14) (ix1 j) := by
  have e : (E1 m ρ c main_v21 : S1x2048.Idx → EReal) = shapeCast S1x2048 (m ((c : Thread nD τ).loc main_arg14) : S2048.Idx → EReal) shapeCasts_S2048_S1x2048 := by
    show StableHlo.after hostOps0 (B0 m ρ c) (Proc.devRef .tc main_v21) = _
    after_results; rfl
  rw [e, shapeCast_a_1a_apply]
theorem E1_main_v22 (c : Dev nD) (u : Fin 1) (j : Fin 2048) : (E1 m ρ c main_v22 : S1x2048.Idx → EReal) (ix2 u j) = m ((c : Thread nD τ).loc main_arg16) (ix1 j) := by
  have e : (E1 m ρ c main_v22 : S1x2048.Idx → EReal) = shapeCast S1x2048 (m ((c : Thread nD τ).loc main_arg16) : S2048.Idx → EReal) shapeCasts_S2048_S1x2048 := by
    show StableHlo.after hostOps0 (B0 m ρ c) (Proc.devRef .tc main_v22) = _
    after_results; rfl
  rw [e, shapeCast_a_1a_apply]
theorem E1_main_v23 (c : Dev nD) (u : Fin 1) (j : Fin 2048) : (E1 m ρ c main_v23 : S1x2048.Idx → EReal) (ix2 u j) = m ((c : Thread nD τ).loc main_arg18) (ix1 j) := by
  have e : (E1 m ρ c main_v23 : S1x2048.Idx → EReal) = shapeCast S1x2048 (m ((c : Thread nD τ).loc main_arg18) : S2048.Idx → EReal) shapeCasts_S2048_S1x2048 := by
    show StableHlo.after hostOps0 (B0 m ρ c) (Proc.devRef .tc main_v23) = _
    after_results; rfl
  rw [e, shapeCast_a_1a_apply]
theorem E1_main_v24 (c : Dev nD) (u : Fin 1) (j : Fin 1024) : (E1 m ρ c main_v24 : S1x1024.Idx → EReal) (ix2 u j) = m ((c : Thread nD τ).loc main_arg20) (ix1 j) := by
  have e : (E1 m ρ c main_v24 : S1x1024.Idx → EReal) = shapeCast S1x1024 (m ((c : Thread nD τ).loc main_arg20) : S1024.Idx → EReal) shapeCasts_S1024_S1x1024 := by
    show StableHlo.after hostOps0 (B0 m ρ c) (Proc.devRef .tc main_v24) = _
    after_results; rfl
  rw [e, shapeCast_a_1a_apply]

theorem bcast_mat_apply {α : Type} {A B : ℕ} (x : (⟨2, ![A, B]⟩ : Shape).Idx → α)
    (h : (⟨2, ![A, B]⟩ : Shape).BroadcastsInDim ⟨3, ![1, A, B]⟩ (![1, 2] : Fin 2 → Fin 3)) (u : Fin 1) (j : Fin A) (k : Fin B) :
    broadcastInDim ⟨3, ![1, A, B]⟩ ![1, 2] h x (ix3 u j k) = x (ix2 j k) := by
  refine broadcastInDim_apply _ h x _ (ix2 j k) (fun a => ?_)
  match a with
  | ⟨0, _⟩ =>
    show j.val = if A = 1 then 0 else j.val
    split
    · have := j.isLt; omega
    · rfl
  | ⟨1, _⟩ =>
    show k.val = if B = 1 then 0 else k.val
    split
    · have := k.isLt; omega
    · rfl

/-- The stacked recurrent weights at `(g, j, k)`: gate `g`'s weight at `(j, k)`. -/
theorem E1_main_v12 (c : Dev nD) (g : Fin 4) (j k : Fin 2048) :
    (E1 m ρ c main_v12 : S4x2048x2048.Idx → EReal) (ix3 g j k)
      = pick4 g (m ((c : Thread nD τ).loc main_arg3)) (m ((c : Thread nD τ).loc main_arg5)) (m ((c : Thread nD τ).loc main_arg7)) (m ((c : Thread nD τ).loc main_arg9)) (ix2 j k) := by
  have e : (E1 m ρ c main_v12 : S4x2048x2048.Idx → EReal) = concatenate S4x2048x2048 0
      [⟨S1x2048x2048, broadcastInDim S1x2048x2048 ![1, 2] bcast_S2048x2048_S1x2048x2048_1_2 (m ((c : Thread nD τ).loc main_arg3) : S2048x2048.Idx → EReal)⟩,
       ⟨S1x2048x2048, broadcastInDim S1x2048x2048 ![1, 2] bcast_S2048x2048_S1x2048x2048_1_2 (m ((c : Thread nD τ).loc main_arg5) : S2048x2048.Idx → EReal)⟩,
       ⟨S1x2048x2048, broadcastInDim S1x2048x2048 ![1, 2] bcast_S2048x2048_S1x2048x2048_1_2 (m ((c : Thread nD τ).loc main_arg7) : S2048x2048.Idx → EReal)⟩,
       ⟨S1x2048x2048, broadcastInDim S1x2048x2048 ![1, 2] bcast_S2048x2048_S1x2048x2048_1_2 (m ((c : Thread nD τ).loc main_arg9) : S2048x2048.Idx → EReal)⟩]
      concatenates_S1x2048x2048_S1x2048x2048_S1x2048x2048_S1x2048x2048_S4x2048x2048_d0 := by
    show StableHlo.after hostOps0 (B0 m ρ c) (Proc.devRef .tc main_v12) = _
    after_results; rfl
  rw [e]
  refine (concat4_rank3 _ _ _ _ _ g j k).trans ?_
  match g with
  | ⟨0, _⟩ => exact bcast_mat_apply _ bcast_S2048x2048_S1x2048x2048_1_2 0 j k
  | ⟨1, _⟩ => exact bcast_mat_apply _ bcast_S2048x2048_S1x2048x2048_1_2 0 j k
  | ⟨2, _⟩ => exact bcast_mat_apply _ bcast_S2048x2048_S1x2048x2048_1_2 0 j k
  | ⟨3, _⟩ => exact bcast_mat_apply _ bcast_S2048x2048_S1x2048x2048_1_2 0 j k

/-- The stacked recurrent biases at `(g, 0, j)`: gate `g`'s bias at `j`. -/
theorem E1_main_v18 (c : Dev nD) (g : Fin 4) (u : Fin 1) (j : Fin 2048) :
    (E1 m ρ c main_v18 : S4x1x2048.Idx → EReal) (ix3 g u j)
      = pick4 g (m ((c : Thread nD τ).loc main_arg4)) (m ((c : Thread nD τ).loc main_arg6)) (m ((c : Thread nD τ).loc main_arg8)) (m ((c : Thread nD τ).loc main_arg10)) (ix1 j) := by
  have e : (E1 m ρ c main_v18 : S4x1x2048.Idx → EReal) = shapeCast S4x1x2048 (concatenate S4x2048 0
      [⟨S1x2048, broadcastInDim S1x2048 ![1] bcast_S2048_S1x2048_1 (m ((c : Thread nD τ).loc main_arg4) : S2048.Idx → EReal)⟩,
       ⟨S1x2048, broadcastInDim S1x2048 ![1] bcast_S2048_S1x2048_1 (m ((c : Thread nD τ).loc main_arg6) : S2048.Idx → EReal)⟩,
       ⟨S1x2048, broadcastInDim S1x2048 ![1] bcast_S2048_S1x2048_1 (m ((c : Thread nD τ).loc main_arg8) : S2048.Idx → EReal)⟩,
       ⟨S1x2048, broadcastInDim S1x2048 ![1] bcast_S2048_S1x2048_1 (m ((c : Thread nD τ).loc main_arg10) : S2048.Idx → EReal)⟩]
      concatenates_S1x2048_S1x2048_S1x2048_S1x2048_S4x2048_d0) shapeCasts_S4x2048_S4x1x2048 := by
    show StableHlo.after hostOps0 (B0 m ρ c) (Proc.devRef .tc main_v18) = _
    after_results; rfl
  have hu : u.val = 0 := by omega
  rw [e, shapeCast_apply _ _ (ix3 g u j) (ix2 g j) (by
    rw [Shape.rowMajor_val_two, Shape.rowMajor_val_three]
    show g.val * 2048 + j.val = (g.val * 1 + u.val) * 2048 + j.val
    rw [hu]; ring)]
  refine (concat4_rank2 _ _ _ _ _ g j).trans ?_
  match g with
  | ⟨0, _⟩ => exact HostForms.bcast_row_apply _ bcast_S2048_S1x2048_1 0 j
  | ⟨1, _⟩ => exact HostForms.bcast_row_apply _ bcast_S2048_S1x2048_1 0 j
  | ⟨2, _⟩ => exact HostForms.bcast_row_apply _ bcast_S2048_S1x2048_1 0 j
  | ⟨3, _⟩ => exact HostForms.bcast_row_apply _ bcast_S2048_S1x2048_1 0 j

end Cert.KernelIdeal.Hand

end
-- ==== Proof.LibMatT.lean ====
/-
  A block product that contracts the SECOND axis of both operands (x · wᵀ without a transpose), into a zero accumulator, read
  at an index at the exact values: entry (p, f) is the sum over k of X (p, k) · W (f, k). For arrays of any sizes.
-/
import Idealize.ShloMosaic.Lib.ValueIdx
import Idealize.ShloMosaic.Lib.Pipeline.Value
import Idealize.ShloMosaic.PureOps.Ideal.Laws

noncomputable section

open scoped BigOperators

namespace MatT

open Idealize.ShloMosaic Idealize.ShloMosaic.ValueIdx

variable {N K B : Nat}

/-- The dimension numbers of `[N, K] × [B, K] → [N, B]`: axis 1 of each operand contracted, no batch axes. -/
abbrev dimsT (N K B : Nat)
    (wf : DotDims.WF ⟨2, ![N, K]⟩ ⟨2, ![B, K]⟩ ⟨2, ![N, B]⟩ [1] [1] [0] [0] [] []) :
    DotDims ⟨2, ![N, K]⟩ ⟨2, ![B, K]⟩ ⟨2, ![N, B]⟩ where
  lhsContracting := [1]
  rhsContracting := [1]
  lhsNonContracting := [0]
  rhsNonContracting := [0]
  lhsBatch := []
  rhsBatch := []
  wf := wf

section Literal
variable (wf : DotDims.WF ⟨2, ![N, K]⟩ ⟨2, ![B, K]⟩ ⟨2, ![N, B]⟩ [1] [1] [0] [0] [] [])

/-- The left operand's row coordinate is the output's row. -/
theorem lhs_row (i : (⟨2, ![N, B]⟩ : Shape).Idx) (q : (dimsT N K B wf).contr.Idx) :
    ((dimsT N K B wf).lhsIdx i q 0).val = (i 0).val := by
  unfold DotDims.lhsIdx
  rw [dif_neg (show (0 : Fin 2) ∉ (dimsT N K B wf).lhsBatch from List.not_mem_nil),
    dif_pos (show (0 : Fin 2) ∈ (dimsT N K B wf).lhsNonContracting from List.mem_singleton.mpr rfl)]
  rfl

/-- The right operand's row coordinate is the output's column. -/
theorem rhs_row (i : (⟨2, ![N, B]⟩ : Shape).Idx) (q : (dimsT N K B wf).contr.Idx) :
    ((dimsT N K B wf).rhsIdx i q 0).val = (i 1).val := by
  unfold DotDims.rhsIdx
  rw [dif_neg (show (0 : Fin 2) ∉ (dimsT N K B wf).rhsBatch from List.not_mem_nil),
    dif_pos (show (0 : Fin 2) ∈ (dimsT N K B wf).rhsNonContracting from List.mem_singleton.mpr rfl)]
  rfl

theorem matmul_dimsT_apply {φ₁ φ₂ : FTy} (prec : Option ContractPrecision) (X : FVec Ideal ⟨2, ![N, K]⟩ φ₁)
    (W : FVec Ideal ⟨2, ![B, K]⟩ φ₂) (p : Fin N) (f : Fin B) :
    FloatOps.matmul (dimsT N K B wf) prec X W (constant ⟨2, ![N, B]⟩ .f32 0x00000000#32) (ix2 p f)
      = ∑ k : Fin K, X (ix2 p k) * W (ix2 f k) := by
  rw [Ideal.matmul_constant_zero_apply, ← Equiv.sum_comp (contrEquiv1 (dimsT N K B wf) K rfl rfl).symm]
  refine Finset.sum_congr rfl fun k _ => ?_
  have hk := contrEquiv1_symm_val (dimsT N K B wf) K rfl rfl k
  have el : (dimsT N K B wf).lhsIdx (ix2 p f) ((contrEquiv1 (dimsT N K B wf) K rfl rfl).symm k) = ix2 p k :=
    funext fun a => Fin.ext (by
      match a with
      | ⟨0, _⟩ => exact lhs_row wf _ _
      | ⟨1, _⟩ => exact (DotDims.lhsIdx_val_of_single (dimsT N K B wf) rfl _ _).trans hk)
  have er : (dimsT N K B wf).rhsIdx (ix2 p f) ((contrEquiv1 (dimsT N K B wf) K rfl rfl).symm k) = ix2 f k :=
    funext fun a => Fin.ext (by
      match a with
      | ⟨0, _⟩ => exact rhs_row wf _ _
      | ⟨1, _⟩ => exact (DotDims.rhsIdx_val_of_single (dimsT N K B wf) rfl _ _).trans hk)
  rw [el, er]

end Literal

/-- The same for ANY dimension numbers with these fields (a record given by its fields: the six hypotheses hold by `rfl`). -/
theorem matmulT_apply {φ₁ φ₂ : FTy} (d : DotDims ⟨2, ![N, K]⟩ ⟨2, ![B, K]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (X : FVec Ideal ⟨2, ![N, K]⟩ φ₁) (W : FVec Ideal ⟨2, ![B, K]⟩ φ₂) (p : Fin N) (f : Fin B) :
    FloatOps.matmul d prec X W (constant ⟨2, ![N, B]⟩ .f32 0x00000000#32) (ix2 p f) = ∑ k : Fin K, X (ix2 p k) * W (ix2 f k) := by
  obtain ⟨lc, rc, ln, rn, lb, rb, wf⟩ := d
  simp only at h1 h2 h3 h4 h5 h6
  subst h1 h2 h3 h4 h5 h6
  exact matmul_dimsT_apply wf prec X W p f

end MatT

end
-- ==== Proof.KI.Value0.lean ====
import proofs.«112321_j35768487641178_2_alg».proof.Proof.KI.Region0
import proofs.«112321_j35768487641178_2_alg».proof.Proof.LibRowNorm
import proofs.«112321_j35768487641178_2_alg».proof.Proof.LibMatT
import proofs.«112321_j35768487641178_2_alg».proof.Proof.Spec
import proofs.«112321_j35768487641178_2_alg».proof.Proof.LibStack4
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen RowNorm

/-! # The first kernel's block, read at an index -/

theorem hz2 : (![0, 0] : Fin 2 → ℕ) = fun _ => 0 := funext fun a => by fin_cases a <;> rfl

open Stack4 (pick4)

/-- The layer norm of row `R` of x · Wᵀ + b, the bias a row of shape [1, 2048]. -/
def lnxG {n : ℕ} (x : (⟨2, ![n, 1024]⟩ : Shape).Idx → EReal) (W : (⟨2, ![2048, 1024]⟩ : Shape).Idx → EReal)
    (bias a s : (⟨2, ![1, 2048]⟩ : Shape).Idx → EReal) (R : Fin n) (q : Fin 2048) : EReal :=
  norm Spec.c2048 Spec.c2047 Spec.ceps (fun j => (∑ k : Fin 1024, x (ix2 R k) * W (ix2 j k)) + bias (ix2 (0 : Fin 1) j))
    (fun j => a (ix2 (0 : Fin 1) j)) (fun j => s (ix2 (0 : Fin 1) j)) q

/-- The block product plus the bias row. -/
def zlin (x0 : Vec Ideal S256x1024 .f32) (xw : Vec Ideal S2048x1024 .bf16) (xb : Vec Ideal S1x2048 .f32) : FVec Ideal S256x2048 .f32 :=
  addf (FloatOps.matmul dot_S256x1024_S2048x1024_S256x2048_1_1_0_0_n_n none (truncf .bf16 x0 bitsLt_bf16_f32 : FVec Ideal S256x1024 .bf16)
      (shapeCast S2048x1024 xw shapeCasts_S2048x1024_S2048x1024 : FVec Ideal S2048x1024 .bf16) (constant S256x2048 .f32 0x00000000#32))
    (broadcastTo S256x2048 (shapeCast S1x2048 xb shapeCasts_S1x2048_S1x2048 : FVec Ideal S1x2048 .f32) broadcasts_S1x2048_S256x2048)

theorem zlin_apply (x0 : Vec Ideal S256x1024 .f32) (xw : Vec Ideal S2048x1024 .bf16) (xb : Vec Ideal S1x2048 .f32) (p : Fin 256) (j : Fin 2048) :
    zlin x0 xw xb (ix2 p j) = (∑ k : Fin 1024, x0 (ix2 p k) * xw (ix2 j k)) + xb (ix2 (0 : Fin 1) j) := by
  have ew : (shapeCast S2048x1024 xw shapeCasts_S2048x1024_S2048x1024 : Vec Ideal S2048x1024 .bf16) = xw := shapeCast_self xw _
  have eb : (shapeCast S1x2048 xb shapeCasts_S1x2048_S1x2048 : Vec Ideal S1x2048 .f32) = xb := shapeCast_self xb _
  unfold zlin
  rw [ew, eb, addf_apply, MatT.matmulT_apply _ rfl rfl rfl rfl rfl rfl, broadcastTo_1b_ab_apply]
  simp only [truncf_apply]

/-- One gate's slab of the output block. -/
def slabV (x0 : Vec Ideal S256x1024 .f32) (xw : Vec Ideal S2048x1024 .bf16) (xb xa xs : Vec Ideal S1x2048 .f32) : FVec Ideal S1x256x2048 .f32 :=
  shapeCast S1x256x2048 (chainV 0x45000000#32 0x44FFE000#32 0x3727C5AC#32 (zlin x0 xw xb) xa xs
    reduces_S256x2048_S256 (.inl rfl) rfl shapeCasts_S256_S256x1 broadcasts_S256x1_S256x2048 broadcasts_S1x2048_S256x2048) shapeCasts_S256x2048_S1x256x2048

theorem slabV_apply (x0 : Vec Ideal S256x1024 .f32) (xw : Vec Ideal S2048x1024 .bf16) (xb xa xs : Vec Ideal S1x2048 .f32)
    (u : Fin 1) (p : Fin 256) (q : Fin 2048) : slabV x0 xw xb xa xs (ix3 u p q) = lnxG x0 xw xb xa xs p q := by
  unfold slabV
  rw [shapeCast_ab_1ab_apply]
  refine (chainV_apply _ _ _ _ _ _ _ _ _ _ _ _ p q).trans ?_
  unfold lnxG
  simp only [zlin_apply]

theorem piece0_eq (v0 : Vec Ideal S256x1024 .f32) (v2 : Vec Ideal S2048x1024 .bf16) (v5 v9 v10 : Vec Ideal S1x2048 .f32) :
    k0_pay3 v0 v2 v5 v9 v10 = slabV v0 v2 v5 v9 v10 := rfl
theorem piece1_eq (v0 : Vec Ideal S256x1024 .f32) (v34 : Vec Ideal S2048x1024 .bf16) (v37 v41 v42 : Vec Ideal S1x2048 .f32) :
    k0_pay5 (k0_pay2 v0) (k0_pay4 v34) (constant S256x2048 .f32 0x00000000#32) v37 v41 v42 = slabV v0 v34 v37 v41 v42 := rfl
theorem piece2_eq (v0 : Vec Ideal S256x1024 .f32) (v66 : Vec Ideal S2048x1024 .bf16) (v69 v73 v74 : Vec Ideal S1x2048 .f32) :
    k0_pay7 (k0_pay6 (k0_pay2 v0) v66 v69) v73 v74 = slabV v0 v66 v69 v73 v74 := rfl
theorem piece3_eq (v0 : Vec Ideal S256x1024 .f32) (v98 : Vec Ideal S2048x1024 .bf16) (v101 v105 v106 : Vec Ideal S1x2048 .f32) :
    k0_pay1 (k0_pay8 (k0_pay2 v0) v98 v101) v105 v106 (k0_pay9 (k0_pay2 v0) v98 v101) = slabV v0 v98 v101 v105 v106 := rfl

/-- The whole output block as one function of its index. -/
def Gb0 (x0 : Vec Ideal S256x1024 .f32) (x1 x2 x3 x4 : Vec Ideal S2048x1024 .bf16) (x5 x6 x7 x8 x9 x10 : Vec Ideal S1x2048 .f32) : S4x256x2048.Idx → EReal :=
  fun y => lnxG x0 (pick4 (y 0) x1 x2 x3 x4) (pick4 (y 0) x5 x6 x7 x8) x9 x10 (y 1) (y 2)

theorem emb_slab (g : Fin 4) (inb : ∀ ax, (![g.val, 0, 0] : Fin 3 → ℕ) ax + S1x256x2048.size ax ≤ S4x256x2048.size ax)
    (u : Fin 1) (p : Fin 256) (q : Fin 2048) :
    (Rect.unit (s := S4x256x2048) ![g.val, 0, 0] S1x256x2048.size inb).emb (ix3 u p q) = ix3 g p q := by
  have hu : u.val = 0 := by omega
  funext ax; apply Fin.ext
  match ax with
  | ⟨0, _⟩ => show g.val + 1 * u.val = g.val; omega
  | ⟨1, _⟩ => show 0 + 1 * p.val = p.val; omega
  | ⟨2, _⟩ => show 0 + 1 * q.val = q.val; omega

theorem out0_apply (x0 : Vec Ideal S256x1024 .f32) (x1 x2 x3 x4 : Vec Ideal S2048x1024 .bf16) (x5 x6 x7 x8 x9 x10 : Vec Ideal S1x2048 .f32)
    (y : S4x256x2048.Idx) : out0_11 x0 x1 x2 x3 x4 x5 x6 x7 x8 x9 x10 y = Gb0 x0 x1 x2 x3 x4 x5 x6 x7 x8 x9 x10 y := by
  unfold out0_11
  rw [View.ld_unit_zero (S := S256x1024) hz2, View.ld_unit_zero (S := S2048x1024) hz2, View.ld_unit_zero (S := S2048x1024) hz2,
    View.ld_unit_zero (S := S2048x1024) hz2, View.ld_unit_zero (S := S2048x1024) hz2,
    View.ld_unit_zero (S := S1x2048) hz2, View.ld_unit_zero (S := S1x2048) hz2, View.ld_unit_zero (S := S1x2048) hz2,
    View.ld_unit_zero (S := S1x2048) hz2, View.ld_unit_zero (S := S1x2048) hz2, View.ld_unit_zero (S := S1x2048) hz2]
  rw [piece0_eq, piece1_eq, piece2_eq, piece3_eq]
  refine View.canon_apply_of_pieces (Val := Elt Ideal) (e := .f32) (Gb0 x0 x1 x2 x3 x4 x5 x6 x7 x8 x9 x10) _ ?_ y (cover0_11 _ _ _ _ y)
  intro pc hpc x
  simp only [List.mem_cons, List.mem_singleton, List.not_mem_nil, or_false] at hpc
  rcases hpc with rfl | rfl | rfl | rfl
  · obtain ⟨u, p, q, rfl⟩ : ∃ (u : Fin 1) (p : Fin 256) (q : Fin 2048), x = ix3 u p q := ⟨x 0, x 1, x 2, eq_ix3 x⟩
    show slabV x0 x4 x8 x9 x10 (ix3 u p q) = Gb0 x0 x1 x2 x3 x4 x5 x6 x7 x8 x9 x10 (r0g3.emb (ix3 u p q))
    rw [slabV_apply, show r0g3.emb (ix3 u p q) = ix3 (3 : Fin 4) p q from emb_slab (3 : Fin 4) _ u p q]; rfl
  · obtain ⟨u, p, q, rfl⟩ : ∃ (u : Fin 1) (p : Fin 256) (q : Fin 2048), x = ix3 u p q := ⟨x 0, x 1, x 2, eq_ix3 x⟩
    show slabV x0 x3 x7 x9 x10 (ix3 u p q) = Gb0 x0 x1 x2 x3 x4 x5 x6 x7 x8 x9 x10 (r0g2.emb (ix3 u p q))
    rw [slabV_apply, show r0g2.emb (ix3 u p q) = ix3 (2 : Fin 4) p q from emb_slab (2 : Fin 4) _ u p q]; rfl
  · obtain ⟨u, p, q, rfl⟩ : ∃ (u : Fin 1) (p : Fin 256) (q : Fin 2048), x = ix3 u p q := ⟨x 0, x 1, x 2, eq_ix3 x⟩
    show slabV x0 x2 x6 x9 x10 (ix3 u p q) = Gb0 x0 x1 x2 x3 x4 x5 x6 x7 x8 x9 x10 (r0g1.emb (ix3 u p q))
    rw [slabV_apply, show r0g1.emb (ix3 u p q) = ix3 (1 : Fin 4) p q from emb_slab (1 : Fin 4) _ u p q]; rfl
  · obtain ⟨u, p, q, rfl⟩ : ∃ (u : Fin 1) (p : Fin 256) (q : Fin 2048), x = ix3 u p q := ⟨x 0, x 1, x 2, eq_ix3 x⟩
    show slabV x0 x1 x5 x9 x10 (ix3 u p q) = Gb0 x0 x1 x2 x3 x4 x5 x6 x7 x8 x9 x10 (r0g0.emb (ix3 u p q))
    rw [slabV_apply, show r0g0.emb (ix3 u p q) = ix3 (0 : Fin 4) p q from emb_slab (0 : Fin 4) _ u p q]; rfl

/-! # From blocks to the array -/

variable (V : (c : Dev nD) → (b : Ref sig .tc) → Buf (Elt Ideal) ((c : Thread nD τ).loc b))

/-- The printed index maps, decided over the grid: the input rows and the output's row axis move with the point; the rest stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = 0 ∧ win0_11.index t (1 : Fin 3) = t.val ∧ win0_11.index t (2 : Fin 3) = 0 :=
  (by decide +kernel : ∀ t : Fin grid0.N, _)

theorem lt0 (t : Fin cfg0.N) : t.val < 16 := by have h := t.isLt; have hN : cfg0.N = 16 := N_0; omega

/-- The array row that row `p` of point `t`'s block sits at. -/
def row0 (t : Fin cfg0.N) (p : Fin 256) : Fin 4096 := ⟨t.val * 256 + p.val, by have := lt0 t; have := p.isLt; omega⟩

theorem emb0_0 (t : Fin cfg0.N) (p : Fin 256) (q : Fin 1024) : ((cfg0.win 0).blk t).view.emb (ix2 p q) = ix2 (row0 t p) q := by
  obtain ⟨e0, e1, -⟩ := idx0 t
  funext a; apply Fin.ext
  match a with
  | ⟨0, _⟩ => show win0_0.index t (0 : Fin 2) * 256 + 1 * p.val = t.val * 256 + p.val; omega
  | ⟨1, _⟩ => show win0_0.index t (1 : Fin 2) * 1024 + 1 * q.val = q.val; omega

theorem emb0_1 (t : Fin cfg0.N) (p : Fin 2048) (q : Fin 1024) : ((cfg0.win 1).blk t).view.emb (ix2 p q) = ix2 p q := by
  have hx := idx0 t
  have e0 : win0_1.index t (0 : Fin 2) = 0 := by tauto
  have e1 : win0_1.index t (1 : Fin 2) = 0 := by tauto
  funext a; apply Fin.ext
  match a with
  | ⟨0, _⟩ => show win0_1.index t (0 : Fin 2) * 2048 + 1 * p.val = p.val; omega
  | ⟨1, _⟩ => show win0_1.index t (1 : Fin 2) * 1024 + 1 * q.val = q.val; omega

theorem emb0_2 (t : Fin cfg0.N) (p : Fin 2048) (q : Fin 1024) : ((cfg0.win 2).blk t).view.emb (ix2 p q) = ix2 p q := by
  have hx := idx0 t
  have e0 : win0_2.index t (0 : Fin 2) = 0 := by tauto
  have e1 : win0_2.index t (1 : Fin 2) = 0 := by tauto
  funext a; apply Fin.ext
  match a with
  | ⟨0, _⟩ => show win0_2.index t (0 : Fin 2) * 2048 + 1 * p.val = p.val; omega
  | ⟨1, _⟩ => show win0_2.index t (1 : Fin 2) * 1024 + 1 * q.val = q.val; omega

theorem emb0_3 (t : Fin cfg0.N) (p : Fin 2048) (q : Fin 1024) : ((cfg0.win 3).blk t).view.emb (ix2 p q) = ix2 p q := by
  have hx := idx0 t
  have e0 : win0_3.index t (0 : Fin 2) = 0 := by tauto
  have e1 : win0_3.index t (1 : Fin 2) = 0 := by tauto
  funext a; apply Fin.ext
  match a with
  | ⟨0, _⟩ => show win0_3.index t (0 : Fin 2) * 2048 + 1 * p.val = p.val; omega
  | ⟨1, _⟩ => show win0_3.index t (1 : Fin 2) * 1024 + 1 * q.val = q.val; omega

theorem emb0_4 (t : Fin cfg0.N) (p : Fin 2048) (q : Fin 1024) : ((cfg0.win 4).blk t).view.emb (ix2 p q) = ix2 p q := by
  have hx := idx0 t
  have e0 : win0_4.index t (0 : Fin 2) = 0 := by tauto
  have e1 : win0_4.index t (1 : Fin 2) = 0 := by tauto
  funext a; apply Fin.ext
  match a with
  | ⟨0, _⟩ => show win0_4.index t (0 : Fin 2) * 2048 + 1 * p.val = p.val; omega
  | ⟨1, _⟩ => show win0_4.index t (1 : Fin 2) * 1024 + 1 * q.val = q.val; omega

theorem emb0_5 (t : Fin cfg0.N) (p : Fin 1) (q : Fin 2048) : ((cfg0.win 5).blk t).view.emb (ix2 p q) = ix2 p q := by
  have hx := idx0 t
  have e0 : win0_5.index t (0 : Fin 2) = 0 := by tauto
  have e1 : win0_5.index t (1 : Fin 2) = 0 := by tauto
  funext a; apply Fin.ext
  match a with
  | ⟨0, _⟩ => show win0_5.index t (0 : Fin 2) * 1 + 1 * p.val = p.val; omega
  | ⟨1, _⟩ => show win0_5.index t (1 : Fin 2) * 2048 + 1 * q.val = q.val; omega

theorem emb0_6 (t : Fin cfg0.N) (p : Fin 1) (q : Fin 2048) : ((cfg0.win 6).blk t).view.emb (ix2 p q) = ix2 p q := by
  have hx := idx0 t
  have e0 : win0_6.index t (0 : Fin 2) = 0 := by tauto
  have e1 : win0_6.index t (1 : Fin 2) = 0 := by tauto
  funext a; apply Fin.ext
  match a with
  | ⟨0, _⟩ => show win0_6.index t (0 : Fin 2) * 1 + 1 * p.val = p.val; omega
  | ⟨1, _⟩ => show win0_6.index t (1 : Fin 2) * 2048 + 1 * q.val = q.val; omega

theorem emb0_7 (t : Fin cfg0.N) (p : Fin 1) (q : Fin 2048) : ((cfg0.win 7).blk t).view.emb (ix2 p q) = ix2 p q := by
  have hx := idx0 t
  have e0 : win0_7.index t (0 : Fin 2) = 0 := by tauto
  have e1 : win0_7.index t (1 : Fin 2) = 0 := by tauto
  funext a; apply Fin.ext
  match a with
  | ⟨0, _⟩ => show win0_7.index t (0 : Fin 2) * 1 + 1 * p.val = p.val; omega
  | ⟨1, _⟩ => show win0_7.index t (1 : Fin 2) * 2048 + 1 * q.val = q.val; omega

theorem emb0_8 (t : Fin cfg0.N) (p : Fin 1) (q : Fin 2048) : ((cfg0.win 8).blk t).view.emb (ix2 p q) = ix2 p q := by
  have hx := idx0 t
  have e0 : win0_8.index t (0 : Fin 2) = 0 := by tauto
  have e1 : win0_8.index t (1 : Fin 2) = 0 := by tauto
  funext a; apply Fin.ext
  match a with
  | ⟨0, _⟩ => show win0_8.index t (0 : Fin 2) * 1 + 1 * p.val = p.val; omega
  | ⟨1, _⟩ => show win0_8.index t (1 : Fin 2) * 2048 + 1 * q.val = q.val; omega

theorem emb0_9 (t : Fin cfg0.N) (p : Fin 1) (q : Fin 2048) : ((cfg0.win 9).blk t).view.emb (ix2 p q) = ix2 p q := by
  have hx := idx0 t
  have e0 : win0_9.index t (0 : Fin 2) = 0 := by tauto
  have e1 : win0_9.index t (1 : Fin 2) = 0 := by tauto
  funext a; apply Fin.ext
  match a with
  | ⟨0, _⟩ => show win0_9.index t (0 : Fin 2) * 1 + 1 * p.val = p.val; omega
  | ⟨1, _⟩ => show win0_9.index t (1 : Fin 2) * 2048 + 1 * q.val = q.val; omega

theorem emb0_10 (t : Fin cfg0.N) (p : Fin 1) (q : Fin 2048) : ((cfg0.win 10).blk t).view.emb (ix2 p q) = ix2 p q := by
  have hx := idx0 t
  have e0 : win0_10.index t (0 : Fin 2) = 0 := by tauto
  have e1 : win0_10.index t (1 : Fin 2) = 0 := by tauto
  funext a; apply Fin.ext
  match a with
  | ⟨0, _⟩ => show win0_10.index t (0 : Fin 2) * 1 + 1 * p.val = p.val; omega
  | ⟨1, _⟩ => show win0_10.index t (1 : Fin 2) * 2048 + 1 * q.val = q.val; omega
theorem emb0_11 (t : Fin cfg0.N) (g : Fin 4) (p : Fin 256) (q : Fin 2048) : ((cfg0.win 11).blk t).view.emb (ix3 g p q) = ix3 g (row0 t p) q := by
  have hx := idx0 t
  have e0 : win0_11.index t (0 : Fin 3) = 0 := by tauto
  have e1 : win0_11.index t (1 : Fin 3) = t.val := by tauto
  have e2 : win0_11.index t (2 : Fin 3) = 0 := by tauto
  funext a; apply Fin.ext
  match a with
  | ⟨0, _⟩ => show win0_11.index t (0 : Fin 3) * 4 + 1 * g.val = g.val; omega
  | ⟨1, _⟩ => show win0_11.index t (1 : Fin 3) * 256 + 1 * p.val = t.val * 256 + p.val; omega
  | ⟨2, _⟩ => show win0_11.index t (2 : Fin 3) * 2048 + 1 * q.val = q.val; omega

theorem iblk0_0 (c : Dev nD) (t : Fin cfg0.N) (p : Fin 256) (q : Fin 1024) : iblk0 V c 0 t (ix2 p q) = V c main_arg0 (ix2 (row0 t p) q) := by
  show V c main_arg0 (((cfg0.win 0).blk t).view.emb (ix2 p q)) = _; rw [emb0_0]
theorem iblk0_1 (c : Dev nD) (t : Fin cfg0.N) (p : Fin 2048) (q : Fin 1024) : iblk0 V c 1 t (ix2 p q) = V c main_v0 (ix2 p q) := by
  show V c main_v0 (((cfg0.win 1).blk t).view.emb (ix2 p q)) = _; rw [emb0_1]
theorem iblk0_2 (c : Dev nD) (t : Fin cfg0.N) (p : Fin 2048) (q : Fin 1024) : iblk0 V c 2 t (ix2 p q) = V c main_v1 (ix2 p q) := by
  show V c main_v1 (((cfg0.win 2).blk t).view.emb (ix2 p q)) = _; rw [emb0_2]
theorem iblk0_3 (c : Dev nD) (t : Fin cfg0.N) (p : Fin 2048) (q : Fin 1024) : iblk0 V c 3 t (ix2 p q) = V c main_v2 (ix2 p q) := by
  show V c main_v2 (((cfg0.win 3).blk t).view.emb (ix2 p q)) = _; rw [emb0_3]
theorem iblk0_4 (c : Dev nD) (t : Fin cfg0.N) (p : Fin 2048) (q : Fin 1024) : iblk0 V c 4 t (ix2 p q) = V c main_v3 (ix2 p q) := by
  show V c main_v3 (((cfg0.win 4).blk t).view.emb (ix2 p q)) = _; rw [emb0_4]
theorem iblk0_5 (c : Dev nD) (t : Fin cfg0.N) (p : Fin 1) (q : Fin 2048) : iblk0 V c 5 t (ix2 p q) = V c main_v20 (ix2 p q) := by
  show V c main_v20 (((cfg0.win 5).blk t).view.emb (ix2 p q)) = _; rw [emb0_5]
theorem iblk0_6 (c : Dev nD) (t : Fin cfg0.N) (p : Fin 1) (q : Fin 2048) : iblk0 V c 6 t (ix2 p q) = V c main_v21 (ix2 p q) := by
  show V c main_v21 (((cfg0.win 6).blk t).view.emb (ix2 p q)) = _; rw [emb0_6]
theorem iblk0_7 (c : Dev nD) (t : Fin cfg0.N) (p : Fin 1) (q : Fin 2048) : iblk0 V c 7 t (ix2 p q) = V c main_v22 (ix2 p q) := by
  show V c main_v22 (((cfg0.win 7).blk t).view.emb (ix2 p q)) = _; rw [emb0_7]
theorem iblk0_8 (c : Dev nD) (t : Fin cfg0.N) (p : Fin 1) (q : Fin 2048) : iblk0 V c 8 t (ix2 p q) = V c main_v23 (ix2 p q) := by
  show V c main_v23 (((cfg0.win 8).blk t).view.emb (ix2 p q)) = _; rw [emb0_8]
theorem iblk0_9 (c : Dev nD) (t : Fin cfg0.N) (p : Fin 1) (q : Fin 2048) : iblk0 V c 9 t (ix2 p q) = V c main_arg21 (ix2 p q) := by
  show V c main_arg21 (((cfg0.win 9).blk t).view.emb (ix2 p q)) = _; rw [emb0_9]
theorem iblk0_10 (c : Dev nD) (t : Fin cfg0.N) (p : Fin 1) (q : Fin 2048) : iblk0 V c 10 t (ix2 p q) = V c main_arg22 (ix2 p q) := by
  show V c main_arg22 (((cfg0.win 10).blk t).view.emb (ix2 p q)) = _; rw [emb0_10]

/-- The input side's layer-normed linear maps, all four gates, as one array. -/
def G0_11 (c : Dev nD) : S4x4096x2048.Idx → EReal :=
  fun i => lnxG (V c main_arg0) (pick4 (i 0) (V c main_v0) (V c main_v1) (V c main_v2) (V c main_v3))
    (pick4 (i 0) (V c main_v20) (V c main_v21) (V c main_v22) (V c main_v23)) (V c main_arg21) (V c main_arg22) (i 1) (i 2)

theorem lnxG_blk (c : Dev nD) (t : Fin cfg0.N) (g : Fin 4) (p : Fin 256) (q : Fin 2048) :
    lnxG (iblk0 V c 0 t) (pick4 g (iblk0 V c 1 t) (iblk0 V c 2 t) (iblk0 V c 3 t) (iblk0 V c 4 t))
        (pick4 g (iblk0 V c 5 t) (iblk0 V c 6 t) (iblk0 V c 7 t) (iblk0 V c 8 t)) (iblk0 V c 9 t) (iblk0 V c 10 t) p q
      = lnxG (V c main_arg0) (pick4 g (V c main_v0) (V c main_v1) (V c main_v2) (V c main_v3))
        (pick4 g (V c main_v20) (V c main_v21) (V c main_v22) (V c main_v23)) (V c main_arg21) (V c main_arg22) (row0 t p) q := by
  unfold lnxG
  match g with
  | ⟨0, _⟩ => simp only [pick4, iblk0_0, iblk0_1, iblk0_5, iblk0_9, iblk0_10]
  | ⟨1, _⟩ => simp only [pick4, iblk0_0, iblk0_2, iblk0_6, iblk0_9, iblk0_10]
  | ⟨2, _⟩ => simp only [pick4, iblk0_0, iblk0_3, iblk0_7, iblk0_9, iblk0_10]
  | ⟨3, _⟩ => simp only [pick4, iblk0_0, iblk0_4, iblk0_8, iblk0_9, iblk0_10]

theorem flushed0_11 (c : Dev nD) (t : Fin cfg0.N) :
    (dat0 V c).flushed 11 t = ((cfg0.win 11).blk t).view.read (Elt Ideal) (G0_11 V c) := by
  show (cfg0.win 11).cut (grid0.coords t) ((dat0 V c).after 11 t) = _
  rw [after0_11]
  funext j
  obtain ⟨g, p, q, rfl⟩ : ∃ (g : Fin 4) (p : Fin 256) (q : Fin 2048), j = ix3 g p q := ⟨j 0, j 1, j 2, eq_ix3 j⟩
  show out0_11 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (ix3 g p q)
    = G0_11 V c (((cfg0.win 11).blk t).view.emb (ix3 g p q))
  refine (out0_apply (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (ix3 g p q)).trans ((lnxG_blk V c t g p q).trans ?_)
  rw [emb0_11]; rfl

theorem mem_blk0_11 (t : Fin cfg0.N) (i : S4x4096x2048.Idx) :
    i ∈ ((cfg0.win 11).blk t).view.set ↔ ∀ a : Fin 3, win0_11.index t a * S4x256x2048.size a ≤ (i a).val ∧ (i a).val < win0_11.index t a * S4x256x2048.size a + S4x256x2048.size a := by
  show i ∈ ((View.whole main_v25).slice (win0_11.rect t)).set ↔ _
  rw [View.set_slice_whole, Rect.mem_set_unit]
  exact Iff.rfl
theorem cover0_11' (i : S4x4096x2048.Idx) : ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 2048 := (i 2).isLt
  have hN : cfg0.N = 16 := N_0
  let t : Fin cfg0.N := ⟨(i 1).val / 256, by rw [hN]; omega⟩
  have ht : t.val = (i 1).val / 256 := rfl
  have hx := idx0 t
  have e0 : win0_11.index t (0 : Fin 3) = 0 := by tauto
  have e1 : win0_11.index t (1 : Fin 3) = t.val := by tauto
  have e2 : win0_11.index t (2 : Fin 3) = 0 := by tauto
  refine ⟨t, flush0_11 t, (mem_blk0_11 t i).mpr fun a => ?_⟩
  match a with
  | ⟨0, _⟩ => show win0_11.index t (0 : Fin 3) * 4 ≤ (i 0).val ∧ (i 0).val < win0_11.index t (0 : Fin 3) * 4 + 4; omega
  | ⟨1, _⟩ => show win0_11.index t (1 : Fin 3) * 256 ≤ (i 1).val ∧ (i 1).val < win0_11.index t (1 : Fin 3) * 256 + 256; omega
  | ⟨2, _⟩ => show win0_11.index t (2 : Fin 3) * 2048 ≤ (i 2).val ∧ (i 2).val < win0_11.index t (2 : Fin 3) * 2048 + 2048; omega
/-- The array after the run. -/
theorem final0_11 (c : Dev nD) : (dat0 V c).arrAt 11 cfg0.N = G0_11 V c :=
  (dat0 V c).arrAt_eq_of_cover 11 (G0_11 V c) (fun t _ => flushed0_11 V c t) cover0_11'

end Cert.KernelIdeal.Hand

end
-- ==== Proof.KI.Value1.lean ====
import proofs.«112321_j35768487641178_2_alg».proof.Proof.KI.Region1
import proofs.«112321_j35768487641178_2_alg».proof.Proof.LibRowNorm
import proofs.«112321_j35768487641178_2_alg».proof.Proof.LibMatT
import proofs.«112321_j35768487641178_2_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen RowNorm

/-! # The second kernel's block, read at an index -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem tanhV_apply {s : Shape} (v : FVec Ideal s .f32) (i : s.Idx) : tanh v i = Ideal.tanh (v i) := rfl
theorem logisticV_apply {s : Shape} (v : FVec Ideal s .f32) (i : s.Idx) : logistic v i = Ideal.logistic (v i) := rfl
theorem select_fun {ι β : Type} (c : BitVec 1) (a b : ι → β) (i : ι) : (Scalar.select c a b) i = Scalar.select c (a i) (b i) := by
  unfold Scalar.select; split <;> rfl

/-- The layer norm of row `R` of h · Wᵀ + b, for a weight and a bias given by their entries. -/
def preH {n : ℕ} (h : (⟨2, ![n, 2048]⟩ : Shape).Idx → EReal) (W : Fin 2048 → Fin 2048 → EReal) (bias : Fin 2048 → EReal)
    (ah bh : (⟨2, ![1, 2048]⟩ : Shape).Idx → EReal) (R : Fin n) (q : Fin 2048) : EReal :=
  norm Spec.c2048 Spec.c2047 Spec.ceps (fun j => (∑ k : Fin 2048, h (ix2 R k) * W j k) + bias j)
    (fun j => ah (ix2 (0 : Fin 1) j)) (fun j => bh (ix2 (0 : Fin 1) j)) q

/-- The gate's activation: tanh for gate number 2, the logistic function otherwise. -/
def act (gv : ℕ) (z : EReal) : EReal :=
  Scalar.select (Scalar.cmpi .eq (BitVec.ofNat 32 gv) 2#32) (Ideal.tanh z) (Ideal.logistic z)

theorem pre1_apply (x0 : Vec Ideal S256x2048 .f32) (x1 : Vec Ideal S1x256x2048 .f32) (x2 : Vec Ideal S1x2048x2048 .bf16) (x3 : Vec Ideal S1x1x2048 .f32)
    (x4 x5 : Vec Ideal S1x2048 .f32) (p : Fin 256) (q : Fin 2048) :
    pre1 x0 x1 x2 x3 x4 x5 (ix2 p q)
      = preH x0 (fun j k => x2 (ix3 (0 : Fin 1) j k)) (fun j => x3 (ix3 (0 : Fin 1) (0 : Fin 1) j)) x4 x5 p q + x1 (ix3 (0 : Fin 1) p q) := by
  show (addf (chainV 0x45000000#32 0x44FFE000#32 0x3727C5AC#32
      (addf (FloatOps.matmul dot_S256x2048_S2048x2048_S256x2048_1_1_0_0_n_n none (truncf .bf16 (View.ld x0 rH : Vec Ideal S256x2048 .f32) bitsLt_bf16_f32)
          (shapeCast S2048x2048 (View.ld x2 rW : Vec Ideal S1x2048x2048 .bf16) shapeCasts_S1x2048x2048_S2048x2048) (constant S256x2048 .f32 0x00000000#32))
        (broadcastTo S256x2048 (shapeCast S1x2048 (View.ld x3 rB : Vec Ideal S1x1x2048 .f32) shapeCasts_S1x1x2048_S1x2048) broadcasts_S1x2048_S256x2048))
      (View.ld x4 rA : Vec Ideal S1x2048 .f32) (View.ld x5 rA : Vec Ideal S1x2048 .f32)
      reduces_S256x2048_S256 (.inl rfl) rfl shapeCasts_S256_S256x1 broadcasts_S256x1_S256x2048 broadcasts_S1x2048_S256x2048)
    (shapeCast S256x2048 (View.ld x1 rG : Vec Ideal S1x256x2048 .f32) shapeCasts_S1x256x2048_S256x2048) : FVec Ideal S256x2048 .f32) (ix2 p q) = _
  rw [View.ld_unit_zero (S := S256x2048) hz2, View.ld_unit_zero (S := S1x2048x2048) hz3, View.ld_unit_zero (S := S1x1x2048) hz3,
    View.ld_unit_zero (S := S1x2048) hz2, View.ld_unit_zero (S := S1x2048) hz2, View.ld_unit_zero (S := S1x256x2048) hz3]
  rw [addf_apply, shapeCast_1ab_ab_apply]
  refine congrArg (fun t => t + x1 (ix3 (0 : Fin 1) p q)) ((chainV_apply _ _ _ _ _ _ _ _ _ _ _ _ p q).trans ?_)
  unfold preH
  refine congrArg (fun z => norm Spec.c2048 Spec.c2047 Spec.ceps z _ _ q) (funext fun j => ?_)
  rw [addf_apply, MatT.matmulT_apply _ rfl rfl rfl rfl rfl rfl, broadcastTo_1b_ab_apply, shapeCast_1ab_ab_apply]
  simp only [truncf_apply, shapeCast_1ab_ab_apply]

theorem out1_apply (i : grid1.Coords) (x0 : Vec Ideal S256x2048 .f32) (x1 : Vec Ideal S1x256x2048 .f32) (x2 : Vec Ideal S1x2048x2048 .bf16)
    (x3 : Vec Ideal S1x1x2048 .f32) (x4 x5 : Vec Ideal S1x2048 .f32) (u : Fin 1) (p : Fin 256) (q : Fin 2048) :
    k1_pay1 (pre1 x0 x1 x2 x3 x4 x5) (Scalar.cmpi .eq (BitVec.ofNat 32 (i 1).val) 2#32)
        (k1_pay3 (View.ld x0 rH) (View.ld x2 rW) (View.ld x3 rB) (View.ld x4 rA) (View.ld x5 rA) (View.ld x1 rG)) (ix3 u p q)
      = act (i 1).val (preH x0 (fun j k => x2 (ix3 (0 : Fin 1) j k)) (fun j => x3 (ix3 (0 : Fin 1) (0 : Fin 1) j)) x4 x5 p q + x1 (ix3 (0 : Fin 1) p q)) := by
  show (shapeCast S1x256x2048 (Scalar.select (Scalar.cmpi .eq (BitVec.ofNat 32 (i 1).val) 2#32) (tanh (pre1 x0 x1 x2 x3 x4 x5)) (logistic (pre1 x0 x1 x2 x3 x4 x5)))
    shapeCasts_S256x2048_S1x256x2048 : FVec Ideal S1x256x2048 .f32) (ix3 u p q) = _
  rw [shapeCast_ab_1ab_apply, select_fun, tanhV_apply, logisticV_apply, pre1_apply]
  rfl

/-! # From blocks to the array -/

variable (V : (c : Dev nD) → (b : Ref sig .tc) → Buf (Elt Ideal) ((c : Thread nD τ).loc b))

/-- The printed index maps, decided over the grid of 16 row tiles by 4 gates (the gate is the fast coordinate). -/
theorem idx1 : ∀ t : Fin cfg1.N,
    (grid1.coords t 0).val = t.val / 4 ∧ (grid1.coords t 1).val = t.val % 4
    ∧ win1_0.index t (0 : Fin 2) = t.val / 4 ∧ win1_0.index t (1 : Fin 2) = 0
    ∧ win1_1.index t (0 : Fin 3) = t.val % 4 ∧ win1_1.index t (1 : Fin 3) = t.val / 4 ∧ win1_1.index t (2 : Fin 3) = 0
    ∧ win1_2.index t (0 : Fin 3) = t.val % 4 ∧ win1_2.index t (1 : Fin 3) = 0 ∧ win1_2.index t (2 : Fin 3) = 0
    ∧ win1_3.index t (0 : Fin 3) = t.val % 4 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val % 4 ∧ win1_6.index t (1 : Fin 3) = t.val / 4 ∧ win1_6.index t (2 : Fin 3) = 0 :=
  (by decide +kernel : ∀ t : Fin grid1.N, _)

theorem lt1 (t : Fin cfg1.N) : t.val < 64 := by have h := t.isLt; have hN : cfg1.N = 64 := N_1; omega

/-- The gate a point works on, and the array row that row `p` of its block sits at. -/
def gate1 (t : Fin cfg1.N) : Fin 4 := ⟨t.val % 4, by omega⟩
def row1 (t : Fin cfg1.N) (p : Fin 256) : Fin 4096 := ⟨t.val / 4 * 256 + p.val, by have := lt1 t; have := p.isLt; omega⟩

theorem emb1_0 (t : Fin cfg1.N) (p : Fin 256) (q : Fin 2048) : ((cfg1.win 0).blk t).view.emb (ix2 p q) = ix2 (row1 t p) q := by
  obtain ⟨-, -, e0, e1, -⟩ := idx1 t
  funext a; apply Fin.ext
  match a with
  | ⟨0, _⟩ => show win1_0.index t (0 : Fin 2) * 256 + 1 * p.val = t.val / 4 * 256 + p.val; omega
  | ⟨1, _⟩ => show win1_0.index t (1 : Fin 2) * 2048 + 1 * q.val = q.val; omega
theorem emb1_1 (t : Fin cfg1.N) (u : Fin 1) (p : Fin 256) (q : Fin 2048) : ((cfg1.win 1).blk t).view.emb (ix3 u p q) = ix3 (gate1 t) (row1 t p) q := by
  obtain ⟨-, -, -, -, e0, e1, e2, -⟩ := idx1 t
  have hu : u.val = 0 := by omega
  funext a; apply Fin.ext
  match a with
  | ⟨0, _⟩ => show win1_1.index t (0 : Fin 3) * 1 + 1 * u.val = t.val % 4; omega
  | ⟨1, _⟩ => show win1_1.index t (1 : Fin 3) * 256 + 1 * p.val = t.val / 4 * 256 + p.val; omega
  | ⟨2, _⟩ => show win1_1.index t (2 : Fin 3) * 2048 + 1 * q.val = q.val; omega
theorem emb1_2 (t : Fin cfg1.N) (u : Fin 1) (j k : Fin 2048) : ((cfg1.win 2).blk t).view.emb (ix3 u j k) = ix3 (gate1 t) j k := by
  obtain ⟨-, -, -, -, -, -, -, e0, e1, e2, -⟩ := idx1 t
  have hu : u.val = 0 := by omega
  funext a; apply Fin.ext
  match a with
  | ⟨0, _⟩ => show win1_2.index t (0 : Fin 3) * 1 + 1 * u.val = t.val % 4; omega
  | ⟨1, _⟩ => show win1_2.index t (1 : Fin 3) * 2048 + 1 * j.val = j.val; omega
  | ⟨2, _⟩ => show win1_2.index t (2 : Fin 3) * 2048 + 1 * k.val = k.val; omega
theorem emb1_3 (t : Fin cfg1.N) (u u' : Fin 1) (j : Fin 2048) : ((cfg1.win 3).blk t).view.emb (ix3 u u' j) = ix3 (gate1 t) u' j := by
  obtain ⟨-, -, -, -, -, -, -, -, -, -, e0, e1, e2, -⟩ := idx1 t
  have hu : u.val = 0 := by omega
  funext a; apply Fin.ext
  match a with
  | ⟨0, _⟩ => show win1_3.index t (0 : Fin 3) * 1 + 1 * u.val = t.val % 4; omega
  | ⟨1, _⟩ => show win1_3.index t (1 : Fin 3) * 1 + 1 * u'.val = u'.val; omega
  | ⟨2, _⟩ => show win1_3.index t (2 : Fin 3) * 2048 + 1 * j.val = j.val; omega
theorem emb1_4 (t : Fin cfg1.N) (u : Fin 1) (j : Fin 2048) : ((cfg1.win 4).blk t).view.emb (ix2 u j) = ix2 u j := by
  obtain ⟨-, -, -, -, -, -, -, -, -, -, -, -, -, e0, e1, -⟩ := idx1 t
  funext a; apply Fin.ext
  match a with
  | ⟨0, _⟩ => show win1_4.index t (0 : Fin 2) * 1 + 1 * u.val = u.val; omega
  | ⟨1, _⟩ => show win1_4.index t (1 : Fin 2) * 2048 + 1 * j.val = j.val; omega
theorem emb1_5 (t : Fin cfg1.N) (u : Fin 1) (j : Fin 2048) : ((cfg1.win 5).blk t).view.emb (ix2 u j) = ix2 u j := by
  obtain ⟨-, -, -, -, -, -, -, -, -, -, -, -, -, -, -, e0, e1, -⟩ := idx1 t
  funext a; apply Fin.ext
  match a with
  | ⟨0, _⟩ => show win1_5.index t (0 : Fin 2) * 1 + 1 * u.val = u.val; omega
  | ⟨1, _⟩ => show win1_5.index t (1 : Fin 2) * 2048 + 1 * j.val = j.val; omega
theorem emb1_6 (t : Fin cfg1.N) (u : Fin 1) (p : Fin 256) (q : Fin 2048) : ((cfg1.win 6).blk t).view.emb (ix3 u p q) = ix3 (gate1 t) (row1 t p) q := by
  obtain ⟨-, -, -, -, -, -, -, -, -, -, -, -, -, -, -, -, -, e0, e1, e2⟩ := idx1 t
  have hu : u.val = 0 := by omega
  funext a; apply Fin.ext
  match a with
  | ⟨0, _⟩ => show win1_6.index t (0 : Fin 3) * 1 + 1 * u.val = t.val % 4; omega
  | ⟨1, _⟩ => show win1_6.index t (1 : Fin 3) * 256 + 1 * p.val = t.val / 4 * 256 + p.val; omega
  | ⟨2, _⟩ => show win1_6.index t (2 : Fin 3) * 2048 + 1 * q.val = q.val; omega

theorem iblk1_0 (c : Dev nD) (t : Fin cfg1.N) (p : Fin 256) (q : Fin 2048) : iblk1 V c 0 t (ix2 p q) = V c main_arg1 (ix2 (row1 t p) q) := by
  show V c main_arg1 (((cfg1.win 0).blk t).view.emb (ix2 p q)) = _; rw [emb1_0]
theorem iblk1_1 (c : Dev nD) (t : Fin cfg1.N) (u : Fin 1) (p : Fin 256) (q : Fin 2048) : iblk1 V c 1 t (ix3 u p q) = V c main_v25 (ix3 (gate1 t) (row1 t p) q) := by
  show V c main_v25 (((cfg1.win 1).blk t).view.emb (ix3 u p q)) = _; rw [emb1_1]
theorem iblk1_2 (c : Dev nD) (t : Fin cfg1.N) (u : Fin 1) (j k : Fin 2048) : iblk1 V c 2 t (ix3 u j k) = V c main_v12 (ix3 (gate1 t) j k) := by
  show V c main_v12 (((cfg1.win 2).blk t).view.emb (ix3 u j k)) = _; rw [emb1_2]
theorem iblk1_3 (c : Dev nD) (t : Fin cfg1.N) (u u' : Fin 1) (j : Fin 2048) : iblk1 V c 3 t (ix3 u u' j) = V c main_v18 (ix3 (gate1 t) u' j) := by
  show V c main_v18 (((cfg1.win 3).blk t).view.emb (ix3 u u' j)) = _; rw [emb1_3]
theorem iblk1_4 (c : Dev nD) (t : Fin cfg1.N) (u : Fin 1) (j : Fin 2048) : iblk1 V c 4 t (ix2 u j) = V c main_arg23 (ix2 u j) := by
  show V c main_arg23 (((cfg1.win 4).blk t).view.emb (ix2 u j)) = _; rw [emb1_4]
theorem iblk1_5 (c : Dev nD) (t : Fin cfg1.N) (u : Fin 1) (j : Fin 2048) : iblk1 V c 5 t (ix2 u j) = V c main_arg24 (ix2 u j) := by
  show V c main_arg24 (((cfg1.win 5).blk t).view.emb (ix2 u j)) = _; rw [emb1_5]

/-- A gate at `(g, R, q)`: the activation of the recurrent side's layer norm plus the input side's. -/
def gateG {n : ℕ} (h : (⟨2, ![n, 2048]⟩ : Shape).Idx → EReal) (l : (⟨3, ![4, n, 2048]⟩ : Shape).Idx → EReal)
    (W : (⟨3, ![4, 2048, 2048]⟩ : Shape).Idx → EReal) (bs : (⟨3, ![4, 1, 2048]⟩ : Shape).Idx → EReal)
    (ah bh : (⟨2, ![1, 2048]⟩ : Shape).Idx → EReal) (g : Fin 4) (R : Fin n) (q : Fin 2048) : EReal :=
  act g.val (preH h (fun j k => W (ix3 g j k)) (fun j => bs (ix3 g (0 : Fin 1) j)) ah bh R q + l (ix3 g R q))

def G1_6 (c : Dev nD) : S4x4096x2048.Idx → EReal :=
  fun i => gateG (V c main_arg1) (V c main_v25) (V c main_v12) (V c main_v18) (V c main_arg23) (V c main_arg24) (i 0) (i 1) (i 2)

theorem gate_blk (c : Dev nD) (t : Fin cfg1.N) (p : Fin 256) (q : Fin 2048) :
    act (grid1.coords t 1).val (preH (iblk1 V c 0 t) (fun j k => iblk1 V c 2 t (ix3 (0 : Fin 1) j k)) (fun j => iblk1 V c 3 t (ix3 (0 : Fin 1) (0 : Fin 1) j))
        (iblk1 V c 4 t) (iblk1 V c 5 t) p q + iblk1 V c 1 t (ix3 (0 : Fin 1) p q))
      = gateG (V c main_arg1) (V c main_v25) (V c main_v12) (V c main_v18) (V c main_arg23) (V c main_arg24) (gate1 t) (row1 t p) q := by
  have hg : (grid1.coords t 1).val = (gate1 t).val := (idx1 t).2.1
  unfold gateG preH
  rw [hg, iblk1_1]
  simp only [iblk1_0, iblk1_2, iblk1_3, iblk1_4, iblk1_5]

theorem flushed1_6 (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]; unfold out1_6
  rw [View.canon_unit_zero hz3]
  funext j
  obtain ⟨u, p, q, rfl⟩ : ∃ (u : Fin 1) (p : Fin 256) (q : Fin 2048), j = ix3 u p q := ⟨j 0, j 1, j 2, eq_ix3 j⟩
  show k1_pay1 (pre1 (iblk1 V c 0 t) (iblk1 V c 1 t) (iblk1 V c 2 t) (iblk1 V c 3 t) (iblk1 V c 4 t) (iblk1 V c 5 t))
      (Scalar.cmpi .eq (BitVec.ofNat 32 (grid1.coords t 1).val) 2#32)
      (k1_pay3 (View.ld (iblk1 V c 0 t) rH) (View.ld (iblk1 V c 2 t) rW) (View.ld (iblk1 V c 3 t) rB) (View.ld (iblk1 V c 4 t) rA) (View.ld (iblk1 V c 5 t) rA) (View.ld (iblk1 V c 1 t) rG)) (ix3 u p q)
    = G1_6 V c (((cfg1.win 6).blk t).view.emb (ix3 u p q))
  refine (out1_apply (grid1.coords t) (iblk1 V c 0 t) (iblk1 V c 1 t) (iblk1 V c 2 t) (iblk1 V c 3 t) (iblk1 V c 4 t) (iblk1 V c 5 t) u p q).trans
    ((gate_blk V c t p q).trans ?_)
  rw [emb1_6]; rfl

theorem mem_blk1_6 (t : Fin cfg1.N) (i : S4x4096x2048.Idx) :
    i ∈ ((cfg1.win 6).blk t).view.set ↔ ∀ a : Fin 3, win1_6.index t a * S1x256x2048.size a ≤ (i a).val ∧ (i a).val < win1_6.index t a * S1x256x2048.size a + S1x256x2048.size a := by
  show i ∈ ((View.whole main_v26).slice (win1_6.rect t)).set ↔ _
  rw [View.set_slice_whole, Rect.mem_set_unit]
  exact Iff.rfl
theorem cover1_6' (i : S4x4096x2048.Idx) : ∃ t : Fin cfg1.N, (cfg1.win 6).flush t = true ∧ i ∈ ((cfg1.win 6).blk t).view.set := by
  have hi0 : (i 0).val < 4 := (i 0).isLt
  have hi1 : (i 1).val < 4096 := (i 1).isLt
  have hi2 : (i 2).val < 2048 := (i 2).isLt
  have hN : cfg1.N = 64 := N_1
  let t : Fin cfg1.N := ⟨(i 1).val / 256 * 4 + (i 0).val, by rw [hN]; omega⟩
  have ht : t.val = (i 1).val / 256 * 4 + (i 0).val := rfl
  obtain ⟨-, -, -, -, -, -, -, -, -, -, -, -, -, -, -, -, -, e0, e1, e2⟩ := idx1 t
  refine ⟨t, flush1_6 t, (mem_blk1_6 t i).mpr fun a => ?_⟩
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 2048 ≤ (i 2).val ∧ (i 2).val < win1_6.index t (2 : Fin 3) * 2048 + 2048; omega
/-- The gates array after the run. -/
theorem final1_6 (c : Dev nD) : (dat1 V c).arrAt 6 cfg1.N = G1_6 V c :=
  (dat1 V c).arrAt_eq_of_cover 6 (G1_6 V c) (fun t _ => flushed1_6 V c t) cover1_6'

end Cert.KernelIdeal.Hand

end
-- ==== Proof.KI.Value2.lean ====
import proofs.«112321_j35768487641178_2_alg».proof.Proof.KI.Region2
import proofs.«112321_j35768487641178_2_alg».proof.Proof.LibRowNorm
import proofs.«112321_j35768487641178_2_alg».proof.Proof.LibMatT
import proofs.«112321_j35768487641178_2_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen RowNorm

/-! # The third kernel's blocks, read at an index -/

/-- A load of slab `g` of a stack `[K, a, b]`, read at `(0, p, q)`, is the stack at `(g, p, q)`. -/
theorem ld_slab {Val : EltTy → Type} {e : EltTy} {K a b : ℕ} (X : (⟨3, ![K, a, b]⟩ : Shape).Idx → Val e) (g : Fin K)
    (inb : ∀ ax, (![g.val, 0, 0] : Fin 3 → ℕ) ax + (⟨3, ![1, a, b]⟩ : Shape).size ax ≤ (⟨3, ![K, a, b]⟩ : Shape).size ax)
    (u : Fin 1) (p : Fin a) (q : Fin b) :
    View.ld X (Rect.unit (s := ⟨3, ![K, a, b]⟩) ![g.val, 0, 0] (⟨3, ![1, a, b]⟩ : Shape).size inb) (ix3 u p q) = X (ix3 g p q) := by
  refine congrArg X (funext fun ax => Fin.ext ?_)
  have hu : u.val = 0 := by omega
  match ax with
  | ⟨0, _⟩ => show g.val + 1 * u.val = g.val; omega
  | ⟨1, _⟩ => show 0 + 1 * p.val = p.val; omega
  | ⟨2, _⟩ => show 0 + 1 * q.val = q.val; omega

theorem hz2 : (![0, 0] : Fin 2 → ℕ) = fun _ => 0 := funext fun a => by fin_cases a <;> rfl

theorem ld2g0 (x0 : Vec Ideal S4x128x2048 .f32) (p : Fin 128) (q : Fin 2048) : (View.ld x0 r2g0 : Vec Ideal S1x128x2048 .f32) (ix3 (0 : Fin 1) p q) = x0 (ix3 (0 : Fin 4) p q) :=
  ld_slab x0 (0 : Fin 4) _ 0 p q
theorem ld2g1 (x0 : Vec Ideal S4x128x2048 .f32) (p : Fin 128) (q : Fin 2048) : (View.ld x0 r2g1 : Vec Ideal S1x128x2048 .f32) (ix3 (0 : Fin 1) p q) = x0 (ix3 (1 : Fin 4) p q) :=
  ld_slab x0 (1 : Fin 4) _ 0 p q
theorem ld2g2 (x0 : Vec Ideal S4x128x2048 .f32) (p : Fin 128) (q : Fin 2048) : (View.ld x0 r2g2 : Vec Ideal S1x128x2048 .f32) (ix3 (0 : Fin 1) p q) = x0 (ix3 (2 : Fin 4) p q) :=
  ld_slab x0 (2 : Fin 4) _ 0 p q
theorem ld2g3 (x0 : Vec Ideal S4x128x2048 .f32) (p : Fin 128) (q : Fin 2048) : (View.ld x0 r2g3 : Vec Ideal S1x128x2048 .f32) (ix3 (0 : Fin 1) p q) = x0 (ix3 (3 : Fin 4) p q) :=
  ld_slab x0 (3 : Fin 4) _ 0 p q

/-- The new cell state of a block: forget gate times old cell plus input gate times candidate. -/
def cxG {n : ℕ} (x0 : (⟨3, ![4, n, 2048]⟩ : Shape).Idx → EReal) (x1 : (⟨2, ![n, 2048]⟩ : Shape).Idx → EReal) (p : Fin n) (q : Fin 2048) : EReal :=
  x0 (ix3 (0 : Fin 4) p q) * x1 (ix2 p q) + x0 (ix3 (1 : Fin 4) p q) * x0 (ix3 (2 : Fin 4) p q)

theorem pay4_apply (x0 : Vec Ideal S4x128x2048 .f32) (x1 : Vec Ideal S128x2048 .f32) (p : Fin 128) (q : Fin 2048) :
    k2_pay4 (View.ld x0 r2g0) (View.ld x0 r2g1) (View.ld x0 r2g2) (View.ld x1 r2C) (ix2 p q) = cxG x0 x1 p q := by
  show (addf (mulf (shapeCast S128x2048 (View.ld x0 r2g0 : Vec Ideal S1x128x2048 .f32) shapeCasts_S1x128x2048_S128x2048) (View.ld x1 r2C : Vec Ideal S128x2048 .f32))
    (mulf (shapeCast S128x2048 (View.ld x0 r2g1 : Vec Ideal S1x128x2048 .f32) shapeCasts_S1x128x2048_S128x2048)
      (shapeCast S128x2048 (View.ld x0 r2g2 : Vec Ideal S1x128x2048 .f32) shapeCasts_S1x128x2048_S128x2048)) : FVec Ideal S128x2048 .f32) (ix2 p q) = _
  rw [addf_apply, mulf_apply, mulf_apply, shapeCast_1ab_ab_apply, shapeCast_1ab_ab_apply, shapeCast_1ab_ab_apply]
  rw [ld2g0, ld2g1, ld2g2, View.ld_unit_zero (S := S128x2048) hz2]
  rfl

theorem tanhV_apply {s : Shape} (v : FVec Ideal s .f32) (i : s.Idx) : tanh v i = Ideal.tanh (v i) := rfl

/-- The new hidden state of a block: output gate times tanh of the layer-normed new cell state. -/
def hxG {n : ℕ} (x0 : (⟨3, ![4, n, 2048]⟩ : Shape).Idx → EReal) (x1 : (⟨2, ![n, 2048]⟩ : Shape).Idx → EReal) (x2 x3 : (⟨2, ![1, 2048]⟩ : Shape).Idx → EReal) (p : Fin n) (q : Fin 2048) : EReal :=
  x0 (ix3 (3 : Fin 4) p q) * Ideal.tanh (norm Spec.c2048 Spec.c2047 Spec.ceps (fun k => cxG x0 x1 p k)
    (fun k => x2 (ix2 (0 : Fin 1) k)) (fun k => x3 (ix2 (0 : Fin 1) k)) q)

theorem pay1_apply (x0 : Vec Ideal S4x128x2048 .f32) (x1 : Vec Ideal S128x2048 .f32) (x2 x3 : Vec Ideal S1x2048 .f32) (p : Fin 128) (q : Fin 2048) :
    k2_pay1 (k2_pay3 (View.ld x0 r2g3)) (View.ld x3 r2A)
      (k2_pay5 (View.ld x0 r2g0) (View.ld x0 r2g1) (View.ld x0 r2g2) (View.ld x1 r2C) (View.ld x2 r2A)) (ix2 p q) = hxG x0 x1 x2 x3 p q := by
  show (mulf (shapeCast S128x2048 (View.ld x0 r2g3 : Vec Ideal S1x128x2048 .f32) shapeCasts_S1x128x2048_S128x2048)
    (tanh (chainV 0x45000000#32 0x44FFE000#32 0x3727C5AC#32
      (k2_pay4 (View.ld x0 r2g0) (View.ld x0 r2g1) (View.ld x0 r2g2) (View.ld x1 r2C)) (View.ld x2 r2A : Vec Ideal S1x2048 .f32) (View.ld x3 r2A : Vec Ideal S1x2048 .f32)
      reduces_S128x2048_S128 (.inl rfl) rfl shapeCasts_S128_S128x1 broadcasts_S128x1_S128x2048 broadcasts_S1x2048_S128x2048)) : FVec Ideal S128x2048 .f32) (ix2 p q) = _
  rw [mulf_apply, shapeCast_1ab_ab_apply, ld2g3, tanhV_apply]
  refine congrArg (fun t => x0 (ix3 (3 : Fin 4) p q) * Ideal.tanh t) ((chainV_apply _ _ _ _ _ _ _ _ _ _ _ _ p q).trans ?_)
  rw [View.ld_unit_zero (S := S1x2048) hz2, View.ld_unit_zero (S := S1x2048) hz2]
  simp only [pay4_apply]

/-- The decoder's block: the hidden state against the rows of the decoder weight, plus the bias. -/
def outG {n : ℕ} (x0 : (⟨3, ![4, n, 2048]⟩ : Shape).Idx → EReal) (x1 : (⟨2, ![n, 2048]⟩ : Shape).Idx → EReal) (x2 x3 : (⟨2, ![1, 2048]⟩ : Shape).Idx → EReal)
    (x4 : (⟨2, ![1024, 2048]⟩ : Shape).Idx → EReal) (x5 : (⟨2, ![1, 1024]⟩ : Shape).Idx → EReal) (p : Fin n) (o : Fin 1024) : EReal :=
  (∑ j : Fin 2048, hxG x0 x1 x2 x3 p j * x4 (ix2 o j)) + x5 (ix2 (0 : Fin 1) o)

theorem pay2_apply (x0 : Vec Ideal S4x128x2048 .f32) (x1 : Vec Ideal S128x2048 .f32) (x2 x3 : Vec Ideal S1x2048 .f32) (x4 : Vec Ideal S1024x2048 .bf16)
    (x5 : Vec Ideal S1x1024 .f32) (p : Fin 128) (o : Fin 1024) :
    k2_pay2 (k2_pay3 (View.ld x0 r2g3)) (View.ld x3 r2A)
      (k2_pay5 (View.ld x0 r2g0) (View.ld x0 r2g1) (View.ld x0 r2g2) (View.ld x1 r2C) (View.ld x2 r2A)) (View.ld x4 r2W) (View.ld x5 r2B) (ix2 p o)
      = outG x0 x1 x2 x3 x4 x5 p o := by
  show (addf (FloatOps.matmul dot_S128x2048_S1024x2048_S128x1024_1_1_0_0_n_n none
      (truncf .bf16 (k2_pay1 (k2_pay3 (View.ld x0 r2g3)) (View.ld x3 r2A)
        (k2_pay5 (View.ld x0 r2g0) (View.ld x0 r2g1) (View.ld x0 r2g2) (View.ld x1 r2C) (View.ld x2 r2A))) bitsLt_bf16_f32)
      (shapeCast S1024x2048 (View.ld x4 r2W : Vec Ideal S1024x2048 .bf16) shapeCasts_S1024x2048_S1024x2048) (constant S128x1024 .f32 0x00000000#32))
    (broadcastTo S128x1024 (shapeCast S1x1024 (View.ld x5 r2B : Vec Ideal S1x1024 .f32) shapeCasts_S1x1024_S1x1024) broadcasts_S1x1024_S128x1024) : FVec Ideal S128x1024 .f32) (ix2 p o) = _
  rw [addf_apply, MatT.matmulT_apply _ rfl rfl rfl rfl rfl rfl, broadcastTo_1b_ab_apply]
  rw [View.ld_unit_zero (S := S1024x2048) hz2, View.ld_unit_zero (S := S1x1024) hz2]
  have e4 : (shapeCast S1024x2048 x4 shapeCasts_S1024x2048_S1024x2048 : Vec Ideal S1024x2048 .bf16) = x4 := shapeCast_self x4 _
  have e5 : (shapeCast S1x1024 x5 shapeCasts_S1x1024_S1x1024 : Vec Ideal S1x1024 .f32) = x5 := shapeCast_self x5 _
  rw [e4, e5]
  simp only [truncf_apply, pay1_apply]
  rfl

/-! # From blocks to arrays -/

variable (V : (c : Dev nD) → (b : Ref sig .tc) → Buf (Elt Ideal) ((c : Thread nD τ).loc b))

/-- The printed index maps, decided over the grid: the blocked windows move with the point along the rows; the rest stay. -/
theorem idx2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem lt2 (t : Fin cfg2.N) : t.val < 32 := by have h := t.isLt; have hN : cfg2.N = 32 := N_2; omega

/-- The array row that row `p` of point `t`'s block sits at. -/
def row2 (t : Fin cfg2.N) (p : Fin 128) : Fin 4096 := ⟨t.val * 128 + p.val, by have := lt2 t; have := p.isLt; omega⟩

theorem emb2_0 (t : Fin cfg2.N) (g : Fin 4) (p : Fin 128) (q : Fin 2048) :
    ((cfg2.win 0).blk t).view.emb (ix3 g p q) = ix3 g (row2 t p) q := by
  obtain ⟨e0, e1, e2, -⟩ := idx2 t
  funext a; apply Fin.ext
  match a with
  | ⟨0, _⟩ => show win2_0.index t (0 : Fin 3) * 4 + 1 * g.val = g.val; omega
  | ⟨1, _⟩ => show win2_0.index t (1 : Fin 3) * 128 + 1 * p.val = t.val * 128 + p.val; omega
  | ⟨2, _⟩ => show win2_0.index t (2 : Fin 3) * 2048 + 1 * q.val = q.val; omega

theorem emb2_1 (t : Fin cfg2.N) (p : Fin 128) (q : Fin 2048) :
    ((cfg2.win 1).blk t).view.emb (ix2 p q) = ix2 (row2 t p) q := by
  have hx := idx2 t
  have e0 : win2_1.index t (0 : Fin 2) = t.val := by tauto
  have e1 : win2_1.index t (1 : Fin 2) = 0 := by tauto
  funext a; apply Fin.ext
  match a with
  | ⟨0, _⟩ => show win2_1.index t (0 : Fin 2) * 128 + 1 * p.val = t.val * 128 + p.val; omega
  | ⟨1, _⟩ => show win2_1.index t (1 : Fin 2) * 2048 + 1 * q.val = q.val; omega

theorem emb2_6 (t : Fin cfg2.N) (p : Fin 128) (q : Fin 1024) :
    ((cfg2.win 6).blk t).view.emb (ix2 p q) = ix2 (row2 t p) q := by
  have hx := idx2 t
  have e0 : win2_6.index t (0 : Fin 2) = t.val := by tauto
  have e1 : win2_6.index t (1 : Fin 2) = 0 := by tauto
  funext a; apply Fin.ext
  match a with
  | ⟨0, _⟩ => show win2_6.index t (0 : Fin 2) * 128 + 1 * p.val = t.val * 128 + p.val; omega
  | ⟨1, _⟩ => show win2_6.index t (1 : Fin 2) * 1024 + 1 * q.val = q.val; omega

theorem emb2_7 (t : Fin cfg2.N) (p : Fin 128) (q : Fin 2048) :
    ((cfg2.win 7).blk t).view.emb (ix2 p q) = ix2 (row2 t p) q := by
  have hx := idx2 t
  have e0 : win2_7.index t (0 : Fin 2) = t.val := by tauto
  have e1 : win2_7.index t (1 : Fin 2) = 0 := by tauto
  funext a; apply Fin.ext
  match a with
  | ⟨0, _⟩ => show win2_7.index t (0 : Fin 2) * 128 + 1 * p.val = t.val * 128 + p.val; omega
  | ⟨1, _⟩ => show win2_7.index t (1 : Fin 2) * 2048 + 1 * q.val = q.val; omega

theorem emb2_8 (t : Fin cfg2.N) (p : Fin 128) (q : Fin 2048) :
    ((cfg2.win 8).blk t).view.emb (ix2 p q) = ix2 (row2 t p) q := by
  have hx := idx2 t
  have e0 : win2_8.index t (0 : Fin 2) = t.val := by tauto
  have e1 : win2_8.index t (1 : Fin 2) = 0 := by tauto
  funext a; apply Fin.ext
  match a with
  | ⟨0, _⟩ => show win2_8.index t (0 : Fin 2) * 128 + 1 * p.val = t.val * 128 + p.val; omega
  | ⟨1, _⟩ => show win2_8.index t (1 : Fin 2) * 2048 + 1 * q.val = q.val; omega

theorem emb2_2 (t : Fin cfg2.N) (p : Fin 1) (q : Fin 2048) :
    ((cfg2.win 2).blk t).view.emb (ix2 p q) = ix2 p q := by
  have hx := idx2 t
  have e0 : win2_2.index t (0 : Fin 2) = 0 := by tauto
  have e1 : win2_2.index t (1 : Fin 2) = 0 := by tauto
  funext a; apply Fin.ext
  match a with
  | ⟨0, _⟩ => show win2_2.index t (0 : Fin 2) * 1 + 1 * p.val = p.val; omega
  | ⟨1, _⟩ => show win2_2.index t (1 : Fin 2) * 2048 + 1 * q.val = q.val; omega

theorem emb2_3 (t : Fin cfg2.N) (p : Fin 1) (q : Fin 2048) :
    ((cfg2.win 3).blk t).view.emb (ix2 p q) = ix2 p q := by
  have hx := idx2 t
  have e0 : win2_3.index t (0 : Fin 2) = 0 := by tauto
  have e1 : win2_3.index t (1 : Fin 2) = 0 := by tauto
  funext a; apply Fin.ext
  match a with
  | ⟨0, _⟩ => show win2_3.index t (0 : Fin 2) * 1 + 1 * p.val = p.val; omega
  | ⟨1, _⟩ => show win2_3.index t (1 : Fin 2) * 2048 + 1 * q.val = q.val; omega

theorem emb2_4 (t : Fin cfg2.N) (p : Fin 1024) (q : Fin 2048) :
    ((cfg2.win 4).blk t).view.emb (ix2 p q) = ix2 p q := by
  have hx := idx2 t
  have e0 : win2_4.index t (0 : Fin 2) = 0 := by tauto
  have e1 : win2_4.index t (1 : Fin 2) = 0 := by tauto
  funext a; apply Fin.ext
  match a with
  | ⟨0, _⟩ => show win2_4.index t (0 : Fin 2) * 1024 + 1 * p.val = p.val; omega
  | ⟨1, _⟩ => show win2_4.index t (1 : Fin 2) * 2048 + 1 * q.val = q.val; omega

theorem emb2_5 (t : Fin cfg2.N) (p : Fin 1) (q : Fin 1024) :
    ((cfg2.win 5).blk t).view.emb (ix2 p q) = ix2 p q := by
  have hx := idx2 t
  have e0 : win2_5.index t (0 : Fin 2) = 0 := by tauto
  have e1 : win2_5.index t (1 : Fin 2) = 0 := by tauto
  funext a; apply Fin.ext
  match a with
  | ⟨0, _⟩ => show win2_5.index t (0 : Fin 2) * 1 + 1 * p.val = p.val; omega
  | ⟨1, _⟩ => show win2_5.index t (1 : Fin 2) * 1024 + 1 * q.val = q.val; omega

theorem iblk2_0 (c : Dev nD) (t : Fin cfg2.N) (g : Fin 4) (p : Fin 128) (q : Fin 2048) :
    iblk2 V c 0 t (ix3 g p q) = V c main_v26 (ix3 g (row2 t p) q) := by
  show V c main_v26 (((cfg2.win 0).blk t).view.emb (ix3 g p q)) = _
  rw [emb2_0]
theorem iblk2_1 (c : Dev nD) (t : Fin cfg2.N) (p : Fin 128) (q : Fin 2048) :
    iblk2 V c 1 t (ix2 p q) = V c main_arg2 (ix2 (row2 t p) q) := by
  show V c main_arg2 (((cfg2.win 1).blk t).view.emb (ix2 p q)) = _
  rw [emb2_1]
theorem iblk2_2 (c : Dev nD) (t : Fin cfg2.N) (p : Fin 1) (q : Fin 2048) : iblk2 V c 2 t (ix2 p q) = V c main_arg25 (ix2 p q) := by
  show V c main_arg25 (((cfg2.win 2).blk t).view.emb (ix2 p q)) = _
  rw [emb2_2]
theorem iblk2_3 (c : Dev nD) (t : Fin cfg2.N) (p : Fin 1) (q : Fin 2048) : iblk2 V c 3 t (ix2 p q) = V c main_arg26 (ix2 p q) := by
  show V c main_arg26 (((cfg2.win 3).blk t).view.emb (ix2 p q)) = _
  rw [emb2_3]
theorem iblk2_4 (c : Dev nD) (t : Fin cfg2.N) (p : Fin 1024) (q : Fin 2048) : iblk2 V c 4 t (ix2 p q) = V c main_v19 (ix2 p q) := by
  show V c main_v19 (((cfg2.win 4).blk t).view.emb (ix2 p q)) = _
  rw [emb2_4]
theorem iblk2_5 (c : Dev nD) (t : Fin cfg2.N) (p : Fin 1) (q : Fin 1024) : iblk2 V c 5 t (ix2 p q) = V c main_v24 (ix2 p q) := by
  show V c main_v24 (((cfg2.win 5).blk t).view.emb (ix2 p q)) = _
  rw [emb2_5]

/-- The three result arrays as functions of the arrays the region finds. -/
def G2_8 (c : Dev nD) : S4096x2048.Idx → EReal := fun i => cxG (V c main_v26) (V c main_arg2) (i 0) (i 1)
def G2_7 (c : Dev nD) : S4096x2048.Idx → EReal := fun i => hxG (V c main_v26) (V c main_arg2) (V c main_arg25) (V c main_arg26) (i 0) (i 1)
def G2_6 (c : Dev nD) : S4096x1024.Idx → EReal :=
  fun i => outG (V c main_v26) (V c main_arg2) (V c main_arg25) (V c main_arg26) (V c main_v19) (V c main_v24) (i 0) (i 1)

theorem cxG_blk (c : Dev nD) (t : Fin cfg2.N) (p : Fin 128) (q : Fin 2048) :
    cxG (iblk2 V c 0 t) (iblk2 V c 1 t) p q = cxG (V c main_v26) (V c main_arg2) (row2 t p) q := by
  unfold cxG; rw [iblk2_0, iblk2_0, iblk2_0, iblk2_1]
theorem hxG_blk (c : Dev nD) (t : Fin cfg2.N) (p : Fin 128) (q : Fin 2048) :
    hxG (iblk2 V c 0 t) (iblk2 V c 1 t) (iblk2 V c 2 t) (iblk2 V c 3 t) p q
      = hxG (V c main_v26) (V c main_arg2) (V c main_arg25) (V c main_arg26) (row2 t p) q := by
  unfold hxG; rw [iblk2_0]; simp only [cxG_blk, iblk2_2, iblk2_3]
theorem outG_blk (c : Dev nD) (t : Fin cfg2.N) (p : Fin 128) (o : Fin 1024) :
    outG (iblk2 V c 0 t) (iblk2 V c 1 t) (iblk2 V c 2 t) (iblk2 V c 3 t) (iblk2 V c 4 t) (iblk2 V c 5 t) p o
      = outG (V c main_v26) (V c main_arg2) (V c main_arg25) (V c main_arg26) (V c main_v19) (V c main_v24) (row2 t p) o := by
  unfold outG; simp only [hxG_blk, iblk2_4, iblk2_5]

theorem flushed2_8 (c : Dev nD) (t : Fin cfg2.N) :
    (dat2 V c).flushed 8 t = ((cfg2.win 8).blk t).view.read (Elt Ideal) (G2_8 V c) := by
  show (cfg2.win 8).cut (grid2.coords t) ((dat2 V c).after 8 t) = _
  rw [after2_8]; unfold out2_8
  rw [View.canon_unit_zero hz2]
  funext j
  obtain ⟨p, q, rfl⟩ : ∃ (p : Fin 128) (q : Fin 2048), j = ix2 p q := ⟨j 0, j 1, eq_ix2 j⟩
  show k2_pay4 (View.ld (iblk2 V c 0 t) r2g0) (View.ld (iblk2 V c 0 t) r2g1) (View.ld (iblk2 V c 0 t) r2g2) (View.ld (iblk2 V c 1 t) r2C) (ix2 p q)
    = G2_8 V c (((cfg2.win 8).blk t).view.emb (ix2 p q))
  refine (pay4_apply (iblk2 V c 0 t) (iblk2 V c 1 t) p q).trans ((cxG_blk V c t p q).trans ?_)
  rw [emb2_8]; rfl
theorem flushed2_7 (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]; unfold out2_7
  rw [View.canon_unit_zero hz2]
  funext j
  obtain ⟨p, q, rfl⟩ : ∃ (p : Fin 128) (q : Fin 2048), j = ix2 p q := ⟨j 0, j 1, eq_ix2 j⟩
  show k2_pay1 (k2_pay3 (View.ld (iblk2 V c 0 t) r2g3)) (View.ld (iblk2 V c 3 t) r2A)
      (k2_pay5 (View.ld (iblk2 V c 0 t) r2g0) (View.ld (iblk2 V c 0 t) r2g1) (View.ld (iblk2 V c 0 t) r2g2) (View.ld (iblk2 V c 1 t) r2C) (View.ld (iblk2 V c 2 t) r2A)) (ix2 p q)
    = G2_7 V c (((cfg2.win 7).blk t).view.emb (ix2 p q))
  refine (pay1_apply (iblk2 V c 0 t) (iblk2 V c 1 t) (iblk2 V c 2 t) (iblk2 V c 3 t) p q).trans ((hxG_blk V c t p q).trans ?_)
  rw [emb2_7]; rfl
theorem flushed2_6 (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]; unfold out2_6
  rw [View.canon_unit_zero hz2]
  funext j
  obtain ⟨p, q, rfl⟩ : ∃ (p : Fin 128) (q : Fin 1024), j = ix2 p q := ⟨j 0, j 1, eq_ix2 j⟩
  show k2_pay2 (k2_pay3 (View.ld (iblk2 V c 0 t) r2g3)) (View.ld (iblk2 V c 3 t) r2A)
      (k2_pay5 (View.ld (iblk2 V c 0 t) r2g0) (View.ld (iblk2 V c 0 t) r2g1) (View.ld (iblk2 V c 0 t) r2g2) (View.ld (iblk2 V c 1 t) r2C) (View.ld (iblk2 V c 2 t) r2A))
      (View.ld (iblk2 V c 4 t) r2W) (View.ld (iblk2 V c 5 t) r2B) (ix2 p q)
    = G2_6 V c (((cfg2.win 6).blk t).view.emb (ix2 p q))
  refine (pay2_apply (iblk2 V c 0 t) (iblk2 V c 1 t) (iblk2 V c 2 t) (iblk2 V c 3 t) (iblk2 V c 4 t) (iblk2 V c 5 t) p q).trans ((outG_blk V c t p q).trans ?_)
  rw [emb2_6]; rfl

theorem mem_blk2_6 (t : Fin cfg2.N) (i : S4096x1024.Idx) :
    i ∈ ((cfg2.win 6).blk t).view.set ↔ ∀ a : Fin 2, win2_6.index t a * S128x1024.size a ≤ (i a).val ∧ (i a).val < win2_6.index t a * S128x1024.size a + S128x1024.size a := by
  show i ∈ ((View.whole main_v27_0).slice (win2_6.rect t)).set ↔ _
  rw [View.set_slice_whole, Rect.mem_set_unit]
  exact Iff.rfl
theorem cover2_6 (i : S4096x1024.Idx) : ∃ t : Fin cfg2.N, (cfg2.win 6).flush t = true ∧ i ∈ ((cfg2.win 6).blk t).view.set := by
  have hi0 : (i 0).val < 4096 := (i 0).isLt
  have hi1 : (i 1).val < 1024 := (i 1).isLt
  have hN : cfg2.N = 32 := N_2
  let t : Fin cfg2.N := ⟨(i 0).val / 128, by rw [hN]; omega⟩
  have ht : t.val = (i 0).val / 128 := rfl
  have hx := idx2 t
  have e0 : win2_6.index t (0 : Fin 2) = t.val := by tauto
  have e1 : win2_6.index t (1 : Fin 2) = 0 := by tauto
  refine ⟨t, flush2_6 t, (mem_blk2_6 t i).mpr fun a => ?_⟩
  match a with
  | ⟨0, _⟩ => show win2_6.index t (0 : Fin 2) * 128 ≤ (i 0).val ∧ (i 0).val < win2_6.index t (0 : Fin 2) * 128 + 128; omega
  | ⟨1, _⟩ => show win2_6.index t (1 : Fin 2) * 1024 ≤ (i 1).val ∧ (i 1).val < win2_6.index t (1 : Fin 2) * 1024 + 1024; omega
/-- The array after the run. -/
theorem final2_6 (c : Dev nD) : (dat2 V c).arrAt 6 cfg2.N = G2_6 V c :=
  (dat2 V c).arrAt_eq_of_cover 6 (G2_6 V c) (fun t _ => flushed2_6 V c t) cover2_6

theorem mem_blk2_7 (t : Fin cfg2.N) (i : S4096x2048.Idx) :
    i ∈ ((cfg2.win 7).blk t).view.set ↔ ∀ a : Fin 2, win2_7.index t a * S128x2048.size a ≤ (i a).val ∧ (i a).val < win2_7.index t a * S128x2048.size a + S128x2048.size a := by
  show i ∈ ((View.whole main_v27_1).slice (win2_7.rect t)).set ↔ _
  rw [View.set_slice_whole, Rect.mem_set_unit]
  exact Iff.rfl
theorem cover2_7 (i : S4096x2048.Idx) : ∃ t : Fin cfg2.N, (cfg2.win 7).flush t = true ∧ i ∈ ((cfg2.win 7).blk t).view.set := by
  have hi0 : (i 0).val < 4096 := (i 0).isLt
  have hi1 : (i 1).val < 2048 := (i 1).isLt
  have hN : cfg2.N = 32 := N_2
  let t : Fin cfg2.N := ⟨(i 0).val / 128, by rw [hN]; omega⟩
  have ht : t.val = (i 0).val / 128 := rfl
  have hx := idx2 t
  have e0 : win2_7.index t (0 : Fin 2) = t.val := by tauto
  have e1 : win2_7.index t (1 : Fin 2) = 0 := by tauto
  refine ⟨t, flush2_7 t, (mem_blk2_7 t i).mpr fun a => ?_⟩
  match a with
  | ⟨0, _⟩ => show win2_7.index t (0 : Fin 2) * 128 ≤ (i 0).val ∧ (i 0).val < win2_7.index t (0 : Fin 2) * 128 + 128; omega
  | ⟨1, _⟩ => show win2_7.index t (1 : Fin 2) * 2048 ≤ (i 1).val ∧ (i 1).val < win2_7.index t (1 : Fin 2) * 2048 + 2048; omega
/-- The array after the run. -/
theorem final2_7 (c : Dev nD) : (dat2 V c).arrAt 7 cfg2.N = G2_7 V c :=
  (dat2 V c).arrAt_eq_of_cover 7 (G2_7 V c) (fun t _ => flushed2_7 V c t) cover2_7

theorem mem_blk2_8 (t : Fin cfg2.N) (i : S4096x2048.Idx) :
    i ∈ ((cfg2.win 8).blk t).view.set ↔ ∀ a : Fin 2, win2_8.index t a * S128x2048.size a ≤ (i a).val ∧ (i a).val < win2_8.index t a * S128x2048.size a + S128x2048.size a := by
  show i ∈ ((View.whole main_v27_2).slice (win2_8.rect t)).set ↔ _
  rw [View.set_slice_whole, Rect.mem_set_unit]
  exact Iff.rfl
theorem cover2_8 (i : S4096x2048.Idx) : ∃ t : Fin cfg2.N, (cfg2.win 8).flush t = true ∧ i ∈ ((cfg2.win 8).blk t).view.set := by
  have hi0 : (i 0).val < 4096 := (i 0).isLt
  have hi1 : (i 1).val < 2048 := (i 1).isLt
  have hN : cfg2.N = 32 := N_2
  let t : Fin cfg2.N := ⟨(i 0).val / 128, by rw [hN]; omega⟩
  have ht : t.val = (i 0).val / 128 := rfl
  have hx := idx2 t
  have e0 : win2_8.index t (0 : Fin 2) = t.val := by tauto
  have e1 : win2_8.index t (1 : Fin 2) = 0 := by tauto
  refine ⟨t, flush2_8 t, (mem_blk2_8 t i).mpr fun a => ?_⟩
  match a with
  | ⟨0, _⟩ => show win2_8.index t (0 : Fin 2) * 128 ≤ (i 0).val ∧ (i 0).val < win2_8.index t (0 : Fin 2) * 128 + 128; omega
  | ⟨1, _⟩ => show win2_8.index t (1 : Fin 2) * 2048 ≤ (i 1).val ∧ (i 1).val < win2_8.index t (1 : Fin 2) * 2048 + 2048; omega
/-- The array after the run. -/
theorem final2_8 (c : Dev nD) : (dat2 V c).arrAt 8 cfg2.N = G2_8 V c :=
  (dat2 V c).arrAt_eq_of_cover 8 (G2_8 V c) (fun t _ => flushed2_8 V c t) cover2_8

end Cert.KernelIdeal.Hand

end
-- ==== Proof.KI.Value.lean ====
import proofs.«112321_j35768487641178_2_alg».proof.Proof.KI.Run
import proofs.«112321_j35768487641178_2_alg».proof.Proof.KI.HostReads
import proofs.«112321_j35768487641178_2_alg».proof.Proof.KI.Value0
import proofs.«112321_j35768487641178_2_alg».proof.Proof.KI.Value1
import proofs.«112321_j35768487641178_2_alg».proof.Proof.KI.Value2
import proofs.«112321_j35768487641178_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen RowNorm Stack4

variable (m : (ℓ : Loc nD τ sig) → Buf (Elt Ideal) ℓ) (ρ : Dev nD → PrngReg)

/-! # The three kernels composed: the results as the cell's functions of the launch arrays -/

/-- The cell's parameters as core `c` holds them at launch. -/
def paramsOf (c : Dev nD) : Spec.Params where
  Wfh := (m ((c : Thread nD τ).loc main_arg3))
  bfh := (m ((c : Thread nD τ).loc main_arg4))
  Wih := (m ((c : Thread nD τ).loc main_arg5))
  bih := (m ((c : Thread nD τ).loc main_arg6))
  Wch := (m ((c : Thread nD τ).loc main_arg7))
  bch := (m ((c : Thread nD τ).loc main_arg8))
  Woh := (m ((c : Thread nD τ).loc main_arg9))
  boh := (m ((c : Thread nD τ).loc main_arg10))
  Wfx := (m ((c : Thread nD τ).loc main_arg11))
  bfx := (m ((c : Thread nD τ).loc main_arg12))
  Wix := (m ((c : Thread nD τ).loc main_arg13))
  bix := (m ((c : Thread nD τ).loc main_arg14))
  Wcx := (m ((c : Thread nD τ).loc main_arg15))
  bcx := (m ((c : Thread nD τ).loc main_arg16))
  Wox := (m ((c : Thread nD τ).loc main_arg17))
  box := (m ((c : Thread nD τ).loc main_arg18))
  Wdec := (m ((c : Thread nD τ).loc main_arg19))
  bdec := (m ((c : Thread nD τ).loc main_arg20))
  ax := (m ((c : Thread nD τ).loc main_arg21))
  bx := (m ((c : Thread nD τ).loc main_arg22))
  ah := (m ((c : Thread nD τ).loc main_arg23))
  bh := (m ((c : Thread nD τ).loc main_arg24))
  ac := (m ((c : Thread nD τ).loc main_arg25))
  bc := (m ((c : Thread nD τ).loc main_arg26))

theorem pick4_0 {α : Type} (a b c d : α) : pick4 (0 : Fin 4) a b c d = a := rfl
theorem pick4_1 {α : Type} (a b c d : α) : pick4 (1 : Fin 4) a b c d = b := rfl
theorem pick4_2 {α : Type} (a b c d : α) : pick4 (2 : Fin 4) a b c d = c := rfl
theorem pick4_3 {α : Type} (a b c d : α) : pick4 (3 : Fin 4) a b c d = d := rfl

/-! ## What each region finds -/

theorem E1_main_arg0 (c : Dev nD) : E1 m ρ c main_arg0 = (m ((c : Thread nD τ).loc main_arg0)) := ((StableHlo.after_of_writes_sub hostOps0 _ hostOps0_writes (by decide)).trans rfl)
theorem E1_main_arg21 (c : Dev nD) : E1 m ρ c main_arg21 = (m ((c : Thread nD τ).loc main_arg21)) := ((StableHlo.after_of_writes_sub hostOps0 _ hostOps0_writes (by decide)).trans rfl)
theorem E1_main_arg22 (c : Dev nD) : E1 m ρ c main_arg22 = (m ((c : Thread nD τ).loc main_arg22)) := ((StableHlo.after_of_writes_sub hostOps0 _ hostOps0_writes (by decide)).trans rfl)
theorem E2_main_arg1 (c : Dev nD) : E2 m ρ c main_arg1 = (m ((c : Thread nD τ).loc main_arg1)) :=
  (B2_of_ne m ρ c main_arg1 (by decide)).trans ((StableHlo.after_of_writes_sub hostOps0 _ hostOps0_writes (by decide)).trans rfl)
theorem E2_main_arg23 (c : Dev nD) : E2 m ρ c main_arg23 = (m ((c : Thread nD τ).loc main_arg23)) :=
  (B2_of_ne m ρ c main_arg23 (by decide)).trans ((StableHlo.after_of_writes_sub hostOps0 _ hostOps0_writes (by decide)).trans rfl)
theorem E2_main_arg24 (c : Dev nD) : E2 m ρ c main_arg24 = (m ((c : Thread nD τ).loc main_arg24)) :=
  (B2_of_ne m ρ c main_arg24 (by decide)).trans ((StableHlo.after_of_writes_sub hostOps0 _ hostOps0_writes (by decide)).trans rfl)
theorem E2_main_v12 (c : Dev nD) : E2 m ρ c main_v12 = E1 m ρ c main_v12 := B2_of_ne m ρ c main_v12 (by decide)
theorem E2_main_v18 (c : Dev nD) : E2 m ρ c main_v18 = E1 m ρ c main_v18 := B2_of_ne m ρ c main_v18 (by decide)
theorem E2_main_v25 (c : Dev nD) : E2 m ρ c main_v25 = G0_11 (E1 m ρ) c := (B2_arr m ρ c 11).trans (final0_11 (E1 m ρ) c)
theorem E3_main_arg2 (c : Dev nD) : E3 m ρ c main_arg2 = (m ((c : Thread nD τ).loc main_arg2)) :=
  (B3_of_ne m ρ c main_arg2 (by decide)).trans ((B2_of_ne m ρ c main_arg2 (by decide)).trans ((StableHlo.after_of_writes_sub hostOps0 _ hostOps0_writes (by decide)).trans rfl))
theorem E3_main_arg25 (c : Dev nD) : E3 m ρ c main_arg25 = (m ((c : Thread nD τ).loc main_arg25)) :=
  (B3_of_ne m ρ c main_arg25 (by decide)).trans ((B2_of_ne m ρ c main_arg25 (by decide)).trans ((StableHlo.after_of_writes_sub hostOps0 _ hostOps0_writes (by decide)).trans rfl))
theorem E3_main_arg26 (c : Dev nD) : E3 m ρ c main_arg26 = (m ((c : Thread nD τ).loc main_arg26)) :=
  (B3_of_ne m ρ c main_arg26 (by decide)).trans ((B2_of_ne m ρ c main_arg26 (by decide)).trans ((StableHlo.after_of_writes_sub hostOps0 _ hostOps0_writes (by decide)).trans rfl))
theorem E3_main_v19 (c : Dev nD) : E3 m ρ c main_v19 = E1 m ρ c main_v19 :=
  (B3_of_ne m ρ c main_v19 (by decide)).trans (B2_of_ne m ρ c main_v19 (by decide))
theorem E3_main_v24 (c : Dev nD) : E3 m ρ c main_v24 = E1 m ρ c main_v24 :=
  (B3_of_ne m ρ c main_v24 (by decide)).trans (B2_of_ne m ρ c main_v24 (by decide))
theorem E3_main_v26 (c : Dev nD) : E3 m ρ c main_v26 = G1_6 (E2 m ρ) c := (B3_arr m ρ c 6).trans (final1_6 (E2 m ρ) c)

theorem B4_main_v27_2 (c : Dev nD) : B4 m ρ c (Proc.devRef .tc main_v27_2) = G2_8 (E3 m ρ) c := (B4_arr m ρ c 8).trans (final2_8 (E3 m ρ) c)
theorem B4_main_v27_1 (c : Dev nD) : B4 m ρ c (Proc.devRef .tc main_v27_1) = G2_7 (E3 m ρ) c := (B4_arr m ρ c 7).trans (final2_7 (E3 m ρ) c)
theorem B4_main_v27_0 (c : Dev nD) : B4 m ρ c (Proc.devRef .tc main_v27_0) = G2_6 (E3 m ρ) c := (B4_arr m ρ c 6).trans (final2_6 (E3 m ρ) c)

/-! ## The input side and the recurrent side of a gate's pre-activation -/

/-- The input side's layer-normed linear map of gate `g`, from the first kernel's array. -/
theorem lnx_at (c : Dev nD) (g : Fin 4) (R : Fin 4096) (q : Fin 2048) :
    (E2 m ρ c main_v25 : S4x4096x2048.Idx → EReal) (ix3 g R q)
      = Spec.ln (Spec.lin (m ((c : Thread nD τ).loc main_arg0)) (pick4 g (m ((c : Thread nD τ).loc main_arg11)) (m ((c : Thread nD τ).loc main_arg13)) (m ((c : Thread nD τ).loc main_arg15)) (m ((c : Thread nD τ).loc main_arg17)))
          (pick4 g (m ((c : Thread nD τ).loc main_arg12)) (m ((c : Thread nD τ).loc main_arg14)) (m ((c : Thread nD τ).loc main_arg16)) (m ((c : Thread nD τ).loc main_arg18))) R) (m ((c : Thread nD τ).loc main_arg21)) (m ((c : Thread nD τ).loc main_arg22)) q := by
  rw [E2_main_v25]
  show lnxG (E1 m ρ c main_arg0) (pick4 g (E1 m ρ c main_v0) (E1 m ρ c main_v1) (E1 m ρ c main_v2) (E1 m ρ c main_v3))
    (pick4 g (E1 m ρ c main_v20) (E1 m ρ c main_v21) (E1 m ρ c main_v22) (E1 m ρ c main_v23)) (E1 m ρ c main_arg21) (E1 m ρ c main_arg22) R q = _
  rw [E1_main_arg0, E1_main_arg21, E1_main_arg22, E1_main_v0, E1_main_v1, E1_main_v2, E1_main_v3]
  unfold lnxG Spec.ln Spec.lin
  refine congrArg (fun z => norm Spec.c2048 Spec.c2047 Spec.ceps z _ _ q) (funext fun j => ?_)
  match g with
  | ⟨0, _⟩ => simp only [pick4]; rw [E1_main_v20]
  | ⟨1, _⟩ => simp only [pick4]; rw [E1_main_v21]
  | ⟨2, _⟩ => simp only [pick4]; rw [E1_main_v22]
  | ⟨3, _⟩ => simp only [pick4]; rw [E1_main_v23]

/-- The recurrent side's layer-normed linear map of gate `g`, from the stacked weights and biases. -/
theorem lnh_at (c : Dev nD) (g : Fin 4) (R : Fin 4096) (q : Fin 2048) :
    preH (E2 m ρ c main_arg1) (fun j k => (E2 m ρ c main_v12 : S4x2048x2048.Idx → EReal) (ix3 g j k))
        (fun j => (E2 m ρ c main_v18 : S4x1x2048.Idx → EReal) (ix3 g (0 : Fin 1) j)) (E2 m ρ c main_arg23) (E2 m ρ c main_arg24) R q
      = Spec.ln (Spec.lin (m ((c : Thread nD τ).loc main_arg1)) (pick4 g (m ((c : Thread nD τ).loc main_arg3)) (m ((c : Thread nD τ).loc main_arg5)) (m ((c : Thread nD τ).loc main_arg7)) (m ((c : Thread nD τ).loc main_arg9)))
          (pick4 g (m ((c : Thread nD τ).loc main_arg4)) (m ((c : Thread nD τ).loc main_arg6)) (m ((c : Thread nD τ).loc main_arg8)) (m ((c : Thread nD τ).loc main_arg10))) R) (m ((c : Thread nD τ).loc main_arg23)) (m ((c : Thread nD τ).loc main_arg24)) q := by
  rw [E2_main_arg1, E2_main_arg23, E2_main_arg24, E2_main_v12, E2_main_v18]
  unfold preH Spec.ln Spec.lin
  refine congrArg (fun z => norm Spec.c2048 Spec.c2047 Spec.ceps z _ _ q) (funext fun j => ?_)
  beta_reduce
  rw [E1_main_v18]
  refine congrArg (fun t => t + _) (Finset.sum_congr rfl fun k _ => ?_)
  rw [E1_main_v12]

/-- A gate of the second kernel's array: the activation of the spec's pre-activation. -/
theorem gate_at (c : Dev nD) (g : Fin 4) (R : Fin 4096) (q : Fin 2048) :
    (E3 m ρ c main_v26 : S4x4096x2048.Idx → EReal) (ix3 g R q)
      = act g.val (Spec.pre (m ((c : Thread nD τ).loc main_arg0)) (m ((c : Thread nD τ).loc main_arg1))
          (pick4 g (m ((c : Thread nD τ).loc main_arg11)) (m ((c : Thread nD τ).loc main_arg13)) (m ((c : Thread nD τ).loc main_arg15)) (m ((c : Thread nD τ).loc main_arg17)))
          (pick4 g (m ((c : Thread nD τ).loc main_arg12)) (m ((c : Thread nD τ).loc main_arg14)) (m ((c : Thread nD τ).loc main_arg16)) (m ((c : Thread nD τ).loc main_arg18)))
          (pick4 g (m ((c : Thread nD τ).loc main_arg3)) (m ((c : Thread nD τ).loc main_arg5)) (m ((c : Thread nD τ).loc main_arg7)) (m ((c : Thread nD τ).loc main_arg9)))
          (pick4 g (m ((c : Thread nD τ).loc main_arg4)) (m ((c : Thread nD τ).loc main_arg6)) (m ((c : Thread nD τ).loc main_arg8)) (m ((c : Thread nD τ).loc main_arg10)))
          (m ((c : Thread nD τ).loc main_arg21)) (m ((c : Thread nD τ).loc main_arg22)) (m ((c : Thread nD τ).loc main_arg23)) (m ((c : Thread nD τ).loc main_arg24)) R q) := by
  rw [E3_main_v26]
  show act g.val (preH (E2 m ρ c main_arg1) (fun j k => (E2 m ρ c main_v12 : S4x2048x2048.Idx → EReal) (ix3 g j k))
        (fun j => (E2 m ρ c main_v18 : S4x1x2048.Idx → EReal) (ix3 g (0 : Fin 1) j)) (E2 m ρ c main_arg23) (E2 m ρ c main_arg24) R q
      + (E2 m ρ c main_v25 : S4x4096x2048.Idx → EReal) (ix3 g R q)) = _
  rw [lnh_at, lnx_at, add_comm]
  rfl

theorem act_0 (z : EReal) : act (0 : Fin 4).val z = Ideal.logistic z := rfl
theorem act_1 (z : EReal) : act (1 : Fin 4).val z = Ideal.logistic z := rfl
theorem act_2 (z : EReal) : act (2 : Fin 4).val z = Ideal.tanh z := rfl
theorem act_3 (z : EReal) : act (3 : Fin 4).val z = Ideal.logistic z := rfl

/-! ## The results -/

theorem k_cx_row (c : Dev nD) (R : Fin 4096) (q : Fin 2048) :
    cxG (E3 m ρ c main_v26) (E3 m ρ c main_arg2) R q = Spec.cx (paramsOf m c) (m ((c : Thread nD τ).loc main_arg0)) (m ((c : Thread nD τ).loc main_arg1)) (m ((c : Thread nD τ).loc main_arg2)) R q := by
  unfold cxG Spec.cx Spec.preF Spec.preI Spec.preC
  rw [gate_at, gate_at, gate_at, E3_main_arg2, act_0, act_1, act_2]
  rfl

theorem k_cx (c : Dev nD) (R : Fin 4096) (q : Fin 2048) :
    (B4 m ρ c (Proc.devRef .tc main_v27_2) : S4096x2048.Idx → EReal) (ix2 R q)
      = Spec.cx (paramsOf m c) (m ((c : Thread nD τ).loc main_arg0)) (m ((c : Thread nD τ).loc main_arg1)) (m ((c : Thread nD τ).loc main_arg2)) R q := by
  rw [B4_main_v27_2]
  exact k_cx_row m ρ c R q

theorem k_hx_row (c : Dev nD) (R : Fin 4096) (q : Fin 2048) :
    hxG (E3 m ρ c main_v26) (E3 m ρ c main_arg2) (E3 m ρ c main_arg25) (E3 m ρ c main_arg26) R q
      = Spec.hx (paramsOf m c) (m ((c : Thread nD τ).loc main_arg0)) (m ((c : Thread nD τ).loc main_arg1)) (m ((c : Thread nD τ).loc main_arg2)) R q := by
  unfold hxG Spec.hx Spec.preO Spec.ln
  rw [gate_at, act_3, E3_main_arg25, E3_main_arg26,
    show cxG (E3 m ρ c main_v26) (E3 m ρ c main_arg2) R = (fun k => Spec.cx (paramsOf m c) (m ((c : Thread nD τ).loc main_arg0)) (m ((c : Thread nD τ).loc main_arg1)) (m ((c : Thread nD τ).loc main_arg2)) R k)
      from funext fun k => k_cx_row m ρ c R k]
  rfl

theorem k_hx (c : Dev nD) (R : Fin 4096) (q : Fin 2048) :
    (B4 m ρ c (Proc.devRef .tc main_v27_1) : S4096x2048.Idx → EReal) (ix2 R q)
      = Spec.hx (paramsOf m c) (m ((c : Thread nD τ).loc main_arg0)) (m ((c : Thread nD τ).loc main_arg1)) (m ((c : Thread nD τ).loc main_arg2)) R q := by
  rw [B4_main_v27_1]
  exact k_hx_row m ρ c R q

theorem k_out (c : Dev nD) (R : Fin 4096) (o : Fin 1024) :
    (B4 m ρ c (Proc.devRef .tc main_v27_0) : S4096x1024.Idx → EReal) (ix2 R o)
      = Spec.out (paramsOf m c) (m ((c : Thread nD τ).loc main_arg0)) (m ((c : Thread nD τ).loc main_arg1)) (m ((c : Thread nD τ).loc main_arg2)) R o := by
  rw [B4_main_v27_0]
  show outG (E3 m ρ c main_v26) (E3 m ρ c main_arg2) (E3 m ρ c main_arg25) (E3 m ρ c main_arg26) (E3 m ρ c main_v19) (E3 m ρ c main_v24) R o = _
  unfold outG Spec.out
  rw [E3_main_v19, E3_main_v24, E1_main_v19, E1_main_v24,
    show hxG (E3 m ρ c main_v26) (E3 m ρ c main_arg2) (E3 m ρ c main_arg25) (E3 m ρ c main_arg26) R
        = (fun j => Spec.hx (paramsOf m c) (m ((c : Thread nD τ).loc main_arg0)) (m ((c : Thread nD τ).loc main_arg1)) (m ((c : Thread nD τ).loc main_arg2)) R j)
      from funext fun j => k_hx_row m ρ c R j]
  rfl

end Cert.KernelIdeal.Hand

end
-- ==== Proof.lean ====
/-
  A layer-normalised LSTM cell as three pipelined kernels against a plain host reference.

  Kernel 1 writes, for each of the four gates g (forget, input, candidate, output), the layer norm of x·W_gxᵀ + b_gx;
  kernel 2 adds to it the layer norm of h·W_ghᵀ + b_gh and applies the logistic function (tanh for the candidate);
  kernel 3 forms the new cell state c' = f·c + i·c̃, the hidden state h' = o·tanh(LN(c')) and the decoder h'·W_decᵀ + b_dec.
  The layer norm is (z − mean z) / (sqrt (Σ (z − mean z)² / (n − 1)) + ε) · a + b over a row of n = 2048 entries.
  The reference computes the same quantities on whole arrays: at the exact instance a change of float format is the identity,
  a block product into a zero accumulator is the host's product, a lane sum is the host's row sum, the host's
  standard deviation with one degree of freedom removed divides the sum of centred squares by 2048 − 1, and the host's
  expansion 1 / (1 + e^(−x)) is the logistic function. So the two sides agree entry by entry with no law beyond these.

  Each program's frame comes from its run: for the kernels, the host stretch and the three kernel regions chained, each
  region's body run at a symbolic grid point; for the reference, @main as one straight line of host operations with the
  standard-deviation function written out at its nine calls.
-/
import proofs.«112321_j35768487641178_2_alg».proof.Defs
import proofs.«112321_j35768487641178_2_alg».proof.Proof.Gen.Kernel
import proofs.«112321_j35768487641178_2_alg».proof.Proof.Gen.KernelIdeal
import proofs.«112321_j35768487641178_2_alg».proof.Proof.Gen.ReferenceIdeal
import proofs.«112321_j35768487641178_2_alg».proof.Proof.Gen.Pre_finite_inputs
import proofs.«112321_j35768487641178_2_alg».proof.Proof.KB.Run
import proofs.«112321_j35768487641178_2_alg».proof.Proof.KI.Run
import proofs.«112321_j35768487641178_2_alg».proof.Proof.Ref.Run
import proofs.«112321_j35768487641178_2_alg».proof.Proof.Ref.Value
import proofs.«112321_j35768487641178_2_alg».proof.Proof.KI.Value
import proofs.«112321_j35768487641178_2_alg».proof.Proof.Spec
import Idealize.ShloMosaic.Adequacy
import Idealize.ShloMosaic.Init

noncomputable section

namespace Cert.Proof

open Idealize.ShloMosaic Idealize.SL.Sem Idealize.ShloMosaic.TcCoe Idealize.ShloMosaic.ValueIdx

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ => Cert.ReferenceIdeal.Hand.frame m ρ

/-- The idealization rewrote nothing. -/
theorem preserves : Cert.preserves_Kernel_KernelIdeal := trivial

theorem algebraic : Cert.algebraic_KernelIdeal_ReferenceIdeal := by
  intro m ρ m' ρ' _ hagree
  refine ⟨fun c => Cert.KernelIdeal.Hand.B4 m ρ c (Proc.devRef .tc Cert.KernelIdeal.main_v27_0),
    fun c => Cert.KernelIdeal.Hand.B4 m ρ c (Proc.devRef .tc Cert.KernelIdeal.main_v27_1),
    fun c => Cert.KernelIdeal.Hand.B4 m ρ c (Proc.devRef .tc Cert.KernelIdeal.main_v27_2), ?_, ?_⟩
  · -- the kernels' run: every buffer at the last boundary's contents; the arguments are the launch's
    exact (θ_run Cert.KernelIdeal.defs _ _).mono (fun r h c =>
      ⟨h c _ (Cert.KernelIdeal.Hand.mem_uc Cert.KernelIdeal.main_v27_0 (by decide)),
       h c _ (Cert.KernelIdeal.Hand.mem_uc Cert.KernelIdeal.main_v27_1 (by decide)),
       h c _ (Cert.KernelIdeal.Hand.mem_uc Cert.KernelIdeal.main_v27_2 (by decide)),
       (h c _ (Cert.KernelIdeal.Hand.mem_uc Cert.KernelIdeal.main_arg0 (by decide))).trans (Cert.KernelIdeal.Hand.B4_main_arg0 m ρ c),
       (h c _ (Cert.KernelIdeal.Hand.mem_uc Cert.KernelIdeal.main_arg1 (by decide))).trans (Cert.KernelIdeal.Hand.B4_main_arg1 m ρ c),
       (h c _ (Cert.KernelIdeal.Hand.mem_uc Cert.KernelIdeal.main_arg2 (by decide))).trans (Cert.KernelIdeal.Hand.B4_main_arg2 m ρ c),
       (h c _ (Cert.KernelIdeal.Hand.mem_uc Cert.KernelIdeal.main_arg3 (by decide))).trans (Cert.KernelIdeal.Hand.B4_main_arg3 m ρ c),
       (h c _ (Cert.KernelIdeal.Hand.mem_uc Cert.KernelIdeal.main_arg4 (by decide))).trans (Cert.KernelIdeal.Hand.B4_main_arg4 m ρ c),
       (h c _ (Cert.KernelIdeal.Hand.mem_uc Cert.KernelIdeal.main_arg5 (by decide))).trans (Cert.KernelIdeal.Hand.B4_main_arg5 m ρ c),
       (h c _ (Cert.KernelIdeal.Hand.mem_uc Cert.KernelIdeal.main_arg6 (by decide))).trans (Cert.KernelIdeal.Hand.B4_main_arg6 m ρ c),
       (h c _ (Cert.KernelIdeal.Hand.mem_uc Cert.KernelIdeal.main_arg7 (by decide))).trans (Cert.KernelIdeal.Hand.B4_main_arg7 m ρ c),
       (h c _ (Cert.KernelIdeal.Hand.mem_uc Cert.KernelIdeal.main_arg8 (by decide))).trans (Cert.KernelIdeal.Hand.B4_main_arg8 m ρ c),
       (h c _ (Cert.KernelIdeal.Hand.mem_uc Cert.KernelIdeal.main_arg9 (by decide))).trans (Cert.KernelIdeal.Hand.B4_main_arg9 m ρ c),
       (h c _ (Cert.KernelIdeal.Hand.mem_uc Cert.KernelIdeal.main_arg10 (by decide))).trans (Cert.KernelIdeal.Hand.B4_main_arg10 m ρ c),
       (h c _ (Cert.KernelIdeal.Hand.mem_uc Cert.KernelIdeal.main_arg11 (by decide))).trans (Cert.KernelIdeal.Hand.B4_main_arg11 m ρ c),
       (h c _ (Cert.KernelIdeal.Hand.mem_uc Cert.KernelIdeal.main_arg12 (by decide))).trans (Cert.KernelIdeal.Hand.B4_main_arg12 m ρ c),
       (h c _ (Cert.KernelIdeal.Hand.mem_uc Cert.KernelIdeal.main_arg13 (by decide))).trans (Cert.KernelIdeal.Hand.B4_main_arg13 m ρ c),
       (h c _ (Cert.KernelIdeal.Hand.mem_uc Cert.KernelIdeal.main_arg14 (by decide))).trans (Cert.KernelIdeal.Hand.B4_main_arg14 m ρ c),
       (h c _ (Cert.KernelIdeal.Hand.mem_uc Cert.KernelIdeal.main_arg15 (by decide))).trans (Cert.KernelIdeal.Hand.B4_main_arg15 m ρ c),
       (h c _ (Cert.KernelIdeal.Hand.mem_uc Cert.KernelIdeal.main_arg16 (by decide))).trans (Cert.KernelIdeal.Hand.B4_main_arg16 m ρ c),
       (h c _ (Cert.KernelIdeal.Hand.mem_uc Cert.KernelIdeal.main_arg17 (by decide))).trans (Cert.KernelIdeal.Hand.B4_main_arg17 m ρ c),
       (h c _ (Cert.KernelIdeal.Hand.mem_uc Cert.KernelIdeal.main_arg18 (by decide))).trans (Cert.KernelIdeal.Hand.B4_main_arg18 m ρ c),
       (h c _ (Cert.KernelIdeal.Hand.mem_uc Cert.KernelIdeal.main_arg19 (by decide))).trans (Cert.KernelIdeal.Hand.B4_main_arg19 m ρ c),
       (h c _ (Cert.KernelIdeal.Hand.mem_uc Cert.KernelIdeal.main_arg20 (by decide))).trans (Cert.KernelIdeal.Hand.B4_main_arg20 m ρ c),
       (h c _ (Cert.KernelIdeal.Hand.mem_uc Cert.KernelIdeal.main_arg21 (by decide))).trans (Cert.KernelIdeal.Hand.B4_main_arg21 m ρ c),
       (h c _ (Cert.KernelIdeal.Hand.mem_uc Cert.KernelIdeal.main_arg22 (by decide))).trans (Cert.KernelIdeal.Hand.B4_main_arg22 m ρ c),
       (h c _ (Cert.KernelIdeal.Hand.mem_uc Cert.KernelIdeal.main_arg23 (by decide))).trans (Cert.KernelIdeal.Hand.B4_main_arg23 m ρ c),
       (h c _ (Cert.KernelIdeal.Hand.mem_uc Cert.KernelIdeal.main_arg24 (by decide))).trans (Cert.KernelIdeal.Hand.B4_main_arg24 m ρ c),
       (h c _ (Cert.KernelIdeal.Hand.mem_uc Cert.KernelIdeal.main_arg25 (by decide))).trans (Cert.KernelIdeal.Hand.B4_main_arg25 m ρ c),
       (h c _ (Cert.KernelIdeal.Hand.mem_uc Cert.KernelIdeal.main_arg26 (by decide))).trans (Cert.KernelIdeal.Hand.B4_main_arg26 m ρ c)⟩)
      (Cert.KernelIdeal.Hand.run_all m ρ)
  · -- the reference's run: each result is the cell's function of its arguments, which are the kernels'
    refine (θ_run Cert.ReferenceIdeal.defs _ _).mono (fun r h c => ?_) (Cert.ReferenceIdeal.Hand.run_main m' ρ')
    obtain ⟨h0, h1, h2, h3, h4, h5, h6, h7, h8, h9, h10, h11, h12, h13, h14, h15, h16, h17, h18, h19, h20, h21, h22, h23, h24, h25, h26⟩ := hagree c
    have hP : Cert.ReferenceIdeal.Hand.paramsOf (StableHlo.launchContents m' c) = Cert.KernelIdeal.Hand.paramsOf m c := by
      simp only [Cert.ReferenceIdeal.Hand.paramsOf, Cert.KernelIdeal.Hand.paramsOf, Spec.Params.mk.injEq]
      exact ⟨h3, h4, h5, h6, h7, h8, h9, h10, h11, h12, h13, h14, h15, h16, h17, h18, h19, h20, h21, h22, h23, h24, h25, h26⟩
    have hx : (StableHlo.launchContents m' c Cert.ReferenceIdeal.main_arg0 : Spec.Mat 4096 1024) = m ((c.tc : Thread Cert.KernelIdeal.nD Cert.KernelIdeal.τ).loc Cert.KernelIdeal.main_arg0) := h0
    have hh : (StableHlo.launchContents m' c Cert.ReferenceIdeal.main_arg1 : Spec.Mat 4096 2048) = m ((c.tc : Thread Cert.KernelIdeal.nD Cert.KernelIdeal.τ).loc Cert.KernelIdeal.main_arg1) := h1
    have hc : (StableHlo.launchContents m' c Cert.ReferenceIdeal.main_arg2 : Spec.Mat 4096 2048) = m ((c.tc : Thread Cert.KernelIdeal.nD Cert.KernelIdeal.τ).loc Cert.KernelIdeal.main_arg2) := h2
    refine ⟨(h c Cert.ReferenceIdeal.main_v207).trans ?_, (h c Cert.ReferenceIdeal.main_v202).trans ?_, (h c Cert.ReferenceIdeal.main_v138).trans ?_,
      (h c Cert.ReferenceIdeal.main_arg0).trans ((Cert.ReferenceIdeal.Hand.arg_kept _ Cert.ReferenceIdeal.main_arg0 (by decide)).trans rfl),
      (h c Cert.ReferenceIdeal.main_arg1).trans ((Cert.ReferenceIdeal.Hand.arg_kept _ Cert.ReferenceIdeal.main_arg1 (by decide)).trans rfl),
      (h c Cert.ReferenceIdeal.main_arg2).trans ((Cert.ReferenceIdeal.Hand.arg_kept _ Cert.ReferenceIdeal.main_arg2 (by decide)).trans rfl),
      (h c Cert.ReferenceIdeal.main_arg3).trans ((Cert.ReferenceIdeal.Hand.arg_kept _ Cert.ReferenceIdeal.main_arg3 (by decide)).trans rfl),
      (h c Cert.ReferenceIdeal.main_arg4).trans ((Cert.ReferenceIdeal.Hand.arg_kept _ Cert.ReferenceIdeal.main_arg4 (by decide)).trans rfl),
      (h c Cert.ReferenceIdeal.main_arg5).trans ((Cert.ReferenceIdeal.Hand.arg_kept _ Cert.ReferenceIdeal.main_arg5 (by decide)).trans rfl),
      (h c Cert.ReferenceIdeal.main_arg6).trans ((Cert.ReferenceIdeal.Hand.arg_kept _ Cert.ReferenceIdeal.main_arg6 (by decide)).trans rfl),
      (h c Cert.ReferenceIdeal.main_arg7).trans ((Cert.ReferenceIdeal.Hand.arg_kept _ Cert.ReferenceIdeal.main_arg7 (by decide)).trans rfl),
      (h c Cert.ReferenceIdeal.main_arg8).trans ((Cert.ReferenceIdeal.Hand.arg_kept _ Cert.ReferenceIdeal.main_arg8 (by decide)).trans rfl),
      (h c Cert.ReferenceIdeal.main_arg9).trans ((Cert.ReferenceIdeal.Hand.arg_kept _ Cert.ReferenceIdeal.main_arg9 (by decide)).trans rfl),
      (h c Cert.ReferenceIdeal.main_arg10).trans ((Cert.ReferenceIdeal.Hand.arg_kept _ Cert.ReferenceIdeal.main_arg10 (by decide)).trans rfl),
      (h c Cert.ReferenceIdeal.main_arg11).trans ((Cert.ReferenceIdeal.Hand.arg_kept _ Cert.ReferenceIdeal.main_arg11 (by decide)).trans rfl),
      (h c Cert.ReferenceIdeal.main_arg12).trans ((Cert.ReferenceIdeal.Hand.arg_kept _ Cert.ReferenceIdeal.main_arg12 (by decide)).trans rfl),
      (h c Cert.ReferenceIdeal.main_arg13).trans ((Cert.ReferenceIdeal.Hand.arg_kept _ Cert.ReferenceIdeal.main_arg13 (by decide)).trans rfl),
      (h c Cert.ReferenceIdeal.main_arg14).trans ((Cert.ReferenceIdeal.Hand.arg_kept _ Cert.ReferenceIdeal.main_arg14 (by decide)).trans rfl),
      (h c Cert.ReferenceIdeal.main_arg15).trans ((Cert.ReferenceIdeal.Hand.arg_kept _ Cert.ReferenceIdeal.main_arg15 (by decide)).trans rfl),
      (h c Cert.ReferenceIdeal.main_arg16).trans ((Cert.ReferenceIdeal.Hand.arg_kept _ Cert.ReferenceIdeal.main_arg16 (by decide)).trans rfl),
      (h c Cert.ReferenceIdeal.main_arg17).trans ((Cert.ReferenceIdeal.Hand.arg_kept _ Cert.ReferenceIdeal.main_arg17 (by decide)).trans rfl),
      (h c Cert.ReferenceIdeal.main_arg18).trans ((Cert.ReferenceIdeal.Hand.arg_kept _ Cert.ReferenceIdeal.main_arg18 (by decide)).trans rfl),
      (h c Cert.ReferenceIdeal.main_arg19).trans ((Cert.ReferenceIdeal.Hand.arg_kept _ Cert.ReferenceIdeal.main_arg19 (by decide)).trans rfl),
      (h c Cert.ReferenceIdeal.main_arg20).trans ((Cert.ReferenceIdeal.Hand.arg_kept _ Cert.ReferenceIdeal.main_arg20 (by decide)).trans rfl),
      (h c Cert.ReferenceIdeal.main_arg21).trans ((Cert.ReferenceIdeal.Hand.arg_kept _ Cert.ReferenceIdeal.main_arg21 (by decide)).trans rfl),
      (h c Cert.ReferenceIdeal.main_arg22).trans ((Cert.ReferenceIdeal.Hand.arg_kept _ Cert.ReferenceIdeal.main_arg22 (by decide)).trans rfl),
      (h c Cert.ReferenceIdeal.main_arg23).trans ((Cert.ReferenceIdeal.Hand.arg_kept _ Cert.ReferenceIdeal.main_arg23 (by decide)).trans rfl),
      (h c Cert.ReferenceIdeal.main_arg24).trans ((Cert.ReferenceIdeal.Hand.arg_kept _ Cert.ReferenceIdeal.main_arg24 (by decide)).trans rfl),
      (h c Cert.ReferenceIdeal.main_arg25).trans ((Cert.ReferenceIdeal.Hand.arg_kept _ Cert.ReferenceIdeal.main_arg25 (by decide)).trans rfl),
      (h c Cert.ReferenceIdeal.main_arg26).trans ((Cert.ReferenceIdeal.Hand.arg_kept _ Cert.ReferenceIdeal.main_arg26 (by decide)).trans rfl)⟩
    · funext i
      obtain ⟨R, o, rfl⟩ : ∃ (R : Fin 4096) (o : Fin 1024), i = ix2 R o := ⟨i 0, i 1, eq_ix2 i⟩
      refine (Cert.ReferenceIdeal.Hand.ref_out (StableHlo.launchContents m' c) R o).trans ?_
      rw [hP, hx, hh, hc]
      exact (Cert.KernelIdeal.Hand.k_out m ρ c R o).symm
    · funext i
      obtain ⟨R, q, rfl⟩ : ∃ (R : Fin 4096) (q : Fin 2048), i = ix2 R q := ⟨i 0, i 1, eq_ix2 i⟩
      refine (Cert.ReferenceIdeal.Hand.ref_hx (StableHlo.launchContents m' c) R q).trans ?_
      rw [hP, hx, hh, hc]
      exact (Cert.KernelIdeal.Hand.k_hx m ρ c R q).symm
    · funext i
      obtain ⟨R, q, rfl⟩ : ∃ (R : Fin 4096) (q : Fin 2048), i = ix2 R q := ⟨i 0, i 1, eq_ix2 i⟩
      refine (Cert.ReferenceIdeal.Hand.ref_cx (StableHlo.launchContents m' c) R q).trans ?_
      rw [hP, hx, hh, hc]
      exact (Cert.KernelIdeal.Hand.k_cx m ρ c R q).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
